-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S1000x128 : Shape := ⟨2, ![1000, 128]⟩
abbrev S_ : Shape := ⟨0, ![]⟩

class Facts : Prop where
  bcast_S_S1000x128 : S_.BroadcastsInDim S1000x128 (![] : Fin 0 → Fin S1000x128.rank)
  reducesTo_S1000x128_S_d0_1 : S1000x128.ReducesTo [0, 1] S_
  h_S_ : 0 < S_.numel
  bcast_S_S4096x200 : S_.BroadcastsInDim S4096x200 (![] : Fin 0 → Fin S4096x200.rank)
  reducesTo_S4096x200_S_d0_1 : S4096x200.ReducesTo [0, 1] S_

variable [Facts]

def fn_part1 {F : FTy → Type} [FloatOps F] (main_arg2 : IVec S4096x200 32) (main_v10 : IVec S_ 1) (main_v15 : IVec S4096x200 1) (main_c_5 : IVec S_ 1) : IVec S_ 1 :=
  let main_v16 : IVec S_ 1 := (fun x v => Host.reduce IntOp.andi x v reducesTo_S4096x200_S_d0_1 h_S_) main_v15 main_c_5
  let main_v17 : IVec S_ 1 := andi main_v10 main_v16
  let main_c_6 : IVec S_ 32 := constantI S_ 32 0#32
  let main_v18 : IVec S4096x200 32 := broadcastInDim S4096x200 ![] bcast_S_S4096x200 main_c_6
  let main_v19 : IVec S4096x200 1 := cmpi .sge main_arg2 main_v18
  let main_c_7 : IVec S_ 32 := constantI S_ 32 3#32
  let main_v20 : IVec S4096x200 32 := broadcastInDim S4096x200 ![] bcast_S_S4096x200 main_c_7
  let main_v21 : IVec S4096x200 1 := cmpi .sle main_arg2 main_v20
  let main_v22 : IVec S4096x200 1 := andi main_v19 main_v21
  let main_c_8 : IVec S_ 1 := constantI S_ 1 1#1
  let main_v23 : IVec S_ 1 := (fun x v => Host.reduce IntOp.andi x v reducesTo_S4096x200_S_d0_1 h_S_) main_v22 main_c_8
  let main_v24 : IVec S_ 1 := andi main_v17 main_v23
  main_v24

def fn {F : FTy → Type} [FloatOps F] (main_arg0 : IVec S4096x200 32) (main_arg1 : IVec S4096x200 32) (main_arg2 : IVec S4096x200 32) (main_arg3 : FVec F S1000x128 .f32) : IVec S_ 1 :=
  let main_v0 : FVec F S1000x128 .f32 := Host.absf main_arg3
  let main_cst : FVec F S_ .f32 := constant S_ .f32 0x7F800000#32
  let main_v1 : FVec F S1000x128 .f32 := broadcastInDim S1000x128 ![] bcast_S_S1000x128 main_cst
  let main_v2 : IVec S1000x128 1 := cmpf .olt main_v0 main_v1
  let main_c : IVec S_ 1 := constantI S_ 1 1#1
  let main_v3 : IVec S_ 1 := (fun x v => Host.reduce IntOp.andi x v reducesTo_S1000x128_S_d0_1 h_S_) main_v2 main_c
  let main_c_0 : IVec S_ 32 := constantI S_ 32 0#32
  let main_v4 : IVec S4096x200 32 := broadcastInDim S4096x200 ![] bcast_S_S4096x200 main_c_0
  let main_v5 : IVec S4096x200 1 := cmpi .sge main_arg0 main_v4
  let main_c_1 : IVec S_ 32 := constantI S_ 32 999#32
  let main_v6 : IVec S4096x200 32 := broadcastInDim S4096x200 ![] bcast_S_S4096x200 main_c_1
  let main_v7 : IVec S4096x200 1 := cmpi .sle main_arg0 main_v6
  let main_v8 : IVec S4096x200 1 := andi main_v5 main_v7
  let main_c_2 : IVec S_ 1 := constantI S_ 1 1#1
  let main_v9 : IVec S_ 1 := (fun x v => Host.reduce IntOp.andi x v reducesTo_S4096x200_S_d0_1 h_S_) main_v8 main_c_2
  let main_v10 : IVec S_ 1 := andi main_v3 main_v9
  let main_c_3 : IVec S_ 32 := constantI S_ 32 0#32
  let main_v11 : IVec S4096x200 32 := broadcastInDim S4096x200 ![] bcast_S_S4096x200 main_c_3
  let main_v12 : IVec S4096x200 1 := cmpi .sge main_arg1 main_v11
  let main_c_4 : IVec S_ 32 := constantI S_ 32 999#32
  let main_v13 : IVec S4096x200 32 := broadcastInDim S4096x200 ![] bcast_S_S4096x200 main_c_4
  let main_v14 : IVec S4096x200 1 := cmpi .sle main_arg1 main_v13
  let main_v15 : IVec S4096x200 1 := andi main_v12 main_v14
  let main_c_5 : IVec S_ 1 := constantI S_ 1 1#1
  fn_part1 (F := F) main_arg2 main_v10 main_v15 main_c_5
-- ==== Kernel.lean ====
abbrev S4096x200 : Shape := ⟨2, ![4096, 200]⟩
abbrev S1000x128 : Shape := ⟨2, ![1000, 128]⟩
abbrev S6400x128 : Shape := ⟨2, ![6400, 128]⟩
abbrev S819200x128 : Shape := ⟨2, ![819200, 128]⟩
abbrev S6x128 : Shape := ⟨2, ![6, 128]⟩
abbrev S768x128 : Shape := ⟨2, ![768, 128]⟩
abbrev S_ : Shape := ⟨0, ![]⟩
abbrev S2x128 : Shape := ⟨2, ![2, 128]⟩
abbrev S128x128 : Shape := ⟨2, ![128, 128]⟩
abbrev S1x128 : Shape := ⟨2, ![1, 128]⟩
abbrev S128 : Shape := ⟨1, ![128]⟩
abbrev S4096x200x128 : Shape := ⟨3, ![4096, 200, 128]⟩

abbrev nBuf : Table → Nat
  | .hbm => 7
  | .shared => 1
  | .local .scVector .vmem => 2
  | _ => 0

abbrev bufTy : (tb : Table) → Fin (nBuf tb) → BufTy
  | .hbm, ⟨0, _⟩ => ⟨S4096x200, .i32⟩
  | .hbm, ⟨1, _⟩ => ⟨S4096x200, .i32⟩
  | .hbm, ⟨2, _⟩ => ⟨S4096x200, .i32⟩
  | .hbm, ⟨3, _⟩ => ⟨S1000x128, .f32⟩
  | .hbm, ⟨4, _⟩ => ⟨S6400x128, .i32⟩
  | .hbm, ⟨5, _⟩ => ⟨S819200x128, .f32⟩
  | .hbm, ⟨6, _⟩ => ⟨S4096x200x128, .f32⟩
  | .shared, ⟨0, _⟩ => ⟨S1000x128, .f32⟩
  | .local .scVector .vmem, ⟨0, _⟩ => ⟨S6x128, .i32⟩
  | .local .scVector .vmem, ⟨1, _⟩ => ⟨S768x128, .f32⟩
  | _, _ => ⟨S4096x200, .i32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | _ => false

abbrev sig : RefSig :=
  ofTables nBuf rfl bufTy 5 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_arg3_scv : Ref sig .scVector := ⟨.hbm, 3, rfl⟩
abbrev main_v0_scv : Ref sig .scVector := ⟨.hbm, 4, rfl⟩
abbrev main_v1_scv : Ref sig .scVector := ⟨.hbm, 5, rfl⟩
abbrev cc0_scratch0 : Ref sig .scVector := ⟨.shared, 0, rfl⟩
abbrev cc0_scratch1 : Ref sig .scVector := ⟨.vmem, 0, rfl⟩
abbrev cc0_scratch2 : Ref sig .scVector := ⟨.vmem, 1, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) (c0_i32_1 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v2 : BitVec 32 := Scalar.muli v1 c200_i32
  let v7 : BitVec 32 := Scalar.addi v2 c0_i32_1
  let c0_i32_4 : BitVec 32 := 0#32
  ![v7.toNat, 0]
@[reducible] def k0_t1_loop : Scf.Loop 32 :=
  let c0_i32_22 : BitVec 32 := 0#32
  let c33_i32 : BitVec 32 := 33#32
  let v22 : BitVec 32 := Scalar.addi c0_i32_22 c33_i32
  let c1_i32 : BitVec 32 := 1#32
  ⟨c0_i32_22, v22, c1_i32⟩
def k0_cond2 (k0_t1 : Fin k0_t1_loop.trips) : BitVec 1 :=
  let c0_i32_22 : BitVec 32 := 0#32
  let c1_i32 : BitVec 32 := 1#32
  let arg23 : BitVec 32 := Scf.iv c0_i32_22 c1_i32 k0_t1
  let c0_i32_118 : BitVec 32 := 0#32
  let v89 : BitVec 1 := Scalar.cmpi .sgt arg23 c0_i32_118
  let v90 : BitVec 32 := Scalar.extui v89
  let c0_i32_119 : BitVec 32 := 0#32
  let v91 : BitVec 1 := Scalar.cmpi .ne v90 c0_i32_119
  v91

def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v2 : BitVec 32 := Scalar.muli v1 c200_i32
  let c128_i32 : BitVec 32 := 128#32
  let v3 : BitVec 32 := Scalar.muli v2 c128_i32
  let c0_i32_285 : BitVec 32 := 0#32
  ![v3.toNat, 0]
def k0_cond3 (k0_t1 : Fin k0_t1_loop.trips) : BitVec 1 :=
  let c0_i32_22 : BitVec 32 := 0#32
  let c1_i32 : BitVec 32 := 1#32
  let arg23 : BitVec 32 := Scf.iv c0_i32_22 c1_i32 k0_t1
  let c0_i32_142 : BitVec 32 := 0#32
  let v106 : BitVec 1 := Scalar.cmpi .sgt arg23 c0_i32_142
  let v107 : BitVec 32 := Scalar.extui v106
  let c0_i32_143 : BitVec 32 := 0#32
  let v108 : BitVec 1 := Scalar.cmpi .ne v107 c0_i32_143
  v108

def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v2 : BitVec 32 := Scalar.muli v1 c200_i32
  let c128_i32 : BitVec 32 := 128#32
  let v3 : BitVec 32 := Scalar.muli v2 c128_i32
  let c0_i32_285 : BitVec 32 := 0#32
  ![v3.toNat, 0]
def k0_cond4 (k0_t1 : Fin k0_t1_loop.trips) : BitVec 1 :=
  let c0_i32_22 : BitVec 32 := 0#32
  let c1_i32 : BitVec 32 := 1#32
  let arg23 : BitVec 32 := Scf.iv c0_i32_22 c1_i32 k0_t1
  let c0_i32_165 : BitVec 32 := 0#32
  let v123 : BitVec 1 := Scalar.cmpi .sgt arg23 c0_i32_165
  let v124 : BitVec 32 := Scalar.extui v123
  let c0_i32_166 : BitVec 32 := 0#32
  let v125 : BitVec 1 := Scalar.cmpi .ne v124 c0_i32_166
  v125

def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v2 : BitVec 32 := Scalar.muli v1 c200_i32
  let c128_i32 : BitVec 32 := 128#32
  let v3 : BitVec 32 := Scalar.muli v2 c128_i32
  let c0_i32_285 : BitVec 32 := 0#32
  ![v3.toNat, 0]
def k0_off5 (i : grid0.Coords) (k0_t1 : Fin k0_t1_loop.trips) (c0_i32_186 : BitVec 32) (c0_i32_200 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v2 : BitVec 32 := Scalar.muli v1 c200_i32
  let c128_i32 : BitVec 32 := 128#32
  let v3 : BitVec 32 := Scalar.muli v2 c128_i32
  let c0_i32_22 : BitVec 32 := 0#32
  let c1_i32 : BitVec 32 := 1#32
  let arg23 : BitVec 32 := Scf.iv c0_i32_22 c1_i32 k0_t1
  let c3_i32_185 : BitVec 32 := 3#32
  let v138 : BitVec 32 := Scalar.muli arg23 c3_i32_185
  let v139 : BitVec 32 := Scalar.addi v138 c0_i32_186
  let c256_i32_199 : BitVec 32 := 256#32
  let v148 : BitVec 32 := Scalar.muli v139 c256_i32_199
  let v149 : BitVec 32 := Scalar.addi v3 v148
  let v150 : BitVec 32 := Scalar.addi v149 c0_i32_200
  let c0_i32_203 : BitVec 32 := 0#32
  ![v150.toNat, 0]
def k0_cond5 (k0_t1 : Fin k0_t1_loop.trips) : BitVec 1 :=
  let c0_i32_22 : BitVec 32 := 0#32
  let c1_i32 : BitVec 32 := 1#32
  let arg23 : BitVec 32 := Scf.iv c0_i32_22 c1_i32 k0_t1
  let c3_i32_185 : BitVec 32 := 3#32
  let v138 : BitVec 32 := Scalar.muli arg23 c3_i32_185
  let c0_i32_186 : BitVec 32 := 0#32
  let v139 : BitVec 32 := Scalar.addi v138 c0_i32_186
  let c3_i32_215 : BitVec 32 := 3#32
  let v162 : BitVec 32 := Scalar.addi v139 c3_i32_215
  let c100_i32 : BitVec 32 := 100#32
  let v163 : BitVec 1 := Scalar.cmpi .slt v162 c100_i32
  let v164 : BitVec 32 := Scalar.extui v163
  let c0_i32_216 : BitVec 32 := 0#32
  let v165 : BitVec 1 := Scalar.cmpi .ne v164 c0_i32_216
  v165

def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v2 : BitVec 32 := Scalar.muli v1 c200_i32
  let c0_i32_22 : BitVec 32 := 0#32
  let c1_i32 : BitVec 32 := 1#32
  let arg23 : BitVec 32 := Scf.iv c0_i32_22 c1_i32 k0_t1
  let c3_i32_185 : BitVec 32 := 3#32
  let v138 : BitVec 32 := Scalar.muli arg23 c3_i32_185
  let c0_i32_186 : BitVec 32 := 0#32
  let v139 : BitVec 32 := Scalar.addi v138 c0_i32_186
  let c3_i32_283 : BitVec 32 := 3#32
  let v222 : BitVec 32 := Scalar.addi v139 c3_i32_283
  let c2_i32_284 : BitVec 32 := 2#32
  let v223 : BitVec 32 := Scalar.muli v222 c2_i32_284
  let v224 : BitVec 32 := Scalar.addi v2 v223
  let c0_i32_287 : BitVec 32 := 0#32
  ![v224.toNat, 0]
def k0_cond6 (k0_t1 : Fin k0_t1_loop.trips) : BitVec 1 :=
  let c0_i32_22 : BitVec 32 := 0#32
  let c1_i32 : BitVec 32 := 1#32
  let arg23 : BitVec 32 := Scf.iv c0_i32_22 c1_i32 k0_t1
  let c3_i32_217 : BitVec 32 := 3#32
  let v166 : BitVec 32 := Scalar.muli arg23 c3_i32_217
  let c1_i32_218 : BitVec 32 := 1#32
  let v167 : BitVec 32 := Scalar.addi v166 c1_i32_218
  let c3_i32_247 : BitVec 32 := 3#32
  let v190 : BitVec 32 := Scalar.addi v167 c3_i32_247
  let c100_i32_248 : BitVec 32 := 100#32
  let v191 : BitVec 1 := Scalar.cmpi .slt v190 c100_i32_248
  let v192 : BitVec 32 := Scalar.extui v191
  let c0_i32_249 : BitVec 32 := 0#32
  let v193 : BitVec 1 := Scalar.cmpi .ne v192 c0_i32_249
  v193

def k0_off7 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v2 : BitVec 32 := Scalar.muli v1 c200_i32
  let c0_i32_22 : BitVec 32 := 0#32
  let c1_i32 : BitVec 32 := 1#32
  let arg23 : BitVec 32 := Scf.iv c0_i32_22 c1_i32 k0_t1
  let c3_i32_217 : BitVec 32 := 3#32
  let v166 : BitVec 32 := Scalar.muli arg23 c3_i32_217
  let c1_i32_218 : BitVec 32 := 1#32
  let v167 : BitVec 32 := Scalar.addi v166 c1_i32_218
  let c3_i32_283 : BitVec 32 := 3#32
  let v222 : BitVec 32 := Scalar.addi v167 c3_i32_283
  let c2_i32_284 : BitVec 32 := 2#32
  let v223 : BitVec 32 := Scalar.muli v222 c2_i32_284
  let v224 : BitVec 32 := Scalar.addi v2 v223
  let c0_i32_287 : BitVec 32 := 0#32
  ![v224.toNat, 0]
def k0_cond7 (k0_t1 : Fin k0_t1_loop.trips) : BitVec 1 :=
  let c0_i32_22 : BitVec 32 := 0#32
  let c1_i32 : BitVec 32 := 1#32
  let arg23 : BitVec 32 := Scf.iv c0_i32_22 c1_i32 k0_t1
  let c3_i32_250 : BitVec 32 := 3#32
  let v194 : BitVec 32 := Scalar.muli arg23 c3_i32_250
  let c2_i32_251 : BitVec 32 := 2#32
  let v195 : BitVec 32 := Scalar.addi v194 c2_i32_251
  let c3_i32_280 : BitVec 32 := 3#32
  let v218 : BitVec 32 := Scalar.addi v195 c3_i32_280
  let c100_i32_281 : BitVec 32 := 100#32
  let v219 : BitVec 1 := Scalar.cmpi .slt v218 c100_i32_281
  let v220 : BitVec 32 := Scalar.extui v219
  let c0_i32_282 : BitVec 32 := 0#32
  let v221 : BitVec 1 := Scalar.cmpi .ne v220 c0_i32_282
  v221

def k0_off8 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v2 : BitVec 32 := Scalar.muli v1 c200_i32
  let c0_i32_22 : BitVec 32 := 0#32
  let c1_i32 : BitVec 32 := 1#32
  let arg23 : BitVec 32 := Scf.iv c0_i32_22 c1_i32 k0_t1
  let c3_i32_250 : BitVec 32 := 3#32
  let v194 : BitVec 32 := Scalar.muli arg23 c3_i32_250
  let c2_i32_251 : BitVec 32 := 2#32
  let v195 : BitVec 32 := Scalar.addi v194 c2_i32_251
  let c3_i32_283 : BitVec 32 := 3#32
  let v222 : BitVec 32 := Scalar.addi v195 c3_i32_283
  let c2_i32_284 : BitVec 32 := 2#32
  let v223 : BitVec 32 := Scalar.muli v222 c2_i32_284
  let v224 : BitVec 32 := Scalar.addi v2 v223
  let c0_i32_287 : BitVec 32 := 0#32
  ![v224.toNat, 0]
def k0_off9 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v2 : BitVec 32 := Scalar.muli v1 c200_i32
  let c128_i32 : BitVec 32 := 128#32
  let v3 : BitVec 32 := Scalar.muli v2 c128_i32
  let c0_i32_26 : BitVec 32 := 0#32
  ![v3.toNat, 0]
def k0_off10 (i : grid0.Coords) (c0_i32_68 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v2 : BitVec 32 := Scalar.muli v1 c200_i32
  let c128_i32 : BitVec 32 := 128#32
  let v3 : BitVec 32 := Scalar.muli v2 c128_i32
  let c25344_i32 : BitVec 32 := 25344#32
  let v51 : BitVec 32 := Scalar.addi v3 c25344_i32
  let v52 : BitVec 32 := Scalar.addi v51 c0_i32_68
  let c0_i32_71 : BitVec 32 := 0#32
  ![v52.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x200_S6400x128 : S4096x200.ShapeCasts S6400x128
  inb_S6x128_S2x128_0_0 : ∀ a, (![0, 0] : Fin 2 → Nat) a + S2x128.size a ≤ S6x128.size a
  inb_S6x128_S2x128_2_0 : ∀ a, (![2, 0] : Fin 2 → Nat) a + S2x128.size a ≤ S6x128.size a
  inb_S6x128_S2x128_4_0 : ∀ a, (![4, 0] : Fin 2 → Nat) a + S2x128.size a ≤ S6x128.size a
  inb_S768x128_S128x128_0_0 : ∀ a, (![0, 0] : Fin 2 → Nat) a + S128x128.size a ≤ S768x128.size a
  inb_S6400x128_S2x128_0_0 : ∀ a, (![0, 0] : Fin 2 → Nat) a + S2x128.size a ≤ S6400x128.size a
  inb_S6x128_S1x128_0_0 : ∀ a, (![0, 0] : Fin 2 → Nat) a + S1x128.size a ≤ S6x128.size a
  squeezes_S1x128_S128 : S1x128.Squeezes S128
  inb_S1000x128_S1000x128_0_0 : ∀ a, (![0, 0] : Fin 2 → Nat) a + S1000x128.size a ≤ S1000x128.size a
  gathers_S1000x128_S128x128 : S1000x128.Gathers 0 S128x128
  inb_S768x128_S128x128_128_0 : ∀ a, (![128, 0] : Fin 2 → Nat) a + S128x128.size a ≤ S768x128.size a
  inb_S6x128_S1x128_1_0 : ∀ a, (![1, 0] : Fin 2 → Nat) a + S1x128.size a ≤ S6x128.size a
  inb_S768x128_S128x128_256_0 : ∀ a, (![256, 0] : Fin 2 → Nat) a + S128x128.size a ≤ S768x128.size a
  inb_S6x128_S1x128_2_0 : ∀ a, (![2, 0] : Fin 2 → Nat) a + S1x128.size a ≤ S6x128.size a
  inb_S768x128_S128x128_384_0 : ∀ a, (![384, 0] : Fin 2 → Nat) a + S128x128.size a ≤ S768x128.size a
  inb_S6x128_S1x128_3_0 : ∀ a, (![3, 0] : Fin 2 → Nat) a + S1x128.size a ≤ S6x128.size a
  inb_S768x128_S128x128_512_0 : ∀ a, (![512, 0] : Fin 2 → Nat) a + S128x128.size a ≤ S768x128.size a
  inb_S6x128_S1x128_4_0 : ∀ a, (![4, 0] : Fin 2 → Nat) a + S1x128.size a ≤ S6x128.size a
  inb_S768x128_S128x128_640_0 : ∀ a, (![640, 0] : Fin 2 → Nat) a + S128x128.size a ≤ S768x128.size a
  inb_S6x128_S1x128_5_0 : ∀ a, (![5, 0] : Fin 2 → Nat) a + S1x128.size a ≤ S6x128.size a
  shapeCasts_S819200x128_S4096x200x128 : S819200x128.ShapeCasts S4096x200x128
  hcc0_scratch3 : 0 + S_.numel ≤ 16
  hcc0_scratch4 : 1 + S_.numel ≤ 16
  hcc0_scratch5 : 2 + S_.numel ≤ 16
  hcc0_scratch6 : 3 + S_.numel ≤ 16
  hcc0_scratch7 : 4 + S_.numel ≤ 16
  hcc0_scratch8 : 5 + S_.numel ≤ 16
  hcc0_scratch9 : 6 + S_.numel ≤ 16
  hcc0_scratch10 : 7 + S_.numel ≤ 16
  hcc0_scratch11 : 8 + S_.numel ≤ 16
  hcc0_scratch12 : 9 + S_.numel ≤ 16
  hcc0_scratch13 : 10 + S_.numel ≤ 16
  hcc0_scratch14 : 11 + S_.numel ≤ 16
  hcc0_scratch15 : 12 + S_.numel ≤ 16
  hcc0_scratch16 : 13 + S_.numel ≤ 16
  hcc0_scratch17 : 14 + S_.numel ≤ 16
  hcc0_scoped0 : 15 + S_.numel ≤ 16
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 3), ∀ a, (k0_off1 i (BitVec.ofNat 32 (2 * r.val))) a + S2x128.size a ≤ S6400x128.size a
  k0_t1_ok : k0_t1_loop.OK
  k0_off2_inb : ∀ (i : grid0.Coords) (k0_t1 : Fin k0_t1_loop.trips), ∀ (k0_h2 : k0_cond2 k0_t1 = 1#1), ∀ a, (k0_off2 i) a + S128x128.size a ≤ S819200x128.size a
  k0_off3_inb : ∀ (i : grid0.Coords) (k0_t1 : Fin k0_t1_loop.trips), ∀ (k0_h3 : k0_cond3 k0_t1 = 1#1), ∀ a, (k0_off3 i) a + S128x128.size a ≤ S819200x128.size a
  k0_off4_inb : ∀ (i : grid0.Coords) (k0_t1 : Fin k0_t1_loop.trips), ∀ (k0_h4 : k0_cond4 k0_t1 = 1#1), ∀ a, (k0_off4 i) a + S128x128.size a ≤ S819200x128.size a
  k0_off5_inb : ∀ (i : grid0.Coords) (k0_t1 : Fin k0_t1_loop.trips), ∀ (r₁ : Fin 3) (r₂ : Fin 2), ∀ a, (k0_off5 i k0_t1 (BitVec.ofNat 32 r₁.val) (BitVec.ofNat 32 (128 * r₂.val))) a + S128x128.size a ≤ S819200x128.size a
  k0_off6_inb : ∀ (i : grid0.Coords) (k0_t1 : Fin k0_t1_loop.trips), ∀ (k0_h5 : k0_cond5 k0_t1 = 1#1), ∀ a, (k0_off6 i k0_t1) a + S2x128.size a ≤ S6400x128.size a
  k0_off7_inb : ∀ (i : grid0.Coords) (k0_t1 : Fin k0_t1_loop.trips), ∀ (k0_h6 : k0_cond6 k0_t1 = 1#1), ∀ a, (k0_off7 i k0_t1) a + S2x128.size a ≤ S6400x128.size a
  k0_off8_inb : ∀ (i : grid0.Coords) (k0_t1 : Fin k0_t1_loop.trips), ∀ (k0_h7 : k0_cond7 k0_t1 = 1#1), ∀ a, (k0_off8 i k0_t1) a + S2x128.size a ≤ S6400x128.size a
  k0_off9_inb : ∀ i : grid0.Coords, ∀ a, (k0_off9 i) a + S128x128.size a ≤ S819200x128.size a
  k0_off10_inb : ∀ i : grid0.Coords, ∀ (r : Fin 2), ∀ a, (k0_off10 i (BitVec.ofNat 32 (128 * r.val))) a + S128x128.size a ≤ S819200x128.size a

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5
abbrev cc0_scratch6 : DmaSems sig S_ := SemArray.consecutive 3 S_ hcc0_scratch6
abbrev cc0_scratch7 : DmaSems sig S_ := SemArray.consecutive 4 S_ hcc0_scratch7
abbrev cc0_scratch8 : DmaSems sig S_ := SemArray.consecutive 5 S_ hcc0_scratch8
abbrev cc0_scratch9 : DmaSems sig S_ := SemArray.consecutive 6 S_ hcc0_scratch9
abbrev cc0_scratch10 : DmaSems sig S_ := SemArray.consecutive 7 S_ hcc0_scratch10
abbrev cc0_scratch11 : DmaSems sig S_ := SemArray.consecutive 8 S_ hcc0_scratch11
abbrev cc0_scratch12 : DmaSems sig S_ := SemArray.consecutive 9 S_ hcc0_scratch12
abbrev cc0_scratch13 : DmaSems sig S_ := SemArray.consecutive 10 S_ hcc0_scratch13
abbrev cc0_scratch14 : DmaSems sig S_ := SemArray.consecutive 11 S_ hcc0_scratch14
abbrev cc0_scratch15 : DmaSems sig S_ := SemArray.consecutive 12 S_ hcc0_scratch15
abbrev cc0_scratch16 : DmaSems sig S_ := SemArray.consecutive 13 S_ hcc0_scratch16
abbrev cc0_scratch17 : DmaSems sig S_ := SemArray.consecutive 14 S_ hcc0_scratch17
abbrev cc0_scoped0 : DmaSems sig S_ := SemArray.consecutive 15 S_ hcc0_scoped0

class Facts : Prop extends Facts₀ where

variable [Facts]
-- ==== ReferenceIdeal.lean ====
abbrev S4096x200 : Shape := ⟨2, ![4096, 200]⟩
abbrev S1000x128 : Shape := ⟨2, ![1000, 128]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x128 : Shape := ⟨3, ![4096, 200, 128]⟩

abbrev nBuf : Space → Nat
  | .hbm => 27
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S4096x200, .i32⟩
  | .hbm, ⟨2, _⟩ => ⟨S4096x200, .i32⟩
  | .hbm, ⟨3, _⟩ => ⟨S1000x128, .f32⟩
  | .hbm, ⟨4, _⟩ => ⟨S_, .i32⟩
  | .hbm, ⟨5, _⟩ => ⟨S4096x200, .i32⟩
  | .hbm, ⟨6, _⟩ => ⟨S4096x200, .i1⟩
  | .hbm, ⟨7, _⟩ => ⟨S_, .i32⟩
  | .hbm, ⟨8, _⟩ => ⟨S4096x200, .i32⟩
  | .hbm, ⟨9, _⟩ => ⟨S4096x200, .i32⟩
  | .hbm, ⟨10, _⟩ => ⟨S4096x200, .i32⟩
  | .hbm, ⟨11, _⟩ => ⟨S4096x200x1, .i32⟩
  | .hbm, ⟨12, _⟩ => ⟨S1, .i32⟩
  | .hbm, ⟨13, _⟩ => ⟨S_, .i32⟩
  | .hbm, ⟨14, _⟩ => ⟨S4096x200x1, .i32⟩
  | .hbm, ⟨15, _⟩ => ⟨S4096x200x1, .i1⟩
  | .hbm, ⟨16, _⟩ => ⟨S1x1x1, .i32⟩
  | .hbm, ⟨17, _⟩ => ⟨S4096x200x1, .i32⟩
  | .hbm, ⟨18, _⟩ => ⟨S4096x200x1, .i1⟩
  | .hbm, ⟨19, _⟩ => ⟨S4096x200x1, .i1⟩
  | .hbm, ⟨20, _⟩ => ⟨S_, .i1⟩
  | .hbm, ⟨21, _⟩ => ⟨S4096x200, .i1⟩
  | .hbm, ⟨22, _⟩ => ⟨S4096x200x128, .f32⟩
  | .hbm, ⟨23, _⟩ => ⟨S4096x200x128, .i1⟩
  | .hbm, ⟨24, _⟩ => ⟨S_, .f32⟩
  | .hbm, ⟨25, _⟩ => ⟨S4096x200x128, .f32⟩
  | .hbm, ⟨26, _⟩ => ⟨S4096x200x128, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x128_0_1 : S4096x200.BroadcastsInDim S4096x200x128 (![0, 1] : Fin 2 → Fin S4096x200x128.rank)
  bcast_S_S4096x200x128 : S_.BroadcastsInDim S4096x200x128 (![] : Fin 0 → Fin S4096x200x128.rank)
  gather_S1000x128_S4096x200x1_S4096x200x128_2_0_n_n_0_2_1128_wf : GatherDims.WF S1000x128 S4096x200x1 S4096x200x128 [2] [0] [] [0] [] 2 ![1, 128]

variable [Facts₀]

def gather_S1000x128_S4096x200x1_S4096x200x128_2_0_n_n_0_2_1128 : GatherDims S1000x128 S4096x200x1 S4096x200x128 where
  offsetDims := [2]
  collapsedSliceDims := [0]
  operandBatchingDims := []
  startIndicesBatchingDims := []
  startIndexMap := [0]
  indexVectorDim := 2
  sliceSizes := ![1, 128]
  wf := gather_S1000x128_S4096x200x1_S4096x200x128_2_0_n_n_0_2_1128_wf

class Facts : Prop extends Facts₀ where

variable [Facts]
-- ==== Proof.Spec.lean ====
/-
  The function both programs compute: an embedding lookup. Entry (b, s, d) of the result is entry d of the
  table's row named by the index word ids[b, s]; the word is read as a signed integer and clamped into the
  table's rows [0, 999], so the function is total; on words already in that range the clamp is the identity
  and the row is the word's own value.
-/
import Idealize.ShloMosaic.PureOps
import Idealize.ShloMosaic.Lib.ValueIdx

namespace Cert.Spec

open Idealize.ShloMosaic Idealize.ShloMosaic.ValueIdx

/-- The table row a 32-bit index word names: the word read signed, clamped into [0, 999]. -/
def rowOf (w : BitVec 32) : Fin 1000 := ⟨min w.toInt.toNat 999, by omega⟩

/-- The lookup: the result at (b, s, d) is the table at (rowOf ids[b, s], d). -/
def lookup {α : Type} (ids : IVec ⟨2, ![4096, 200]⟩ 32) (tab : (⟨2, ![1000, 128]⟩ : Shape).Idx → α) :
    (⟨3, ![4096, 200, 128]⟩ : Shape).Idx → α :=
  fun j => tab (ix2 (rowOf (ids (ix2 (n0 := 4096) (n1 := 200) (j 0) (j 1)))) (j 2))

/-- A word whose signed reading lies in [0, 999] names the row of its own unsigned value. -/
theorem rowOf_val_of_range (w : BitVec 32) (h0 : 0 ≤ w.toInt) (h1 : w.toInt ≤ 999) : (rowOf w).val = w.toNat := by
  have h2 : w.toInt = (w.toNat : Int) := by
    rcases BitVec.toInt_eq_toNat_cond w with h
    rw [h] at h0 h1 ⊢
    split <;> rename_i hlt
    · rfl
    · exfalso; rw [if_neg hlt] at h0; have := w.isLt; omega
  show min w.toInt.toNat 999 = w.toNat
  rw [h2] at h1 ⊢
  simp only [Int.toNat_natCast]
  omega

/-- Such a word's unsigned value is below the table's 1000 rows. -/
theorem toNat_lt_of_range (w : BitVec 32) (h0 : 0 ≤ w.toInt) (h1 : w.toInt ≤ 999) : w.toNat < 1000 := by
  have := rowOf_val_of_range w h0 h1
  have := (rowOf w).isLt
  omega

end Cert.Spec
-- ==== Proof.LibTileDeal.lean ====
/-
  An array dealt to the thirty-two tiles of two SparseCores, and a read-only array's share dealt likewise.

  Two SparseCores of sixteen tiles each work on an array side by side. Where every tile has its own part —
  the array cut into thirty-two equal parts along one axis, tile i of SparseCore c taking part number 2 i + c —
  a points-to of the whole array is the separating product of the thirty-two parts', at any one contents; read
  back at other contents it is how the tiles' results, each the restriction of ONE whole-array function, join
  into the array at that function. Where every tile may read all of the array, a share q of it is dealt as a
  read token per SparseCore, each dealt again as a read token per tile; what is left over at either level stays
  with whoever dealt.
-/
import Idealize.ShloMosaic.Lib.Transfers

noncomputable section

namespace Idealize.ShloMosaic.Transfers

open Idealize.SL
open Idealize.SL.BI (sProp bigSep bigSep_congr bigSep_univ_prod)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

/-- Tile `i` of SparseCore `c` is number `2 i + c` of the thirty-two. -/
def tileNo (c : Fin 2) (i : Fin 16) : Fin 32 := ⟨2 * i.val + c.val, by omega⟩

theorem tileNo_val (c : Fin 2) (i : Fin 16) : (tileNo c i).val = 2 * i.val + c.val := rfl

theorem tileNo_inj {c c' : Fin 2} {i i' : Fin 16} (h : tileNo c i = tileNo c' i') : c = c' ∧ i = i' := by
  have := congrArg Fin.val h
  simp only [tileNo_val] at this
  exact ⟨Fin.ext (by omega), Fin.ext (by omega)⟩

theorem tileNo_surj (k : Fin 32) : ∃ c i, tileNo c i = k :=
  ⟨⟨k.val % 2, Nat.mod_lt _ (by omega)⟩, ⟨k.val / 2, by omega⟩, Fin.ext (by simp only [tileNo_val]; omega)⟩

section Deal

variable {ℓ : Loc nD τ sig} {q : PosShare TreeShare}

/-- An array whose elements are dealt to the tiles, a set of them to each, pairwise disjoint and covering it: its
    points-to at contents `f` is the tiles' points-tos, each on its set at `f`. -/
theorem pointsTo_tiles (A : Fin 2 → Fin 16 → Finset (Idx ℓ))
    (hdisj : ∀ c i c' i', (c, i) ≠ (c', i') → Disjoint (A c i) (A c' i'))
    (hcov : ∀ x : Idx ℓ, ∃ c i, x ∈ A c i) (f : Buf Val ℓ) :
    (ℓ ↦{q} f : sProp 𝕄) = bigSep Finset.univ fun c : Fin 2 => bigSep Finset.univ fun i : Fin 16 => ℓ ↦[A c i]{q} f := by
  rw [← bigSep_univ_prod (fun p : Fin 2 × Fin 16 => (ℓ ↦[A p.1 p.2]{q} f : sProp 𝕄)),
    ← pointsTo_biUnion Finset.univ (fun p : Fin 2 × Fin 16 => A p.1 p.2) fun p _ p' _ h => hdisj p.1 p.2 p'.1 p'.2 h]
  congr 1
  ext x
  simp only [Finset.mem_univ, Finset.mem_biUnion, true_and, true_iff]
  obtain ⟨c, i, h⟩ := hcov x
  exact ⟨(c, i), h⟩

/-- The thirty-two equal parts of a shape along an axis, numbered by the tiles, are pairwise disjoint -/
theorem tileParts_disjoint {s : Shape} {a₀ : Fin s.rank} (hdiv : 32 ∣ s.size a₀) (c : Fin 2) (i : Fin 16) (c' : Fin 2) (i' : Fin 16)
    (h : (c, i) ≠ (c', i')) : Disjoint (Rect.part hdiv (tileNo c i)).set (Rect.part hdiv (tileNo c' i')).set :=
  Rect.part_disjoint hdiv fun e => h (by obtain ⟨h1, h2⟩ := tileNo_inj e; rw [h1, h2])

/-- and cover it. -/
theorem tileParts_cover {s : Shape} {a₀ : Fin s.rank} (hdiv : 32 ∣ s.size a₀) (x : s.Idx) : ∃ c i, x ∈ (Rect.part hdiv (tileNo c i)).set := by
  obtain ⟨k, hk⟩ := Rect.exists_mem_part hdiv x
  obtain ⟨c, i, rfl⟩ := tileNo_surj k
  exact ⟨c, i, hk⟩

/-- A share `q` of an array every tile reads: a token per SparseCore, of it a token per tile, and what is left at
    each level. -/
theorem pointsTo_deal (S : Finset (Idx ℓ)) (f : Buf Val ℓ) :
    (ℓ ↦[S]{q} f : sProp 𝕄) = iprop((ℓ ↦[S]{shareDrop q 2} f)
      ∗ bigSep Finset.univ fun c : Fin 2 => iprop((ℓ ↦[S]{shareDrop (shareTok q 2 c) 16} f)
          ∗ bigSep Finset.univ fun i : Fin 16 => ℓ ↦[S]{shareTok (shareTok q 2 c) 16 i} f)) := by
  have h2 := pointsTo_toks (Ix := Ix) (Name := Name) (U := U) (Lvl := Lvl) (ℓ := ℓ) (S := S) (f := f) q 2
  rw [BI.equiv_iff.mp ⟨h2.1, h2.2⟩]
  congr 1
  exact bigSep_congr fun c _ => by
    have h16 := pointsTo_toks (Ix := Ix) (Name := Name) (U := U) (Lvl := Lvl) (ℓ := ℓ) (S := S) (f := f) (shareTok q 2 c) 16
    exact BI.equiv_iff.mp ⟨h16.1, h16.2⟩

end Deal

end Idealize.ShloMosaic.Transfers

end
-- ==== Proof.KISetup.lean ====
/-
  The lookup kernel as its launch sees it. Thirty-two vector subcores (sixteen on each of two SparseCores) each
  produce 25600 consecutive rows of the result: subcore s of SparseCore c is worker number 2 s + c. Subcore 0 of
  a SparseCore copies the table into the SparseCore's shared memory; all sixteen meet at the subcore barrier,
  after which each reads the shared table. This file fixes the resource algebra (the launch handshakes' rounds,
  the barrier cells' rounds, the transfers' counters), the barrier cells and their schedule — subcore 0's arrival
  at subcore j's cell hands over a read share of the shared table at the table's contents —, the arrays and the
  pieces of the scratch buffers as the program addresses them.
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.KernelIdeal
import proofs.«205516_g82884278878931_cont_9to1_m_1121_21_alg».proof.Proof.Gen.KernelIdeal.Skeleton
import proofs.«205516_g82884278878931_cont_9to1_m_1121_21_alg».proof.Proof.Spec
import proofs.«205516_g82884278878931_cont_9to1_m_1121_21_alg».proof.Proof.LibTileDeal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (tileNo shareTok shareDrop)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The arrays -/

variable (m : (ℓ : Loc nD τ sig) → Buf (Elt F) ℓ) (ρ : Dev nD → PrngReg)

abbrev tabLoc (d : Dev nD) : Loc nD τ sig := (SparseCore.T d).loc main_arg3
abbrev idxLoc (d : Dev nD) : Loc nD τ sig := (SparseCore.T d).loc main_v0
abbrev outLoc (d : Dev nD) : Loc nD τ sig := (SparseCore.T d).loc main_v1
/-- SparseCore c's shared memory, as every subcore of it addresses it. -/
abbrev shRef (c : Fin τ.nSC) : DevRef τ sig := ⟨.shared, ⟨0, by decide⟩, c⟩
abbrev shLoc (d : Dev nD) (c : Fin τ.nSC) : Loc nD τ sig := (d, shRef c)

local notation "tabV" => (Memref.whole Cert.KernelIdeal.main_arg3_scv : Memref Cert.KernelIdeal.sig Kind.scVector Space.hbm Cert.KernelIdeal.S1000x128 EltTy.f32)
local notation "idxV" => (Memref.whole Cert.KernelIdeal.main_v0_scv : Memref Cert.KernelIdeal.sig Kind.scVector Space.hbm Cert.KernelIdeal.S6400x128 EltTy.i32)
local notation "outV" => (Memref.whole Cert.KernelIdeal.main_v1_scv : Memref Cert.KernelIdeal.sig Kind.scVector Space.hbm Cert.KernelIdeal.S819200x128 EltTy.f32)
local notation "shV" => (Memref.whole Cert.KernelIdeal.cc0_scratch0 : Memref Cert.KernelIdeal.sig Kind.scVector Space.shared Cert.KernelIdeal.S1000x128 EltTy.f32)
local notation "ivV" => (Memref.whole Cert.KernelIdeal.cc0_scratch1 : Memref Cert.KernelIdeal.sig Kind.scVector Space.vmem Cert.KernelIdeal.S6x128 EltTy.i32)
local notation "bigV" => (Memref.whole Cert.KernelIdeal.cc0_scratch2 : Memref Cert.KernelIdeal.sig Kind.scVector Space.vmem Cert.KernelIdeal.S768x128 EltTy.f32)

theorem nSub_eq : τ.nSub = 16 := rfl
theorem nSC_eq : τ.nSC = 2 := rfl

/-- The table's contents, which the shared copies hold after the barrier. -/
abbrev tabC (d : Dev nD) : S1000x128.Idx → Elt F .f32 := m (tabLoc d)

variable [FloatOps F]

/-! ## The barrier cells -/

/-- Subcore (c, j)'s barrier semaphore. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- The read share of the shared table that subcore j of a SparseCore holds after the barrier: one of sixteen
    tokens of the full share. -/
abbrev shShare (j : Fin τ.nSub) : PosShare TreeShare := shareTok fullShare 16 (Fin.cast nSub_eq j)

/-- What an arrival at subcore j's cell hands over: subcore 0's, subcore j's read share of the shared table at
    the table's contents; the others', nothing. -/
def bPay (g : GSem nD τ sig) (n : ℕ) : sProp 𝕄 :=
  match g with
  | ((d, .scVector c j), _) => if n = 0 then iprop(shLoc d c ↦{shShare j} (tabC m d : Buf (Elt F) (shLoc d c))) else iprop(emp)
  | _ => iprop(emp)

/-- The barrier cells' schedule: one round on each, of one unit duty per subcore of the SparseCore. -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

omit [FloatOps F] in
theorem bRd_duties₀ (d : Dev nD) (c : Fin τ.nSC) (j : Fin τ.nSub) : (bRd (F := F) m).duties (bcell d c j) 0 = (Finset.univ : Finset (Fin τ.nSub)).image Fin.val := by
  simp [bRd, isBar]
omit [FloatOps F] in
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
omit [FloatOps F] in
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a subcore owe for the barrier: a unit on every cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- A subcore's barrier kit: every cell's invariant of its SparseCore and that each has reached round 0, its own
    position at the origin of round 0, its duty token in every cell's round 0, and the credit for the sixteen
    units of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

end Cert.Proof.KI

end
-- ==== Proof.KIPay.lean ====
/-
  What the launch's handshakes carry for the lookup kernel. The index array (the ids re-laid as 6400 rows of
  128) and the table are only read: a read share of each goes to each SparseCore, the index array's on to each
  subcore, the table's to subcore 0, which fills the shared copy. The result's 819200 rows are cut into
  thirty-two equal parts, part 2 i + c to subcore i of SparseCore c, each handed over at the launch contents
  and brought back at the lookup's values. The shared copy travels to subcore 0 whole and comes back as the
  sixteen read tokens the barrier dealt, at the table's contents, with what was left of the share.
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.KernelIdeal
import proofs.«205516_g82884278878931_cont_9to1_m_1121_21_alg».proof.Proof.Gen.KernelIdeal.Skeleton
import proofs.«205516_g82884278878931_cont_9to1_m_1121_21_alg».proof.Proof.Spec
import proofs.«205516_g82884278878931_cont_9to1_m_1121_21_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (tileNo shareTok shareDrop)

variable {F : FTy → Type}

local notation "𝕄" => MT nD τ sig (HIx 1) (Elt F) ℕ UU ℕ
local notation "tabV" => (Memref.whole Cert.KernelIdeal.main_arg3_scv : Memref Cert.KernelIdeal.sig Kind.scVector Space.hbm Cert.KernelIdeal.S1000x128 EltTy.f32)
local notation "idxV" => (Memref.whole Cert.KernelIdeal.main_v0_scv : Memref Cert.KernelIdeal.sig Kind.scVector Space.hbm Cert.KernelIdeal.S6400x128 EltTy.i32)
local notation "outV" => (Memref.whole Cert.KernelIdeal.main_v1_scv : Memref Cert.KernelIdeal.sig Kind.scVector Space.hbm Cert.KernelIdeal.S819200x128 EltTy.f32)
local notation "shV" => (Memref.whole Cert.KernelIdeal.cc0_scratch0 : Memref Cert.KernelIdeal.sig Kind.scVector Space.shared Cert.KernelIdeal.S1000x128 EltTy.f32)
local notation "ivV" => (Memref.whole Cert.KernelIdeal.cc0_scratch1 : Memref Cert.KernelIdeal.sig Kind.scVector Space.vmem Cert.KernelIdeal.S6x128 EltTy.i32)
local notation "bigV" => (Memref.whole Cert.KernelIdeal.cc0_scratch2 : Memref Cert.KernelIdeal.sig Kind.scVector Space.vmem Cert.KernelIdeal.S768x128 EltTy.f32)

variable (m : (ℓ : Loc nD τ sig) → Buf (Elt F) ℓ) (ρ : Dev nD → PrngReg)
-- the index array's contents when the kernel is called
variable (I : Dev nD → S6400x128.Idx → BitVec 32)

theorem hdivO : 32 ∣ S819200x128.size 0 := ⟨25600, rfl⟩
/-- Part w of the result's rows: rows [25600 w, 25600 w + 25600). -/
abbrev outSet (w : Fin 32) : Finset S819200x128.Idx := (Rect.part (s := S819200x128) (a₀ := 0) hdivO w).set

/-- The result as one function of the index array and the table: row p is the table's row named by word p of
    the index array read row-major (row p / 128, lane p % 128). -/
def outG (d : Dev nD) : S819200x128.Idx → Elt F .f32 := fun x =>
  tabC m d (ValueIdx.ix2 (Cert.Spec.rowOf (I d (ValueIdx.ix2 (n0 := 6400) (n1 := 128) ⟨(x 0).val / 128, by have := (x 0).isLt; change (x 0).val < 819200 at this; omega⟩ ⟨(x 0).val % 128, Nat.mod_lt _ (by decide)⟩))) (x 1))

abbrev core2 (c : Fin ((K (F := F)).nCore 0)) : Fin 2 := Fin.cast nCore_zero c
abbrev sub16 (i : Fin ((K (F := F)).nSub 0)) : Fin 16 := Fin.cast nSub_zero i

variable [FloatOps F]

def P : (K (F := F)).Pay (nD := nD) (Val := Elt F) (Name := ℕ) (U := UU) where
  st := fun q d c => match q with
    | 0 => iprop((idxLoc d ↦{shareTok fullShare 2 (core2 c)} (I d : Buf (Elt F) (idxLoc d)))
        ∗ (tabLoc d ↦{shareTok fullShare 2 (core2 c)} m (tabLoc d))
        ∗ bigSep Finset.univ fun i : Fin 16 => outLoc d ↦[outSet (tileNo (core2 c) i)]{fullShare} m (outLoc d))
  dn := fun q d c => match q with
    | 0 => bigSep Finset.univ fun i : Fin 16 => outLoc d ↦[outSet (tileNo (core2 c) i)]{fullShare} (outG m I d : Buf (Elt F) (outLoc d))
  go := fun q d c i => match q with
    | 0 => iprop((idxLoc d ↦{shareTok (shareTok fullShare 2 (core2 c)) 16 (sub16 i)} (I d : Buf (Elt F) (idxLoc d)))
        ∗ (outLoc d ↦[outSet (tileNo (core2 c) (sub16 i))]{fullShare} m (outLoc d))
        ∗ (if (sub16 i).val = 0 then iprop((tabLoc d ↦{shareTok fullShare 2 (core2 c)} m (tabLoc d)) ∗ ∃ f, shLoc d (coreOf c) ↦{fullShare} f) else iprop(emp)))
  td := fun q d c i => match q with
    | 0 => iprop((outLoc d ↦[outSet (tileNo (core2 c) (sub16 i))]{fullShare} (outG m I d : Buf (Elt F) (outLoc d)))
        ∗ (shLoc d (coreOf c) ↦{shareTok fullShare 16 (sub16 i)} (tabC m d : Buf (Elt F) (shLoc d (coreOf c))))
        ∗ (if (sub16 i).val = 0 then iprop(shLoc d (coreOf c) ↦{shareDrop fullShare 16} (tabC m d : Buf (Elt F) (shLoc d (coreOf c)))) else iprop(emp)))
  x := fun _ thr => match thr with
    | (d, .scVector c i) => if c.val < 2 then bkit m d c i else iprop(emp)
    | _ => iprop(emp)
  ox := fun _ thr => match thr with
    | (d, .scVector c _) => if c.val < 2 then oxV d c else 0
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      split at h
      · obtain ⟨j, rfl, rfl⟩ := oxV_apply_pos h
        rw [(K (F := F)).lev_V_reg d c (j.castLE hsub0) (show (sc_bar0 : Sem sig) ≠ (K (F := F)).go from sc_bar0_ne_go)]; exact ⟨le_rfl, by decide⟩
      · exact absurd h (lt_irrefl 0)
  ox_tc := fun _ _ => rfl
  ox_sc := fun _ _ _ h => absurd rfl h
  ox_vc := by
    intro q d c i h
    obtain rfl : q = 0 := Subsingleton.elim _ _
    dsimp only at h
    split at h
    · next hc => exact ⟨rfl, hc, i.isLt⟩
    · exact absurd rfl h

instance P_storable : (P (F := F) m I).IsStorable where
  st q d c := match q with
    | 0 => by unfold P; dsimp only; infer_instance
  dn q d c := match q with
    | 0 => by unfold P; dsimp only; infer_instance
  go q d c i := match q with
    | 0 => by unfold P; dsimp only; split <;> infer_instance
  td q d c i := match q with
    | 0 => by unfold P; dsimp only; split <;> infer_instance

end Cert.Proof.KI

end
-- ==== Proof.KIIdx.lean ====
/-
  The index array as the kernel receives it. The ids, 4096 rows of 200 words, are re-laid before the call as 6400
  rows of 128 words in row-major order: word number p of the one is word number p of the other. This file names the
  re-laid contents as a function of the launch memory and records that every word of it is a word of the ids, so a
  range that holds of every id holds of every word the kernel reads.
-/
import proofs.«205516_g82884278878931_cont_9to1_m_1121_21_alg».proof.Defs
import Idealize.ShloMosaic.Lib.SparseCore.Launch
import Idealize.ShloMosaic.Lib.Pipeline.Value
import Idealize.ShloMosaic.Lib.ValueLayout
import proofs.«205516_g82884278878931_cont_9to1_m_1121_21_alg».proof.Proof.Gen.KernelIdeal
import proofs.«205516_g82884278878931_cont_9to1_m_1121_21_alg».proof.Proof.Spec

noncomputable section

namespace Cert.Proof.KI

open Cert.KernelIdeal Cert.KernelIdeal.Gen

open Idealize.ShloMosaic
open Idealize.ShloMosaic.SparseCore (S V T)

variable {F : FTy → Type}

/-- The ids of device d re-laid as 6400 rows of 128: the same words in row-major order. -/
def idxC (m : (ℓ : Loc nD τ sig) → Buf (Elt F) ℓ) (d : Dev nD) : S6400x128.Idx → BitVec 32 :=
  shapeCast S6400x128 (m ((SparseCore.T d).loc main_arg1)) shapeCasts_S4096x200_S6400x128

theorem idxC_eq (m : (ℓ : Loc nD τ sig) → Buf (Elt F) ℓ) (d : Dev nD) :
    idxC m d = shapeCast S6400x128 (m ((SparseCore.T d).loc main_arg1)) shapeCasts_S4096x200_S6400x128 := rfl

/-- Every word of the re-laid array is a word of the ids: a range that holds of every id holds of every word. -/
theorem idxC_range (m : (ℓ : Loc nD τ sig) → Buf (Elt F) ℓ)
    (hr : ∀ (d : Dev nD) i, 0 ≤ ((m ((SparseCore.T d).loc main_arg1)) i).toInt ∧ ((m ((SparseCore.T d).loc main_arg1)) i).toInt ≤ 999) :
    ∀ d x, 0 ≤ (idxC m d x).toInt ∧ (idxC m d x).toInt ≤ 999 := by
  intro d x
  unfold idxC shapeCast
  exact hr d _

/-- Word (r, l) of the re-laid array is id (b, s) whenever 128 r + l = 200 b + s. -/
theorem idxC_apply (m : (ℓ : Loc nD τ sig) → Buf (Elt F) ℓ) (d : Dev nD) (r : Fin 6400) (l : Fin 128) (b : Fin 4096) (s : Fin 200)
    (h : 128 * r.val + l.val = 200 * b.val + s.val) :
    idxC m d (ValueIdx.ix2 r l) = m ((SparseCore.T d).loc main_arg1) (ValueIdx.ix2 (n0 := 4096) (n1 := 200) b s) := by
  unfold idxC
  refine shapeCast_apply (s := S4096x200) (t := S6400x128) _ _ _ _ ?_
  rw [Shape.rowMajor_val_two (i := ValueIdx.ix2 (n0 := 4096) (n1 := 200) b s), Shape.rowMajor_val_two (i := ValueIdx.ix2 (n0 := 6400) (n1 := 128) r l)]
  show b.val * 200 + s.val = r.val * 128 + l.val
  omega

end Cert.Proof.KI

end
-- ==== Proof.KILaunch.lean ====
/-
  The launch side of the lookup kernel's run. The TensorCore re-lays the ids, starts both SparseCores, waits for
  them and re-lays the result; each SparseCore's sequencer deals its operands to its sixteen subcores and gathers
  what they hand back. This file proves the deal and the gathering for one SparseCore: the read share of the index
  array is dealt again sixteen ways, the table's share and the shared copy of the table go to subcore 0, the
  sixteen parts of the result go one to each subcore; coming back, the parts are the result's at the lookup's
  values and the sixteen read tokens of the shared copy with subcore 0's remainder are the copy whole.
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.KernelIdeal
import proofs.«205516_g82884278878931_cont_9to1_m_1121_21_alg».proof.Proof.Gen.KernelIdeal.Skeleton
import proofs.«205516_g82884278878931_cont_9to1_m_1121_21_alg».proof.Proof.Spec
import proofs.«205516_g82884278878931_cont_9to1_m_1121_21_alg».proof.Proof.KISetup
import proofs.«205516_g82884278878931_cont_9to1_m_1121_21_alg».proof.Proof.KIPay
import proofs.«205516_g82884278878931_cont_9to1_m_1121_21_alg».proof.Proof.KIIdx
import proofs.«205516_g82884278878931_cont_9to1_m_1121_21_alg».proof.Proof.LibTileDeal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (tileNo shareTok shareDrop pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg)
variable (I : Dev nD → S6400x128.Idx → BitVec 32)

variable [FloatOps F]

/-! ## What the handshakes carry, as equations -/

theorem P_st (d : Dev nD) (c : Fin ((K (F := F)).nCore 0)) :
    (P m I).st 0 d c = iprop((idxLoc d ↦{shareTok fullShare 2 (core2 c)} (I d : Buf (Elt F) (idxLoc d)))
        ∗ (tabLoc d ↦{shareTok fullShare 2 (core2 c)} m (tabLoc d))
        ∗ bigSep Finset.univ fun i : Fin 16 => outLoc d ↦[outSet (tileNo (core2 c) i)]{fullShare} m (outLoc d)) := by
  unfold P; rfl

theorem P_dn (d : Dev nD) (c : Fin ((K (F := F)).nCore 0)) :
    (P m I).dn 0 d c = bigSep Finset.univ fun i : Fin 16 => outLoc d ↦[outSet (tileNo (core2 c) i)]{fullShare} (outG m I d : Buf (Elt F) (outLoc d)) := by
  unfold P; rfl

/-- What subcore i of a SparseCore is handed beyond its share of the index array and its part of the result. -/
abbrev goX (d : Dev nD) (c : Fin ((K (F := F)).nCore 0)) (i : Fin 16) : sProp 𝕄 :=
  if i.val = 0 then iprop((tabLoc d ↦{shareTok fullShare 2 (core2 c)} m (tabLoc d)) ∗ ∃ f, shLoc d (coreOf c) ↦{fullShare} f) else iprop(emp)
/-- What subcore i hands back beyond its part of the result and its read token of the shared copy. -/
abbrev tdX (d : Dev nD) (c : Fin ((K (F := F)).nCore 0)) (i : Fin 16) : sProp 𝕄 :=
  if i.val = 0 then iprop(shLoc d (coreOf c) ↦{shareDrop fullShare 16} (tabC m d : Buf (Elt F) (shLoc d (coreOf c)))) else iprop(emp)

theorem P_go (d : Dev nD) (c : Fin ((K (F := F)).nCore 0)) (i : Fin ((K (F := F)).nSub 0)) :
    (P m I).go 0 d c i = iprop((idxLoc d ↦{shareTok (shareTok fullShare 2 (core2 c)) 16 (sub16 i)} (I d : Buf (Elt F) (idxLoc d)))
        ∗ (outLoc d ↦[outSet (tileNo (core2 c) (sub16 i))]{fullShare} m (outLoc d))
        ∗ goX m d c (sub16 i)) := by
  unfold P; rfl

theorem P_td (d : Dev nD) (c : Fin ((K (F := F)).nCore 0)) (i : Fin ((K (F := F)).nSub 0)) :
    (P m I).td 0 d c i = iprop((outLoc d ↦[outSet (tileNo (core2 c) (sub16 i))]{fullShare} (outG m I d : Buf (Elt F) (outLoc d)))
        ∗ (shLoc d (coreOf c) ↦{shareTok fullShare 16 (sub16 i)} (tabC m d : Buf (Elt F) (shLoc d (coreOf c))))
        ∗ tdX m d c (sub16 i)) := by
  unfold P; rfl

/-! ## One SparseCore's deal and gathering -/

omit [FloatOps F] in
theorem bigSep_tasks (Φ : Fin 16 → sProp 𝕄) :
    (bigSep Finset.univ fun i : Fin ((K (F := F)).nSub 0) => Φ (sub16 i)) = bigSep Finset.univ Φ :=
  bigSep_congr fun _ _ => congrArg Φ (Fin.ext rfl)

omit [FloatOps F] in
/-- A family over the sixteen subcores that is empty but at subcore 0 is its member at subcore 0. -/
theorem bigSep_at_zero (X : sProp 𝕄) :
    (bigSep Finset.univ fun i : Fin 16 => if i.val = 0 then X else iprop(emp)) = X := by
  rw [SparseCore.bigSep_erase' (Finset.mem_univ (0 : Fin 16))]
  have h : (bigSep ((Finset.univ : Finset (Fin 16)).erase 0) fun i : Fin 16 => if i.val = 0 then X else iprop(emp)) = (iprop(emp) : sProp 𝕄) := by
    refine (bigSep_congr (Ψ := fun _ => (iprop(emp) : sProp 𝕄)) fun i hi => if_neg fun h => (Finset.mem_erase.mp hi).1 (Fin.ext h)).trans (bigSep_emp' _)
  rw [h, if_pos (show ((0 : Fin 16) : ℕ) = 0 from rfl)]
  exact BI.equiv_iff.mp ⟨sep_emp.1, sep_emp.2⟩

omit [FloatOps F] in
/-- The shared memory is among the sequencer's own buffers: it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem vecSplit : (K (F := F)).VecSplit (P m I) 0 := by
  intro d c
  rw [P_st, P_dn]
  simp only [P_go, P_td]
  rw [bigSep_tasks (F := F) (fun i => iprop((idxLoc d ↦{shareTok (shareTok fullShare 2 (core2 c)) 16 i} (I d : Buf (Elt F) (idxLoc d)))
        ∗ (outLoc d ↦[outSet (tileNo (core2 c) i)]{fullShare} m (outLoc d)) ∗ goX m d c i)),
    bigSep_tasks (F := F) (fun i => iprop((outLoc d ↦[outSet (tileNo (core2 c) i)]{fullShare} (outG m I d : Buf (Elt F) (outLoc d)))
        ∗ (shLoc d (coreOf c) ↦{shareTok fullShare 16 i} (tabC m d : Buf (Elt F) (shLoc d (coreOf c)))) ∗ tdX m d c i)),
    bigSep_sep', bigSep_sep', bigSep_sep', bigSep_sep', ownBufs_S]
  unfold goX tdX
  rw [bigSep_at_zero, bigSep_at_zero]
  iintro ⟨⟨Hidx, Htab, Hout⟩, Hsh, Hrest⟩; imodintro
  ihave Hidx' := (pointsTo_toks_split (ℓ := idxLoc d) (S := Finset.univ) (f := (I d : Buf (Elt F) (idxLoc d))) (shareTok fullShare 2 (core2 c)) 16) $$ Hidx
  icases Hidx' with ⟨-, Hidx⟩
  isplitl [Hidx Htab Hout Hsh]
  · isplitl [Hidx]; · iexact Hidx
    isplitl [Hout]; · iexact Hout
    isplitl [Htab]; · iexact Htab
    iexact Hsh
  iintro ⟨Hout, Htok, Hdrop⟩
  isplitl [Hout]; · iexact Hout
  isplitr [Hrest]
  · iexists (tabC m d : Buf (Elt F) (shLoc d (coreOf c)))
    iapply (pointsTo_toks_join (ℓ := shLoc d (coreOf c)) (S := Finset.univ) (f := (tabC m d : Buf (Elt F) (shLoc d (coreOf c)))) fullShare 16)
    isplitl [Hdrop]; · iexact Hdrop
    iexact Htok
  iexact Hrest

/-! ## The launch element of the ghost state, and what the launch hands over -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Subcore i's token in subcore j's cell, for every pair of subcores of a SparseCore. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

omit [FloatOps F] in
/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernel's own debts, regrouped: each subcore the sixteen units of its own cell. -/
theorem creds_b : ((P (F := F) m I).oxCred : sProp 𝕄)
    ⊢ bigSep Finset.univ fun dci : DCI => if dci.2.1.val < 2 then cred (tallyAt (bcell₃ dci) (some 0) (grid0.bound 1)) else (BI.emp : sProp 𝕄) := by
  unfold SparseCore.Cfg.Pay.oxCred
  rw [SparseCore.Cfg.bigSep_threads (fun thr : Thread nD τ => (cred ((P (F := F) m I).oxFrom 0 thr) : sProp 𝕄))]
  refine sep_elim_right.trans (sep_elim_right.trans ?_)
  rw [bigSep_univ_prod, bigSep_univ_prod (fun dci : DCI => if dci.2.1.val < 2 then (cred (tallyAt (bcell₃ dci) (some 0) (grid0.bound 1)) : sProp 𝕄) else BI.emp)]
  refine bigSep_mono fun d _ => ?_
  rw [bigSep_univ_prod, bigSep_univ_prod (fun ci : Fin τ.nSC × Fin τ.nSub => if ci.1.val < 2 then (cred (tallyAt (bcell₃ (d, ci)) (some 0) (grid0.bound 1)) : sProp 𝕄) else BI.emp)]
  refine bigSep_mono fun c _ => ?_
  dsimp only
  have hc : c.val < 2 := c.isLt
  simp only [hc, ↓reduceIte]
  have hox : ∀ i, (P (F := F) m I).oxFrom 0 (V d c i) = oxV d c := fun i => by
    rw [show (0 : ℕ) = (0 : Fin 1).val from rfl, (P m I).oxFrom_step, (P m I).oxFrom_end _ (n := (0 : Fin 1).val + 1) le_rfl, add_zero]; exact if_pos hc
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {J : Type} [DecidableEq J] {R : sProp 𝕄} [BI.Persistent R] {s : Finset J} {Φ Ψ : J → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m I).x q (SparseCore.T d)) = iprop(emp) :=
  bigSep_univ_of_subsingleton (0 : Fin 1)
theorem Px_S (d : Dev nD) (c : Fin τ.nSC) : (bigSep Finset.univ fun q : Fin 1 => (P (F := F) m I).x q (S d c)) = iprop(emp) :=
  bigSep_univ_of_subsingleton (0 : Fin 1)
theorem Px_V (d : Dev nD) (c : Fin τ.nSC) (i : Fin τ.nSub) :
    (bigSep Finset.univ fun q : Fin 1 => (P (F := F) m I).x q (V d c i)) = if c.val < 2 then bkit m d c i else iprop(emp) :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every subcore is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each subcore is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ (if dci.2.1.val < 2 then cred (tallyAt (bcell₃ dci) (some 0) (grid0.bound 1)) else BI.emp))

/-- One subcore's kit out of those. -/
theorem kit_intro (dci : DCI) : iprop(shared (F := F) m ∗ mine dci) ⊢ (if dci.2.1.val < 2 then bkit (F := F) m dci.1 dci.2.1 dci.2.2 else iprop(emp) : sProp 𝕄) := by
  obtain ⟨d, c, i⟩ := dci
  iintro ⟨⟨#Hinv, #Hr⟩, Hat, Htok, Hcred⟩
  dsimp only
  split
  · unfold bkit
    isplitr
    · icases Hinv with ⟨%κ, Hinv⟩
      iexists κ
      iapply (SparseCore.ent (bigSep_mono_frame (s := (Finset.univ : Finset (Fin (grid0.bound 1)))) (Φ := fun _ => iprop(emp))
        (R := bigSep Finset.univ fun x : DCI => cellInv EB (bRd (F := F) m) (κ (bcell₃ x)) (bcell₃ x)) fun j _ =>
          sep_elim_left.trans (bigSep_elim (Φ := fun x : DCI => (cellInv EB (bRd (F := F) m) (κ (bcell₃ x)) (bcell₃ x) : sProp 𝕄))
            (i := (d, c, Fin.castLE hsub0 j)) (Finset.mem_univ _))))
      isplitl; · iexact Hinv
      rw [bigSep_emp']; iempintro
    isplitl [Htok]; · iexact Htok
    isplitr
    · iapply (SparseCore.ent (bigSep_mono_frame (s := (Finset.univ : Finset (Fin (grid0.bound 1)))) (Φ := fun _ => iprop(emp))
        (R := bigSep Finset.univ fun x : DCI => reached EB (bcell₃ x) 0) fun j _ =>
          sep_elim_left.trans (bigSep_elim (Φ := fun x : DCI => (reached EB (bcell₃ x) 0 : sProp 𝕄)) (i := (d, c, Fin.castLE hsub0 j)) (Finset.mem_univ _))))
      isplitl; · iexact Hr
      rw [bigSep_emp']; iempintro
    isplitl [Hat]; · iexact Hat
    iexact Hcred
  · iempintro

/-- Each subcore its kit. -/
theorem kits_deal :
    iprop(shared (F := F) m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => if dci.2.1.val < 2 then cred (tallyAt (bcell₃ dci) (some 0) (grid0.bound 1)) else BI.emp))
      ⊢ (bigSep Finset.univ fun thr : Thread nD τ => bigSep Finset.univ fun q : Fin 1 => (P (F := F) m I).x q thr : sProp 𝕄) := by
  rw [SparseCore.Cfg.bigSep_threads (fun thr : Thread nD τ => bigSep Finset.univ fun q : Fin 1 => (P m I).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P (F := F) m I).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m I).x q thr) : sProp 𝕄) := by
  unfold u₀
  iintro ⟨Hu, Hcred, Hfree⟩
  ihave H := (ownU_split _ _) $$ Hu
  icases H with ⟨HH, HB⟩
  imod (Rounds.fund EB (bRd (F := F) m) bCells bToks) $$ HB with ⟨Hst, #Hr, Hat, Htok⟩
  ihave Hsems := (sems_b (F := F)) $$ Hfree
  imod (invs_b (F := F) m) $$ [Hsems Hst] with ⟨%κ, #Hinv⟩
  · isplitl [Hsems] <;> iassumption
  ihave Hcred' := (creds_b m I) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal m I)
  isplitr
  · isplitl; · iexists κ; iexact Hinv'
    iexact Hr'
  isplitl [Hat']; · iexact Hat'
  isplitl [Htok']; · iexact Htok'
  iexact Hcred'

end Cert.Proof.KI

end
-- ==== Proof.KIRun.lean ====
/-
  The run of the lookup kernel's program. On the TensorCore: the ids are re-laid as 6400 rows of 128, a read share
  of the re-laid array and of the table goes to each SparseCore with its sixteen parts of the result, the
  SparseCores are started and waited for, the thirty-two parts come back at the lookup's values and are the result
  array whole, which is re-laid as 4096 x 200 x 128. Read index by index the re-laid result is the lookup of the
  ids in the table: output row p = 200 b + s reads word p of the re-laid ids, which is id (b, s).
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.KernelIdeal
import proofs.«205516_g82884278878931_cont_9to1_m_1121_21_alg».proof.Proof.Gen.KernelIdeal.Skeleton
import proofs.«205516_g82884278878931_cont_9to1_m_1121_21_alg».proof.Proof.Spec
import proofs.«205516_g82884278878931_cont_9to1_m_1121_21_alg».proof.Proof.KISetup
import proofs.«205516_g82884278878931_cont_9to1_m_1121_21_alg».proof.Proof.KIPay
import proofs.«205516_g82884278878931_cont_9to1_m_1121_21_alg».proof.Proof.KIIdx
import proofs.«205516_g82884278878931_cont_9to1_m_1121_21_alg».proof.Proof.LibTileDeal
import proofs.«205516_g82884278878931_cont_9to1_m_1121_21_alg».proof.Proof.KILaunch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)
open Idealize.ShloMosaic.Transfers (tileNo shareTok shareDrop pointsTo_toks_split pointsTo_toks_join pointsTo_tiles tileParts_disjoint tileParts_cover)

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The value: the re-laid result is the lookup -/

omit [FloatOps F] in
/-- The result array at the kernel's values, re-laid as 4096 x 200 x 128, is the lookup of the ids in the table. -/
theorem out_value (d : Dev nD) :
    shapeCast S4096x200x128 (outG m (idxC m) d) shapeCasts_S819200x128_S4096x200x128
      = (Cert.Spec.lookup (m ((SparseCore.T d).loc main_arg1)) (m ((SparseCore.T d).loc main_arg3)) : S4096x200x128.Idx → Elt F .f32) := by
  funext j
  have h0 := (j 0).isLt; have h1 := (j 1).isLt
  change (j 0).val < 4096 at h0; change (j 1).val < 200 at h1
  have hp : (j 0).val * 200 + (j 1).val < 819200 := by omega
  rw [shapeCast_apply (s := S819200x128) (t := S4096x200x128) _ _ j (ValueIdx.ix2 (n0 := 819200) (n1 := 128) ⟨(j 0).val * 200 + (j 1).val, hp⟩ (j 2))
    (by rw [Shape.rowMajor_val_two (i := ValueIdx.ix2 (n0 := 819200) (n1 := 128) ⟨(j 0).val * 200 + (j 1).val, hp⟩ (j 2)), Shape.rowMajor_val_three (i := j)]; rfl)]
  unfold outG Cert.Spec.lookup
  show m (tabLoc d) (ValueIdx.ix2 (Cert.Spec.rowOf (idxC m d (ValueIdx.ix2 (n0 := 6400) (n1 := 128) ⟨((j 0).val * 200 + (j 1).val) / 128, _⟩ ⟨((j 0).val * 200 + (j 1).val) % 128, _⟩))) (j 2)) = _
  rw [idxC_apply m d _ _ (j 0) (j 1) (by show 128 * (((j 0).val * 200 + (j 1).val) / 128) + ((j 0).val * 200 + (j 1).val) % 128 = 200 * (j 0).val + (j 1).val; omega)]

/-! ## @main on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
/-- The two host operations: the ids re-laid before the call, the result re-laid after it. -/
abbrev op1 : HloOp τ sig (Elt F) := StableHlo.reshape main_arg1 main_v0 rfl shapeCasts_S4096x200_S6400x128
abbrev op2 : HloOp τ sig (Elt F) := StableHlo.reshape main_v1 main_v2 rfl shapeCasts_S819200x128_S4096x200x128

abbrev argLoc (d : Dev nD) (b : Ref sig .tc) : Loc nD τ sig := (SparseCore.T d).loc b

omit [FloatOps F] in
theorem unscopedBufs_eq (d : Dev nD) (W : (b : Ref sig .tc) → Buf (Elt F) ((d.tc : Thread nD τ).loc b)) :
    (unscopedBufs d W : sProp 𝕄)
      = iprop((argLoc d main_arg0 ↦{fullShare} W main_arg0) ∗ (argLoc d main_arg1 ↦{fullShare} W main_arg1) ∗ (argLoc d main_arg2 ↦{fullShare} W main_arg2)
          ∗ (argLoc d main_arg3 ↦{fullShare} W main_arg3) ∗ (argLoc d main_v0 ↦{fullShare} W main_v0) ∗ (argLoc d main_v1 ↦{fullShare} W main_v1)
          ∗ (argLoc d main_v2 ↦{fullShare} W main_v2)) := by
  unfold unscopedBufs
  rw [show (Finset.univ.filter fun b : Ref sig .tc => ¬ b.isScoped) = {main_arg0, main_arg1, main_arg2, main_arg3, main_v0, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
/-- Two distinct arrays of a device held whole. -/
theorem held_pair (d : Dev nD) {a b : DevRef τ sig} (h : a ≠ b) (W : Valuation τ sig (Elt F)) :
    (held (SparseCore.T d) {a, b} W : sProp 𝕄) = iprop((((d, a) : Loc nD τ sig) ↦{fullShare} W a) ∗ (((d, b) : Loc nD τ sig) ↦{fullShare} W b)) := by
  unfold held
  rw [SparseCore.bigSep_insert' (by rw [Finset.mem_singleton]; exact h), bigSep_singleton]

/-- The launch valuation; and the valuation after the call: the result array at the kernel's values. -/
def V0 (d : Dev nD) : Valuation τ sig (Elt F) := fun b => m (d, b)
def V4 (d : Dev nD) : Valuation τ sig (Elt F) := Function.update (V0 m d) v1' (outG m (idxC m) d : Buf (Elt F) (outLoc d))

theorem op1_a1 (d : Dev nD) : (op1 (F := F)).result (V0 m d) a1' = m (argLoc d main_arg1) :=
  (op1 (F := F)).result_of_not_mem (V0 m d) (show a1' ∉ ({v0'} : Finset (DevRef τ sig)) by decide)
theorem op1_v0 (d : Dev nD) : (op1 (F := F)).result (V0 m d) v0' = (idxC m d : Buf (Elt F) (idxLoc d)) :=
  ((op1 (F := F)).result_of_mem (V0 m d) (Finset.mem_singleton_self _)).trans rfl
theorem V4_v1 (d : Dev nD) : V4 m d v1' = (outG m (idxC m) d : Buf (Elt F) (outLoc d)) := Function.update_self _ _ _
theorem V4_v2 (d : Dev nD) : V4 m d v2' = m (argLoc d main_v2) := Function.update_of_ne (show v2' ≠ v1' by decide) _ _
theorem op2_v1 (d : Dev nD) : (op2 (F := F)).result (V4 m d) v1' = (outG m (idxC m) d : Buf (Elt F) (outLoc d)) :=
  ((op2 (F := F)).result_of_not_mem (V4 m d) (show v1' ∉ ({v2'} : Finset (DevRef τ sig)) by decide)).trans (V4_v1 m d)
theorem op2_v2 (d : Dev nD) : (op2 (F := F)).result (V4 m d) v2'
    = (shapeCast S4096x200x128 (outG m (idxC m) d) shapeCasts_S819200x128_S4096x200x128 : Buf (Elt F) (argLoc d main_v2)) := by
  rw [(op2 (F := F)).result_of_mem (V4 m d) (Finset.mem_singleton_self _)]
  show (fun i => shapeCast S4096x200x128 (V4 m d v1') shapeCasts_S819200x128_S4096x200x128 i) = _
  rw [V4_v1]

omit [FloatOps F] in
theorem bigSep_cores (Φ : Fin 2 → sProp 𝕄) :
    (bigSep Finset.univ fun c : Fin ((K (F := F)).nCore 0) => Φ (core2 c)) = bigSep Finset.univ Φ :=
  bigSep_congr fun _ _ => congrArg Φ (Fin.ext rfl)

/-- The operands of both SparseCores: a read token of the index array and of the table each, and the result's
    thirty-two parts. -/
theorem st0_eq (d : Dev nD) : (bigSep Finset.univ fun c : Fin ((K (F := F)).nCore 0) => (P m (idxC m)).st 0 d c)
    = iprop((bigSep Finset.univ fun c : Fin 2 => idxLoc d ↦{shareTok fullShare 2 c} (idxC m d : Buf (Elt F) (idxLoc d)))
        ∗ (bigSep Finset.univ fun c : Fin 2 => tabLoc d ↦{shareTok fullShare 2 c} m (tabLoc d))
        ∗ (outLoc d ↦{fullShare} m (outLoc d))) := by
  simp only [P_st]
  rw [bigSep_cores (F := F) (fun c => iprop((idxLoc d ↦{shareTok fullShare 2 c} (idxC m d : Buf (Elt F) (idxLoc d)))
        ∗ (tabLoc d ↦{shareTok fullShare 2 c} m (tabLoc d))
        ∗ bigSep Finset.univ fun i : Fin 16 => outLoc d ↦[outSet (tileNo c i)]{fullShare} m (outLoc d))),
    bigSep_sep', bigSep_sep',
    pointsTo_tiles (ℓ := outLoc d) (q := fullShare) (fun c i => outSet (tileNo c i)) (tileParts_disjoint hdivO) (tileParts_cover hdivO) (m (outLoc d))]

/-- What both SparseCores bring back: the result array whole, at the kernel's values. -/
theorem dn0_eq (d : Dev nD) : (bigSep Finset.univ fun c : Fin ((K (F := F)).nCore 0) => (P m (idxC m)).dn 0 d c)
    = (outLoc d ↦{fullShare} (outG m (idxC m) d : Buf (Elt F) (outLoc d)) : sProp 𝕄) := by
  simp only [P_dn]
  rw [bigSep_cores (F := F) (fun c => bigSep Finset.univ fun i : Fin 16 => outLoc d ↦[outSet (tileNo c i)]{fullShare} (outG m (idxC m) d : Buf (Elt F) (outLoc d))),
    pointsTo_tiles (ℓ := outLoc d) (q := fullShare) (fun c i => outSet (tileNo c i)) (tileParts_disjoint hdivO) (tileParts_cover hdivO) (outG m (idxC m) d : Buf (Elt F) (outLoc d))]

/-- What @main leaves the claim: the four arguments at their launch contents (the table at the share kept on the
    TensorCore) and the result at the re-laid kernel's values. -/
abbrev FIN (d : Dev nD) : sProp 𝕄 :=
  iprop((argLoc d main_arg0 ↦{fullShare} m (argLoc d main_arg0)) ∗ (argLoc d main_arg1 ↦{fullShare} m (argLoc d main_arg1))
    ∗ (argLoc d main_arg2 ↦{fullShare} m (argLoc d main_arg2)) ∗ (argLoc d main_arg3 ↦{shareDrop fullShare 2} m (argLoc d main_arg3))
    ∗ (argLoc d main_v2 ↦{fullShare} (shapeCast S4096x200x128 (outG m (idxC m) d) shapeCasts_S819200x128_S4096x200x128 : Buf (Elt F) (argLoc d main_v2))))

theorem hOp1 : (op1 (F := F)).bufs ⊆ ({a1', v0'} : Finset (DevRef τ sig)) := Finset.Subset.refl _
theorem hOp2 : (op2 (F := F)).bufs ⊆ ({v1', v2'} : Finset (DevRef τ sig)) := Finset.Subset.refl _

/-- @main on device d's TensorCore: the ids re-laid, the call, the result re-laid. -/
theorem hmain (κ : GSem nD τ sig → ℕ) (d : Dev nD) :
    iprop((K (F := F)).ctx EH (P m (idxC m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Ha2, Ha3, Hv0, Hv1, Hv2⟩, -, -⟩, -⟩
  -- the ids re-laid
  iapply (wp_hlo_within 𝒱 (SparseCore.T d) none Set.univ (op := op1) (S := {a1', v0'}) hOp1 (V := V0 m d)) $$ [Hb Ha1 Hv0]
  · isplitl [Hb]; · iexact Hb
    rw [held_pair d (show a1' ≠ v0' by decide)]
    isplitl [Ha1]; · iexact Ha1
    iexact Hv0
  iintro ⟨Hb, Hheld⟩
  rw [wp_ret]; imodintro
  ihave Hh := (Entails.of_eq (held_pair (F := F) d (show a1' ≠ v0' by decide) ((op1 (F := F)).result (V0 m d)))) $$ Hheld
  rw [op1_a1, op1_v0]
  icases Hh with ⟨Ha1, Hv0⟩
  -- a read token of the re-laid ids and of the table for each SparseCore
  ihave Hv0' := (pointsTo_toks_split (ℓ := idxLoc d) (S := Finset.univ) (f := (idxC m d : Buf (Elt F) (idxLoc d))) fullShare 2) $$ Hv0
  icases Hv0' with ⟨-, Hidx⟩
  ihave Ha3' := (pointsTo_toks_split (ℓ := tabLoc d) (S := Finset.univ) (f := m (tabLoc d)) fullShare 2) $$ Ha3
  icases Ha3' with ⟨Ha3, Htab⟩
  -- the call
  iapply ((K (F := F)).wp_run (D (F := F)) 𝒱 (EH := EH) (P := P m (idxC m)) κ d 0) $$ [Hst Hidx Htab Hv1 Hb Ha0 Ha1 Ha2 Ha3 Hv2]
  isplitr; · iexact Hctx
  isplitl [Hst]; · iexact Hst
  isplitl [Hidx Htab Hv1]
  · rw [st0_eq]
    isplitl [Hidx]; · iexact Hidx
    isplitl [Htab]; · iexact Htab
    iexact Hv1
  iintro ⟨Hst, Hdn⟩
  ihave Hv1 := (Entails.of_eq (dn0_eq m d)) $$ Hdn
  -- the result re-laid
  iapply (wp_hlo_within 𝒱 (SparseCore.T d) none Set.univ (op := op2) (S := {v1', v2'}) hOp2 (V := V4 m d)) $$ [Hb Hv1 Hv2]
  · isplitl [Hb]; · iexact Hb
    rw [held_pair d (show v1' ≠ v2' by decide), V4_v1, V4_v2]
    isplitl [Hv1]; · iexact Hv1
    iexact Hv2
  iintro ⟨Hb, Hheld⟩
  ihave Hh := (Entails.of_eq (held_pair (F := F) d (show v1' ≠ v2' by decide) ((op2 (F := F)).result (V4 m d)))) $$ Hheld
  rw [op2_v1, op2_v2]
  icases Hh with ⟨-, Hv2⟩
  rw [wp_ret]; imodintro; imodintro
  isplitl [Hst]; · iexact Hst
  isplitl [Ha0]; · iexact Ha0
  isplitl [Ha1]; · iexact Ha1
  isplitl [Ha2]; · iexact Ha2
  isplitl [Ha3]; · iexact Ha3
  iexact Hv2

/-! ## What the final memory reads -/

def fq (d : Dev nD) (s' : Phys nD τ sig (Elt F)) : Prop :=
  s'.mem.mem (argLoc d main_v2) = (shapeCast S4096x200x128 (outG m (idxC m) d) shapeCasts_S819200x128_S4096x200x128 : Buf (Elt F) (argLoc d main_v2))
    ∧ s'.mem.mem (argLoc d main_arg0) = m (argLoc d main_arg0) ∧ s'.mem.mem (argLoc d main_arg1) = m (argLoc d main_arg1)
    ∧ s'.mem.mem (argLoc d main_arg2) = m (argLoc d main_arg2) ∧ s'.mem.mem (argLoc d main_arg3) = m (argLoc d main_arg3)

omit [FloatOps F] in
/-- An array held whole, at any share, is what the memory holds. -/
theorem SI_read (s' : Phys nD τ sig (Elt F)) (ℓ : Loc nD τ sig) (q : PosShare TreeShare) (f : Buf (Elt F) ℓ) :
    iprop(SI s' ∗ ℓ ↦{q} f) ⊢ (iprop(⌜s'.mem.mem ℓ = f⌝ ∗ SI s' ∗ ℓ ↦{q} f) : sProp 𝕄) :=
  persistent_entails_right ((SI_pointsTo_agree (st := s') (ℓ := ℓ) (I := Finset.univ) (q := q) (f := f)).trans
    (BI.pure_mono fun hx => funext fun i => hx i (Finset.mem_univ i)))

theorem hfin (d : Dev nD) (s' : Phys nD τ sig (Elt F)) : iprop(FIN m d ∗ SI s') ⊢ (⌜fq m d s'⌝ : sProp 𝕄) := by
  iintro ⟨⟨H0, H1, H2, H3, Hv⟩, HSI⟩
  ihave H := (SI_read s' (argLoc d main_arg0) fullShare (m (argLoc d main_arg0))) $$ [HSI H0]
  · isplitl [HSI] <;> iassumption
  icases H with ⟨%h0, HSI, -⟩
  ihave H := (SI_read s' (argLoc d main_arg1) fullShare (m (argLoc d main_arg1))) $$ [HSI H1]
  · isplitl [HSI] <;> iassumption
  icases H with ⟨%h1, HSI, -⟩
  ihave H := (SI_read s' (argLoc d main_arg2) fullShare (m (argLoc d main_arg2))) $$ [HSI H2]
  · isplitl [HSI] <;> iassumption
  icases H with ⟨%h2, HSI, -⟩
  ihave H := (SI_read s' (argLoc d main_arg3) (shareDrop fullShare 2) (m (argLoc d main_arg3))) $$ [HSI H3]
  · isplitl [HSI] <;> iassumption
  icases H with ⟨%h3, HSI, -⟩
  ihave H := (SI_read s' (argLoc d main_v2) fullShare
    (shapeCast S4096x200x128 (outG m (idxC m) d) shapeCasts_S819200x128_S4096x200x128 : Buf (Elt F) (argLoc d main_v2))) $$ [HSI Hv]
  · isplitl [HSI] <;> iassumption
  icases H with ⟨%hv, -, -⟩
  ipureintro; exact ⟨hv, h0, h1, h2, h3⟩

/-! ## The program's run -/

/-- The run of the kernel's program, given the subcores' task: every weakly fair execution of the device's threads
    terminates, nothing faulting; the result is the lookup of the ids in the table and the arguments are unchanged. -/
theorem run_main [∀ e, Nonempty (Elt F e)]
    (hr : ∀ (d : Dev nD) i, 0 ≤ ((m ((SparseCore.T d).loc main_arg1)) i).toInt ∧ ((m ((SparseCore.T d).loc main_arg1)) i).toInt ≤ 999)
    (htile : (K (F := F)).TileObl (D (F := F)) 𝒱 (P m (idxC m)) v₀ 0) :
    θ_run (Cert.KernelIdeal.defs (F := F)) (Cert.KernelIdeal.threads (F := F)) ⟨m, fun _ => 0, ρ⟩
      (fun r => ∀ c : Dev nD,
        r.2.mem ((c.tc : Thread nD τ).loc main_v2) = (Cert.Spec.lookup (m ((c.tc : Thread nD τ).loc main_arg1)) (m ((c.tc : Thread nD τ).loc main_arg3)) : Buf (Elt F) _)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  SparseCore.Cfg.θ_run_sc (K := K (F := F)) (D := D (F := F)) (𝒱 := 𝒱) (EH := EH) (P := P m (idxC m)) facts v₀
    (fun q hq => match q with | 0 => nomatch hq)
    (fun q _ => match q with | 0 => htile)
    (fun q _ => match q with | 0 => vecSplit m (idxC m))
    m ρ main (fun _ => iprop(emp)) (FIN m) (u₀ (F := F)) (hu₀ m (idxC m)) (hmain m ρ) (fq m) (hfin m) _
    (fun s' h c => by
      obtain ⟨hv, h0, h1, h2, h3⟩ := h c
      exact ⟨hv.trans (out_value m c), h0, h1, h2, h3⟩)

end Cert.Proof.KI

end
-- ==== Proof.PreRange.lean ====
/-
  The precondition read back: when the printed domain predicate evaluates to true, every word of its second
  integer argument, read as a signed integer, lies in [0, 999]. The predicate is a conjunction of four
  "for all entries" tests; only the conjunct over the second argument is used, so the statement holds for
  every float instance and does not look at the float argument's values.
-/
import proofs.«205516_g82884278878931_cont_9to1_m_1121_21_alg».proof.Pre_input_domain
import Idealize.ShloMosaic.Lib.ReduceAll
import Idealize.ShloMosaic.Lib.ValueIdx

namespace Cert.PreRange

open Idealize.ShloMosaic Idealize.ShloMosaic.ValueIdx

/-- The rank-0 shape has a single index. -/
instance : Subsingleton Cert.Pre_input_domain.S_.Idx := ⟨fun a b => funext fun d => d.elim0⟩

/-- If the domain predicate holds, every word of its second integer argument is in [0, 999] as a signed integer:
    the predicate is ((p₃ ∧ p₀) ∧ p₁) ∧ p₂ with p₁ = "for all i, 0 ≤ a1 i ∧ a1 i ≤ 999", each comparison signed. -/
theorem turn_ids_range {F : FTy → Type} [FloatOps F] [Cert.Pre_input_domain.Facts]
    (a0 a1 a2 : IVec Cert.Pre_input_domain.S4096x200 32) (a3 : FVec F Cert.Pre_input_domain.S1000x128 .f32)
    (h : Cert.Pre_input_domain.fn (F := F) a0 a1 a2 a3 = fun _ => 1#1) :
    ∀ i, 0 ≤ (a1 i).toInt ∧ (a1 i).toInt ≤ 999 := by
  intro i
  have h0 := congrFun h ValueIdx.ix0
  dsimp only [Cert.Pre_input_domain.fn, Cert.Pre_input_domain.fn_part1] at h0
  -- the outer conjunctions, at the single index of the rank-0 result
  have h1 : IntOp.andi (IntOp.andi (IntOp.andi _ _) (Host.reduce IntOp.andi _ _ _ _ ValueIdx.ix0)) _ = 1#1 := h0
  obtain ⟨h2, -⟩ := IntOp.andi_eq_one.1 h1
  obtain ⟨-, h3⟩ := IntOp.andi_eq_one.1 h2
  -- the "for all" over the second argument, at the index i
  have h4 := Host.reduce_andi_all _ _ _ _ _ h3 i
  have h5 : IntOp.andi (IntOp.cmpi .sge (a1 i) 0#32) (IntOp.cmpi .sle (a1 i) 999#32) = 1#1 := h4
  obtain ⟨h6, h7⟩ := IntOp.andi_eq_one.1 h5
  rw [IntOp.cmpi_sge] at h6
  rw [IntOp.cmpi_sle] at h7
  have e0 : (0#32 : BitVec 32).toInt = 0 := by decide
  have e1 : (999#32 : BitVec 32).toInt = 999 := by decide
  rw [e0] at h6
  rw [e1] at h7
  exact ⟨h6, h7⟩

end Cert.PreRange
-- ==== Proof.RefTerm.lean ====
/-
  The value the reference leaves in its result buffer, as a pure function of the index words and the table: negative
  words are wrapped by the table's height, the words become start indices, each start index is tested against
  [0, 999], rows are gathered at the start indices, and the gathered row is kept where the test holds (elsewhere the
  entry is the not-a-number filler).
-/
import proofs.«205516_g82884278878931_cont_9to1_m_1121_21_alg».proof.ReferenceIdeal

noncomputable section

namespace Cert.RefRun

open Cert.ReferenceIdeal Idealize.ShloMosaic

variable {F : FTy → Type} [FloatOps F] [Cert.ReferenceIdeal.Facts]
open Cert.ReferenceIdeal.Facts₀ Cert.ReferenceIdeal.Facts

/-- The index words with the negative ones wrapped: w + 1000 where w < 0 (signed), else w. -/
def wrapped (ids : IVec S4096x200 32) : IVec S4096x200 32 :=
  select (cmpi .slt ids (broadcastInDim S4096x200 ![] bcast_S_S4096x200 (constantI S_ 32 0#32)))
    (addi ids (broadcastInDim S4096x200 ![] bcast_S_S4096x200 (constantI S_ 32 1000#32))) ids

/-- The start indices: entry (b, s, 0) is the wrapped word at (b, s). -/
def starts (ids : IVec S4096x200 32) : IVec S4096x200x1 32 :=
  broadcastInDim S4096x200x1 ![0, 1] bcast_S4096x200_S4096x200x1_0_1 (wrapped ids)

/-- The range test of each start index: 0 ≤ it and it ≤ 999, both signed. -/
def inRange (ids : IVec S4096x200 32) : IVec S4096x200x1 1 :=
  andi (cmpi .sge (starts ids) (broadcastInDim S4096x200x1 ![] bcast_S_S4096x200x1 (constantI S_ 32 0#32)))
    (cmpi .sle (starts ids) (broadcastInDim S4096x200x1 ![0, 1, 2] bcast_S1x1x1_S4096x200x1_0_1_2
      (broadcastInDim S1x1x1 ![2] bcast_S1_S1x1x1_2 (constantI S1 32 999#32))))

/-- The mask: at (b, s), the conjunction of the range test over the index vector's axis (one entry). -/
def mask (ids : IVec S4096x200 32) : IVec S4096x200 1 :=
  Host.reduce IntOp.andi (inRange ids) (constantI S_ 1 1#1) reducesTo_S4096x200x1_S4096x200_d2 h_S_

/-- The result: the gathered row where the mask holds, the filler elsewhere. -/
def refTerm (ids : IVec S4096x200 32) (tab : FVec F S1000x128 .f32) : FVec F S4096x200x128 .f32 :=
  select (broadcastInDim S4096x200x128 ![0, 1] bcast_S4096x200_S4096x200x128_0_1 (mask ids))
    (Host.gather gather_S1000x128_S4096x200x1_S4096x200x128_2_0_n_n_0_2_1128 tab (starts ids))
    (broadcastInDim S4096x200x128 ![] bcast_S_S4096x200x128 (constant S_ .f32 0x7FC00000#32))

end Cert.RefRun

end
-- ==== Proof.RefOps.lean ====
/-
  The reference program as a straight line. Its entry function calls a row-lookup function, which itself calls a
  three-way select; with both calls unfolded at their call sites the program is twenty-three tensor operations in
  order, each writing one buffer of its own. Every weakly fair execution of that line terminates, and each buffer ends
  at the fold of the operations' results over the contents at launch.
-/
import proofs.«205516_g82884278878931_cont_9to1_m_1121_21_alg».proof.Proof.RefTerm
import Idealize.ShloMosaic.Lib.StableHlo.Run

noncomputable section

namespace Cert.RefRun

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts₀ Cert.ReferenceIdeal.Facts

/-- The entry function's operations in order, its two calls unfolded: the wrap of negative index words (the zero and
    its broadcast, the sign test, the table height and its broadcast, the sum, the select), the start indices, the
    range test of each start index (both bounds, their conjunction, its reduction over the index vector's axis), the
    gather of rows, and the select between the gathered row and the not-a-number filler. -/
abbrev ops : List (HloOp τ sig (Elt F)) :=
  [ TRef.nullary main_call0.c (constantI S_ 32 0#32),
    TRef.unary main_call0.c main_call0.v0 (broadcastInDim S4096x200 ![] bcast_S_S4096x200),
    TRef.binary (.of main_arg1) main_call0.v0 main_call0.v1 (cmpi .slt),
    TRef.nullary main_call0.c_0 (constantI S_ 32 1000#32),
    TRef.unary main_call0.c_0 main_call0.v2 (broadcastInDim S4096x200 ![] bcast_S_S4096x200),
    TRef.binary (.of main_arg1) main_call0.v2 main_call0.v3 addi,
    TRef.ternary main_call0.v1 main_call0.v3 (.of main_arg1) main_call0.call0.v0 select,
    TRef.unary main_call0.call0.v0 main_call0.v5 (broadcastInDim S4096x200x1 ![0, 1] bcast_S4096x200_S4096x200x1_0_1),
    TRef.nullary main_call0.c_1 (constantI S1 32 999#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_),
    TRef.binary (.of main_arg3) main_call0.v5 main_call0.v13 (fun x i => Host.gather gather_S1000x128_S4096x200x1_S4096x200x128_2_0_n_n_0_2_1128 x i),
    TRef.unary main_call0.v12 main_call0.v14 (broadcastInDim S4096x200x128 ![0, 1] bcast_S4096x200_S4096x200x128_0_1),
    TRef.nullary main_call0.cst (constant S_ .f32 0x7FC00000#32),
    TRef.unary main_call0.cst main_call0.v15 (broadcastInDim S4096x200x128 ![] bcast_S_S4096x200x128),
    TRef.ternary main_call0.v14 main_call0.v13 main_call0.v15 main_call0.v16 select ]

set_option maxRecDepth 1024 in
/-- The entry function is that straight line: the two functions' definitions unfolded at their calls, both sides are one
    chain of steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- For any float values, from any memory with zero counters: every weakly fair execution of the entry function
    terminates, and every final state has each buffer at the operations' fold over the contents at launch. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduce Host.gather in
set_option maxRecDepth 8192 in
/-- The fold at the result buffer is the reference's value of the two arguments' contents: each operation's result is
    rewritten at its own buffer to its function's value and at every other buffer to what was there; what is left carries
    each intermediate value through a change of type and back, both the identity at these literal references. The
    reduction and the gather are kept folded meanwhile: the equation never looks inside them. -/
theorem out_eq (V : Valuation τ sig (Elt F)) :
    after ops V (main_v0 : DevRef τ sig) = refTerm (V (main_arg1 : DevRef τ sig)) (V (main_arg3 : DevRef τ sig)) := by
  after_results
  simp only [TRef.toBuf, TRef.ofBuf, cast_cast, cast_eq]
  rfl

/-- No operation of the line writes an argument's buffer. -/
theorem arg0_eq (V : Valuation τ sig (Elt F)) : after ops V (main_arg0 : DevRef τ sig) = V (main_arg0 : DevRef τ sig) := by
  after_results

theorem arg1_eq (V : Valuation τ sig (Elt F)) : after ops V (main_arg1 : DevRef τ sig) = V (main_arg1 : DevRef τ sig) := by
  after_results

theorem arg2_eq (V : Valuation τ sig (Elt F)) : after ops V (main_arg2 : DevRef τ sig) = V (main_arg2 : DevRef τ sig) := by
  after_results

theorem arg3_eq (V : Valuation τ sig (Elt F)) : after ops V (main_arg3 : DevRef τ sig) = V (main_arg3 : DevRef τ sig) := by
  after_results

/-- The run with the result named: every weakly fair execution terminates with the result buffer at the reference's
    value of the index words and the table as they were at launch, and the four arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = refTerm (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v0).trans (out_eq _), (h c main_arg0).trans (arg0_eq _),
      (h c main_arg1).trans (arg1_eq _), (h c main_arg2).trans (arg2_eq _), (h c main_arg3).trans (arg3_eq _)⟩)
    (run_main m ρ)

end Cert.RefRun

end
-- ==== Proof.RefRead.lean ====
/-
  The reference's value read at an index. With every index word in [0, 999] (signed) the wrap leaves the words
  unchanged, every start index passes the range test, so the mask is one everywhere, and the gather's clamp of a
  start index into the table's rows is the row the word names: the value at (b, s, d) is the table at
  (row of ids[b, s], d).
-/
import proofs.«205516_g82884278878931_cont_9to1_m_1121_21_alg».proof.Proof.RefTerm
import proofs.«205516_g82884278878931_cont_9to1_m_1121_21_alg».proof.Proof.Spec
import Idealize.ShloMosaic.Lib.ValueIdx
import Idealize.ShloMosaic.Lib.ReduceAll

noncomputable section

namespace Cert.RefRun

open Cert.ReferenceIdeal Idealize.ShloMosaic Idealize.ShloMosaic.ValueIdx

variable {F : FTy → Type} [FloatOps F] [Cert.ReferenceIdeal.Facts]
open Cert.ReferenceIdeal.Facts₀ Cert.ReferenceIdeal.Facts

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- On words in [0, 999] the wrap is the identity: no word is negative. -/
theorem wrapped_eq (ids : IVec S4096x200 32) (hr : ∀ i, 0 ≤ (ids i).toInt ∧ (ids i).toInt ≤ 999) : wrapped ids = ids := by
  funext k
  show Scalar.select (IntOp.cmpi .slt (ids k) 0#32) _ (ids k) = ids k
  have hn : ¬ IntOp.cmpi .slt (ids k) 0#32 = 1#1 := by
    rw [IntOp.cmpi_slt, show (0#32 : BitVec 32).toInt = 0 from by decide]
    have := (hr k).1
    omega
  rw [eq_zero_of_ne_one hn, select_zero]

/-- The start index at (b, s, 0) is the wrapped word at (b, s). -/
theorem starts_apply (ids : IVec S4096x200 32) (i : S4096x200x1.Idx) : starts ids i = wrapped ids (ix2 (i 0) (i 1)) := by
  show wrapped ids _ = wrapped ids _
  congr 1
  funext a
  match a with
  | ⟨0, _⟩ => rfl
  | ⟨1, _⟩ => rfl

/-- Every start index passes the range test. -/
theorem inRange_one (ids : IVec S4096x200 32) (hr : ∀ i, 0 ≤ (ids i).toInt ∧ (ids i).toInt ≤ 999) (i : S4096x200x1.Idx) :
    inRange ids i = 1#1 := by
  show IntOp.andi (IntOp.cmpi .sge (starts ids i) 0#32) (IntOp.cmpi .sle (starts ids i) 999#32) = 1#1
  rw [IntOp.andi_eq_one, IntOp.cmpi_sge, IntOp.cmpi_sle, starts_apply, wrapped_eq ids hr,
    show (0#32 : BitVec 32).toInt = 0 from by decide, show (999#32 : BitVec 32).toInt = 999 from by decide]
  exact hr _

/-- The mask is one everywhere. -/
theorem mask_one (ids : IVec S4096x200 32) (hr : ∀ i, 0 ≤ (ids i).toInt ∧ (ids i).toInt ≤ 999) (k : S4096x200.Idx) :
    mask ids k = 1#1 := by
  unfold mask
  rw [Host.reduce_eq_foldl]
  exact foldl_andi_one _ (inRange_one ids hr) _

section Gather
variable {α : Type}

local notation "gd" => gather_S1000x128_S4096x200x1_S4096x200x128_2_0_n_n_0_2_1128

/-- On the table's row axis the operand index is the start index clamped into the rows: that axis is collapsed (no
    offset), not batching, and the only one the start index map names. -/
theorem operandIdx_row (idx : IVec S4096x200x1 32) (j : S4096x200x128.Idx) :
    GatherDims.start gd j idx (0 : Fin 2) + GatherDims.batchCoord gd j (0 : Fin 2) + GatherDims.offCoord gd j (0 : Fin 2)
      = (Cert.Spec.rowOf (idx (ix3 (n0 := 4096) (n1 := 200) (n2 := 1) (j 0) (j 1) 0))).val := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  have hmem : (0 : Fin 2) ∈ (GatherDims.startIndexMap gd) := List.mem_singleton.mpr rfl
  simp only [dif_pos hmem]
  have hsi : GatherDims.siIdx gd j ⟨List.idxOf (0 : Fin 2) (GatherDims.startIndexMap gd), List.idxOf_lt_length_iff.2 hmem⟩
      = ix3 (n0 := 4096) (n1 := 200) (n2 := 1) (j 0) (j 1) 0 := by
    funext b; refine Fin.ext ?_
    match b with
    | ⟨0, _⟩ => rfl
    | ⟨1, _⟩ => rfl
    | ⟨2, _⟩ => rfl
  rw [hsi]
  rfl

/-- On the table's column axis the operand index is the result's last coordinate: the start index map does not name
    that axis, it is not batching, and it is the one kept axis, read by the result's offset axis. -/
theorem operandIdx_col (idx : IVec S4096x200x1 32) (j : S4096x200x128.Idx) :
    GatherDims.start gd j idx (1 : Fin 2) + GatherDims.batchCoord gd j (1 : Fin 2) + GatherDims.offCoord gd j (1 : Fin 2) = (j 2).val := by
  rw [GatherDims.batchCoord_eq_zero _ _ _ List.not_mem_nil]
  unfold GatherDims.start GatherDims.offCoord
  have hnm : (1 : Fin 2) ∉ (GatherDims.startIndexMap gd) := by
    show (1 : Fin 2) ∉ [(0 : Fin 2)]
    decide
  have hk : (1 : Fin 2) ∈ (GatherDims.sKept gd) := (GatherDims.mem_sKept _ _).mpr ⟨by show (1 : Fin 2) ∉ [(0 : Fin 2)]; decide, List.not_mem_nil⟩
  simp only [dif_neg hnm, dif_pos hk, Nat.add_zero, Nat.zero_add]
  rfl

/-- THE GATHER READ AT (b, s, d): the table at the row its start index names — the start index read signed and clamped
    into the table's rows, which is the row of that word — and column d. -/
theorem gather_apply (tab : S1000x128.Idx → α) (idx : IVec S4096x200x1 32) (j : S4096x200x128.Idx) :
    Host.gather gd tab idx j
      = tab (ix2 (n0 := 1000) (n1 := 128) (Cert.Spec.rowOf (idx (ix3 (n0 := 4096) (n1 := 200) (n2 := 1) (j 0) (j 1) 0))) (j 2)) := by
  unfold Host.gather
  congr 1
  funext a
  refine Fin.ext ?_
  revert a
  refine Fin.forall_fin_two.mpr ⟨?_, ?_⟩
  · exact operandIdx_row idx j
  · exact operandIdx_col idx j

end Gather

/-- THE REFERENCE'S VALUE: with every index word in [0, 999], entry (b, s, d) of the result is the table at
    (row of ids[b, s], d) — the lookup. -/
theorem refTerm_eq_lookup (ids : IVec S4096x200 32) (tab : FVec F S1000x128 .f32)
    (hr : ∀ i, 0 ≤ (ids i).toInt ∧ (ids i).toInt ≤ 999) : refTerm ids tab = Cert.Spec.lookup ids tab := by
  funext j
  unfold refTerm
  rw [select_apply]
  have hm : broadcastInDim S4096x200x128 ![0, 1] bcast_S4096x200_S4096x200x128_0_1 (mask ids) j = 1#1 := mask_one ids hr _
  rw [hm, select_one, gather_apply, starts_apply, wrapped_eq ids hr]
  rfl

end Cert.RefRun

end
-- ==== Proof.RefRun.lean ====
/-
  The reference's run with its result named by the shared specification. When every index word lies in [0, 999]
  (signed), every weakly fair execution of the reference terminates with the result buffer holding the lookup of the
  table at the index words, as both were at launch, and with its four arguments unchanged.
-/
import proofs.«205516_g82884278878931_cont_9to1_m_1121_21_alg».proof.Proof.RefOps
import proofs.«205516_g82884278878931_cont_9to1_m_1121_21_alg».proof.Proof.RefRead
import proofs.«205516_g82884278878931_cont_9to1_m_1121_21_alg».proof.Proof.Spec
import Idealize.ShloMosaic.PureOps.Ideal

noncomputable section

namespace Cert.RefRun

open Idealize.ShloMosaic Idealize.ShloMosaic.TcCoe Idealize.SL.Sem

/-- The run at the ideal instance: the result is the lookup, the arguments are unchanged. -/
theorem run [Cert.ReferenceIdeal.Facts]
    (m : (ℓ : Loc Cert.ReferenceIdeal.nD Cert.ReferenceIdeal.τ Cert.ReferenceIdeal.sig) → Buf (Elt Ideal) ℓ) (g : Dev Cert.ReferenceIdeal.nD → PrngReg)
    (hr : ∀ (c : Dev Cert.ReferenceIdeal.nD) i,
      0 ≤ ((m ((c.tc : Thread Cert.ReferenceIdeal.nD Cert.ReferenceIdeal.τ).loc Cert.ReferenceIdeal.main_arg1)) i).toInt
      ∧ ((m ((c.tc : Thread Cert.ReferenceIdeal.nD Cert.ReferenceIdeal.τ).loc Cert.ReferenceIdeal.main_arg1)) i).toInt ≤ 999) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
          r.2.mem ((c.tc : Thread Cert.ReferenceIdeal.nD Cert.ReferenceIdeal.τ).loc Cert.ReferenceIdeal.main_v0) = Cert.Spec.lookup (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg3))
          ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run (Cert.ReferenceIdeal.defs (F := Ideal)) _ _).mono
    (fun _ h c => ⟨(h c).1.trans (refTerm_eq_lookup _ _ (hr c)), (h c).2⟩)
    (run_term (F := Ideal) m g)

end Cert.RefRun

end
-- ==== Proof.KIClaims.lean ====
/-
  The claims about the idealized kernel and the idealized reference, given the subcores' task. The precondition
  bounds every id, read as a signed integer, into the table's rows [0, 999]; under it the kernel's program runs
  and ends with the lookup of the ids in the table as its result and its arguments unchanged, and so does the
  reference; the two results are the one lookup, since the memories agree on the arguments. Each frame is its run
  with the value forgotten.
-/
import proofs.«205516_g82884278878931_cont_9to1_m_1121_21_alg».proof.Defs
import proofs.«205516_g82884278878931_cont_9to1_m_1121_21_alg».proof.Proof.Gen.KernelIdeal
import proofs.«205516_g82884278878931_cont_9to1_m_1121_21_alg».proof.Proof.Gen.ReferenceIdeal
import proofs.«205516_g82884278878931_cont_9to1_m_1121_21_alg».proof.Proof.Gen.Pre_input_domain
import proofs.«205516_g82884278878931_cont_9to1_m_1121_21_alg».proof.Proof.KIRun
import proofs.«205516_g82884278878931_cont_9to1_m_1121_21_alg».proof.Proof.PreRange
import proofs.«205516_g82884278878931_cont_9to1_m_1121_21_alg».proof.Proof.RefRun

noncomputable section

namespace Cert.Proof.KI

open Cert.KernelIdeal Cert.KernelIdeal.Gen

open Idealize.ShloMosaic
open Idealize.ShloMosaic.SparseCore (S V T)
open Idealize.SL.Sem

/-- Under the precondition every id of every device is in [0, 999]. -/
theorem ids_range (m : (ℓ : Loc nD τ sig) → Buf (Elt Ideal) ℓ)
    (hpre : Cert.Pre_KernelIdeal (hPre_input_domain := Cert.Pre_input_domain.Gen.facts) m) :
    ∀ (d : Dev nD) i, 0 ≤ ((m ((SparseCore.T d).loc main_arg1)) i).toInt ∧ ((m ((SparseCore.T d).loc main_arg1)) i).toInt ≤ 999 :=
  fun d => Cert.PreRange.turn_ids_range (F := Ideal) _ _ _ _ (hpre d)

/-- The kernel's program runs and leaves its arguments unchanged. -/
theorem frame_KI
    (htile : ∀ (m : (ℓ : Loc nD τ sig) → Buf (Elt Ideal) ℓ), (∀ d x, 0 ≤ (idxC m d x).toInt ∧ (idxC m d x).toInt ≤ 999) →
      (K (F := Ideal)).TileObl (D (F := Ideal)) 𝒱 (P m (idxC m)) v₀ 0) :
    Cert.frame_KernelIdeal (hKernelIdeal := Cert.KernelIdeal.Gen.facts) (hPre_input_domain := Cert.Pre_input_domain.Gen.facts) := by
  intro m g hpre
  have hr := ids_range m hpre
  exact (θ_run (Cert.KernelIdeal.defs (F := Ideal)) _ _).mono (fun _ h c => (h c).2) (run_main (F := Ideal) m g hr (htile m (idxC_range m hr)))

/-- The reference's program runs and leaves its arguments unchanged. -/
theorem frame_RI : Cert.frame_ReferenceIdeal (hReferenceIdeal := Cert.ReferenceIdeal.Gen.facts) (hPre_input_domain := Cert.Pre_input_domain.Gen.facts) := by
  intro m g hpre
  exact (θ_run (Cert.ReferenceIdeal.defs (F := Ideal)) _ _).mono (fun _ h c => (h c).2)
    (Cert.RefRun.run m g fun c => Cert.PreRange.turn_ids_range (F := Ideal) _ _ _ _ (hpre c))

/-- From memories that agree on the arguments both programs run and end with the same result, the lookup of the ids
    in the table, and their arguments unchanged. -/
theorem algebraic_KI
    (htile : ∀ (m : (ℓ : Loc nD τ sig) → Buf (Elt Ideal) ℓ), (∀ d x, 0 ≤ (idxC m d x).toInt ∧ (idxC m d x).toInt ≤ 999) →
      (K (F := Ideal)).TileObl (D (F := Ideal)) 𝒱 (P m (idxC m)) v₀ 0) :
    Cert.algebraic_KernelIdeal_ReferenceIdeal (hKernelIdeal := Cert.KernelIdeal.Gen.facts) (hReferenceIdeal := Cert.ReferenceIdeal.Gen.facts)
      (hPre_input_domain := Cert.Pre_input_domain.Gen.facts) := by
  intro m g m' g' hpre hag
  have hr := ids_range m hpre
  refine ⟨fun c => Cert.Spec.lookup (m ((c.tc : Thread nD τ).loc main_arg1)) (m ((c.tc : Thread nD τ).loc main_arg3)),
    run_main (F := Ideal) m g hr (htile m (idxC_range m hr)), ?_⟩
  have hr' : ∀ (c : Dev Cert.ReferenceIdeal.nD) i,
      0 ≤ ((m' ((c.tc : Thread Cert.ReferenceIdeal.nD Cert.ReferenceIdeal.τ).loc Cert.ReferenceIdeal.main_arg1)) i).toInt
      ∧ ((m' ((c.tc : Thread Cert.ReferenceIdeal.nD Cert.ReferenceIdeal.τ).loc Cert.ReferenceIdeal.main_arg1)) i).toInt ≤ 999 := by
    intro c i
    have e := congrFun (hag c).2.1 i
    rw [e]
    exact hr c i
  refine (θ_run (Cert.ReferenceIdeal.defs (F := Ideal)) _ _).mono (fun _ h c => ?_) (Cert.RefRun.run m' g' hr')
  obtain ⟨hv, h0, h1, h2, h3⟩ := h c
  refine ⟨hv.trans ?_, h0, h1, h2, h3⟩
  rw [(hag c).2.1, (hag c).2.2.2]

end Cert.Proof.KI

end
-- ==== Proof.KBSetup.lean ====
/-
  The lookup kernel as its launch sees it. Thirty-two vector subcores (sixteen on each of two SparseCores) each
  produce 25600 consecutive rows of the result: subcore s of SparseCore c is worker number 2 s + c. Subcore 0 of
  a SparseCore copies the table into the SparseCore's shared memory; all sixteen meet at the subcore barrier,
  after which each reads the shared table. This file fixes the resource algebra (the launch handshakes' rounds,
  the barrier cells' rounds, the transfers' counters), the barrier cells and their schedule — subcore 0's arrival
  at subcore j's cell hands over a read share of the shared table at the table's contents —, the arrays and the
  pieces of the scratch buffers as the program addresses them.
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.Kernel
import proofs.«205516_g82884278878931_cont_9to1_m_1121_21_alg».proof.Proof.Gen.Kernel.Skeleton
import proofs.«205516_g82884278878931_cont_9to1_m_1121_21_alg».proof.Proof.Spec
import proofs.«205516_g82884278878931_cont_9to1_m_1121_21_alg».proof.Proof.LibTileDeal

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (tileNo shareTok shareDrop)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The arrays -/

variable (m : (ℓ : Loc nD τ sig) → Buf (Elt F) ℓ) (ρ : Dev nD → PrngReg)

abbrev tabLoc (d : Dev nD) : Loc nD τ sig := (SparseCore.T d).loc main_arg3
abbrev idxLoc (d : Dev nD) : Loc nD τ sig := (SparseCore.T d).loc main_v0
abbrev outLoc (d : Dev nD) : Loc nD τ sig := (SparseCore.T d).loc main_v1
/-- SparseCore c's shared memory, as every subcore of it addresses it. -/
abbrev shRef (c : Fin τ.nSC) : DevRef τ sig := ⟨.shared, ⟨0, by decide⟩, c⟩
abbrev shLoc (d : Dev nD) (c : Fin τ.nSC) : Loc nD τ sig := (d, shRef c)

local notation "tabV" => (Memref.whole Cert.Kernel.main_arg3_scv : Memref Cert.Kernel.sig Kind.scVector Space.hbm Cert.Kernel.S1000x128 EltTy.f32)
local notation "idxV" => (Memref.whole Cert.Kernel.main_v0_scv : Memref Cert.Kernel.sig Kind.scVector Space.hbm Cert.Kernel.S6400x128 EltTy.i32)
local notation "outV" => (Memref.whole Cert.Kernel.main_v1_scv : Memref Cert.Kernel.sig Kind.scVector Space.hbm Cert.Kernel.S819200x128 EltTy.f32)
local notation "shV" => (Memref.whole Cert.Kernel.cc0_scratch0 : Memref Cert.Kernel.sig Kind.scVector Space.shared Cert.Kernel.S1000x128 EltTy.f32)
local notation "ivV" => (Memref.whole Cert.Kernel.cc0_scratch1 : Memref Cert.Kernel.sig Kind.scVector Space.vmem Cert.Kernel.S6x128 EltTy.i32)
local notation "bigV" => (Memref.whole Cert.Kernel.cc0_scratch2 : Memref Cert.Kernel.sig Kind.scVector Space.vmem Cert.Kernel.S768x128 EltTy.f32)

theorem nSub_eq : τ.nSub = 16 := rfl
theorem nSC_eq : τ.nSC = 2 := rfl

/-- The table's contents, which the shared copies hold after the barrier. -/
abbrev tabC (d : Dev nD) : S1000x128.Idx → Elt F .f32 := m (tabLoc d)

variable [FloatOps F]

/-! ## The barrier cells -/

/-- Subcore (c, j)'s barrier semaphore. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- The read share of the shared table that subcore j of a SparseCore holds after the barrier: one of sixteen
    tokens of the full share. -/
abbrev shShare (j : Fin τ.nSub) : PosShare TreeShare := shareTok fullShare 16 (Fin.cast nSub_eq j)

/-- What an arrival at subcore j's cell hands over: subcore 0's, subcore j's read share of the shared table at
    the table's contents; the others', nothing. -/
def bPay (g : GSem nD τ sig) (n : ℕ) : sProp 𝕄 :=
  match g with
  | ((d, .scVector c j), _) => if n = 0 then iprop(shLoc d c ↦{shShare j} (tabC m d : Buf (Elt F) (shLoc d c))) else iprop(emp)
  | _ => iprop(emp)

/-- The barrier cells' schedule: one round on each, of one unit duty per subcore of the SparseCore. -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

omit [FloatOps F] in
theorem bRd_duties₀ (d : Dev nD) (c : Fin τ.nSC) (j : Fin τ.nSub) : (bRd (F := F) m).duties (bcell d c j) 0 = (Finset.univ : Finset (Fin τ.nSub)).image Fin.val := by
  simp [bRd, isBar]
omit [FloatOps F] in
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
omit [FloatOps F] in
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a subcore owe for the barrier: a unit on every cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- A subcore's barrier kit: every cell's invariant of its SparseCore and that each has reached round 0, its own
    position at the origin of round 0, its duty token in every cell's round 0, and the credit for the sixteen
    units of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

end Cert.Proof.KB

end
-- ==== Proof.KBPay.lean ====
/-
  What the launch's handshakes carry for the lookup kernel. The index array (the ids re-laid as 6400 rows of
  128) and the table are only read: a read share of each goes to each SparseCore, the index array's on to each
  subcore, the table's to subcore 0, which fills the shared copy. The result's 819200 rows are cut into
  thirty-two equal parts, part 2 i + c to subcore i of SparseCore c, each handed over at the launch contents
  and brought back at the lookup's values. The shared copy travels to subcore 0 whole and comes back as the
  sixteen read tokens the barrier dealt, at the table's contents, with what was left of the share.
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.Kernel
import proofs.«205516_g82884278878931_cont_9to1_m_1121_21_alg».proof.Proof.Gen.Kernel.Skeleton
import proofs.«205516_g82884278878931_cont_9to1_m_1121_21_alg».proof.Proof.Spec
import proofs.«205516_g82884278878931_cont_9to1_m_1121_21_alg».proof.Proof.KBSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (tileNo shareTok shareDrop)

variable {F : FTy → Type}

local notation "𝕄" => MT nD τ sig (HIx 1) (Elt F) ℕ UU ℕ
local notation "tabV" => (Memref.whole Cert.Kernel.main_arg3_scv : Memref Cert.Kernel.sig Kind.scVector Space.hbm Cert.Kernel.S1000x128 EltTy.f32)
local notation "idxV" => (Memref.whole Cert.Kernel.main_v0_scv : Memref Cert.Kernel.sig Kind.scVector Space.hbm Cert.Kernel.S6400x128 EltTy.i32)
local notation "outV" => (Memref.whole Cert.Kernel.main_v1_scv : Memref Cert.Kernel.sig Kind.scVector Space.hbm Cert.Kernel.S819200x128 EltTy.f32)
local notation "shV" => (Memref.whole Cert.Kernel.cc0_scratch0 : Memref Cert.Kernel.sig Kind.scVector Space.shared Cert.Kernel.S1000x128 EltTy.f32)
local notation "ivV" => (Memref.whole Cert.Kernel.cc0_scratch1 : Memref Cert.Kernel.sig Kind.scVector Space.vmem Cert.Kernel.S6x128 EltTy.i32)
local notation "bigV" => (Memref.whole Cert.Kernel.cc0_scratch2 : Memref Cert.Kernel.sig Kind.scVector Space.vmem Cert.Kernel.S768x128 EltTy.f32)

variable (m : (ℓ : Loc nD τ sig) → Buf (Elt F) ℓ) (ρ : Dev nD → PrngReg)
-- the index array's contents when the kernel is called
variable (I : Dev nD → S6400x128.Idx → BitVec 32)

theorem hdivO : 32 ∣ S819200x128.size 0 := ⟨25600, rfl⟩
/-- Part w of the result's rows: rows [25600 w, 25600 w + 25600). -/
abbrev outSet (w : Fin 32) : Finset S819200x128.Idx := (Rect.part (s := S819200x128) (a₀ := 0) hdivO w).set

/-- The result as one function of the index array and the table: row p is the table's row named by word p of
    the index array read row-major (row p / 128, lane p % 128). -/
def outG (d : Dev nD) : S819200x128.Idx → Elt F .f32 := fun x =>
  tabC m d (ValueIdx.ix2 (Cert.Spec.rowOf (I d (ValueIdx.ix2 (n0 := 6400) (n1 := 128) ⟨(x 0).val / 128, by have := (x 0).isLt; change (x 0).val < 819200 at this; omega⟩ ⟨(x 0).val % 128, Nat.mod_lt _ (by decide)⟩))) (x 1))

abbrev core2 (c : Fin ((K (F := F)).nCore 0)) : Fin 2 := Fin.cast nCore_zero c
abbrev sub16 (i : Fin ((K (F := F)).nSub 0)) : Fin 16 := Fin.cast nSub_zero i

variable [FloatOps F]

def P : (K (F := F)).Pay (nD := nD) (Val := Elt F) (Name := ℕ) (U := UU) where
  st := fun q d c => match q with
    | 0 => iprop((idxLoc d ↦{shareTok fullShare 2 (core2 c)} (I d : Buf (Elt F) (idxLoc d)))
        ∗ (tabLoc d ↦{shareTok fullShare 2 (core2 c)} m (tabLoc d))
        ∗ bigSep Finset.univ fun i : Fin 16 => outLoc d ↦[outSet (tileNo (core2 c) i)]{fullShare} m (outLoc d))
  dn := fun q d c => match q with
    | 0 => bigSep Finset.univ fun i : Fin 16 => outLoc d ↦[outSet (tileNo (core2 c) i)]{fullShare} (outG m I d : Buf (Elt F) (outLoc d))
  go := fun q d c i => match q with
    | 0 => iprop((idxLoc d ↦{shareTok (shareTok fullShare 2 (core2 c)) 16 (sub16 i)} (I d : Buf (Elt F) (idxLoc d)))
        ∗ (outLoc d ↦[outSet (tileNo (core2 c) (sub16 i))]{fullShare} m (outLoc d))
        ∗ (if (sub16 i).val = 0 then iprop((tabLoc d ↦{shareTok fullShare 2 (core2 c)} m (tabLoc d)) ∗ ∃ f, shLoc d (coreOf c) ↦{fullShare} f) else iprop(emp)))
  td := fun q d c i => match q with
    | 0 => iprop((outLoc d ↦[outSet (tileNo (core2 c) (sub16 i))]{fullShare} (outG m I d : Buf (Elt F) (outLoc d)))
        ∗ (shLoc d (coreOf c) ↦{shareTok fullShare 16 (sub16 i)} (tabC m d : Buf (Elt F) (shLoc d (coreOf c))))
        ∗ (if (sub16 i).val = 0 then iprop(shLoc d (coreOf c) ↦{shareDrop fullShare 16} (tabC m d : Buf (Elt F) (shLoc d (coreOf c)))) else iprop(emp)))
  x := fun _ thr => match thr with
    | (d, .scVector c i) => if c.val < 2 then bkit m d c i else iprop(emp)
    | _ => iprop(emp)
  ox := fun _ thr => match thr with
    | (d, .scVector c _) => if c.val < 2 then oxV d c else 0
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      split at h
      · obtain ⟨j, rfl, rfl⟩ := oxV_apply_pos h
        rw [(K (F := F)).lev_V_reg d c (j.castLE hsub0) (show (sc_bar0 : Sem sig) ≠ (K (F := F)).go from sc_bar0_ne_go)]; exact ⟨le_rfl, by decide⟩
      · exact absurd h (lt_irrefl 0)
  ox_tc := fun _ _ => rfl
  ox_sc := fun _ _ _ h => absurd rfl h
  ox_vc := by
    intro q d c i h
    obtain rfl : q = 0 := Subsingleton.elim _ _
    dsimp only at h
    split at h
    · next hc => exact ⟨rfl, hc, i.isLt⟩
    · exact absurd rfl h

instance P_storable : (P (F := F) m I).IsStorable where
  st q d c := match q with
    | 0 => by unfold P; dsimp only; infer_instance
  dn q d c := match q with
    | 0 => by unfold P; dsimp only; infer_instance
  go q d c i := match q with
    | 0 => by unfold P; dsimp only; split <;> infer_instance
  td q d c i := match q with
    | 0 => by unfold P; dsimp only; split <;> infer_instance

end Cert.Proof.KB

end
-- ==== Proof.KBIdx.lean ====
/-
  The index array as the kernel receives it. The ids, 4096 rows of 200 words, are re-laid before the call as 6400
  rows of 128 words in row-major order: word number p of the one is word number p of the other. This file names the
  re-laid contents as a function of the launch memory and records that every word of it is a word of the ids, so a
  range that holds of every id holds of every word the kernel reads.
-/
import proofs.«205516_g82884278878931_cont_9to1_m_1121_21_alg».proof.Defs
import Idealize.ShloMosaic.Lib.SparseCore.Launch
import Idealize.ShloMosaic.Lib.Pipeline.Value
import Idealize.ShloMosaic.Lib.ValueLayout
import proofs.«205516_g82884278878931_cont_9to1_m_1121_21_alg».proof.Proof.Gen.Kernel
import proofs.«205516_g82884278878931_cont_9to1_m_1121_21_alg».proof.Proof.Spec

noncomputable section

namespace Cert.Proof.KB

open Cert.Kernel Cert.Kernel.Gen

open Idealize.ShloMosaic
open Idealize.ShloMosaic.SparseCore (S V T)

variable {F : FTy → Type}

/-- The ids of device d re-laid as 6400 rows of 128: the same words in row-major order. -/
def idxC (m : (ℓ : Loc nD τ sig) → Buf (Elt F) ℓ) (d : Dev nD) : S6400x128.Idx → BitVec 32 :=
  shapeCast S6400x128 (m ((SparseCore.T d).loc main_arg1)) shapeCasts_S4096x200_S6400x128

theorem idxC_eq (m : (ℓ : Loc nD τ sig) → Buf (Elt F) ℓ) (d : Dev nD) :
    idxC m d = shapeCast S6400x128 (m ((SparseCore.T d).loc main_arg1)) shapeCasts_S4096x200_S6400x128 := rfl

/-- Every word of the re-laid array is a word of the ids: a range that holds of every id holds of every word. -/
theorem idxC_range (m : (ℓ : Loc nD τ sig) → Buf (Elt F) ℓ)
    (hr : ∀ (d : Dev nD) i, 0 ≤ ((m ((SparseCore.T d).loc main_arg1)) i).toInt ∧ ((m ((SparseCore.T d).loc main_arg1)) i).toInt ≤ 999) :
    ∀ d x, 0 ≤ (idxC m d x).toInt ∧ (idxC m d x).toInt ≤ 999 := by
  intro d x
  unfold idxC shapeCast
  exact hr d _

/-- Word (r, l) of the re-laid array is id (b, s) whenever 128 r + l = 200 b + s. -/
theorem idxC_apply (m : (ℓ : Loc nD τ sig) → Buf (Elt F) ℓ) (d : Dev nD) (r : Fin 6400) (l : Fin 128) (b : Fin 4096) (s : Fin 200)
    (h : 128 * r.val + l.val = 200 * b.val + s.val) :
    idxC m d (ValueIdx.ix2 r l) = m ((SparseCore.T d).loc main_arg1) (ValueIdx.ix2 (n0 := 4096) (n1 := 200) b s) := by
  unfold idxC
  refine shapeCast_apply (s := S4096x200) (t := S6400x128) _ _ _ _ ?_
  rw [Shape.rowMajor_val_two (i := ValueIdx.ix2 (n0 := 4096) (n1 := 200) b s), Shape.rowMajor_val_two (i := ValueIdx.ix2 (n0 := 6400) (n1 := 128) r l)]
  show b.val * 200 + s.val = r.val * 128 + l.val
  omega

end Cert.Proof.KB

end
-- ==== Proof.KBLaunch.lean ====
/-
  The launch side of the lookup kernel's run. The TensorCore re-lays the ids, starts both SparseCores, waits for
  them and re-lays the result; each SparseCore's sequencer deals its operands to its sixteen subcores and gathers
  what they hand back. This file proves the deal and the gathering for one SparseCore: the read share of the index
  array is dealt again sixteen ways, the table's share and the shared copy of the table go to subcore 0, the
  sixteen parts of the result go one to each subcore; coming back, the parts are the result's at the lookup's
  values and the sixteen read tokens of the shared copy with subcore 0's remainder are the copy whole.
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.Kernel
import proofs.«205516_g82884278878931_cont_9to1_m_1121_21_alg».proof.Proof.Gen.Kernel.Skeleton
import proofs.«205516_g82884278878931_cont_9to1_m_1121_21_alg».proof.Proof.Spec
import proofs.«205516_g82884278878931_cont_9to1_m_1121_21_alg».proof.Proof.KBSetup
import proofs.«205516_g82884278878931_cont_9to1_m_1121_21_alg».proof.Proof.KBPay
import proofs.«205516_g82884278878931_cont_9to1_m_1121_21_alg».proof.Proof.KBIdx
import proofs.«205516_g82884278878931_cont_9to1_m_1121_21_alg».proof.Proof.LibTileDeal

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (tileNo shareTok shareDrop pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg)
variable (I : Dev nD → S6400x128.Idx → BitVec 32)

variable [FloatOps F]

/-! ## What the handshakes carry, as equations -/

theorem P_st (d : Dev nD) (c : Fin ((K (F := F)).nCore 0)) :
    (P m I).st 0 d c = iprop((idxLoc d ↦{shareTok fullShare 2 (core2 c)} (I d : Buf (Elt F) (idxLoc d)))
        ∗ (tabLoc d ↦{shareTok fullShare 2 (core2 c)} m (tabLoc d))
        ∗ bigSep Finset.univ fun i : Fin 16 => outLoc d ↦[outSet (tileNo (core2 c) i)]{fullShare} m (outLoc d)) := by
  unfold P; rfl

theorem P_dn (d : Dev nD) (c : Fin ((K (F := F)).nCore 0)) :
    (P m I).dn 0 d c = bigSep Finset.univ fun i : Fin 16 => outLoc d ↦[outSet (tileNo (core2 c) i)]{fullShare} (outG m I d : Buf (Elt F) (outLoc d)) := by
  unfold P; rfl

/-- What subcore i of a SparseCore is handed beyond its share of the index array and its part of the result. -/
abbrev goX (d : Dev nD) (c : Fin ((K (F := F)).nCore 0)) (i : Fin 16) : sProp 𝕄 :=
  if i.val = 0 then iprop((tabLoc d ↦{shareTok fullShare 2 (core2 c)} m (tabLoc d)) ∗ ∃ f, shLoc d (coreOf c) ↦{fullShare} f) else iprop(emp)
/-- What subcore i hands back beyond its part of the result and its read token of the shared copy. -/
abbrev tdX (d : Dev nD) (c : Fin ((K (F := F)).nCore 0)) (i : Fin 16) : sProp 𝕄 :=
  if i.val = 0 then iprop(shLoc d (coreOf c) ↦{shareDrop fullShare 16} (tabC m d : Buf (Elt F) (shLoc d (coreOf c)))) else iprop(emp)

theorem P_go (d : Dev nD) (c : Fin ((K (F := F)).nCore 0)) (i : Fin ((K (F := F)).nSub 0)) :
    (P m I).go 0 d c i = iprop((idxLoc d ↦{shareTok (shareTok fullShare 2 (core2 c)) 16 (sub16 i)} (I d : Buf (Elt F) (idxLoc d)))
        ∗ (outLoc d ↦[outSet (tileNo (core2 c) (sub16 i))]{fullShare} m (outLoc d))
        ∗ goX m d c (sub16 i)) := by
  unfold P; rfl

theorem P_td (d : Dev nD) (c : Fin ((K (F := F)).nCore 0)) (i : Fin ((K (F := F)).nSub 0)) :
    (P m I).td 0 d c i = iprop((outLoc d ↦[outSet (tileNo (core2 c) (sub16 i))]{fullShare} (outG m I d : Buf (Elt F) (outLoc d)))
        ∗ (shLoc d (coreOf c) ↦{shareTok fullShare 16 (sub16 i)} (tabC m d : Buf (Elt F) (shLoc d (coreOf c))))
        ∗ tdX m d c (sub16 i)) := by
  unfold P; rfl

/-! ## One SparseCore's deal and gathering -/

omit [FloatOps F] in
theorem bigSep_tasks (Φ : Fin 16 → sProp 𝕄) :
    (bigSep Finset.univ fun i : Fin ((K (F := F)).nSub 0) => Φ (sub16 i)) = bigSep Finset.univ Φ :=
  bigSep_congr fun _ _ => congrArg Φ (Fin.ext rfl)

omit [FloatOps F] in
/-- A family over the sixteen subcores that is empty but at subcore 0 is its member at subcore 0. -/
theorem bigSep_at_zero (X : sProp 𝕄) :
    (bigSep Finset.univ fun i : Fin 16 => if i.val = 0 then X else iprop(emp)) = X := by
  rw [SparseCore.bigSep_erase' (Finset.mem_univ (0 : Fin 16))]
  have h : (bigSep ((Finset.univ : Finset (Fin 16)).erase 0) fun i : Fin 16 => if i.val = 0 then X else iprop(emp)) = (iprop(emp) : sProp 𝕄) := by
    refine (bigSep_congr (Ψ := fun _ => (iprop(emp) : sProp 𝕄)) fun i hi => if_neg fun h => (Finset.mem_erase.mp hi).1 (Fin.ext h)).trans (bigSep_emp' _)
  rw [h, if_pos (show ((0 : Fin 16) : ℕ) = 0 from rfl)]
  exact BI.equiv_iff.mp ⟨sep_emp.1, sep_emp.2⟩

omit [FloatOps F] in
/-- The shared memory is among the sequencer's own buffers: it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem vecSplit : (K (F := F)).VecSplit (P m I) 0 := by
  intro d c
  rw [P_st, P_dn]
  simp only [P_go, P_td]
  rw [bigSep_tasks (F := F) (fun i => iprop((idxLoc d ↦{shareTok (shareTok fullShare 2 (core2 c)) 16 i} (I d : Buf (Elt F) (idxLoc d)))
        ∗ (outLoc d ↦[outSet (tileNo (core2 c) i)]{fullShare} m (outLoc d)) ∗ goX m d c i)),
    bigSep_tasks (F := F) (fun i => iprop((outLoc d ↦[outSet (tileNo (core2 c) i)]{fullShare} (outG m I d : Buf (Elt F) (outLoc d)))
        ∗ (shLoc d (coreOf c) ↦{shareTok fullShare 16 i} (tabC m d : Buf (Elt F) (shLoc d (coreOf c)))) ∗ tdX m d c i)),
    bigSep_sep', bigSep_sep', bigSep_sep', bigSep_sep', ownBufs_S]
  unfold goX tdX
  rw [bigSep_at_zero, bigSep_at_zero]
  iintro ⟨⟨Hidx, Htab, Hout⟩, Hsh, Hrest⟩; imodintro
  ihave Hidx' := (pointsTo_toks_split (ℓ := idxLoc d) (S := Finset.univ) (f := (I d : Buf (Elt F) (idxLoc d))) (shareTok fullShare 2 (core2 c)) 16) $$ Hidx
  icases Hidx' with ⟨-, Hidx⟩
  isplitl [Hidx Htab Hout Hsh]
  · isplitl [Hidx]; · iexact Hidx
    isplitl [Hout]; · iexact Hout
    isplitl [Htab]; · iexact Htab
    iexact Hsh
  iintro ⟨Hout, Htok, Hdrop⟩
  isplitl [Hout]; · iexact Hout
  isplitr [Hrest]
  · iexists (tabC m d : Buf (Elt F) (shLoc d (coreOf c)))
    iapply (pointsTo_toks_join (ℓ := shLoc d (coreOf c)) (S := Finset.univ) (f := (tabC m d : Buf (Elt F) (shLoc d (coreOf c)))) fullShare 16)
    isplitl [Hdrop]; · iexact Hdrop
    iexact Htok
  iexact Hrest

/-! ## The launch element of the ghost state, and what the launch hands over -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Subcore i's token in subcore j's cell, for every pair of subcores of a SparseCore. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

omit [FloatOps F] in
/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernel's own debts, regrouped: each subcore the sixteen units of its own cell. -/
theorem creds_b : ((P (F := F) m I).oxCred : sProp 𝕄)
    ⊢ bigSep Finset.univ fun dci : DCI => if dci.2.1.val < 2 then cred (tallyAt (bcell₃ dci) (some 0) (grid0.bound 1)) else (BI.emp : sProp 𝕄) := by
  unfold SparseCore.Cfg.Pay.oxCred
  rw [SparseCore.Cfg.bigSep_threads (fun thr : Thread nD τ => (cred ((P (F := F) m I).oxFrom 0 thr) : sProp 𝕄))]
  refine sep_elim_right.trans (sep_elim_right.trans ?_)
  rw [bigSep_univ_prod, bigSep_univ_prod (fun dci : DCI => if dci.2.1.val < 2 then (cred (tallyAt (bcell₃ dci) (some 0) (grid0.bound 1)) : sProp 𝕄) else BI.emp)]
  refine bigSep_mono fun d _ => ?_
  rw [bigSep_univ_prod, bigSep_univ_prod (fun ci : Fin τ.nSC × Fin τ.nSub => if ci.1.val < 2 then (cred (tallyAt (bcell₃ (d, ci)) (some 0) (grid0.bound 1)) : sProp 𝕄) else BI.emp)]
  refine bigSep_mono fun c _ => ?_
  dsimp only
  have hc : c.val < 2 := c.isLt
  simp only [hc, ↓reduceIte]
  have hox : ∀ i, (P (F := F) m I).oxFrom 0 (V d c i) = oxV d c := fun i => by
    rw [show (0 : ℕ) = (0 : Fin 1).val from rfl, (P m I).oxFrom_step, (P m I).oxFrom_end _ (n := (0 : Fin 1).val + 1) le_rfl, add_zero]; exact if_pos hc
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {J : Type} [DecidableEq J] {R : sProp 𝕄} [BI.Persistent R] {s : Finset J} {Φ Ψ : J → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m I).x q (SparseCore.T d)) = iprop(emp) :=
  bigSep_univ_of_subsingleton (0 : Fin 1)
theorem Px_S (d : Dev nD) (c : Fin τ.nSC) : (bigSep Finset.univ fun q : Fin 1 => (P (F := F) m I).x q (S d c)) = iprop(emp) :=
  bigSep_univ_of_subsingleton (0 : Fin 1)
theorem Px_V (d : Dev nD) (c : Fin τ.nSC) (i : Fin τ.nSub) :
    (bigSep Finset.univ fun q : Fin 1 => (P (F := F) m I).x q (V d c i)) = if c.val < 2 then bkit m d c i else iprop(emp) :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every subcore is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each subcore is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ (if dci.2.1.val < 2 then cred (tallyAt (bcell₃ dci) (some 0) (grid0.bound 1)) else BI.emp))

/-- One subcore's kit out of those. -/
theorem kit_intro (dci : DCI) : iprop(shared (F := F) m ∗ mine dci) ⊢ (if dci.2.1.val < 2 then bkit (F := F) m dci.1 dci.2.1 dci.2.2 else iprop(emp) : sProp 𝕄) := by
  obtain ⟨d, c, i⟩ := dci
  iintro ⟨⟨#Hinv, #Hr⟩, Hat, Htok, Hcred⟩
  dsimp only
  split
  · unfold bkit
    isplitr
    · icases Hinv with ⟨%κ, Hinv⟩
      iexists κ
      iapply (SparseCore.ent (bigSep_mono_frame (s := (Finset.univ : Finset (Fin (grid0.bound 1)))) (Φ := fun _ => iprop(emp))
        (R := bigSep Finset.univ fun x : DCI => cellInv EB (bRd (F := F) m) (κ (bcell₃ x)) (bcell₃ x)) fun j _ =>
          sep_elim_left.trans (bigSep_elim (Φ := fun x : DCI => (cellInv EB (bRd (F := F) m) (κ (bcell₃ x)) (bcell₃ x) : sProp 𝕄))
            (i := (d, c, Fin.castLE hsub0 j)) (Finset.mem_univ _))))
      isplitl; · iexact Hinv
      rw [bigSep_emp']; iempintro
    isplitl [Htok]; · iexact Htok
    isplitr
    · iapply (SparseCore.ent (bigSep_mono_frame (s := (Finset.univ : Finset (Fin (grid0.bound 1)))) (Φ := fun _ => iprop(emp))
        (R := bigSep Finset.univ fun x : DCI => reached EB (bcell₃ x) 0) fun j _ =>
          sep_elim_left.trans (bigSep_elim (Φ := fun x : DCI => (reached EB (bcell₃ x) 0 : sProp 𝕄)) (i := (d, c, Fin.castLE hsub0 j)) (Finset.mem_univ _))))
      isplitl; · iexact Hr
      rw [bigSep_emp']; iempintro
    isplitl [Hat]; · iexact Hat
    iexact Hcred
  · iempintro

/-- Each subcore its kit. -/
theorem kits_deal :
    iprop(shared (F := F) m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => if dci.2.1.val < 2 then cred (tallyAt (bcell₃ dci) (some 0) (grid0.bound 1)) else BI.emp))
      ⊢ (bigSep Finset.univ fun thr : Thread nD τ => bigSep Finset.univ fun q : Fin 1 => (P (F := F) m I).x q thr : sProp 𝕄) := by
  rw [SparseCore.Cfg.bigSep_threads (fun thr : Thread nD τ => bigSep Finset.univ fun q : Fin 1 => (P m I).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P (F := F) m I).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m I).x q thr) : sProp 𝕄) := by
  unfold u₀
  iintro ⟨Hu, Hcred, Hfree⟩
  ihave H := (ownU_split _ _) $$ Hu
  icases H with ⟨HH, HB⟩
  imod (Rounds.fund EB (bRd (F := F) m) bCells bToks) $$ HB with ⟨Hst, #Hr, Hat, Htok⟩
  ihave Hsems := (sems_b (F := F)) $$ Hfree
  imod (invs_b (F := F) m) $$ [Hsems Hst] with ⟨%κ, #Hinv⟩
  · isplitl [Hsems] <;> iassumption
  ihave Hcred' := (creds_b m I) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal m I)
  isplitr
  · isplitl; · iexists κ; iexact Hinv'
    iexact Hr'
  isplitl [Hat']; · iexact Hat'
  isplitl [Htok']; · iexact Htok'
  iexact Hcred'

end Cert.Proof.KB

end
-- ==== Proof.KBRun.lean ====
/-
  The run of the lookup kernel's program. On the TensorCore: the ids are re-laid as 6400 rows of 128, a read share
  of the re-laid array and of the table goes to each SparseCore with its sixteen parts of the result, the
  SparseCores are started and waited for, the thirty-two parts come back at the lookup's values and are the result
  array whole, which is re-laid as 4096 x 200 x 128. Read index by index the re-laid result is the lookup of the
  ids in the table: output row p = 200 b + s reads word p of the re-laid ids, which is id (b, s).
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.Kernel
import proofs.«205516_g82884278878931_cont_9to1_m_1121_21_alg».proof.Proof.Gen.Kernel.Skeleton
import proofs.«205516_g82884278878931_cont_9to1_m_1121_21_alg».proof.Proof.Spec
import proofs.«205516_g82884278878931_cont_9to1_m_1121_21_alg».proof.Proof.KBSetup
import proofs.«205516_g82884278878931_cont_9to1_m_1121_21_alg».proof.Proof.KBPay
import proofs.«205516_g82884278878931_cont_9to1_m_1121_21_alg».proof.Proof.KBIdx
import proofs.«205516_g82884278878931_cont_9to1_m_1121_21_alg».proof.Proof.LibTileDeal
import proofs.«205516_g82884278878931_cont_9to1_m_1121_21_alg».proof.Proof.KBLaunch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)
open Idealize.ShloMosaic.Transfers (tileNo shareTok shareDrop pointsTo_toks_split pointsTo_toks_join pointsTo_tiles tileParts_disjoint tileParts_cover)

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The value: the re-laid result is the lookup -/

omit [FloatOps F] in
/-- The result array at the kernel's values, re-laid as 4096 x 200 x 128, is the lookup of the ids in the table. -/
theorem out_value (d : Dev nD) :
    shapeCast S4096x200x128 (outG m (idxC m) d) shapeCasts_S819200x128_S4096x200x128
      = (Cert.Spec.lookup (m ((SparseCore.T d).loc main_arg1)) (m ((SparseCore.T d).loc main_arg3)) : S4096x200x128.Idx → Elt F .f32) := by
  funext j
  have h0 := (j 0).isLt; have h1 := (j 1).isLt
  change (j 0).val < 4096 at h0; change (j 1).val < 200 at h1
  have hp : (j 0).val * 200 + (j 1).val < 819200 := by omega
  rw [shapeCast_apply (s := S819200x128) (t := S4096x200x128) _ _ j (ValueIdx.ix2 (n0 := 819200) (n1 := 128) ⟨(j 0).val * 200 + (j 1).val, hp⟩ (j 2))
    (by rw [Shape.rowMajor_val_two (i := ValueIdx.ix2 (n0 := 819200) (n1 := 128) ⟨(j 0).val * 200 + (j 1).val, hp⟩ (j 2)), Shape.rowMajor_val_three (i := j)]; rfl)]
  unfold outG Cert.Spec.lookup
  show m (tabLoc d) (ValueIdx.ix2 (Cert.Spec.rowOf (idxC m d (ValueIdx.ix2 (n0 := 6400) (n1 := 128) ⟨((j 0).val * 200 + (j 1).val) / 128, _⟩ ⟨((j 0).val * 200 + (j 1).val) % 128, _⟩))) (j 2)) = _
  rw [idxC_apply m d _ _ (j 0) (j 1) (by show 128 * (((j 0).val * 200 + (j 1).val) / 128) + ((j 0).val * 200 + (j 1).val) % 128 = 200 * (j 0).val + (j 1).val; omega)]

/-! ## @main on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
/-- The two host operations: the ids re-laid before the call, the result re-laid after it. -/
abbrev op1 : HloOp τ sig (Elt F) := StableHlo.reshape main_arg1 main_v0 rfl shapeCasts_S4096x200_S6400x128
abbrev op2 : HloOp τ sig (Elt F) := StableHlo.reshape main_v1 main_v2 rfl shapeCasts_S819200x128_S4096x200x128

abbrev argLoc (d : Dev nD) (b : Ref sig .tc) : Loc nD τ sig := (SparseCore.T d).loc b

omit [FloatOps F] in
theorem unscopedBufs_eq (d : Dev nD) (W : (b : Ref sig .tc) → Buf (Elt F) ((d.tc : Thread nD τ).loc b)) :
    (unscopedBufs d W : sProp 𝕄)
      = iprop((argLoc d main_arg0 ↦{fullShare} W main_arg0) ∗ (argLoc d main_arg1 ↦{fullShare} W main_arg1) ∗ (argLoc d main_arg2 ↦{fullShare} W main_arg2)
          ∗ (argLoc d main_arg3 ↦{fullShare} W main_arg3) ∗ (argLoc d main_v0 ↦{fullShare} W main_v0) ∗ (argLoc d main_v1 ↦{fullShare} W main_v1)
          ∗ (argLoc d main_v2 ↦{fullShare} W main_v2)) := by
  unfold unscopedBufs
  rw [show (Finset.univ.filter fun b : Ref sig .tc => ¬ b.isScoped) = {main_arg0, main_arg1, main_arg2, main_arg3, main_v0, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
/-- Two distinct arrays of a device held whole. -/
theorem held_pair (d : Dev nD) {a b : DevRef τ sig} (h : a ≠ b) (W : Valuation τ sig (Elt F)) :
    (held (SparseCore.T d) {a, b} W : sProp 𝕄) = iprop((((d, a) : Loc nD τ sig) ↦{fullShare} W a) ∗ (((d, b) : Loc nD τ sig) ↦{fullShare} W b)) := by
  unfold held
  rw [SparseCore.bigSep_insert' (by rw [Finset.mem_singleton]; exact h), bigSep_singleton]

/-- The launch valuation; and the valuation after the call: the result array at the kernel's values. -/
def V0 (d : Dev nD) : Valuation τ sig (Elt F) := fun b => m (d, b)
def V4 (d : Dev nD) : Valuation τ sig (Elt F) := Function.update (V0 m d) v1' (outG m (idxC m) d : Buf (Elt F) (outLoc d))

theorem op1_a1 (d : Dev nD) : (op1 (F := F)).result (V0 m d) a1' = m (argLoc d main_arg1) :=
  (op1 (F := F)).result_of_not_mem (V0 m d) (show a1' ∉ ({v0'} : Finset (DevRef τ sig)) by decide)
theorem op1_v0 (d : Dev nD) : (op1 (F := F)).result (V0 m d) v0' = (idxC m d : Buf (Elt F) (idxLoc d)) :=
  ((op1 (F := F)).result_of_mem (V0 m d) (Finset.mem_singleton_self _)).trans rfl
theorem V4_v1 (d : Dev nD) : V4 m d v1' = (outG m (idxC m) d : Buf (Elt F) (outLoc d)) := Function.update_self _ _ _
theorem V4_v2 (d : Dev nD) : V4 m d v2' = m (argLoc d main_v2) := Function.update_of_ne (show v2' ≠ v1' by decide) _ _
theorem op2_v1 (d : Dev nD) : (op2 (F := F)).result (V4 m d) v1' = (outG m (idxC m) d : Buf (Elt F) (outLoc d)) :=
  ((op2 (F := F)).result_of_not_mem (V4 m d) (show v1' ∉ ({v2'} : Finset (DevRef τ sig)) by decide)).trans (V4_v1 m d)
theorem op2_v2 (d : Dev nD) : (op2 (F := F)).result (V4 m d) v2'
    = (shapeCast S4096x200x128 (outG m (idxC m) d) shapeCasts_S819200x128_S4096x200x128 : Buf (Elt F) (argLoc d main_v2)) := by
  rw [(op2 (F := F)).result_of_mem (V4 m d) (Finset.mem_singleton_self _)]
  show (fun i => shapeCast S4096x200x128 (V4 m d v1') shapeCasts_S819200x128_S4096x200x128 i) = _
  rw [V4_v1]

omit [FloatOps F] in
theorem bigSep_cores (Φ : Fin 2 → sProp 𝕄) :
    (bigSep Finset.univ fun c : Fin ((K (F := F)).nCore 0) => Φ (core2 c)) = bigSep Finset.univ Φ :=
  bigSep_congr fun _ _ => congrArg Φ (Fin.ext rfl)

/-- The operands of both SparseCores: a read token of the index array and of the table each, and the result's
    thirty-two parts. -/
theorem st0_eq (d : Dev nD) : (bigSep Finset.univ fun c : Fin ((K (F := F)).nCore 0) => (P m (idxC m)).st 0 d c)
    = iprop((bigSep Finset.univ fun c : Fin 2 => idxLoc d ↦{shareTok fullShare 2 c} (idxC m d : Buf (Elt F) (idxLoc d)))
        ∗ (bigSep Finset.univ fun c : Fin 2 => tabLoc d ↦{shareTok fullShare 2 c} m (tabLoc d))
        ∗ (outLoc d ↦{fullShare} m (outLoc d))) := by
  simp only [P_st]
  rw [bigSep_cores (F := F) (fun c => iprop((idxLoc d ↦{shareTok fullShare 2 c} (idxC m d : Buf (Elt F) (idxLoc d)))
        ∗ (tabLoc d ↦{shareTok fullShare 2 c} m (tabLoc d))
        ∗ bigSep Finset.univ fun i : Fin 16 => outLoc d ↦[outSet (tileNo c i)]{fullShare} m (outLoc d))),
    bigSep_sep', bigSep_sep',
    pointsTo_tiles (ℓ := outLoc d) (q := fullShare) (fun c i => outSet (tileNo c i)) (tileParts_disjoint hdivO) (tileParts_cover hdivO) (m (outLoc d))]

/-- What both SparseCores bring back: the result array whole, at the kernel's values. -/
theorem dn0_eq (d : Dev nD) : (bigSep Finset.univ fun c : Fin ((K (F := F)).nCore 0) => (P m (idxC m)).dn 0 d c)
    = (outLoc d ↦{fullShare} (outG m (idxC m) d : Buf (Elt F) (outLoc d)) : sProp 𝕄) := by
  simp only [P_dn]
  rw [bigSep_cores (F := F) (fun c => bigSep Finset.univ fun i : Fin 16 => outLoc d ↦[outSet (tileNo c i)]{fullShare} (outG m (idxC m) d : Buf (Elt F) (outLoc d))),
    pointsTo_tiles (ℓ := outLoc d) (q := fullShare) (fun c i => outSet (tileNo c i)) (tileParts_disjoint hdivO) (tileParts_cover hdivO) (outG m (idxC m) d : Buf (Elt F) (outLoc d))]

/-- What @main leaves the claim: the four arguments at their launch contents (the table at the share kept on the
    TensorCore) and the result at the re-laid kernel's values. -/
abbrev FIN (d : Dev nD) : sProp 𝕄 :=
  iprop((argLoc d main_arg0 ↦{fullShare} m (argLoc d main_arg0)) ∗ (argLoc d main_arg1 ↦{fullShare} m (argLoc d main_arg1))
    ∗ (argLoc d main_arg2 ↦{fullShare} m (argLoc d main_arg2)) ∗ (argLoc d main_arg3 ↦{shareDrop fullShare 2} m (argLoc d main_arg3))
    ∗ (argLoc d main_v2 ↦{fullShare} (shapeCast S4096x200x128 (outG m (idxC m) d) shapeCasts_S819200x128_S4096x200x128 : Buf (Elt F) (argLoc d main_v2))))

theorem hOp1 : (op1 (F := F)).bufs ⊆ ({a1', v0'} : Finset (DevRef τ sig)) := Finset.Subset.refl _
theorem hOp2 : (op2 (F := F)).bufs ⊆ ({v1', v2'} : Finset (DevRef τ sig)) := Finset.Subset.refl _

/-- @main on device d's TensorCore: the ids re-laid, the call, the result re-laid. -/
theorem hmain (κ : GSem nD τ sig → ℕ) (d : Dev nD) :
    iprop((K (F := F)).ctx EH (P m (idxC m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Ha2, Ha3, Hv0, Hv1, Hv2⟩, -, -⟩, -⟩
  -- the ids re-laid
  iapply (wp_hlo_within 𝒱 (SparseCore.T d) none Set.univ (op := op1) (S := {a1', v0'}) hOp1 (V := V0 m d)) $$ [Hb Ha1 Hv0]
  · isplitl [Hb]; · iexact Hb
    rw [held_pair d (show a1' ≠ v0' by decide)]
    isplitl [Ha1]; · iexact Ha1
    iexact Hv0
  iintro ⟨Hb, Hheld⟩
  rw [wp_ret]; imodintro
  ihave Hh := (Entails.of_eq (held_pair (F := F) d (show a1' ≠ v0' by decide) ((op1 (F := F)).result (V0 m d)))) $$ Hheld
  rw [op1_a1, op1_v0]
  icases Hh with ⟨Ha1, Hv0⟩
  -- a read token of the re-laid ids and of the table for each SparseCore
  ihave Hv0' := (pointsTo_toks_split (ℓ := idxLoc d) (S := Finset.univ) (f := (idxC m d : Buf (Elt F) (idxLoc d))) fullShare 2) $$ Hv0
  icases Hv0' with ⟨-, Hidx⟩
  ihave Ha3' := (pointsTo_toks_split (ℓ := tabLoc d) (S := Finset.univ) (f := m (tabLoc d)) fullShare 2) $$ Ha3
  icases Ha3' with ⟨Ha3, Htab⟩
  -- the call
  iapply ((K (F := F)).wp_run (D (F := F)) 𝒱 (EH := EH) (P := P m (idxC m)) κ d 0) $$ [Hst Hidx Htab Hv1 Hb Ha0 Ha1 Ha2 Ha3 Hv2]
  isplitr; · iexact Hctx
  isplitl [Hst]; · iexact Hst
  isplitl [Hidx Htab Hv1]
  · rw [st0_eq]
    isplitl [Hidx]; · iexact Hidx
    isplitl [Htab]; · iexact Htab
    iexact Hv1
  iintro ⟨Hst, Hdn⟩
  ihave Hv1 := (Entails.of_eq (dn0_eq m d)) $$ Hdn
  -- the result re-laid
  iapply (wp_hlo_within 𝒱 (SparseCore.T d) none Set.univ (op := op2) (S := {v1', v2'}) hOp2 (V := V4 m d)) $$ [Hb Hv1 Hv2]
  · isplitl [Hb]; · iexact Hb
    rw [held_pair d (show v1' ≠ v2' by decide), V4_v1, V4_v2]
    isplitl [Hv1]; · iexact Hv1
    iexact Hv2
  iintro ⟨Hb, Hheld⟩
  ihave Hh := (Entails.of_eq (held_pair (F := F) d (show v1' ≠ v2' by decide) ((op2 (F := F)).result (V4 m d)))) $$ Hheld
  rw [op2_v1, op2_v2]
  icases Hh with ⟨-, Hv2⟩
  rw [wp_ret]; imodintro; imodintro
  isplitl [Hst]; · iexact Hst
  isplitl [Ha0]; · iexact Ha0
  isplitl [Ha1]; · iexact Ha1
  isplitl [Ha2]; · iexact Ha2
  isplitl [Ha3]; · iexact Ha3
  iexact Hv2

/-! ## What the final memory reads -/

def fq (d : Dev nD) (s' : Phys nD τ sig (Elt F)) : Prop :=
  s'.mem.mem (argLoc d main_v2) = (shapeCast S4096x200x128 (outG m (idxC m) d) shapeCasts_S819200x128_S4096x200x128 : Buf (Elt F) (argLoc d main_v2))
    ∧ s'.mem.mem (argLoc d main_arg0) = m (argLoc d main_arg0) ∧ s'.mem.mem (argLoc d main_arg1) = m (argLoc d main_arg1)
    ∧ s'.mem.mem (argLoc d main_arg2) = m (argLoc d main_arg2) ∧ s'.mem.mem (argLoc d main_arg3) = m (argLoc d main_arg3)

omit [FloatOps F] in
/-- An array held whole, at any share, is what the memory holds. -/
theorem SI_read (s' : Phys nD τ sig (Elt F)) (ℓ : Loc nD τ sig) (q : PosShare TreeShare) (f : Buf (Elt F) ℓ) :
    iprop(SI s' ∗ ℓ ↦{q} f) ⊢ (iprop(⌜s'.mem.mem ℓ = f⌝ ∗ SI s' ∗ ℓ ↦{q} f) : sProp 𝕄) :=
  persistent_entails_right ((SI_pointsTo_agree (st := s') (ℓ := ℓ) (I := Finset.univ) (q := q) (f := f)).trans
    (BI.pure_mono fun hx => funext fun i => hx i (Finset.mem_univ i)))

theorem hfin (d : Dev nD) (s' : Phys nD τ sig (Elt F)) : iprop(FIN m d ∗ SI s') ⊢ (⌜fq m d s'⌝ : sProp 𝕄) := by
  iintro ⟨⟨H0, H1, H2, H3, Hv⟩, HSI⟩
  ihave H := (SI_read s' (argLoc d main_arg0) fullShare (m (argLoc d main_arg0))) $$ [HSI H0]
  · isplitl [HSI] <;> iassumption
  icases H with ⟨%h0, HSI, -⟩
  ihave H := (SI_read s' (argLoc d main_arg1) fullShare (m (argLoc d main_arg1))) $$ [HSI H1]
  · isplitl [HSI] <;> iassumption
  icases H with ⟨%h1, HSI, -⟩
  ihave H := (SI_read s' (argLoc d main_arg2) fullShare (m (argLoc d main_arg2))) $$ [HSI H2]
  · isplitl [HSI] <;> iassumption
  icases H with ⟨%h2, HSI, -⟩
  ihave H := (SI_read s' (argLoc d main_arg3) (shareDrop fullShare 2) (m (argLoc d main_arg3))) $$ [HSI H3]
  · isplitl [HSI] <;> iassumption
  icases H with ⟨%h3, HSI, -⟩
  ihave H := (SI_read s' (argLoc d main_v2) fullShare
    (shapeCast S4096x200x128 (outG m (idxC m) d) shapeCasts_S819200x128_S4096x200x128 : Buf (Elt F) (argLoc d main_v2))) $$ [HSI Hv]
  · isplitl [HSI] <;> iassumption
  icases H with ⟨%hv, -, -⟩
  ipureintro; exact ⟨hv, h0, h1, h2, h3⟩

/-! ## The program's run -/

/-- The run of the kernel's program, given the subcores' task: every weakly fair execution of the device's threads
    terminates, nothing faulting; the result is the lookup of the ids in the table and the arguments are unchanged. -/
theorem run_main [∀ e, Nonempty (Elt F e)]
    (hr : ∀ (d : Dev nD) i, 0 ≤ ((m ((SparseCore.T d).loc main_arg1)) i).toInt ∧ ((m ((SparseCore.T d).loc main_arg1)) i).toInt ≤ 999)
    (htile : (K (F := F)).TileObl (D (F := F)) 𝒱 (P m (idxC m)) v₀ 0) :
    θ_run (Cert.Kernel.defs (F := F)) (Cert.Kernel.threads (F := F)) ⟨m, fun _ => 0, ρ⟩
      (fun r => ∀ c : Dev nD,
        r.2.mem ((c.tc : Thread nD τ).loc main_v2) = (Cert.Spec.lookup (m ((c.tc : Thread nD τ).loc main_arg1)) (m ((c.tc : Thread nD τ).loc main_arg3)) : Buf (Elt F) _)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  SparseCore.Cfg.θ_run_sc (K := K (F := F)) (D := D (F := F)) (𝒱 := 𝒱) (EH := EH) (P := P m (idxC m)) facts v₀
    (fun q hq => match q with | 0 => nomatch hq)
    (fun q _ => match q with | 0 => htile)
    (fun q _ => match q with | 0 => vecSplit m (idxC m))
    m ρ main (fun _ => iprop(emp)) (FIN m) (u₀ (F := F)) (hu₀ m (idxC m)) (hmain m ρ) (fq m) (hfin m) _
    (fun s' h c => by
      obtain ⟨hv, h0, h1, h2, h3⟩ := h c
      exact ⟨hv.trans (out_value m c), h0, h1, h2, h3⟩)

end Cert.Proof.KB

end
-- ==== Proof.KBClaims.lean ====
/-
  The claim about the kernel as printed, at the bit-exact instance, given the subcores' task. The precondition
  bounds every id, read as a signed integer, into the table's rows [0, 999]; under it the program runs and ends
  with its arguments unchanged: the frame is the run with the value forgotten.
-/
import proofs.«205516_g82884278878931_cont_9to1_m_1121_21_alg».proof.Defs
import proofs.«205516_g82884278878931_cont_9to1_m_1121_21_alg».proof.Proof.Gen.Kernel
import proofs.«205516_g82884278878931_cont_9to1_m_1121_21_alg».proof.Proof.Gen.Pre_input_domain
import proofs.«205516_g82884278878931_cont_9to1_m_1121_21_alg».proof.Proof.KBRun
import proofs.«205516_g82884278878931_cont_9to1_m_1121_21_alg».proof.Proof.PreRange

noncomputable section

namespace Cert.Proof.KB

open Cert.Kernel Cert.Kernel.Gen

open Idealize.ShloMosaic
open Idealize.ShloMosaic.SparseCore (S V T)
open Idealize.SL.Sem

/-- Under the precondition every id of every device is in [0, 999]. -/
theorem ids_range (m : (ℓ : Loc nD τ sig) → Buf (Elt Bits) ℓ)
    (hpre : Cert.Pre_Kernel (hPre_input_domain := Cert.Pre_input_domain.Gen.facts) m) :
    ∀ (d : Dev nD) i, 0 ≤ ((m ((SparseCore.T d).loc main_arg1)) i).toInt ∧ ((m ((SparseCore.T d).loc main_arg1)) i).toInt ≤ 999 :=
  fun d => Cert.PreRange.turn_ids_range (F := Bits) _ _ _ _ (hpre d)

/-- The kernel's program runs and leaves its arguments unchanged. -/
theorem frame_KB
    (htile : ∀ (m : (ℓ : Loc nD τ sig) → Buf (Elt Bits) ℓ), (∀ d x, 0 ≤ (idxC m d x).toInt ∧ (idxC m d x).toInt ≤ 999) →
      (K (F := Bits)).TileObl (D (F := Bits)) 𝒱 (P m (idxC m)) v₀ 0) :
    Cert.frame_Kernel (hKernel := Cert.Kernel.Gen.facts) (hPre_input_domain := Cert.Pre_input_domain.Gen.facts) := by
  intro m g hpre
  have hr := ids_range m hpre
  exact (θ_run (Cert.Kernel.defs (F := Bits)) _ _).mono (fun _ h c => (h c).2) (run_main (F := Bits) m g hr (htile m (idxC_range m hr)))

end Cert.Proof.KB

end
-- ==== Proof.KIPieces.lean ====
/-
  The pieces of a subcore's scratch buffers and of the result, as the program addresses them: the index
  scratch's three two-row slots and six rows (each row a list of 128 index words), the row buffer's six pieces
  of 128 rows, the six 128-row windows of the result that one trip of the ring writes. A slot is its two rows.
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.KernelIdeal
import proofs.«205516_g82884278878931_cont_9to1_m_1121_21_alg».proof.Proof.Gen.KernelIdeal.Skeleton
import proofs.«205516_g82884278878931_cont_9to1_m_1121_21_alg».proof.Proof.Spec
import proofs.«205516_g82884278878931_cont_9to1_m_1121_21_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (tileNo shareTok shareDrop)

variable {F : FTy → Type}

local notation "𝕄" => MT nD τ sig (HIx 1) (Elt F) ℕ UU ℕ
local notation "tabV" => (Memref.whole Cert.KernelIdeal.main_arg3_scv : Memref Cert.KernelIdeal.sig Kind.scVector Space.hbm Cert.KernelIdeal.S1000x128 EltTy.f32)
local notation "idxV" => (Memref.whole Cert.KernelIdeal.main_v0_scv : Memref Cert.KernelIdeal.sig Kind.scVector Space.hbm Cert.KernelIdeal.S6400x128 EltTy.i32)
local notation "outV" => (Memref.whole Cert.KernelIdeal.main_v1_scv : Memref Cert.KernelIdeal.sig Kind.scVector Space.hbm Cert.KernelIdeal.S819200x128 EltTy.f32)
local notation "shV" => (Memref.whole Cert.KernelIdeal.cc0_scratch0 : Memref Cert.KernelIdeal.sig Kind.scVector Space.shared Cert.KernelIdeal.S1000x128 EltTy.f32)
local notation "ivV" => (Memref.whole Cert.KernelIdeal.cc0_scratch1 : Memref Cert.KernelIdeal.sig Kind.scVector Space.vmem Cert.KernelIdeal.S6x128 EltTy.i32)
local notation "bigV" => (Memref.whole Cert.KernelIdeal.cc0_scratch2 : Memref Cert.KernelIdeal.sig Kind.scVector Space.vmem Cert.KernelIdeal.S768x128 EltTy.f32)

variable [FloatOps F]

/-! ## The scratch buffers' pieces, as the program addresses them -/

abbrev cV (L : grid0.Coords) : Fin τ.nSC := (L 0).castLE hcore0
abbrev jV (L : grid0.Coords) : Fin τ.nSub := (L 1).castLE hsub0

abbrev ivS0 : Memref sig .scVector .vmem S2x128 .i32 := (ivV).slice (Rect.unit (s := S6x128) ![0, 0] S2x128.size inb_S6x128_S2x128_0_0) (fun _ => rfl)
abbrev ivS1 : Memref sig .scVector .vmem S2x128 .i32 := (ivV).slice (Rect.unit (s := S6x128) ![2, 0] S2x128.size inb_S6x128_S2x128_2_0) (fun _ => rfl)
abbrev ivS2 : Memref sig .scVector .vmem S2x128 .i32 := (ivV).slice (Rect.unit (s := S6x128) ![4, 0] S2x128.size inb_S6x128_S2x128_4_0) (fun _ => rfl)
abbrev bigP0 : Memref sig .scVector .vmem S128x128 .f32 := (bigV).slice (Rect.unit (s := S768x128) ![0, 0] S128x128.size inb_S768x128_S128x128_0_0) (fun _ => rfl)
abbrev bigP1 : Memref sig .scVector .vmem S128x128 .f32 := (bigV).slice (Rect.unit (s := S768x128) ![128, 0] S128x128.size inb_S768x128_S128x128_128_0) (fun _ => rfl)
abbrev bigP2 : Memref sig .scVector .vmem S128x128 .f32 := (bigV).slice (Rect.unit (s := S768x128) ![256, 0] S128x128.size inb_S768x128_S128x128_256_0) (fun _ => rfl)
abbrev bigP3 : Memref sig .scVector .vmem S128x128 .f32 := (bigV).slice (Rect.unit (s := S768x128) ![384, 0] S128x128.size inb_S768x128_S128x128_384_0) (fun _ => rfl)
abbrev bigP4 : Memref sig .scVector .vmem S128x128 .f32 := (bigV).slice (Rect.unit (s := S768x128) ![512, 0] S128x128.size inb_S768x128_S128x128_512_0) (fun _ => rfl)
abbrev bigP5 : Memref sig .scVector .vmem S128x128 .f32 := (bigV).slice (Rect.unit (s := S768x128) ![640, 0] S128x128.size inb_S768x128_S128x128_640_0) (fun _ => rfl)

abbrev outCh0 (L : grid0.Coords) (k : Fin k0_t1_loop.trips) : Memref sig .scVector .hbm S128x128 .f32 := (outV).slice (Rect.unit (s := S819200x128) (k0_off5 L k 0#32 0#32) S128x128.size (k0_off5_inb L k 0 0)) (fun _ => rfl)
abbrev outCh1 (L : grid0.Coords) (k : Fin k0_t1_loop.trips) : Memref sig .scVector .hbm S128x128 .f32 := (outV).slice (Rect.unit (s := S819200x128) (k0_off5 L k 0#32 128#32) S128x128.size (k0_off5_inb L k 0 1)) (fun _ => rfl)
abbrev outCh2 (L : grid0.Coords) (k : Fin k0_t1_loop.trips) : Memref sig .scVector .hbm S128x128 .f32 := (outV).slice (Rect.unit (s := S819200x128) (k0_off5 L k 1#32 0#32) S128x128.size (k0_off5_inb L k 1 0)) (fun _ => rfl)
abbrev outCh3 (L : grid0.Coords) (k : Fin k0_t1_loop.trips) : Memref sig .scVector .hbm S128x128 .f32 := (outV).slice (Rect.unit (s := S819200x128) (k0_off5 L k 1#32 128#32) S128x128.size (k0_off5_inb L k 1 1)) (fun _ => rfl)
abbrev outCh4 (L : grid0.Coords) (k : Fin k0_t1_loop.trips) : Memref sig .scVector .hbm S128x128 .f32 := (outV).slice (Rect.unit (s := S819200x128) (k0_off5 L k 2#32 0#32) S128x128.size (k0_off5_inb L k 2 0)) (fun _ => rfl)
abbrev outCh5 (L : grid0.Coords) (k : Fin k0_t1_loop.trips) : Memref sig .scVector .hbm S128x128 .f32 := (outV).slice (Rect.unit (s := S819200x128) (k0_off5 L k 2#32 128#32) S128x128.size (k0_off5_inb L k 2 1)) (fun _ => rfl)
abbrev ivL0 : Memref sig .scVector .vmem S128 .i32 := ((ivV).slice (Rect.unit (s := S6x128) ![0, 0] S1x128.size inb_S6x128_S1x128_0_0) (fun _ => rfl)).squeeze S128 squeezes_S1x128_S128
abbrev ivL1 : Memref sig .scVector .vmem S128 .i32 := ((ivV).slice (Rect.unit (s := S6x128) ![1, 0] S1x128.size inb_S6x128_S1x128_1_0) (fun _ => rfl)).squeeze S128 squeezes_S1x128_S128
abbrev ivL2 : Memref sig .scVector .vmem S128 .i32 := ((ivV).slice (Rect.unit (s := S6x128) ![2, 0] S1x128.size inb_S6x128_S1x128_2_0) (fun _ => rfl)).squeeze S128 squeezes_S1x128_S128
abbrev ivL3 : Memref sig .scVector .vmem S128 .i32 := ((ivV).slice (Rect.unit (s := S6x128) ![3, 0] S1x128.size inb_S6x128_S1x128_3_0) (fun _ => rfl)).squeeze S128 squeezes_S1x128_S128
abbrev ivL4 : Memref sig .scVector .vmem S128 .i32 := ((ivV).slice (Rect.unit (s := S6x128) ![4, 0] S1x128.size inb_S6x128_S1x128_4_0) (fun _ => rfl)).squeeze S128 squeezes_S1x128_S128
abbrev ivL5 : Memref sig .scVector .vmem S128 .i32 := ((ivV).slice (Rect.unit (s := S6x128) ![5, 0] S1x128.size inb_S6x128_S1x128_5_0) (fun _ => rfl)).squeeze S128 squeezes_S1x128_S128

omit [FloatOps F] in
theorem ivL0_set : (ivL0).view.set = (Rect.unit (s := S6x128) ![0, 0] S1x128.size inb_S6x128_S1x128_0_0).set := by
  rw [Memref.set_view_squeeze]
  show ((View.whole (cc0_scratch1 : Ref sig .scVector)).slice (Rect.unit (s := S6x128) ![0, 0] S1x128.size inb_S6x128_S1x128_0_0)).set = _
  rw [View.set_slice]; exact Finset.map_refl

omit [FloatOps F] in
theorem ivL1_set : (ivL1).view.set = (Rect.unit (s := S6x128) ![1, 0] S1x128.size inb_S6x128_S1x128_1_0).set := by
  rw [Memref.set_view_squeeze]
  show ((View.whole (cc0_scratch1 : Ref sig .scVector)).slice (Rect.unit (s := S6x128) ![1, 0] S1x128.size inb_S6x128_S1x128_1_0)).set = _
  rw [View.set_slice]; exact Finset.map_refl

omit [FloatOps F] in
theorem ivL2_set : (ivL2).view.set = (Rect.unit (s := S6x128) ![2, 0] S1x128.size inb_S6x128_S1x128_2_0).set := by
  rw [Memref.set_view_squeeze]
  show ((View.whole (cc0_scratch1 : Ref sig .scVector)).slice (Rect.unit (s := S6x128) ![2, 0] S1x128.size inb_S6x128_S1x128_2_0)).set = _
  rw [View.set_slice]; exact Finset.map_refl

omit [FloatOps F] in
theorem ivL3_set : (ivL3).view.set = (Rect.unit (s := S6x128) ![3, 0] S1x128.size inb_S6x128_S1x128_3_0).set := by
  rw [Memref.set_view_squeeze]
  show ((View.whole (cc0_scratch1 : Ref sig .scVector)).slice (Rect.unit (s := S6x128) ![3, 0] S1x128.size inb_S6x128_S1x128_3_0)).set = _
  rw [View.set_slice]; exact Finset.map_refl

omit [FloatOps F] in
theorem ivL4_set : (ivL4).view.set = (Rect.unit (s := S6x128) ![4, 0] S1x128.size inb_S6x128_S1x128_4_0).set := by
  rw [Memref.set_view_squeeze]
  show ((View.whole (cc0_scratch1 : Ref sig .scVector)).slice (Rect.unit (s := S6x128) ![4, 0] S1x128.size inb_S6x128_S1x128_4_0)).set = _
  rw [View.set_slice]; exact Finset.map_refl

omit [FloatOps F] in
theorem ivL5_set : (ivL5).view.set = (Rect.unit (s := S6x128) ![5, 0] S1x128.size inb_S6x128_S1x128_5_0).set := by
  rw [Memref.set_view_squeeze]
  show ((View.whole (cc0_scratch1 : Ref sig .scVector)).slice (Rect.unit (s := S6x128) ![5, 0] S1x128.size inb_S6x128_S1x128_5_0)).set = _
  rw [View.set_slice]; exact Finset.map_refl
omit [FloatOps F] in
theorem ivS0_set : (ivS0).view.set = (Rect.unit (s := S6x128) ![0, 0] S2x128.size inb_S6x128_S2x128_0_0).set := by
  show ((View.whole (cc0_scratch1 : Ref sig .scVector)).slice (Rect.unit (s := S6x128) ![0, 0] S2x128.size inb_S6x128_S2x128_0_0)).set = _
  rw [View.set_slice]; exact Finset.map_refl

omit [FloatOps F] in
theorem ivS1_set : (ivS1).view.set = (Rect.unit (s := S6x128) ![2, 0] S2x128.size inb_S6x128_S2x128_2_0).set := by
  show ((View.whole (cc0_scratch1 : Ref sig .scVector)).slice (Rect.unit (s := S6x128) ![2, 0] S2x128.size inb_S6x128_S2x128_2_0)).set = _
  rw [View.set_slice]; exact Finset.map_refl

omit [FloatOps F] in
theorem ivS2_set : (ivS2).view.set = (Rect.unit (s := S6x128) ![4, 0] S2x128.size inb_S6x128_S2x128_4_0).set := by
  show ((View.whole (cc0_scratch1 : Ref sig .scVector)).slice (Rect.unit (s := S6x128) ![4, 0] S2x128.size inb_S6x128_S2x128_4_0)).set = _
  rw [View.set_slice]; exact Finset.map_refl

omit [FloatOps F] in
theorem slot0_set : (ivS0).view.set = (ivL0).view.set ∪ (ivL1).view.set := by
  rw [ivS0_set, ivL0_set, ivL1_set]
  ext x
  simp only [Finset.mem_union, Rect.mem_set_unit]
  constructor
  · intro h
    have h0 := h 0; have h1 := h 1
    have h0a : 0 ≤ (x 0).val := h0.1
    have h0b : (x 0).val < 0 + 2 := h0.2
    by_cases hx : (x 0).val = 0
    · left; intro a; match a with
      | 0 => exact ⟨(show 0 ≤ (x 0).val by omega), (show (x 0).val < 0 + 1 by omega)⟩
      | 1 => exact h1
    · right; intro a; match a with
      | 0 => exact ⟨(show 1 ≤ (x 0).val by omega), (show (x 0).val < 1 + 1 by omega)⟩
      | 1 => exact h1
  · rintro (h | h) a
    · have h0a : 0 ≤ (x 0).val := (h 0).1
      have h0b : (x 0).val < 0 + 1 := (h 0).2
      match a with
      | 0 => exact ⟨(show 0 ≤ (x 0).val by omega), (show (x 0).val < 0 + 2 by omega)⟩
      | 1 => exact h 1
    · have h0a : 1 ≤ (x 0).val := (h 0).1
      have h0b : (x 0).val < 1 + 1 := (h 0).2
      match a with
      | 0 => exact ⟨(show 0 ≤ (x 0).val by omega), (show (x 0).val < 0 + 2 by omega)⟩
      | 1 => exact h 1

omit [FloatOps F] in
theorem slot0_disj : Disjoint (ivL0).view.set (ivL1).view.set := by
  rw [ivL0_set, ivL1_set, Finset.disjoint_left]
  intro x hx hy
  have a : (x 0).val < 0 + 1 := ((Rect.mem_set_unit.mp hx) 0).2
  have b : 1 ≤ (x 0).val := ((Rect.mem_set_unit.mp hy) 0).1
  omega

omit [FloatOps F] in
/-- A two-row slot of the index scratch is its two rows, at any contents. -/
theorem slot0_rows (d : Dev nD) (c : Fin τ.nSC) (j : Fin τ.nSub) (f : Buf (Elt F) ((ivS0).view.loc (V d c j))) :
    ((ivS0).view.loc (V d c j) ↦[(ivS0).view.set]{fullShare} f : sProp 𝕄)
      ⊣⊢ iprop(((ivL0).view.loc (V d c j) ↦[(ivL0).view.set]{fullShare} f) ∗ ((ivL1).view.loc (V d c j) ↦[(ivL1).view.set]{fullShare} f)) := by
  rw [slot0_set]
  exact pointsTo_union slot0_disj

omit [FloatOps F] in
theorem slot1_set : (ivS1).view.set = (ivL2).view.set ∪ (ivL3).view.set := by
  rw [ivS1_set, ivL2_set, ivL3_set]
  ext x
  simp only [Finset.mem_union, Rect.mem_set_unit]
  constructor
  · intro h
    have h0 := h 0; have h1 := h 1
    have h0a : 2 ≤ (x 0).val := h0.1
    have h0b : (x 0).val < 2 + 2 := h0.2
    by_cases hx : (x 0).val = 2
    · left; intro a; match a with
      | 0 => exact ⟨(show 2 ≤ (x 0).val by omega), (show (x 0).val < 2 + 1 by omega)⟩
      | 1 => exact h1
    · right; intro a; match a with
      | 0 => exact ⟨(show 3 ≤ (x 0).val by omega), (show (x 0).val < 3 + 1 by omega)⟩
      | 1 => exact h1
  · rintro (h | h) a
    · have h0a : 2 ≤ (x 0).val := (h 0).1
      have h0b : (x 0).val < 2 + 1 := (h 0).2
      match a with
      | 0 => exact ⟨(show 2 ≤ (x 0).val by omega), (show (x 0).val < 2 + 2 by omega)⟩
      | 1 => exact h 1
    · have h0a : 3 ≤ (x 0).val := (h 0).1
      have h0b : (x 0).val < 3 + 1 := (h 0).2
      match a with
      | 0 => exact ⟨(show 2 ≤ (x 0).val by omega), (show (x 0).val < 2 + 2 by omega)⟩
      | 1 => exact h 1

omit [FloatOps F] in
theorem slot1_disj : Disjoint (ivL2).view.set (ivL3).view.set := by
  rw [ivL2_set, ivL3_set, Finset.disjoint_left]
  intro x hx hy
  have a : (x 0).val < 2 + 1 := ((Rect.mem_set_unit.mp hx) 0).2
  have b : 3 ≤ (x 0).val := ((Rect.mem_set_unit.mp hy) 0).1
  omega

omit [FloatOps F] in
/-- A two-row slot of the index scratch is its two rows, at any contents. -/
theorem slot1_rows (d : Dev nD) (c : Fin τ.nSC) (j : Fin τ.nSub) (f : Buf (Elt F) ((ivS1).view.loc (V d c j))) :
    ((ivS1).view.loc (V d c j) ↦[(ivS1).view.set]{fullShare} f : sProp 𝕄)
      ⊣⊢ iprop(((ivL2).view.loc (V d c j) ↦[(ivL2).view.set]{fullShare} f) ∗ ((ivL3).view.loc (V d c j) ↦[(ivL3).view.set]{fullShare} f)) := by
  rw [slot1_set]
  exact pointsTo_union slot1_disj

omit [FloatOps F] in
theorem slot2_set : (ivS2).view.set = (ivL4).view.set ∪ (ivL5).view.set := by
  rw [ivS2_set, ivL4_set, ivL5_set]
  ext x
  simp only [Finset.mem_union, Rect.mem_set_unit]
  constructor
  · intro h
    have h0 := h 0; have h1 := h 1
    have h0a : 4 ≤ (x 0).val := h0.1
    have h0b : (x 0).val < 4 + 2 := h0.2
    by_cases hx : (x 0).val = 4
    · left; intro a; match a with
      | 0 => exact ⟨(show 4 ≤ (x 0).val by omega), (show (x 0).val < 4 + 1 by omega)⟩
      | 1 => exact h1
    · right; intro a; match a with
      | 0 => exact ⟨(show 5 ≤ (x 0).val by omega), (show (x 0).val < 5 + 1 by omega)⟩
      | 1 => exact h1
  · rintro (h | h) a
    · have h0a : 4 ≤ (x 0).val := (h 0).1
      have h0b : (x 0).val < 4 + 1 := (h 0).2
      match a with
      | 0 => exact ⟨(show 4 ≤ (x 0).val by omega), (show (x 0).val < 4 + 2 by omega)⟩
      | 1 => exact h 1
    · have h0a : 5 ≤ (x 0).val := (h 0).1
      have h0b : (x 0).val < 5 + 1 := (h 0).2
      match a with
      | 0 => exact ⟨(show 4 ≤ (x 0).val by omega), (show (x 0).val < 4 + 2 by omega)⟩
      | 1 => exact h 1

omit [FloatOps F] in
theorem slot2_disj : Disjoint (ivL4).view.set (ivL5).view.set := by
  rw [ivL4_set, ivL5_set, Finset.disjoint_left]
  intro x hx hy
  have a : (x 0).val < 4 + 1 := ((Rect.mem_set_unit.mp hx) 0).2
  have b : 5 ≤ (x 0).val := ((Rect.mem_set_unit.mp hy) 0).1
  omega

omit [FloatOps F] in
/-- A two-row slot of the index scratch is its two rows, at any contents. -/
theorem slot2_rows (d : Dev nD) (c : Fin τ.nSC) (j : Fin τ.nSub) (f : Buf (Elt F) ((ivS2).view.loc (V d c j))) :
    ((ivS2).view.loc (V d c j) ↦[(ivS2).view.set]{fullShare} f : sProp 𝕄)
      ⊣⊢ iprop(((ivL4).view.loc (V d c j) ↦[(ivL4).view.set]{fullShare} f) ∗ ((ivL5).view.loc (V d c j) ↦[(ivL5).view.set]{fullShare} f)) := by
  rw [slot2_set]
  exact pointsTo_union slot2_disj

end Cert.Proof.KI

end
-- ==== Proof.KIValue.lean ====
/-
  Values. A buffer piece that one transfer filled whole holds, on the piece's own elements, any contents that read
  back the transfer's payload through the piece. The closed forms the ring's invariant names: before trip k the
  index scratch's row r is to hold row 6 k + r of the worker's 200 rows of the index array, and the result's row p
  is the table's row named by word p of the index array.
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.KernelIdeal
import proofs.«205516_g82884278878931_cont_9to1_m_1121_21_alg».proof.Proof.Gen.KernelIdeal.Skeleton
import proofs.«205516_g82884278878931_cont_9to1_m_1121_21_alg».proof.Proof.Spec
import proofs.«205516_g82884278878931_cont_9to1_m_1121_21_alg».proof.Proof.KIPieces
import proofs.«205516_g82884278878931_cont_9to1_m_1121_21_alg».proof.Proof.KIPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (tileNo shareTok shareDrop)

variable {F : FTy → Type}

local notation "𝕄" => MT nD τ sig (HIx 1) (Elt F) ℕ UU ℕ
local notation "tabV" => (Memref.whole Cert.KernelIdeal.main_arg3_scv : Memref Cert.KernelIdeal.sig Kind.scVector Space.hbm Cert.KernelIdeal.S1000x128 EltTy.f32)
local notation "idxV" => (Memref.whole Cert.KernelIdeal.main_v0_scv : Memref Cert.KernelIdeal.sig Kind.scVector Space.hbm Cert.KernelIdeal.S6400x128 EltTy.i32)
local notation "outV" => (Memref.whole Cert.KernelIdeal.main_v1_scv : Memref Cert.KernelIdeal.sig Kind.scVector Space.hbm Cert.KernelIdeal.S819200x128 EltTy.f32)
local notation "shV" => (Memref.whole Cert.KernelIdeal.cc0_scratch0 : Memref Cert.KernelIdeal.sig Kind.scVector Space.shared Cert.KernelIdeal.S1000x128 EltTy.f32)
local notation "ivV" => (Memref.whole Cert.KernelIdeal.cc0_scratch1 : Memref Cert.KernelIdeal.sig Kind.scVector Space.vmem Cert.KernelIdeal.S6x128 EltTy.i32)
local notation "bigV" => (Memref.whole Cert.KernelIdeal.cc0_scratch2 : Memref Cert.KernelIdeal.sig Kind.scVector Space.vmem Cert.KernelIdeal.S768x128 EltTy.f32)

section Generic
variable {κ : Kind} {sp : Space} {s : Shape} {e : EltTy}

/-- One whole-rectangle write through a view, read on the view's own elements: the payload. -/
theorem writes_whole_emb (v : View sig κ sp s e) (f : v.ty.Contents (Elt F)) (P : s.Idx → Elt F e) (y : s.Idx) :
    v.writes (Elt F) f [⟨Rect.whole s, P⟩] (v.emb y) = _root_.cast (congrArg (Elt F) v.elt_eq.symm) (P y) := by
  rw [← View.write_univ_eq_writes_whole v f [] P, View.writes_nil, View.write_emb_of_mem _ _ (Finset.mem_univ _)]

/-- so the piece's points-to at the written contents is its points-to at any contents reading back the payload. -/
theorem pointsTo_writes_whole_congr (c : Thread nD τ) (v : View sig c.2.kind sp s e) (q : PosShare TreeShare)
    (f g : Buf (Elt F) (v.loc c)) (P : s.Idx → Elt F e) (h : ∀ y, v.read (Elt F) g y = P y) :
    (v.loc c ↦[v.set]{q} v.writes (Elt F) f [⟨Rect.whole s, P⟩] : sProp 𝕄) = v.loc c ↦[v.set]{q} g :=
  pointsTo_congr fun i hi => by
    obtain ⟨y, -, rfl⟩ := Finset.mem_map.mp hi
    rw [writes_whole_emb, ← h y, View.read_apply, cast_cast, cast_eq]

end Generic

variable (m : (ℓ : Loc nD τ sig) → Buf (Elt F) ℓ) (I : Dev nD → S6400x128.Idx → BitVec 32) (d : Dev nD) (L : grid0.Coords)

/-- The worker's first row of the index array, and of the result. -/
def baseI (L : grid0.Coords) : ℕ := 400 * (L 1).val + 200 * (L 0).val
def baseO (L : grid0.Coords) : ℕ := 51200 * (L 1).val + 25600 * (L 0).val

/-- What the index scratch is to hold before trip k: row r is row 6 k + r of the worker's rows of the index array. -/
def ivC (k : ℕ) : S6x128.Idx → BitVec 32 := fun x =>
  I d (ValueIdx.ix2 (n0 := 6400) (n1 := 128) ⟨(baseI L + 6 * k + (x 0).val) % 6400, Nat.mod_lt _ (by decide)⟩ (x 1))

/-! ## The windows of the index array and of the result that the prologue, a trip and the epilogue move -/

variable [FloatOps F]

/-- The three index windows the prologue fetches: the worker's rows 0–1, 2–3, 4–5. -/
abbrev idxP0 (L : grid0.Coords) : Memref sig .scVector .hbm S2x128 .i32 := (idxV).slice (Rect.unit (s := S6400x128) (k0_off1 L 0#32) S2x128.size (k0_off1_inb L 0)) (fun _ => rfl)
abbrev idxP1 (L : grid0.Coords) : Memref sig .scVector .hbm S2x128 .i32 := (idxV).slice (Rect.unit (s := S6400x128) (k0_off1 L 2#32) S2x128.size (k0_off1_inb L 1)) (fun _ => rfl)
abbrev idxP2 (L : grid0.Coords) : Memref sig .scVector .hbm S2x128 .i32 := (idxV).slice (Rect.unit (s := S6400x128) (k0_off1 L 4#32) S2x128.size (k0_off1_inb L 2)) (fun _ => rfl)
/-- The index windows trip k fetches for trip k + 1, one per slot. -/
abbrev idxW0 (L : grid0.Coords) (k : Fin k0_t1_loop.trips) (h : k0_cond5 k = 1#1) : Memref sig .scVector .hbm S2x128 .i32 := (idxV).slice (Rect.unit (s := S6400x128) (k0_off6 L k) S2x128.size (k0_off6_inb L k h)) (fun _ => rfl)
abbrev idxW1 (L : grid0.Coords) (k : Fin k0_t1_loop.trips) (h : k0_cond6 k = 1#1) : Memref sig .scVector .hbm S2x128 .i32 := (idxV).slice (Rect.unit (s := S6400x128) (k0_off7 L k) S2x128.size (k0_off7_inb L k h)) (fun _ => rfl)
abbrev idxW2 (L : grid0.Coords) (k : Fin k0_t1_loop.trips) (h : k0_cond7 k = 1#1) : Memref sig .scVector .hbm S2x128 .i32 := (idxV).slice (Rect.unit (s := S6400x128) (k0_off8 L k) S2x128.size (k0_off8_inb L k h)) (fun _ => rfl)
/-- The two result windows the epilogue writes (the worker's last 256 rows). -/
abbrev outE0 (L : grid0.Coords) : Memref sig .scVector .hbm S128x128 .f32 := (outV).slice (Rect.unit (s := S819200x128) (k0_off10 L 0#32) S128x128.size (k0_off10_inb L 0)) (fun _ => rfl)
abbrev outE1 (L : grid0.Coords) : Memref sig .scVector .hbm S128x128 .f32 := (outV).slice (Rect.unit (s := S819200x128) (k0_off10 L 128#32) S128x128.size (k0_off10_inb L 1)) (fun _ => rfl)
/-- The shared table as a gather names it (the whole of it). -/
abbrev shW : Memref sig .scVector .shared S1000x128 .f32 := (shV).slice (Rect.unit (s := S1000x128) ![0, 0] S1000x128.size inb_S1000x128_S1000x128_0_0) (fun _ => rfl)

end Cert.Proof.KI

end
-- ==== Proof.KIFlight.lean ====
/-
  Transfers in flight, restated. What a transfer delivers when it lands may be restated (a delivery yields anything
  it entails) and may take along what was kept beside it. Two uses: a fetch of index rows delivers the slot at any
  contents that read back the fetched window, with the read token of the index array whole again; a copy of gathered
  rows out to the result delivers the result window at any contents that read back the copied rows.
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.KernelIdeal
import proofs.«205516_g82884278878931_cont_9to1_m_1121_21_alg».proof.Proof.Gen.KernelIdeal.Skeleton
import proofs.«205516_g82884278878931_cont_9to1_m_1121_21_alg».proof.Proof.Spec
import proofs.«205516_g82884278878931_cont_9to1_m_1121_21_alg».proof.Proof.KIValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (tileNo shareTok shareDrop)

variable {F : FTy → Type}

local notation "𝕄" => MT nD τ sig (HIx 1) (Elt F) ℕ UU ℕ
local notation "tabV" => (Memref.whole Cert.KernelIdeal.main_arg3_scv : Memref Cert.KernelIdeal.sig Kind.scVector Space.hbm Cert.KernelIdeal.S1000x128 EltTy.f32)
local notation "idxV" => (Memref.whole Cert.KernelIdeal.main_v0_scv : Memref Cert.KernelIdeal.sig Kind.scVector Space.hbm Cert.KernelIdeal.S6400x128 EltTy.i32)
local notation "outV" => (Memref.whole Cert.KernelIdeal.main_v1_scv : Memref Cert.KernelIdeal.sig Kind.scVector Space.hbm Cert.KernelIdeal.S819200x128 EltTy.f32)
local notation "shV" => (Memref.whole Cert.KernelIdeal.cc0_scratch0 : Memref Cert.KernelIdeal.sig Kind.scVector Space.shared Cert.KernelIdeal.S1000x128 EltTy.f32)
local notation "ivV" => (Memref.whole Cert.KernelIdeal.cc0_scratch1 : Memref Cert.KernelIdeal.sig Kind.scVector Space.vmem Cert.KernelIdeal.S6x128 EltTy.i32)
local notation "bigV" => (Memref.whole Cert.KernelIdeal.cc0_scratch2 : Memref Cert.KernelIdeal.sig Kind.scVector Space.vmem Cert.KernelIdeal.S768x128 EltTy.f32)

variable [FloatOps F]

section Generic
variable {sp : Space} {s : Shape} {e : EltTy}

/-- A transfer filling the view v whole while reading a window W of an array held at share q, the rest of the share
    kept beside it: it delivers v at any contents g reading back the payload, and the array's share whole. -/
theorem flight_fetch_clean (c : Thread nD τ) (sm : SemLoc sig) (N : ℕ) (v : View sig c.2.kind sp s e) (f g : Buf (Elt F) (v.loc c))
    (P : s.Idx → Elt F e) (h : ∀ y, v.read (Elt F) g y = P y) (ℓ : Loc nD τ sig) (W : Finset (Idx ℓ)) (q : PosShare TreeShare) (fI : Buf (Elt F) ℓ) :
    iprop((ℓ ↦[Finset.univ \ W]{q} fI)
        ∗ Transfers.Flight countersEmb c sm (default : HIx 1) N iprop((v.loc c ↦[v.set]{fullShare} v.writes (Elt F) f [⟨Rect.whole s, P⟩]) ∗ (ℓ ↦[W]{q} fI)))
      ⊢ (Transfers.Flight countersEmb c sm (default : HIx 1) N iprop((v.loc c ↦[v.set]{fullShare} g) ∗ (ℓ ↦{q} fI)) : sProp 𝕄) := by
  refine (Transfers.Flight_frame countersEmb c).trans (Transfers.Flight_mono countersEmb c ?_)
  rw [pointsTo_writes_whole_congr c v fullShare f g P h]
  iintro ⟨Hr, Hv, Hw⟩
  isplitl [Hv]; · iexact Hv
  have hu : W ∪ (Finset.univ \ W) = Finset.univ := Finset.union_sdiff_of_subset (Finset.subset_univ W)
  rw [show (ℓ ↦{q} fI : sProp 𝕄) = (ℓ ↦[W ∪ (Finset.univ \ W)]{q} fI) from by rw [hu]]
  iapply (pointsTo_union Finset.disjoint_sdiff).2
  isplitl [Hw] <;> iassumption

/-- A transfer filling the view v whole out of a piece held beside: it delivers v at any contents reading back the
    payload, the piece at whatever it held. -/
theorem flight_out_clean (c : Thread nD τ) (sm : SemLoc sig) (N : ℕ) (v : View sig c.2.kind sp s e) (f g : Buf (Elt F) (v.loc c))
    (P : s.Idx → Elt F e) (h : ∀ y, v.read (Elt F) g y = P y) (R : sProp 𝕄) :
    (Transfers.Flight countersEmb c sm (default : HIx 1) N iprop((v.loc c ↦[v.set]{fullShare} v.writes (Elt F) f [⟨Rect.whole s, P⟩]) ∗ R) : sProp 𝕄)
      ⊢ Transfers.Flight countersEmb c sm (default : HIx 1) N iprop((v.loc c ↦[v.set]{fullShare} g) ∗ R) := by
  refine Transfers.Flight_mono countersEmb c ?_
  rw [pointsTo_writes_whole_congr c v fullShare f g P h]

end Generic

end Cert.Proof.KI

end
-- ==== Proof.KIRowSets.lean ====
/-
  Ranges of rows of the result. The result array has 819200 rows of 128 elements; a set of its elements given by
  a range of rows [lo, hi). A range splits at any row between its ends, and so does its points-to. The six
  128-row windows one trip of the ring writes, the two the epilogue writes, and a worker's 25600-row part are
  such ranges.
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.KernelIdeal
import proofs.«205516_g82884278878931_cont_9to1_m_1121_21_alg».proof.Proof.Gen.KernelIdeal.Skeleton
import proofs.«205516_g82884278878931_cont_9to1_m_1121_21_alg».proof.Proof.Spec
import proofs.«205516_g82884278878931_cont_9to1_m_1121_21_alg».proof.Proof.KIValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (tileNo shareTok shareDrop)

variable {F : FTy → Type}

local notation "𝕄" => MT nD τ sig (HIx 1) (Elt F) ℕ UU ℕ
local notation "tabV" => (Memref.whole Cert.KernelIdeal.main_arg3_scv : Memref Cert.KernelIdeal.sig Kind.scVector Space.hbm Cert.KernelIdeal.S1000x128 EltTy.f32)
local notation "idxV" => (Memref.whole Cert.KernelIdeal.main_v0_scv : Memref Cert.KernelIdeal.sig Kind.scVector Space.hbm Cert.KernelIdeal.S6400x128 EltTy.i32)
local notation "outV" => (Memref.whole Cert.KernelIdeal.main_v1_scv : Memref Cert.KernelIdeal.sig Kind.scVector Space.hbm Cert.KernelIdeal.S819200x128 EltTy.f32)
local notation "shV" => (Memref.whole Cert.KernelIdeal.cc0_scratch0 : Memref Cert.KernelIdeal.sig Kind.scVector Space.shared Cert.KernelIdeal.S1000x128 EltTy.f32)
local notation "ivV" => (Memref.whole Cert.KernelIdeal.cc0_scratch1 : Memref Cert.KernelIdeal.sig Kind.scVector Space.vmem Cert.KernelIdeal.S6x128 EltTy.i32)
local notation "bigV" => (Memref.whole Cert.KernelIdeal.cc0_scratch2 : Memref Cert.KernelIdeal.sig Kind.scVector Space.vmem Cert.KernelIdeal.S768x128 EltTy.f32)

/-! ## Ranges of rows -/

/-- The elements of the result on rows [lo, hi). -/
def rowsSet (lo hi : ℕ) : Finset S819200x128.Idx := Finset.univ.filter fun x => lo ≤ (x 0).val ∧ (x 0).val < hi

theorem mem_rowsSet {lo hi : ℕ} {x : S819200x128.Idx} : x ∈ rowsSet lo hi ↔ lo ≤ (x 0).val ∧ (x 0).val < hi := by
  simp only [rowsSet, Finset.mem_filter, Finset.mem_univ, true_and]

/-- A range is its part below a row and its part from that row on, -/
theorem rowsSet_union {a b c : ℕ} (h1 : a ≤ b) (h2 : b ≤ c) : rowsSet a b ∪ rowsSet b c = rowsSet a c := by
  ext x
  simp only [Finset.mem_union, mem_rowsSet]
  omega

/-- and the two parts share no element. -/
theorem rowsSet_disj (a b c : ℕ) : Disjoint (rowsSet a b) (rowsSet b c) := by
  rw [Finset.disjoint_left]
  intro x hx hy
  have h1 := (mem_rowsSet.mp hx).2
  have h2 := (mem_rowsSet.mp hy).1
  omega

/-- A range that ends where it starts has no element. -/
theorem rowsSet_self (a : ℕ) : rowsSet a a = ∅ := by
  ext x
  simp only [mem_rowsSet, Finset.notMem_empty, iff_false]
  omega

/-- The points-to of a range of rows splits at any row between the range's ends. -/
theorem rows_split (d : Dev nD) (c : Fin τ.nSC) (j : Fin τ.nSub) (q : PosShare TreeShare)
    (f : Buf (Elt F) ((outV).view.loc (V d c j))) {a b c' : ℕ} (h1 : a ≤ b) (h2 : b ≤ c') :
    ((outV).view.loc (V d c j) ↦[rowsSet a c']{q} f : sProp 𝕄)
      ⊣⊢ iprop(((outV).view.loc (V d c j) ↦[rowsSet a b]{q} f) ∗ ((outV).view.loc (V d c j) ↦[rowsSet b c']{q} f)) := by
  rw [← rowsSet_union h1 h2]
  exact pointsTo_union (rowsSet_disj _ _ _)

/-- The points-to of an empty range is nothing. -/
theorem rows_empty (d : Dev nD) (c : Fin τ.nSC) (j : Fin τ.nSub) (q : PosShare TreeShare)
    (f : Buf (Elt F) ((outV).view.loc (V d c j))) (a : ℕ) :
    ((outV).view.loc (V d c j) ↦[rowsSet a a]{q} f : sProp 𝕄) = iprop(emp) := by
  rw [rowsSet_self]
  exact pointsTo_empty

/-! ## The windows as ranges of rows -/

/-- A 128-row window of the result at row a, all 128 columns, is the range [a, a + 128). -/
theorem unit_rows {off : Fin 2 → ℕ} {inb : ∀ i, off i + S128x128.size i ≤ S819200x128.size i} {a : ℕ} (h : off = ![a, 0]) :
    (Rect.unit (s := S819200x128) off S128x128.size inb).set = rowsSet a (a + 128) := by
  subst h
  ext x
  simp only [mem_rowsSet, Rect.mem_set_unit]
  constructor
  · intro h; exact h 0
  · intro h i
    match i with
    | 0 => exact h
    | 1 => exact ⟨Nat.zero_le _, (show (x 1).val < 0 + 128 by have := (x 1).isLt; change (x 1).val < 128 at this; omega)⟩

variable [FloatOps F]

omit [FloatOps F] in
theorem outCh0_set (L : grid0.Coords) (k : Fin k0_t1_loop.trips) :
    (outCh0 L k).view.set = rowsSet (baseO L + 768 * k.val + 128 * 0) (baseO L + 768 * k.val + 128 * 0 + 128) := by
  show ((View.whole (main_v1_scv : Ref sig .scVector)).slice (Rect.unit (s := S819200x128) (k0_off5 L k 0#32 0#32) S128x128.size (k0_off5_inb L k 0 0))).set = _
  rw [View.set_slice]
  refine Finset.map_refl.trans (unit_rows ?_)
  have h : k0_off5 L k 0#32 0#32 = ![51200 * (L 1).val + 25600 * (L 0).val + 768 * k.val + 256 * 0 + 128 * 0, 0] :=
    k0_off5_eq L k ⟨0, by decide⟩ ⟨0, by decide⟩
  rw [h]
  exact congrArg (fun n : ℕ => ![n, 0]) (by unfold baseO; omega)

omit [FloatOps F] in
theorem outCh1_set (L : grid0.Coords) (k : Fin k0_t1_loop.trips) :
    (outCh1 L k).view.set = rowsSet (baseO L + 768 * k.val + 128 * 1) (baseO L + 768 * k.val + 128 * 1 + 128) := by
  show ((View.whole (main_v1_scv : Ref sig .scVector)).slice (Rect.unit (s := S819200x128) (k0_off5 L k 0#32 128#32) S128x128.size (k0_off5_inb L k 0 1))).set = _
  rw [View.set_slice]
  refine Finset.map_refl.trans (unit_rows ?_)
  have h : k0_off5 L k 0#32 128#32 = ![51200 * (L 1).val + 25600 * (L 0).val + 768 * k.val + 256 * 0 + 128 * 1, 0] :=
    k0_off5_eq L k ⟨0, by decide⟩ ⟨1, by decide⟩
  rw [h]
  exact congrArg (fun n : ℕ => ![n, 0]) (by unfold baseO; omega)

omit [FloatOps F] in
theorem outCh2_set (L : grid0.Coords) (k : Fin k0_t1_loop.trips) :
    (outCh2 L k).view.set = rowsSet (baseO L + 768 * k.val + 128 * 2) (baseO L + 768 * k.val + 128 * 2 + 128) := by
  show ((View.whole (main_v1_scv : Ref sig .scVector)).slice (Rect.unit (s := S819200x128) (k0_off5 L k 1#32 0#32) S128x128.size (k0_off5_inb L k 1 0))).set = _
  rw [View.set_slice]
  refine Finset.map_refl.trans (unit_rows ?_)
  have h : k0_off5 L k 1#32 0#32 = ![51200 * (L 1).val + 25600 * (L 0).val + 768 * k.val + 256 * 1 + 128 * 0, 0] :=
    k0_off5_eq L k ⟨1, by decide⟩ ⟨0, by decide⟩
  rw [h]
  exact congrArg (fun n : ℕ => ![n, 0]) (by unfold baseO; omega)

omit [FloatOps F] in
theorem outCh3_set (L : grid0.Coords) (k : Fin k0_t1_loop.trips) :
    (outCh3 L k).view.set = rowsSet (baseO L + 768 * k.val + 128 * 3) (baseO L + 768 * k.val + 128 * 3 + 128) := by
  show ((View.whole (main_v1_scv : Ref sig .scVector)).slice (Rect.unit (s := S819200x128) (k0_off5 L k 1#32 128#32) S128x128.size (k0_off5_inb L k 1 1))).set = _
  rw [View.set_slice]
  refine Finset.map_refl.trans (unit_rows ?_)
  have h : k0_off5 L k 1#32 128#32 = ![51200 * (L 1).val + 25600 * (L 0).val + 768 * k.val + 256 * 1 + 128 * 1, 0] :=
    k0_off5_eq L k ⟨1, by decide⟩ ⟨1, by decide⟩
  rw [h]
  exact congrArg (fun n : ℕ => ![n, 0]) (by unfold baseO; omega)

omit [FloatOps F] in
theorem outCh4_set (L : grid0.Coords) (k : Fin k0_t1_loop.trips) :
    (outCh4 L k).view.set = rowsSet (baseO L + 768 * k.val + 128 * 4) (baseO L + 768 * k.val + 128 * 4 + 128) := by
  show ((View.whole (main_v1_scv : Ref sig .scVector)).slice (Rect.unit (s := S819200x128) (k0_off5 L k 2#32 0#32) S128x128.size (k0_off5_inb L k 2 0))).set = _
  rw [View.set_slice]
  refine Finset.map_refl.trans (unit_rows ?_)
  have h : k0_off5 L k 2#32 0#32 = ![51200 * (L 1).val + 25600 * (L 0).val + 768 * k.val + 256 * 2 + 128 * 0, 0] :=
    k0_off5_eq L k ⟨2, by decide⟩ ⟨0, by decide⟩
  rw [h]
  exact congrArg (fun n : ℕ => ![n, 0]) (by unfold baseO; omega)

omit [FloatOps F] in
theorem outCh5_set (L : grid0.Coords) (k : Fin k0_t1_loop.trips) :
    (outCh5 L k).view.set = rowsSet (baseO L + 768 * k.val + 128 * 5) (baseO L + 768 * k.val + 128 * 5 + 128) := by
  show ((View.whole (main_v1_scv : Ref sig .scVector)).slice (Rect.unit (s := S819200x128) (k0_off5 L k 2#32 128#32) S128x128.size (k0_off5_inb L k 2 1))).set = _
  rw [View.set_slice]
  refine Finset.map_refl.trans (unit_rows ?_)
  have h : k0_off5 L k 2#32 128#32 = ![51200 * (L 1).val + 25600 * (L 0).val + 768 * k.val + 256 * 2 + 128 * 1, 0] :=
    k0_off5_eq L k ⟨2, by decide⟩ ⟨1, by decide⟩
  rw [h]
  exact congrArg (fun n : ℕ => ![n, 0]) (by unfold baseO; omega)

omit [FloatOps F] in
theorem outE0_set (L : grid0.Coords) :
    (outE0 L).view.set = rowsSet (baseO L + 25344) (baseO L + 25344 + 128) := by
  show ((View.whole (main_v1_scv : Ref sig .scVector)).slice (Rect.unit (s := S819200x128) (k0_off10 L 0#32) S128x128.size (k0_off10_inb L 0))).set = _
  rw [View.set_slice]
  refine Finset.map_refl.trans (unit_rows ?_)
  have h : k0_off10 L 0#32 = ![51200 * (L 1).val + 25600 * (L 0).val + 128 * 0 + 25344, 0] :=
    k0_off10_eq L ⟨0, by decide⟩
  rw [h]
  exact congrArg (fun n : ℕ => ![n, 0]) (by unfold baseO; omega)

omit [FloatOps F] in
theorem outE1_set (L : grid0.Coords) :
    (outE1 L).view.set = rowsSet (baseO L + 25472) (baseO L + 25472 + 128) := by
  show ((View.whole (main_v1_scv : Ref sig .scVector)).slice (Rect.unit (s := S819200x128) (k0_off10 L 128#32) S128x128.size (k0_off10_inb L 1))).set = _
  rw [View.set_slice]
  refine Finset.map_refl.trans (unit_rows ?_)
  have h : k0_off10 L 128#32 = ![51200 * (L 1).val + 25600 * (L 0).val + 128 * 1 + 25344, 0] :=
    k0_off10_eq L ⟨1, by decide⟩
  rw [h]
  exact congrArg (fun n : ℕ => ![n, 0]) (by unfold baseO; omega)

omit [FloatOps F] in
/-- Part 2 i + c of the thirty-two equal parts of the result's rows is the range of 25600 rows from row
    51200 i + 25600 c. -/
theorem outSet_rows (c : Fin 2) (i : Fin 16) :
    outSet (Transfers.tileNo c i) = rowsSet (51200 * i.val + 25600 * c.val) (51200 * i.val + 25600 * c.val + 25600) := by
  ext x
  simp only [mem_rowsSet, Rect.mem_set_unit]
  have hsz : S819200x128.size 0 / 32 = 25600 := by decide
  constructor
  · intro h
    have h0 := h 0
    simp only [Shape.partIx, Shape.partSize, if_true, Transfers.tileNo_val, hsz] at h0
    omega
  · intro h a
    match a with
    | 0 =>
      simp only [Shape.partIx, Shape.partSize, if_true, Transfers.tileNo_val, hsz]
      omega
    | 1 =>
      have := (x 1).isLt
      change (x 1).val < 128 at this
      simp [Shape.partIx, Shape.partSize]
      exact this

end Cert.Proof.KI

end
-- ==== Proof.KIState.lean ====
/-
  The states of a subcore's run between the parts of its program: after the prologue (the table copied by subcore 0,
  the first three fetches in flight, the barrier passed: a read share of the shared table held), before each trip of
  the ring, and after the loop.
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.KernelIdeal
import proofs.«205516_g82884278878931_cont_9to1_m_1121_21_alg».proof.Proof.Gen.KernelIdeal.Skeleton
import proofs.«205516_g82884278878931_cont_9to1_m_1121_21_alg».proof.Proof.Spec
import proofs.«205516_g82884278878931_cont_9to1_m_1121_21_alg».proof.Proof.KIFlight
import proofs.«205516_g82884278878931_cont_9to1_m_1121_21_alg».proof.Proof.KIRowSets

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (tileNo shareTok shareDrop)

variable {F : FTy → Type}

local notation "𝕄" => MT nD τ sig (HIx 1) (Elt F) ℕ UU ℕ
local notation "tabV" => (Memref.whole Cert.KernelIdeal.main_arg3_scv : Memref Cert.KernelIdeal.sig Kind.scVector Space.hbm Cert.KernelIdeal.S1000x128 EltTy.f32)
local notation "idxV" => (Memref.whole Cert.KernelIdeal.main_v0_scv : Memref Cert.KernelIdeal.sig Kind.scVector Space.hbm Cert.KernelIdeal.S6400x128 EltTy.i32)
local notation "outV" => (Memref.whole Cert.KernelIdeal.main_v1_scv : Memref Cert.KernelIdeal.sig Kind.scVector Space.hbm Cert.KernelIdeal.S819200x128 EltTy.f32)
local notation "shV" => (Memref.whole Cert.KernelIdeal.cc0_scratch0 : Memref Cert.KernelIdeal.sig Kind.scVector Space.shared Cert.KernelIdeal.S1000x128 EltTy.f32)
local notation "ivV" => (Memref.whole Cert.KernelIdeal.cc0_scratch1 : Memref Cert.KernelIdeal.sig Kind.scVector Space.vmem Cert.KernelIdeal.S6x128 EltTy.i32)
local notation "bigV" => (Memref.whole Cert.KernelIdeal.cc0_scratch2 : Memref Cert.KernelIdeal.sig Kind.scVector Space.vmem Cert.KernelIdeal.S768x128 EltTy.f32)

variable (m : (ℓ : Loc nD τ sig) → Buf (Elt F) ℓ) (I : Dev nD → S6400x128.Idx → BitVec 32)
variable [FloatOps F]
section Tile
variable (d : Dev nD) (L : grid0.Coords)

/-- A slot's fetch in flight, delivering the slot's two rows of what the index scratch is to hold before trip n, and
    the read token of the index array it travels with. -/
def fetchI0 (qi : PosShare TreeShare) (n : ℕ) : sProp 𝕄 := Transfers.Flight countersEmb (V d (cV L) (jV L)) (SemLoc.dma cc0_scratch15.sem) (default : HIx 1) 8192
        iprop(((ivS0).view.loc (V d (cV L) (jV L)) ↦[(ivS0).view.set]{fullShare} (ivC I d L n : Buf (Elt F) ((ivS0).view.loc (V d (cV L) (jV L))))) ∗ ((idxV).view.loc (V d (cV L) (jV L)) ↦{shareTok qi 3 0} (I d : Buf (Elt F) ((idxV).view.loc (V d (cV L) (jV L))))))
def fetchI1 (qi : PosShare TreeShare) (n : ℕ) : sProp 𝕄 := Transfers.Flight countersEmb (V d (cV L) (jV L)) (SemLoc.dma cc0_scratch16.sem) (default : HIx 1) 8192
        iprop(((ivS1).view.loc (V d (cV L) (jV L)) ↦[(ivS1).view.set]{fullShare} (ivC I d L n : Buf (Elt F) ((ivS1).view.loc (V d (cV L) (jV L))))) ∗ ((idxV).view.loc (V d (cV L) (jV L)) ↦{shareTok qi 3 1} (I d : Buf (Elt F) ((idxV).view.loc (V d (cV L) (jV L))))))
def fetchI2 (qi : PosShare TreeShare) (n : ℕ) : sProp 𝕄 := Transfers.Flight countersEmb (V d (cV L) (jV L)) (SemLoc.dma cc0_scratch17.sem) (default : HIx 1) 8192
        iprop(((ivS2).view.loc (V d (cV L) (jV L)) ↦[(ivS2).view.set]{fullShare} (ivC I d L n : Buf (Elt F) ((ivS2).view.loc (V d (cV L) (jV L))))) ∗ ((idxV).view.loc (V d (cV L) (jV L)) ↦{shareTok qi 3 2} (I d : Buf (Elt F) ((idxV).view.loc (V d (cV L) (jV L))))))

/-- After the prologue: the three fetches for trip 0 in flight, the table-copy semaphore back at zero, subcore j's read
    share of the shared table at the table's contents (subcore 0 also keeps the table's share it copied from and what
    is left of the shared copy after the sixteen tokens), the waits recorded. -/
def afterPrologue (O : CellTallies nD τ sig (HIx 1)) (W : Waits sig (HIx 1)) (qi qt : PosShare TreeShare)
    (r : Σ' (_ : BitVec 32) (_ : BitVec 32), BitVec 32) : sProp 𝕄 :=
  iprop(⌜r.2.2 = 0#32⌝
    ∗ fetchI0 I d L qi 0 ∗ fetchI1 I d L qi 0 ∗ fetchI2 I d L qi 0
    ∗ semVal ((V d (cV L) (jV L)), SemLoc.dma cc0_scoped0.sem) 0
    ∗ ((shV).view.loc (V d (cV L) (jV L)) ↦{shShare (jV L)} (tabC m d : Buf (Elt F) ((shV).view.loc (V d (cV L) (jV L)))))
    ∗ (if (L 1).val = 0 then iprop(((tabV).view.loc (V d (cV L) (jV L)) ↦{qt} (m (tabLoc d) : Buf (Elt F) ((tabV).view.loc (V d (cV L) (jV L)))))
          ∗ ((shV).view.loc (V d (cV L) (jV L)) ↦{shareDrop fullShare 16} (tabC m d : Buf (Elt F) ((shV).view.loc (V d (cV L) (jV L)))))) else iprop(emp))
    ∗ ∃ W', ⌜∀ p ∈ W', p ∈ W ∨ p.2 = none ∨ p.2 = some (0 : Fin 1)⌝ ∗ owes (V d (cV L) (jV L)) O W')

/-- The fetches for slots 1 and 2: in flight before every trip, idle after the last. -/
def idxPart (qi : PosShare TreeShare) (n : ℕ) : sProp 𝕄 :=
  if n < 33 then iprop(Transfers.Flight countersEmb (V d (cV L) (jV L)) (SemLoc.dma cc0_scratch16.sem) (default : HIx 1) 8192
        iprop(((ivS1).view.loc (V d (cV L) (jV L)) ↦[(ivS1).view.set]{fullShare} (ivC I d L n : Buf (Elt F) ((ivS1).view.loc (V d (cV L) (jV L))))) ∗ ((idxV).view.loc (V d (cV L) (jV L)) ↦{shareTok qi 3 1} (I d : Buf (Elt F) ((idxV).view.loc (V d (cV L) (jV L))))))
      ∗ Transfers.Flight countersEmb (V d (cV L) (jV L)) (SemLoc.dma cc0_scratch17.sem) (default : HIx 1) 8192
        iprop(((ivS2).view.loc (V d (cV L) (jV L)) ↦[(ivS2).view.set]{fullShare} (ivC I d L n : Buf (Elt F) ((ivS2).view.loc (V d (cV L) (jV L))))) ∗ ((idxV).view.loc (V d (cV L) (jV L)) ↦{shareTok qi 3 2} (I d : Buf (Elt F) ((idxV).view.loc (V d (cV L) (jV L)))))))
  else iprop(iprop(∃ f : Buf (Elt F) ((ivS1).view.loc (V d (cV L) (jV L))), ((ivS1).view.loc (V d (cV L) (jV L)) ↦[(ivS1).view.set]{fullShare} f) ∗ ((idxV).view.loc (V d (cV L) (jV L)) ↦{shareTok qi 3 1} (I d : Buf (Elt F) ((idxV).view.loc (V d (cV L) (jV L))))) ∗ semVal ((V d (cV L) (jV L)), SemLoc.dma cc0_scratch16.sem) 0) ∗ iprop(∃ f : Buf (Elt F) ((ivS2).view.loc (V d (cV L) (jV L))), ((ivS2).view.loc (V d (cV L) (jV L)) ↦[(ivS2).view.set]{fullShare} f) ∗ ((idxV).view.loc (V d (cV L) (jV L)) ↦{shareTok qi 3 2} (I d : Buf (Elt F) ((idxV).view.loc (V d (cV L) (jV L))))) ∗ semVal ((V d (cV L) (jV L)), SemLoc.dma cc0_scratch17.sem) 0))

/-- The row buffer's six pieces: idle before the first trip, afterwards each the source of a copy in flight to the
    previous trip's window of the result, which it delivers at the lookup's values. -/
def outPart (n : ℕ) : sProp 𝕄 :=
  if n = 0 then iprop(iprop((∃ fb, (bigP0).view.loc (V d (cV L) (jV L)) ↦[(bigP0).view.set]{fullShare} fb) ∗ semVal ((V d (cV L) (jV L)), SemLoc.dma cc0_scratch9.sem) 0)
      ∗ iprop((∃ fb, (bigP1).view.loc (V d (cV L) (jV L)) ↦[(bigP1).view.set]{fullShare} fb) ∗ semVal ((V d (cV L) (jV L)), SemLoc.dma cc0_scratch10.sem) 0)
      ∗ iprop((∃ fb, (bigP2).view.loc (V d (cV L) (jV L)) ↦[(bigP2).view.set]{fullShare} fb) ∗ semVal ((V d (cV L) (jV L)), SemLoc.dma cc0_scratch11.sem) 0)
      ∗ iprop((∃ fb, (bigP3).view.loc (V d (cV L) (jV L)) ↦[(bigP3).view.set]{fullShare} fb) ∗ semVal ((V d (cV L) (jV L)), SemLoc.dma cc0_scratch12.sem) 0)
      ∗ iprop((∃ fb, (bigP4).view.loc (V d (cV L) (jV L)) ↦[(bigP4).view.set]{fullShare} fb) ∗ semVal ((V d (cV L) (jV L)), SemLoc.dma cc0_scratch13.sem) 0)
      ∗ iprop((∃ fb, (bigP5).view.loc (V d (cV L) (jV L)) ↦[(bigP5).view.set]{fullShare} fb) ∗ semVal ((V d (cV L) (jV L)), SemLoc.dma cc0_scratch14.sem) 0))
  else iprop(∃ kp : Fin k0_t1_loop.trips, ⌜kp.val + 1 = n⌝
      ∗ (∃ fb, Transfers.Flight countersEmb (V d (cV L) (jV L)) (SemLoc.dma cc0_scratch9.sem) (default : HIx 1) 524288
        iprop(((outCh0 L kp).view.loc (V d (cV L) (jV L)) ↦[(outCh0 L kp).view.set]{fullShare} (outG m I d : Buf (Elt F) ((outCh0 L kp).view.loc (V d (cV L) (jV L))))) ∗ ((bigP0).view.loc (V d (cV L) (jV L)) ↦[(bigP0).view.set]{fullShare} fb)))
      ∗ (∃ fb, Transfers.Flight countersEmb (V d (cV L) (jV L)) (SemLoc.dma cc0_scratch10.sem) (default : HIx 1) 524288
        iprop(((outCh1 L kp).view.loc (V d (cV L) (jV L)) ↦[(outCh1 L kp).view.set]{fullShare} (outG m I d : Buf (Elt F) ((outCh1 L kp).view.loc (V d (cV L) (jV L))))) ∗ ((bigP1).view.loc (V d (cV L) (jV L)) ↦[(bigP1).view.set]{fullShare} fb)))
      ∗ (∃ fb, Transfers.Flight countersEmb (V d (cV L) (jV L)) (SemLoc.dma cc0_scratch11.sem) (default : HIx 1) 524288
        iprop(((outCh2 L kp).view.loc (V d (cV L) (jV L)) ↦[(outCh2 L kp).view.set]{fullShare} (outG m I d : Buf (Elt F) ((outCh2 L kp).view.loc (V d (cV L) (jV L))))) ∗ ((bigP2).view.loc (V d (cV L) (jV L)) ↦[(bigP2).view.set]{fullShare} fb)))
      ∗ (∃ fb, Transfers.Flight countersEmb (V d (cV L) (jV L)) (SemLoc.dma cc0_scratch12.sem) (default : HIx 1) 524288
        iprop(((outCh3 L kp).view.loc (V d (cV L) (jV L)) ↦[(outCh3 L kp).view.set]{fullShare} (outG m I d : Buf (Elt F) ((outCh3 L kp).view.loc (V d (cV L) (jV L))))) ∗ ((bigP3).view.loc (V d (cV L) (jV L)) ↦[(bigP3).view.set]{fullShare} fb)))
      ∗ (∃ fb, Transfers.Flight countersEmb (V d (cV L) (jV L)) (SemLoc.dma cc0_scratch13.sem) (default : HIx 1) 524288
        iprop(((outCh4 L kp).view.loc (V d (cV L) (jV L)) ↦[(outCh4 L kp).view.set]{fullShare} (outG m I d : Buf (Elt F) ((outCh4 L kp).view.loc (V d (cV L) (jV L))))) ∗ ((bigP4).view.loc (V d (cV L) (jV L)) ↦[(bigP4).view.set]{fullShare} fb)))
      ∗ (∃ fb, Transfers.Flight countersEmb (V d (cV L) (jV L)) (SemLoc.dma cc0_scratch14.sem) (default : HIx 1) 524288
        iprop(((outCh5 L kp).view.loc (V d (cV L) (jV L)) ↦[(outCh5 L kp).view.set]{fullShare} (outG m I d : Buf (Elt F) ((outCh5 L kp).view.loc (V d (cV L) (jV L))))) ∗ ((bigP5).view.loc (V d (cV L) (jV L)) ↦[(bigP5).view.set]{fullShare} fb))))

/-- The ring's state before trip n (and, at n = 33, after the loop): slot 0's fetch in flight with rows 6 n, 6 n + 1 of
    the worker's index rows; slots 1 and 2 likewise (idle at 33); the pieces as above; the gathers' semaphores at zero
    and the shared table's six read tokens; the result's rows the earlier trips completed, at the lookup's values;
    the rows still to write, at the launch contents; the waits recorded so far. -/
def inv (O : CellTallies nD τ sig (HIx 1)) (W : Waits sig (HIx 1)) (qi qs : PosShare TreeShare) (m0 : Buf (Elt F) ((outV).view.loc (V d (cV L) (jV L))))
    (n : ℕ) (_ : Unit) : sProp 𝕄 :=
  iprop((Transfers.MayWaits (V d (cV L) (jV L)) (default : HIx 1) O)
    ∗ ⌜n ≤ 33⌝
    ∗ Transfers.Flight countersEmb (V d (cV L) (jV L)) (SemLoc.dma cc0_scratch15.sem) (default : HIx 1) 8192
        iprop(((ivS0).view.loc (V d (cV L) (jV L)) ↦[(ivS0).view.set]{fullShare} (ivC I d L n : Buf (Elt F) ((ivS0).view.loc (V d (cV L) (jV L))))) ∗ ((idxV).view.loc (V d (cV L) (jV L)) ↦{shareTok qi 3 0} (I d : Buf (Elt F) ((idxV).view.loc (V d (cV L) (jV L))))))
    ∗ idxPart I d L qi n
    ∗ outPart m I d L n
    ∗ semVal ((V d (cV L) (jV L)), SemLoc.dma cc0_scratch3.sem) 0
    ∗ semVal ((V d (cV L) (jV L)), SemLoc.dma cc0_scratch4.sem) 0
    ∗ semVal ((V d (cV L) (jV L)), SemLoc.dma cc0_scratch5.sem) 0
    ∗ semVal ((V d (cV L) (jV L)), SemLoc.dma cc0_scratch6.sem) 0
    ∗ semVal ((V d (cV L) (jV L)), SemLoc.dma cc0_scratch7.sem) 0
    ∗ semVal ((V d (cV L) (jV L)), SemLoc.dma cc0_scratch8.sem) 0
    ∗ ((shV).view.loc (V d (cV L) (jV L)) ↦{shareTok qs 6 0} (tabC m d : Buf (Elt F) ((shV).view.loc (V d (cV L) (jV L)))))
    ∗ ((shV).view.loc (V d (cV L) (jV L)) ↦{shareTok qs 6 1} (tabC m d : Buf (Elt F) ((shV).view.loc (V d (cV L) (jV L)))))
    ∗ ((shV).view.loc (V d (cV L) (jV L)) ↦{shareTok qs 6 2} (tabC m d : Buf (Elt F) ((shV).view.loc (V d (cV L) (jV L)))))
    ∗ ((shV).view.loc (V d (cV L) (jV L)) ↦{shareTok qs 6 3} (tabC m d : Buf (Elt F) ((shV).view.loc (V d (cV L) (jV L)))))
    ∗ ((shV).view.loc (V d (cV L) (jV L)) ↦{shareTok qs 6 4} (tabC m d : Buf (Elt F) ((shV).view.loc (V d (cV L) (jV L)))))
    ∗ ((shV).view.loc (V d (cV L) (jV L)) ↦{shareTok qs 6 5} (tabC m d : Buf (Elt F) ((shV).view.loc (V d (cV L) (jV L)))))
    ∗ ((outV).view.loc (V d (cV L) (jV L)) ↦[rowsSet (baseO L) (baseO L + 768 * (n - 1))]{fullShare} (outG m I d : Buf (Elt F) ((outV).view.loc (V d (cV L) (jV L)))))
    ∗ ((outV).view.loc (V d (cV L) (jV L)) ↦[rowsSet (baseO L + 768 * n) (baseO L + 25600)]{fullShare} m0)
    ∗ ∃ W', ⌜∀ p ∈ W', p ∈ W ∨ p.2 = none⌝ ∗ owes (V d (cV L) (jV L)) O W')

end Tile
end Cert.Proof.KI
end
-- ==== Proof.KIGo.lean ====
/-
  What a subcore's task is handed and hands back, spelt at the subcore's grid coordinates, and the statement of the
  task's body: from its barrier kit, what it is handed, its scoped storage and what it owes, the printed kernel runs
  to what it hands back, the scoped storage restored, the barrier's debt paid.
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.KernelIdeal
import proofs.«205516_g82884278878931_cont_9to1_m_1121_21_alg».proof.Proof.Gen.KernelIdeal.Skeleton
import proofs.«205516_g82884278878931_cont_9to1_m_1121_21_alg».proof.Proof.Spec
import proofs.«205516_g82884278878931_cont_9to1_m_1121_21_alg».proof.Proof.KIPieces
import proofs.«205516_g82884278878931_cont_9to1_m_1121_21_alg».proof.Proof.KIPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (tileNo shareTok shareDrop)

variable {F : FTy → Type}

local notation "𝕄" => MT nD τ sig (HIx 1) (Elt F) ℕ UU ℕ
local notation "tabV" => (Memref.whole Cert.KernelIdeal.main_arg3_scv : Memref Cert.KernelIdeal.sig Kind.scVector Space.hbm Cert.KernelIdeal.S1000x128 EltTy.f32)
local notation "idxV" => (Memref.whole Cert.KernelIdeal.main_v0_scv : Memref Cert.KernelIdeal.sig Kind.scVector Space.hbm Cert.KernelIdeal.S6400x128 EltTy.i32)
local notation "outV" => (Memref.whole Cert.KernelIdeal.main_v1_scv : Memref Cert.KernelIdeal.sig Kind.scVector Space.hbm Cert.KernelIdeal.S819200x128 EltTy.f32)
local notation "shV" => (Memref.whole Cert.KernelIdeal.cc0_scratch0 : Memref Cert.KernelIdeal.sig Kind.scVector Space.shared Cert.KernelIdeal.S1000x128 EltTy.f32)
local notation "ivV" => (Memref.whole Cert.KernelIdeal.cc0_scratch1 : Memref Cert.KernelIdeal.sig Kind.scVector Space.vmem Cert.KernelIdeal.S6x128 EltTy.i32)
local notation "bigV" => (Memref.whole Cert.KernelIdeal.cc0_scratch2 : Memref Cert.KernelIdeal.sig Kind.scVector Space.vmem Cert.KernelIdeal.S768x128 EltTy.f32)

variable (m : (ℓ : Loc nD τ sig) → Buf (Elt F) ℓ) (I : Dev nD → S6400x128.Idx → BitVec 32)

theorem bound_zero : grid0.bound 0 = 2 := rfl
theorem bound_one : grid0.bound 1 = 16 := rfl
/-- The subcore's SparseCore and number, as numbers of the two and of the sixteen. -/
abbrev cL (L : grid0.Coords) : Fin 2 := Fin.cast bound_zero (L 0)
abbrev iL (L : grid0.Coords) : Fin 16 := Fin.cast bound_one (L 1)

variable [FloatOps F]

/-- Handed to the task at (c, i): its read share of the index array, its part of the result at the launch contents,
    and, to subcore 0, the SparseCore's share of the table and the shared memory whole. -/
def goL (d : Dev nD) (L : grid0.Coords) : sProp 𝕄 :=
  iprop((idxLoc d ↦{shareTok (shareTok fullShare 2 (cL L)) 16 (iL L)} (I d : Buf (Elt F) (idxLoc d)))
    ∗ (outLoc d ↦[outSet (tileNo (cL L) (iL L))]{fullShare} m (outLoc d))
    ∗ (if (iL L).val = 0 then iprop((tabLoc d ↦{shareTok fullShare 2 (cL L)} m (tabLoc d)) ∗ ∃ f, shLoc d (cV L) ↦{fullShare} f) else iprop(emp)))

/-- Handed back: its part of the result at the lookup's values, its read token of the shared table at the table's
    contents, and, from subcore 0, what was left of the shared copy's share. -/
def tdL (d : Dev nD) (L : grid0.Coords) : sProp 𝕄 :=
  iprop((outLoc d ↦[outSet (tileNo (cL L) (iL L))]{fullShare} (outG m I d : Buf (Elt F) (outLoc d)))
    ∗ (shLoc d (cV L) ↦{shareTok fullShare 16 (iL L)} (tabC m d : Buf (Elt F) (shLoc d (cV L))))
    ∗ (if (iL L).val = 0 then iprop(shLoc d (cV L) ↦{shareDrop fullShare 16} (tabC m d : Buf (Elt F) (shLoc d (cV L)))) else iprop(emp)))

/-- The statement of a task's body. -/
def BodyStmt : Prop :=
  ∀ (hF : (K (F := F)).Facts) (d : Dev nD) (L : grid0.Coords) (O : CellTallies nD τ sig (HIx 1)) (W : Waits sig (HIx 1)) (hO : ∀ g, O g none = 0)
    (hOlev : ∀ g ι, 0 < O g ι → 8 * (0 : Fin 1).val + 6 ≤ (K (F := F)).lev g ι),
    iprop(levAts (K (F := F)).L (K (F := F)).lev ∗ bkit m d (cV L) (jV L)
        ∗ goL m I d L
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0_run L tabV (Memref.isWhole_whole _) idxV (Memref.isWhole_whole _) outV (Memref.isWhole_whole _) shV (Memref.isWhole_whole _) ivV (Memref.isWhole_whole _) bigV (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scoped0)
          fun _ => iprop(tdL m I d L ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W')

end Cert.Proof.KI
end
-- ==== Proof.KIScratch.lean ====
/-
  A subcore's scratch buffers and their pieces. The index scratch, six rows of 128 words, is its three two-row
  slots; the row buffer, 768 rows of 128, is its six pieces of 128 rows. The pieces are pairwise disjoint and
  cover the buffer, so a points-to of the whole buffer is the separating product of the pieces' at the same
  contents, and pieces held each at contents of its own join to the whole buffer at some contents.
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.KernelIdeal
import proofs.«205516_g82884278878931_cont_9to1_m_1121_21_alg».proof.Proof.Gen.KernelIdeal.Skeleton
import proofs.«205516_g82884278878931_cont_9to1_m_1121_21_alg».proof.Proof.Spec
import proofs.«205516_g82884278878931_cont_9to1_m_1121_21_alg».proof.Proof.KIPieces

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (tileNo shareTok shareDrop)

variable {F : FTy → Type}

local notation "𝕄" => MT nD τ sig (HIx 1) (Elt F) ℕ UU ℕ
local notation "tabV" => (Memref.whole Cert.KernelIdeal.main_arg3_scv : Memref Cert.KernelIdeal.sig Kind.scVector Space.hbm Cert.KernelIdeal.S1000x128 EltTy.f32)
local notation "idxV" => (Memref.whole Cert.KernelIdeal.main_v0_scv : Memref Cert.KernelIdeal.sig Kind.scVector Space.hbm Cert.KernelIdeal.S6400x128 EltTy.i32)
local notation "outV" => (Memref.whole Cert.KernelIdeal.main_v1_scv : Memref Cert.KernelIdeal.sig Kind.scVector Space.hbm Cert.KernelIdeal.S819200x128 EltTy.f32)
local notation "shV" => (Memref.whole Cert.KernelIdeal.cc0_scratch0 : Memref Cert.KernelIdeal.sig Kind.scVector Space.shared Cert.KernelIdeal.S1000x128 EltTy.f32)
local notation "ivV" => (Memref.whole Cert.KernelIdeal.cc0_scratch1 : Memref Cert.KernelIdeal.sig Kind.scVector Space.vmem Cert.KernelIdeal.S6x128 EltTy.i32)
local notation "bigV" => (Memref.whole Cert.KernelIdeal.cc0_scratch2 : Memref Cert.KernelIdeal.sig Kind.scVector Space.vmem Cert.KernelIdeal.S768x128 EltTy.f32)

/-! ## Splitting and joining along a chain of disjoint element sets -/

section Generic
variable {ℓ : Loc nD τ sig} {q : PosShare TreeShare}

/-- Along disjoint element sets, as an equation. -/
theorem pointsTo_union_eq {I J : Finset (Idx ℓ)} (h : Disjoint I J) (f : Buf (Elt F) ℓ) :
    (ℓ ↦[I ∪ J]{q} f : sProp 𝕄) = iprop((ℓ ↦[I]{q} f) ∗ ℓ ↦[J]{q} f) :=
  BI.equiv_iff.mp ⟨(pointsTo_union h).1, (pointsTo_union h).2⟩

/-- A piece at contents of its own and the rest at some contents are their union at some contents. -/
theorem join_step {I J : Finset (Idx ℓ)} (h : Disjoint I J) (f : Buf (Elt F) ℓ) (R : sProp 𝕄)
    (hR : R ⊢ iprop(∃ g, ℓ ↦[J]{q} g)) :
    iprop((ℓ ↦[I]{q} f) ∗ R) ⊢ (iprop(∃ g, ℓ ↦[I ∪ J]{q} g) : sProp 𝕄) := by
  iintro ⟨H, HR⟩
  ihave HR' := hR $$ HR
  icases HR' with ⟨%g, Hg⟩
  iexists (J.piecewise g f)
  iapply (pointsTo_join h)
  isplitl [H]; · iexact H
  iexact Hg

theorem join_last {J : Finset (Idx ℓ)} (f : Buf (Elt F) ℓ) :
    (ℓ ↦[J]{q} f : sProp 𝕄) ⊢ iprop(∃ g, ℓ ↦[J]{q} g) := by
  iintro H; iexists f; iexact H

/-- Three pairwise disjoint sets that cover a buffer: its points-to is the three sets', at one contents; -/
theorem split3 {A B C : Finset (Idx ℓ)} (h0 : Disjoint A (B ∪ C)) (h1 : Disjoint B C)
    (hcov : A ∪ (B ∪ C) = Finset.univ) (f : Buf (Elt F) ℓ) :
    (ℓ ↦{q} f : sProp 𝕄) ⊣⊢ iprop((ℓ ↦[A]{q} f) ∗ (ℓ ↦[B]{q} f) ∗ (ℓ ↦[C]{q} f)) := by
  rw [← hcov, pointsTo_union_eq h0, pointsTo_union_eq h1]

/-- and held each at contents of its own they join to the buffer at some contents. -/
theorem join3 {A B C : Finset (Idx ℓ)} (h0 : Disjoint A (B ∪ C)) (h1 : Disjoint B C)
    (hcov : A ∪ (B ∪ C) = Finset.univ) (f0 f1 f2 : Buf (Elt F) ℓ) :
    iprop((ℓ ↦[A]{q} f0) ∗ (ℓ ↦[B]{q} f1) ∗ (ℓ ↦[C]{q} f2)) ⊢ (iprop(∃ f, ℓ ↦{q} f) : sProp 𝕄) := by
  rw [← hcov]
  exact join_step h0 f0 _ (join_step h1 f1 _ (join_last f2))

/-- The same for six sets. -/
theorem split6 {A0 A1 A2 A3 A4 A5 : Finset (Idx ℓ)} (h0 : Disjoint A0 (A1 ∪ (A2 ∪ (A3 ∪ (A4 ∪ A5)))))
    (h1 : Disjoint A1 (A2 ∪ (A3 ∪ (A4 ∪ A5)))) (h2 : Disjoint A2 (A3 ∪ (A4 ∪ A5))) (h3 : Disjoint A3 (A4 ∪ A5))
    (h4 : Disjoint A4 A5) (hcov : A0 ∪ (A1 ∪ (A2 ∪ (A3 ∪ (A4 ∪ A5)))) = Finset.univ) (f : Buf (Elt F) ℓ) :
    (ℓ ↦{q} f : sProp 𝕄) ⊣⊢ iprop((ℓ ↦[A0]{q} f) ∗ (ℓ ↦[A1]{q} f) ∗ (ℓ ↦[A2]{q} f) ∗ (ℓ ↦[A3]{q} f) ∗ (ℓ ↦[A4]{q} f) ∗ (ℓ ↦[A5]{q} f)) := by
  rw [← hcov, pointsTo_union_eq h0, pointsTo_union_eq h1, pointsTo_union_eq h2, pointsTo_union_eq h3, pointsTo_union_eq h4]

theorem join6 {A0 A1 A2 A3 A4 A5 : Finset (Idx ℓ)} (h0 : Disjoint A0 (A1 ∪ (A2 ∪ (A3 ∪ (A4 ∪ A5)))))
    (h1 : Disjoint A1 (A2 ∪ (A3 ∪ (A4 ∪ A5)))) (h2 : Disjoint A2 (A3 ∪ (A4 ∪ A5))) (h3 : Disjoint A3 (A4 ∪ A5))
    (h4 : Disjoint A4 A5) (hcov : A0 ∪ (A1 ∪ (A2 ∪ (A3 ∪ (A4 ∪ A5)))) = Finset.univ) (f0 f1 f2 f3 f4 f5 : Buf (Elt F) ℓ) :
    iprop((ℓ ↦[A0]{q} f0) ∗ (ℓ ↦[A1]{q} f1) ∗ (ℓ ↦[A2]{q} f2) ∗ (ℓ ↦[A3]{q} f3) ∗ (ℓ ↦[A4]{q} f4) ∗ (ℓ ↦[A5]{q} f5))
      ⊢ (iprop(∃ f, ℓ ↦{q} f) : sProp 𝕄) := by
  rw [← hcov]
  exact join_step h0 f0 _ (join_step h1 f1 _ (join_step h2 f2 _ (join_step h3 f3 _ (join_step h4 f4 _ (join_last f5)))))

end Generic

/-! ## The row buffer's pieces have their rectangles' own elements -/

variable [FloatOps F]

omit [FloatOps F] in
theorem bigP0_set : (bigP0).view.set = (Rect.unit (s := S768x128) ![0, 0] S128x128.size inb_S768x128_S128x128_0_0).set := by
  show ((View.whole (cc0_scratch2 : Ref sig .scVector)).slice (Rect.unit (s := S768x128) ![0, 0] S128x128.size inb_S768x128_S128x128_0_0)).set = _
  rw [View.set_slice]; exact Finset.map_refl

omit [FloatOps F] in
theorem bigP1_set : (bigP1).view.set = (Rect.unit (s := S768x128) ![128, 0] S128x128.size inb_S768x128_S128x128_128_0).set := by
  show ((View.whole (cc0_scratch2 : Ref sig .scVector)).slice (Rect.unit (s := S768x128) ![128, 0] S128x128.size inb_S768x128_S128x128_128_0)).set = _
  rw [View.set_slice]; exact Finset.map_refl

omit [FloatOps F] in
theorem bigP2_set : (bigP2).view.set = (Rect.unit (s := S768x128) ![256, 0] S128x128.size inb_S768x128_S128x128_256_0).set := by
  show ((View.whole (cc0_scratch2 : Ref sig .scVector)).slice (Rect.unit (s := S768x128) ![256, 0] S128x128.size inb_S768x128_S128x128_256_0)).set = _
  rw [View.set_slice]; exact Finset.map_refl

omit [FloatOps F] in
theorem bigP3_set : (bigP3).view.set = (Rect.unit (s := S768x128) ![384, 0] S128x128.size inb_S768x128_S128x128_384_0).set := by
  show ((View.whole (cc0_scratch2 : Ref sig .scVector)).slice (Rect.unit (s := S768x128) ![384, 0] S128x128.size inb_S768x128_S128x128_384_0)).set = _
  rw [View.set_slice]; exact Finset.map_refl

omit [FloatOps F] in
theorem bigP4_set : (bigP4).view.set = (Rect.unit (s := S768x128) ![512, 0] S128x128.size inb_S768x128_S128x128_512_0).set := by
  show ((View.whole (cc0_scratch2 : Ref sig .scVector)).slice (Rect.unit (s := S768x128) ![512, 0] S128x128.size inb_S768x128_S128x128_512_0)).set = _
  rw [View.set_slice]; exact Finset.map_refl

omit [FloatOps F] in
theorem bigP5_set : (bigP5).view.set = (Rect.unit (s := S768x128) ![640, 0] S128x128.size inb_S768x128_S128x128_640_0).set := by
  show ((View.whole (cc0_scratch2 : Ref sig .scVector)).slice (Rect.unit (s := S768x128) ![640, 0] S128x128.size inb_S768x128_S128x128_640_0)).set = _
  rw [View.set_slice]; exact Finset.map_refl

/-! ## The slots are pairwise disjoint and cover the index scratch; the pieces, the row buffer -/

omit [FloatOps F] in
theorem iv_disj_0_1 : Disjoint (ivS0).view.set (ivS1).view.set := by
  rw [ivS0_set, ivS1_set]
  exact Rect.unit_disjoint 0 (Or.inl (by decide))

omit [FloatOps F] in
theorem iv_disj_0_2 : Disjoint (ivS0).view.set (ivS2).view.set := by
  rw [ivS0_set, ivS2_set]
  exact Rect.unit_disjoint 0 (Or.inl (by decide))

omit [FloatOps F] in
theorem iv_disj_1_2 : Disjoint (ivS1).view.set (ivS2).view.set := by
  rw [ivS1_set, ivS2_set]
  exact Rect.unit_disjoint 0 (Or.inl (by decide))

omit [FloatOps F] in
theorem big_disj_0_1 : Disjoint (bigP0).view.set (bigP1).view.set := by
  rw [bigP0_set, bigP1_set]
  exact Rect.unit_disjoint 0 (Or.inl (by decide))

omit [FloatOps F] in
theorem big_disj_0_2 : Disjoint (bigP0).view.set (bigP2).view.set := by
  rw [bigP0_set, bigP2_set]
  exact Rect.unit_disjoint 0 (Or.inl (by decide))

omit [FloatOps F] in
theorem big_disj_0_3 : Disjoint (bigP0).view.set (bigP3).view.set := by
  rw [bigP0_set, bigP3_set]
  exact Rect.unit_disjoint 0 (Or.inl (by decide))

omit [FloatOps F] in
theorem big_disj_0_4 : Disjoint (bigP0).view.set (bigP4).view.set := by
  rw [bigP0_set, bigP4_set]
  exact Rect.unit_disjoint 0 (Or.inl (by decide))

omit [FloatOps F] in
theorem big_disj_0_5 : Disjoint (bigP0).view.set (bigP5).view.set := by
  rw [bigP0_set, bigP5_set]
  exact Rect.unit_disjoint 0 (Or.inl (by decide))

omit [FloatOps F] in
theorem big_disj_1_2 : Disjoint (bigP1).view.set (bigP2).view.set := by
  rw [bigP1_set, bigP2_set]
  exact Rect.unit_disjoint 0 (Or.inl (by decide))

omit [FloatOps F] in
theorem big_disj_1_3 : Disjoint (bigP1).view.set (bigP3).view.set := by
  rw [bigP1_set, bigP3_set]
  exact Rect.unit_disjoint 0 (Or.inl (by decide))

omit [FloatOps F] in
theorem big_disj_1_4 : Disjoint (bigP1).view.set (bigP4).view.set := by
  rw [bigP1_set, bigP4_set]
  exact Rect.unit_disjoint 0 (Or.inl (by decide))

omit [FloatOps F] in
theorem big_disj_1_5 : Disjoint (bigP1).view.set (bigP5).view.set := by
  rw [bigP1_set, bigP5_set]
  exact Rect.unit_disjoint 0 (Or.inl (by decide))

omit [FloatOps F] in
theorem big_disj_2_3 : Disjoint (bigP2).view.set (bigP3).view.set := by
  rw [bigP2_set, bigP3_set]
  exact Rect.unit_disjoint 0 (Or.inl (by decide))

omit [FloatOps F] in
theorem big_disj_2_4 : Disjoint (bigP2).view.set (bigP4).view.set := by
  rw [bigP2_set, bigP4_set]
  exact Rect.unit_disjoint 0 (Or.inl (by decide))

omit [FloatOps F] in
theorem big_disj_2_5 : Disjoint (bigP2).view.set (bigP5).view.set := by
  rw [bigP2_set, bigP5_set]
  exact Rect.unit_disjoint 0 (Or.inl (by decide))

omit [FloatOps F] in
theorem big_disj_3_4 : Disjoint (bigP3).view.set (bigP4).view.set := by
  rw [bigP3_set, bigP4_set]
  exact Rect.unit_disjoint 0 (Or.inl (by decide))

omit [FloatOps F] in
theorem big_disj_3_5 : Disjoint (bigP3).view.set (bigP5).view.set := by
  rw [bigP3_set, bigP5_set]
  exact Rect.unit_disjoint 0 (Or.inl (by decide))

omit [FloatOps F] in
theorem big_disj_4_5 : Disjoint (bigP4).view.set (bigP5).view.set := by
  rw [bigP4_set, bigP5_set]
  exact Rect.unit_disjoint 0 (Or.inl (by decide))

omit [FloatOps F] in
theorem iv_cover : (ivS0).view.set ∪ ((ivS1).view.set ∪ (ivS2).view.set) = Finset.univ := by
  rw [ivS0_set, ivS1_set, ivS2_set]
  ext x
  simp only [Finset.mem_univ, Finset.mem_union, Rect.mem_set_unit, iff_true]
  have hx : (x 0).val < 6 := (x 0).isLt
  have hy : (x 1).val < 128 := (x 1).isLt
  by_cases h0 : (x 0).val < 2
  · left; intro a; match a with
      | 0 => exact ⟨(show 0 ≤ (x 0).val by omega), (show (x 0).val < 0 + 2 by omega)⟩
      | 1 => exact ⟨(show 0 ≤ (x 1).val by omega), (show (x 1).val < 0 + 128 by omega)⟩
  · right
    by_cases h1 : (x 0).val < 4
    · left; intro a; match a with
      | 0 => exact ⟨(show 2 ≤ (x 0).val by omega), (show (x 0).val < 2 + 2 by omega)⟩
      | 1 => exact ⟨(show 0 ≤ (x 1).val by omega), (show (x 1).val < 0 + 128 by omega)⟩
    · right; intro a; match a with
      | 0 => exact ⟨(show 4 ≤ (x 0).val by omega), (show (x 0).val < 4 + 2 by omega)⟩
      | 1 => exact ⟨(show 0 ≤ (x 1).val by omega), (show (x 1).val < 0 + 128 by omega)⟩

omit [FloatOps F] in
theorem big_cover : (bigP0).view.set ∪ ((bigP1).view.set ∪ ((bigP2).view.set ∪ ((bigP3).view.set ∪ ((bigP4).view.set ∪ (bigP5).view.set)))) = Finset.univ := by
  rw [bigP0_set, bigP1_set, bigP2_set, bigP3_set, bigP4_set, bigP5_set]
  ext x
  simp only [Finset.mem_univ, Finset.mem_union, Rect.mem_set_unit, iff_true]
  have hx : (x 0).val < 768 := (x 0).isLt
  have hy : (x 1).val < 128 := (x 1).isLt
  by_cases h0 : (x 0).val < 128
  · left; intro a; match a with
      | 0 => exact ⟨(show 0 ≤ (x 0).val by omega), (show (x 0).val < 0 + 128 by omega)⟩
      | 1 => exact ⟨(show 0 ≤ (x 1).val by omega), (show (x 1).val < 0 + 128 by omega)⟩
  · right
    by_cases h1 : (x 0).val < 256
    · left; intro a; match a with
        | 0 => exact ⟨(show 128 ≤ (x 0).val by omega), (show (x 0).val < 128 + 128 by omega)⟩
        | 1 => exact ⟨(show 0 ≤ (x 1).val by omega), (show (x 1).val < 0 + 128 by omega)⟩
    · right
      by_cases h2 : (x 0).val < 384
      · left; intro a; match a with
          | 0 => exact ⟨(show 256 ≤ (x 0).val by omega), (show (x 0).val < 256 + 128 by omega)⟩
          | 1 => exact ⟨(show 0 ≤ (x 1).val by omega), (show (x 1).val < 0 + 128 by omega)⟩
      · right
        by_cases h3 : (x 0).val < 512
        · left; intro a; match a with
            | 0 => exact ⟨(show 384 ≤ (x 0).val by omega), (show (x 0).val < 384 + 128 by omega)⟩
            | 1 => exact ⟨(show 0 ≤ (x 1).val by omega), (show (x 1).val < 0 + 128 by omega)⟩
        · right
          by_cases h4 : (x 0).val < 640
          · left; intro a; match a with
              | 0 => exact ⟨(show 512 ≤ (x 0).val by omega), (show (x 0).val < 512 + 128 by omega)⟩
              | 1 => exact ⟨(show 0 ≤ (x 1).val by omega), (show (x 1).val < 0 + 128 by omega)⟩
          · right
            intro a; match a with
              | 0 => exact ⟨(show 640 ≤ (x 0).val by omega), (show (x 0).val < 640 + 128 by omega)⟩
              | 1 => exact ⟨(show 0 ≤ (x 1).val by omega), (show (x 1).val < 0 + 128 by omega)⟩

/-! ## The buffers split into their pieces and the pieces join -/

omit [FloatOps F] in
/-- The index scratch is its three slots, at any contents. -/
theorem ivV_split (d : Dev nD) (c : Fin τ.nSC) (j : Fin τ.nSub) (f : Buf (Elt F) ((ivV).view.loc (V d c j))) :
    ((ivV).view.loc (V d c j) ↦{fullShare} f : sProp 𝕄)
      ⊣⊢ iprop(((ivS0).view.loc (V d c j) ↦[(ivS0).view.set]{fullShare} f) ∗ ((ivS1).view.loc (V d c j) ↦[(ivS1).view.set]{fullShare} f) ∗ ((ivS2).view.loc (V d c j) ↦[(ivS2).view.set]{fullShare} f)) :=
  split3 (Finset.disjoint_union_right.mpr ⟨iv_disj_0_1, iv_disj_0_2⟩) iv_disj_1_2 iv_cover f

omit [FloatOps F] in
/-- The three slots, each at contents of its own, are the index scratch at some contents. -/
theorem ivV_join (d : Dev nD) (c : Fin τ.nSC) (j : Fin τ.nSub) (f0 : Buf (Elt F) ((ivS0).view.loc (V d c j)))
    (f1 : Buf (Elt F) ((ivS1).view.loc (V d c j))) (f2 : Buf (Elt F) ((ivS2).view.loc (V d c j))) :
    iprop(((ivS0).view.loc (V d c j) ↦[(ivS0).view.set]{fullShare} f0) ∗ ((ivS1).view.loc (V d c j) ↦[(ivS1).view.set]{fullShare} f1) ∗ ((ivS2).view.loc (V d c j) ↦[(ivS2).view.set]{fullShare} f2))
      ⊢ (iprop(∃ f, (ivV).view.loc (V d c j) ↦{fullShare} f) : sProp 𝕄) :=
  join3 (Finset.disjoint_union_right.mpr ⟨iv_disj_0_1, iv_disj_0_2⟩) iv_disj_1_2 iv_cover f0 f1 f2

omit [FloatOps F] in
/-- The row buffer is its six pieces, at any contents. -/
theorem bigV_split (d : Dev nD) (c : Fin τ.nSC) (j : Fin τ.nSub) (f : Buf (Elt F) ((bigV).view.loc (V d c j))) :
    ((bigV).view.loc (V d c j) ↦{fullShare} f : sProp 𝕄)
      ⊣⊢ iprop(((bigP0).view.loc (V d c j) ↦[(bigP0).view.set]{fullShare} f)
          ∗ ((bigP1).view.loc (V d c j) ↦[(bigP1).view.set]{fullShare} f)
          ∗ ((bigP2).view.loc (V d c j) ↦[(bigP2).view.set]{fullShare} f)
          ∗ ((bigP3).view.loc (V d c j) ↦[(bigP3).view.set]{fullShare} f)
          ∗ ((bigP4).view.loc (V d c j) ↦[(bigP4).view.set]{fullShare} f)
          ∗ ((bigP5).view.loc (V d c j) ↦[(bigP5).view.set]{fullShare} f)) :=
  split6 (Finset.disjoint_union_right.mpr ⟨big_disj_0_1, (Finset.disjoint_union_right.mpr ⟨big_disj_0_2, (Finset.disjoint_union_right.mpr ⟨big_disj_0_3, (Finset.disjoint_union_right.mpr ⟨big_disj_0_4, big_disj_0_5⟩)⟩)⟩)⟩)
    (Finset.disjoint_union_right.mpr ⟨big_disj_1_2, (Finset.disjoint_union_right.mpr ⟨big_disj_1_3, (Finset.disjoint_union_right.mpr ⟨big_disj_1_4, big_disj_1_5⟩)⟩)⟩)
    (Finset.disjoint_union_right.mpr ⟨big_disj_2_3, (Finset.disjoint_union_right.mpr ⟨big_disj_2_4, big_disj_2_5⟩)⟩)
    (Finset.disjoint_union_right.mpr ⟨big_disj_3_4, big_disj_3_5⟩)
    big_disj_4_5 big_cover f

omit [FloatOps F] in
/-- The six pieces, each at contents of its own, are the row buffer at some contents. -/
theorem bigV_join (d : Dev nD) (c : Fin τ.nSC) (j : Fin τ.nSub)
    (f0 : Buf (Elt F) ((bigP0).view.loc (V d c j)))
    (f1 : Buf (Elt F) ((bigP1).view.loc (V d c j)))
    (f2 : Buf (Elt F) ((bigP2).view.loc (V d c j)))
    (f3 : Buf (Elt F) ((bigP3).view.loc (V d c j)))
    (f4 : Buf (Elt F) ((bigP4).view.loc (V d c j)))
    (f5 : Buf (Elt F) ((bigP5).view.loc (V d c j))) :
    iprop(((bigP0).view.loc (V d c j) ↦[(bigP0).view.set]{fullShare} f0)
          ∗ ((bigP1).view.loc (V d c j) ↦[(bigP1).view.set]{fullShare} f1)
          ∗ ((bigP2).view.loc (V d c j) ↦[(bigP2).view.set]{fullShare} f2)
          ∗ ((bigP3).view.loc (V d c j) ↦[(bigP3).view.set]{fullShare} f3)
          ∗ ((bigP4).view.loc (V d c j) ↦[(bigP4).view.set]{fullShare} f4)
          ∗ ((bigP5).view.loc (V d c j) ↦[(bigP5).view.set]{fullShare} f5))
      ⊢ (iprop(∃ f, (bigV).view.loc (V d c j) ↦{fullShare} f) : sProp 𝕄) :=
  join6 (Finset.disjoint_union_right.mpr ⟨big_disj_0_1, (Finset.disjoint_union_right.mpr ⟨big_disj_0_2, (Finset.disjoint_union_right.mpr ⟨big_disj_0_3, (Finset.disjoint_union_right.mpr ⟨big_disj_0_4, big_disj_0_5⟩)⟩)⟩)⟩)
    (Finset.disjoint_union_right.mpr ⟨big_disj_1_2, (Finset.disjoint_union_right.mpr ⟨big_disj_1_3, (Finset.disjoint_union_right.mpr ⟨big_disj_1_4, big_disj_1_5⟩)⟩)⟩)
    (Finset.disjoint_union_right.mpr ⟨big_disj_2_3, (Finset.disjoint_union_right.mpr ⟨big_disj_2_4, big_disj_2_5⟩)⟩)
    (Finset.disjoint_union_right.mpr ⟨big_disj_3_4, big_disj_3_5⟩)
    big_disj_4_5 big_cover f0 f1 f2 f3 f4 f5

omit [FloatOps F] in
/-- The buffers as the subcore's memrefs address them are the thread's own scratch buffers. -/
theorem pts_ivV (d : Dev nD) (c : Fin τ.nSC) (j : Fin τ.nSub) (f : Buf (Elt F) ((ivV).view.loc (V d c j))) :
    ((ivV).view.loc (V d c j) ↦{fullShare} f : sProp 𝕄) = (V d c j).loc cc0_scratch1 ↦{fullShare} f := rfl

omit [FloatOps F] in
theorem pts_bigV (d : Dev nD) (c : Fin τ.nSC) (j : Fin τ.nSub) (f : Buf (Elt F) ((bigV).view.loc (V d c j))) :
    ((bigV).view.loc (V d c j) ↦{fullShare} f : sProp 𝕄) = (V d c j).loc cc0_scratch2 ↦{fullShare} f := rfl

end Cert.Proof.KI

end
-- ==== Proof.LibOwnSplit.lean ====
/-
  A SparseCore thread's own scoped semaphore cells and own buffers, with a chosen LIST of them pulled out in front:
  `bigSep` over the whole family is the chain over the listed members, one by one, and the `bigSep` over the rest.
-/
import Idealize.ShloMosaic.Lib.SparseCore.Launch
import Idealize.ShloMosaic.Lib.Pipeline.Kit

noncomputable section

namespace Cert.Lib.OwnSplit

open Idealize.ShloMosaic
open Idealize.ShloMosaic.SparseCore.Cfg (ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- The chain over a mapped list is the chain over the list of the composed family. -/
theorem bigSepL_map {I J : Type} {M : Type} [URA M] (f : I → J) (l : List I) (Φ : J → sProp M) :
    bigSepL (l.map f) Φ = bigSepL l (fun i => Φ (f i)) := by
  induction l with
  | nil => rfl
  | cons i l ih => rw [List.map_cons, bigSepL_cons, bigSepL_cons, ih]

/-- A family over a finite set with a duplicate-free list of its members in front. -/
theorem bigSep_split_list {I : Type} [DecidableEq I] {M : Type} [URA M] (s : Finset I) (l : List I) (hl : l.Nodup) (hs : ∀ i ∈ l, i ∈ s)
    (Φ : I → sProp M) : bigSep s Φ = iprop(bigSepL l Φ ∗ bigSep (s \ l.toFinset) Φ) := by
  rw [BI.bigSep_sdiff_split (t := l.toFinset) (fun i hi => hs i (List.mem_toFinset.mp hi)), bigSep_eq_bigSepL l hl Φ]; rfl

/-- A thread's own scoped cells at zero, the listed ones in front. -/
theorem ownSems0_split (thr : Thread nD τ) (l : List (SemLoc sig)) (hl : l.Nodup)
    (hs : ∀ s ∈ l, s.isScoped thr.2.kind = true) :
    (ownSems0 thr : sProp 𝕄)
      = iprop(bigSepL l (fun s => semVal ((thr, s) : GSem nD τ sig) 0)
          ∗ bigSep (ownCells thr \ (l.map fun s => ((thr, s) : GSem nD τ sig)).toFinset) fun g => semVal g 0) := by
  unfold SparseCore.Cfg.ownSems0
  rw [bigSep_split_list (ownCells thr) (l.map fun s => ((thr, s) : GSem nD τ sig))
      (hl.map (fun a b e => (Prod.mk.inj e).2))
      (fun g hg => by
        obtain ⟨s, hsl, rfl⟩ := List.mem_map.mp hg
        exact mem_ownCells.mpr ⟨rfl, hs s hsl⟩),
    bigSepL_map]

/-- A thread's own buffers, each whole at some contents, the listed ones in front. -/
theorem ownBufs_split (thr : Thread nD τ) (l : List (DevRef τ sig)) (hl : l.Nodup) (hs : ∀ b ∈ l, b.owner.home = thr.2) :
    (ownBufs thr : sProp 𝕄)
      = iprop(bigSepL l (fun b => iprop(∃ f, ((thr.1, b) : Loc nD τ sig) ↦{fullShare} f))
          ∗ bigSep (ownRefs thr.2 \ l.toFinset) fun b => iprop(∃ f, ((thr.1, b) : Loc nD τ sig) ↦{fullShare} f)) := by
  unfold SparseCore.Cfg.ownBufs
  exact bigSep_split_list (ownRefs thr.2) l hl (fun b hb => mem_ownRefs.mpr (hs b hb)) _

end Cert.Lib.OwnSplit

end
-- ==== Proof.KIValueLemmas.lean ====
/-
  Values at an index. The contents the ring's invariant names, read through the pieces the program addresses:
  an index fetch lands the next trip's rows of the index array in its slot of the index scratch; every list of
  index words the scratch is to hold has its words below the table's height when the index array's words lie in
  [0, 999]; and each 128-row window of the result holds the gather of the table's rows at its list.
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.KernelIdeal
import proofs.«205516_g82884278878931_cont_9to1_m_1121_21_alg».proof.Proof.Gen.KernelIdeal.Skeleton
import proofs.«205516_g82884278878931_cont_9to1_m_1121_21_alg».proof.Proof.Spec
import proofs.«205516_g82884278878931_cont_9to1_m_1121_21_alg».proof.Proof.KIPieces
import proofs.«205516_g82884278878931_cont_9to1_m_1121_21_alg».proof.Proof.KIPay
import proofs.«205516_g82884278878931_cont_9to1_m_1121_21_alg».proof.Proof.KIValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (tileNo shareTok shareDrop)

variable {F : FTy → Type}

local notation "𝕄" => MT nD τ sig (HIx 1) (Elt F) ℕ UU ℕ
local notation "tabV" => (Memref.whole Cert.KernelIdeal.main_arg3_scv : Memref Cert.KernelIdeal.sig Kind.scVector Space.hbm Cert.KernelIdeal.S1000x128 EltTy.f32)
local notation "idxV" => (Memref.whole Cert.KernelIdeal.main_v0_scv : Memref Cert.KernelIdeal.sig Kind.scVector Space.hbm Cert.KernelIdeal.S6400x128 EltTy.i32)
local notation "outV" => (Memref.whole Cert.KernelIdeal.main_v1_scv : Memref Cert.KernelIdeal.sig Kind.scVector Space.hbm Cert.KernelIdeal.S819200x128 EltTy.f32)
local notation "shV" => (Memref.whole Cert.KernelIdeal.cc0_scratch0 : Memref Cert.KernelIdeal.sig Kind.scVector Space.shared Cert.KernelIdeal.S1000x128 EltTy.f32)
local notation "ivV" => (Memref.whole Cert.KernelIdeal.cc0_scratch1 : Memref Cert.KernelIdeal.sig Kind.scVector Space.vmem Cert.KernelIdeal.S6x128 EltTy.i32)
local notation "bigV" => (Memref.whole Cert.KernelIdeal.cc0_scratch2 : Memref Cert.KernelIdeal.sig Kind.scVector Space.vmem Cert.KernelIdeal.S768x128 EltTy.f32)

variable (m : (ℓ : Loc nD τ sig) → Buf (Elt F) ℓ) (I : Dev nD → S6400x128.Idx → BitVec 32) (d : Dev nD) (L : grid0.Coords)

/-! ## The range of the list words -/

/-- Every word the index scratch is to hold is a word of the index array: below the table's height when the index
    array's words, read signed, lie in [0, 999]. -/
theorem ivC_lt (hI : ∀ x, 0 ≤ (I d x).toInt ∧ (I d x).toInt ≤ 999) (k : ℕ) (x : S6x128.Idx) : (ivC I d L k x).toNat < 1000 :=
  Cert.Spec.toNat_lt_of_range _ (hI _).1 (hI _).2

variable [FloatOps F]

/-- Row r of the index scratch, read as a list of 128 words: each word is below the table's height. -/
theorem hin0 (hI : ∀ x, 0 ≤ (I d x).toInt ∧ (I d x).toInt ≤ 999) (k : ℕ) :
    ∀ x, ((ivL0).view.read (Elt F) (ivC I d L k) x).toNat < S1000x128.size gathers_S1000x128_S128x128.axis :=
  fun x => ivC_lt I d L hI k ((ivL0).view.emb x)

theorem hin1 (hI : ∀ x, 0 ≤ (I d x).toInt ∧ (I d x).toInt ≤ 999) (k : ℕ) :
    ∀ x, ((ivL1).view.read (Elt F) (ivC I d L k) x).toNat < S1000x128.size gathers_S1000x128_S128x128.axis :=
  fun x => ivC_lt I d L hI k ((ivL1).view.emb x)

theorem hin2 (hI : ∀ x, 0 ≤ (I d x).toInt ∧ (I d x).toInt ≤ 999) (k : ℕ) :
    ∀ x, ((ivL2).view.read (Elt F) (ivC I d L k) x).toNat < S1000x128.size gathers_S1000x128_S128x128.axis :=
  fun x => ivC_lt I d L hI k ((ivL2).view.emb x)

theorem hin3 (hI : ∀ x, 0 ≤ (I d x).toInt ∧ (I d x).toInt ≤ 999) (k : ℕ) :
    ∀ x, ((ivL3).view.read (Elt F) (ivC I d L k) x).toNat < S1000x128.size gathers_S1000x128_S128x128.axis :=
  fun x => ivC_lt I d L hI k ((ivL3).view.emb x)

theorem hin4 (hI : ∀ x, 0 ≤ (I d x).toInt ∧ (I d x).toInt ≤ 999) (k : ℕ) :
    ∀ x, ((ivL4).view.read (Elt F) (ivC I d L k) x).toNat < S1000x128.size gathers_S1000x128_S128x128.axis :=
  fun x => ivC_lt I d L hI k ((ivL4).view.emb x)

theorem hin5 (hI : ∀ x, 0 ≤ (I d x).toInt ∧ (I d x).toInt ≤ 999) (k : ℕ) :
    ∀ x, ((ivL5).view.read (Elt F) (ivC I d L k) x).toNat < S1000x128.size gathers_S1000x128_S128x128.axis :=
  fun x => ivC_lt I d L hI k ((ivL5).view.emb x)

/-! ## What an index fetch lands -/

omit [FloatOps F] in
/-- The worker's rows of the index array lie inside it: row baseI + j for j < 200 is below 6400. -/
theorem baseI_lt (L : grid0.Coords) : baseI L + 200 ≤ 6400 := by
  have h0 : (L 0).val < 2 := (L 0).isLt
  have h1 : (L 1).val < 16 := (L 1).isLt
  unfold baseI
  omega

/-- The two-row slot of the index scratch at rows ro, ro + 1, read at the contents the scratch is to hold before
    trip k, is the two-row window of the index array at rows baseI + 6 k + ro and the next, read at the index array:
    row t of either is row baseI + 6 k + ro + t of the index array (no reduction: the row is below 6400). -/
theorem fetch_generic (k ro : ℕ) (inbS : ∀ a, (![ro, 0] : Fin 2 → ℕ) a + S2x128.size a ≤ S6x128.size a)
    (off : Fin S6400x128.rank → ℕ) (inbI : ∀ a, off a + S2x128.size a ≤ S6400x128.size a)
    (h0 : off 0 = baseI L + 6 * k + ro) (h1 : off 1 = 0) (y : S2x128.Idx) :
    ((ivV).slice (Rect.unit (s := S6x128) ![ro, 0] S2x128.size inbS) (fun _ => rfl)).view.read (Elt F) (ivC I d L k) y
      = ((idxV).slice (Rect.unit (s := S6400x128) off S2x128.size inbI) (fun _ => rfl)).view.read (Elt F) (I d) y := by
  rw [View.read_apply, View.read_apply]
  show ivC I d L k _ = I d _
  unfold ivC
  congr 1
  funext a
  refine Fin.ext ?_
  have hy0 : (y 0).val < 2 := (y 0).isLt
  have hb := inbI 0
  have hs : S2x128.size 0 = 2 := rfl
  have hS : S6400x128.size 0 = 6400 := rfl
  match a with
  | ⟨0, _⟩ =>
    show (baseI L + 6 * k + (ro + 1 * (y 0).val)) % 6400 = off 0 + 1 * (y 0).val
    rw [h0, Nat.mod_eq_of_lt (by rw [h0, hs, hS] at hb; omega)]
    omega
  | ⟨1, _⟩ =>
    show 0 + 1 * (y 1).val = off 1 + 1 * (y 1).val
    rw [h1]

/-- The prologue's three fetches land the rows the scratch is to hold before trip 0. -/
theorem fetchP0 (y : S2x128.Idx) : (ivS0).view.read (Elt F) (ivC I d L 0) y = (idxP0 L).view.read (Elt F) (I d) y :=
  fetch_generic I d L 0 0 inb_S6x128_S2x128_0_0 (k0_off1 L 0#32) (k0_off1_inb L 0)
    ((congrFun (k0_off1_eq L 0) 0).trans (by
      show 400 * (L 1).val + 200 * (L 0).val + 2 * 0 = baseI L + 6 * 0 + 0
      unfold baseI; omega))
    (congrFun (k0_off1_eq L 0) 1) y

theorem fetchP1 (y : S2x128.Idx) : (ivS1).view.read (Elt F) (ivC I d L 0) y = (idxP1 L).view.read (Elt F) (I d) y :=
  fetch_generic I d L 0 2 inb_S6x128_S2x128_2_0 (k0_off1 L 2#32) (k0_off1_inb L 1)
    ((congrFun (k0_off1_eq L 1) 0).trans (by
      show 400 * (L 1).val + 200 * (L 0).val + 2 * 1 = baseI L + 6 * 0 + 2
      unfold baseI; omega))
    (congrFun (k0_off1_eq L 1) 1) y

theorem fetchP2 (y : S2x128.Idx) : (ivS2).view.read (Elt F) (ivC I d L 0) y = (idxP2 L).view.read (Elt F) (I d) y :=
  fetch_generic I d L 0 4 inb_S6x128_S2x128_4_0 (k0_off1 L 4#32) (k0_off1_inb L 2)
    ((congrFun (k0_off1_eq L 2) 0).trans (by
      show 400 * (L 1).val + 200 * (L 0).val + 2 * 2 = baseI L + 6 * 0 + 4
      unfold baseI; omega))
    (congrFun (k0_off1_eq L 2) 1) y

/-- Trip k's three fetches land the rows the scratch is to hold before trip k + 1. -/
theorem fetchW0 (k : Fin k0_t1_loop.trips) (h : k0_cond5 k = 1#1) (y : S2x128.Idx) :
    (ivS0).view.read (Elt F) (ivC I d L (k.val + 1)) y = (idxW0 L k h).view.read (Elt F) (I d) y :=
  fetch_generic I d L (k.val + 1) 0 inb_S6x128_S2x128_0_0 (k0_off6 L k) (k0_off6_inb L k h)
    ((congrFun (k0_off6_eq L k) 0).trans (by
      show 400 * (L 1).val + 200 * (L 0).val + 6 * k.val + 6 = baseI L + 6 * (k.val + 1) + 0
      unfold baseI; omega))
    (congrFun (k0_off6_eq L k) 1) y

theorem fetchW1 (k : Fin k0_t1_loop.trips) (h : k0_cond6 k = 1#1) (y : S2x128.Idx) :
    (ivS1).view.read (Elt F) (ivC I d L (k.val + 1)) y = (idxW1 L k h).view.read (Elt F) (I d) y :=
  fetch_generic I d L (k.val + 1) 2 inb_S6x128_S2x128_2_0 (k0_off7 L k) (k0_off7_inb L k h)
    ((congrFun (k0_off7_eq L k) 0).trans (by
      show 400 * (L 1).val + 200 * (L 0).val + 6 * k.val + 8 = baseI L + 6 * (k.val + 1) + 2
      unfold baseI; omega))
    (congrFun (k0_off7_eq L k) 1) y

theorem fetchW2 (k : Fin k0_t1_loop.trips) (h : k0_cond7 k = 1#1) (y : S2x128.Idx) :
    (ivS2).view.read (Elt F) (ivC I d L (k.val + 1)) y = (idxW2 L k h).view.read (Elt F) (I d) y :=
  fetch_generic I d L (k.val + 1) 4 inb_S6x128_S2x128_4_0 (k0_off8 L k) (k0_off8_inb L k h)
    ((congrFun (k0_off8_eq L k) 0).trans (by
      show 400 * (L 1).val + 200 * (L 0).val + 6 * k.val + 10 = baseI L + 6 * (k.val + 1) + 4
      unfold baseI; omega))
    (congrFun (k0_off8_eq L k) 1) y

/-! ## What a result copy lands -/

omit [FloatOps F] in
/-- The worker's first row of the result is 128 times its first row of the index array. -/
theorem baseO_eq (L : grid0.Coords) : baseO L = 128 * baseI L := by unfold baseO baseI; omega

omit [FloatOps F] in
/-- Word x of the list in row ro of the index scratch sits at (ro, x): the list is the one-row rectangle at row ro with
    its unit axis dropped. -/
theorem list_emb (ro : ℕ) (inbL : ∀ a, (![ro, 0] : Fin 2 → ℕ) a + S1x128.size a ≤ S6x128.size a) (x : S128.Idx) (a : Fin 2) :
    (((((ivV).slice (Rect.unit (s := S6x128) ![ro, 0] S1x128.size inbL) (fun _ => rfl)).squeeze S128 squeezes_S1x128_S128).view.emb x) a).val
      = (![ro, (x 0).val] : Fin 2 → ℕ) a := by
  show ((Rect.unit (s := S6x128) ![ro, 0] S1x128.size inbL).emb (Shape.reshapeEquiv _ x) a).val = _
  rw [Shape.reshapeEquiv_cons_one]
  match a with
  | ⟨0, _⟩ => show ro + 1 * 0 = ro; omega
  | ⟨1, _⟩ => show 0 + 1 * (x 0).val = (x 0).val; omega

omit [FloatOps F] in
/-- At rank one the index with row-major position z has coordinate z. -/
theorem symm_val_one (z : Fin S128.numel) : ((S128.rowMajor.symm z) 0).val = z.val := by
  have h := Shape.rowMajor_val_one (d := ![128]) (S128.rowMajor.symm z)
  rw [Equiv.apply_symm_apply] at h
  exact h.symm

/-- The 128-row window of the result at row baseO + 128 (6 k + ro), read at the lookup of the whole index array, is the
    gather of the table's rows at the list in row ro of the index scratch as it is to stand before trip k: result row
    128 (baseI + 6 k + ro) + t reads word t of row baseI + 6 k + ro of the index array, which is word t of that list. -/
theorem out_generic (hI : ∀ x, 0 ≤ (I d x).toInt ∧ (I d x).toInt ≤ 999) (k ro : ℕ) (hk : 6 * k + ro < 200)
    (inbL : ∀ a, (![ro, 0] : Fin 2 → ℕ) a + S1x128.size a ≤ S6x128.size a)
    (off : Fin S819200x128.rank → ℕ) (inbO : ∀ a, off a + S128x128.size a ≤ S819200x128.size a)
    (h0 : off 0 = baseO L + 128 * (6 * k + ro)) (h1 : off 1 = 0)
    (hn : S128.numel = S128x128.size gathers_S1000x128_S128x128.axis')
    (hin : ∀ x, ((((ivV).slice (Rect.unit (s := S6x128) ![ro, 0] S1x128.size inbL) (fun _ => rfl)).squeeze S128 squeezes_S1x128_S128).view.read (Elt F) (ivC I d L k) x).toNat
      < S1000x128.size gathers_S1000x128_S128x128.axis)
    (y : S128x128.Idx) :
    ((outV).slice (Rect.unit (s := S819200x128) off S128x128.size inbO) (fun _ => rfl)).view.read (Elt F) (outG m I d) y
      = SparseCore.gatherPayload gathers_S1000x128_S128x128 ((shW).view.read (Elt F) (tabC m d))
          (SparseCore.rows ((((ivV).slice (Rect.unit (s := S6x128) ![ro, 0] S1x128.size inbL) (fun _ => rfl)).squeeze S128 squeezes_S1x128_S128).view.read (Elt F) (ivC I d L k)) hn hin) y := by
  unfold SparseCore.gatherPayload
  rw [View.read_apply, View.read_apply]
  show outG m I d _ = tabC m d _
  unfold outG
  congr 1
  funext b
  refine Fin.ext ?_
  have hy : (y 0).val < 128 := (y 0).isLt
  have hB := baseI_lt L
  match b with
  | ⟨0, _⟩ =>
    rw [Cert.Spec.rowOf_val_of_range _ (hI _).1 (hI _).2]
    show (I d _).toNat = 0 + 1 * (ivC I d L k
      (((((ivV).slice (Rect.unit (s := S6x128) ![ro, 0] S1x128.size inbL) (fun _ => rfl)).squeeze S128 squeezes_S1x128_S128).view.emb
        (S128.rowMajor.symm ((y 0).cast hn.symm))))).toNat
    rw [Nat.zero_add, Nat.one_mul]
    unfold ivC
    congr 2
    funext a
    refine Fin.ext ?_
    match a with
    | ⟨0, _⟩ =>
      show (off 0 + 1 * (y 0).val) / 128 = (baseI L + 6 * k + _) % 6400
      rw [list_emb ro inbL _ 0]
      show (off 0 + 1 * (y 0).val) / 128 = (baseI L + 6 * k + ro) % 6400
      rw [h0, baseO_eq, Nat.mod_eq_of_lt (by omega)]
      omega
    | ⟨1, _⟩ =>
      show (off 0 + 1 * (y 0).val) % 128 = _
      rw [list_emb ro inbL _ 1]
      show (off 0 + 1 * (y 0).val) % 128 = ((S128.rowMajor.symm ((y 0).cast hn.symm)) 0).val
      rw [symm_val_one, h0, baseO_eq]
      show _ = (y 0).val
      omega
  | ⟨1, _⟩ =>
    show off 1 + 1 * (y 1).val = 0 + 1 * ((gathers_S1000x128_S128x128.idx _ y) 1).val
    rw [h1, Shape.Gathers.idx_of_ne _ _ _ 1 (by decide)]
    rfl

/-- The six result windows trip k writes: window r (of rows 128 (6 k + r) on of the worker's part) holds the gather at
    the list in row r of the index scratch as it stands before trip k. -/
theorem outV0 (hI : ∀ x, 0 ≤ (I d x).toInt ∧ (I d x).toInt ≤ 999) (k : Fin k0_t1_loop.trips)
    (hn : S128.numel = S128x128.size gathers_S1000x128_S128x128.axis')
    (hin : ∀ x, ((ivL0).view.read (Elt F) (ivC I d L k.val) x).toNat < S1000x128.size gathers_S1000x128_S128x128.axis) (y : S128x128.Idx) :
    (outCh0 L k).view.read (Elt F) (outG m I d) y
      = SparseCore.gatherPayload gathers_S1000x128_S128x128 ((shW).view.read (Elt F) (tabC m d))
          (SparseCore.rows ((ivL0).view.read (Elt F) (ivC I d L k.val)) hn hin) y :=
  out_generic m I d L hI k.val 0 (by have := Nat.lt_of_lt_of_le k.isLt k0_t1_abs.2.1; omega) inb_S6x128_S1x128_0_0
    (k0_off5 L k 0#32 0#32) (k0_off5_inb L k 0 0)
    ((congrFun (k0_off5_eq L k 0 0) 0).trans (by
      show 51200 * (L 1).val + 25600 * (L 0).val + 768 * k.val + 256 * 0 + 128 * 0 = baseO L + 128 * (6 * k.val + 0)
      unfold baseO; omega))
    (congrFun (k0_off5_eq L k 0 0) 1) hn hin y

theorem outV1 (hI : ∀ x, 0 ≤ (I d x).toInt ∧ (I d x).toInt ≤ 999) (k : Fin k0_t1_loop.trips)
    (hn : S128.numel = S128x128.size gathers_S1000x128_S128x128.axis')
    (hin : ∀ x, ((ivL1).view.read (Elt F) (ivC I d L k.val) x).toNat < S1000x128.size gathers_S1000x128_S128x128.axis) (y : S128x128.Idx) :
    (outCh1 L k).view.read (Elt F) (outG m I d) y
      = SparseCore.gatherPayload gathers_S1000x128_S128x128 ((shW).view.read (Elt F) (tabC m d))
          (SparseCore.rows ((ivL1).view.read (Elt F) (ivC I d L k.val)) hn hin) y :=
  out_generic m I d L hI k.val 1 (by have := Nat.lt_of_lt_of_le k.isLt k0_t1_abs.2.1; omega) inb_S6x128_S1x128_1_0
    (k0_off5 L k 0#32 128#32) (k0_off5_inb L k 0 1)
    ((congrFun (k0_off5_eq L k 0 1) 0).trans (by
      show 51200 * (L 1).val + 25600 * (L 0).val + 768 * k.val + 256 * 0 + 128 * 1 = baseO L + 128 * (6 * k.val + 1)
      unfold baseO; omega))
    (congrFun (k0_off5_eq L k 0 1) 1) hn hin y

theorem outV2 (hI : ∀ x, 0 ≤ (I d x).toInt ∧ (I d x).toInt ≤ 999) (k : Fin k0_t1_loop.trips)
    (hn : S128.numel = S128x128.size gathers_S1000x128_S128x128.axis')
    (hin : ∀ x, ((ivL2).view.read (Elt F) (ivC I d L k.val) x).toNat < S1000x128.size gathers_S1000x128_S128x128.axis) (y : S128x128.Idx) :
    (outCh2 L k).view.read (Elt F) (outG m I d) y
      = SparseCore.gatherPayload gathers_S1000x128_S128x128 ((shW).view.read (Elt F) (tabC m d))
          (SparseCore.rows ((ivL2).view.read (Elt F) (ivC I d L k.val)) hn hin) y :=
  out_generic m I d L hI k.val 2 (by have := Nat.lt_of_lt_of_le k.isLt k0_t1_abs.2.1; omega) inb_S6x128_S1x128_2_0
    (k0_off5 L k 1#32 0#32) (k0_off5_inb L k 1 0)
    ((congrFun (k0_off5_eq L k 1 0) 0).trans (by
      show 51200 * (L 1).val + 25600 * (L 0).val + 768 * k.val + 256 * 1 + 128 * 0 = baseO L + 128 * (6 * k.val + 2)
      unfold baseO; omega))
    (congrFun (k0_off5_eq L k 1 0) 1) hn hin y

theorem outV3 (hI : ∀ x, 0 ≤ (I d x).toInt ∧ (I d x).toInt ≤ 999) (k : Fin k0_t1_loop.trips)
    (hn : S128.numel = S128x128.size gathers_S1000x128_S128x128.axis')
    (hin : ∀ x, ((ivL3).view.read (Elt F) (ivC I d L k.val) x).toNat < S1000x128.size gathers_S1000x128_S128x128.axis) (y : S128x128.Idx) :
    (outCh3 L k).view.read (Elt F) (outG m I d) y
      = SparseCore.gatherPayload gathers_S1000x128_S128x128 ((shW).view.read (Elt F) (tabC m d))
          (SparseCore.rows ((ivL3).view.read (Elt F) (ivC I d L k.val)) hn hin) y :=
  out_generic m I d L hI k.val 3 (by have := Nat.lt_of_lt_of_le k.isLt k0_t1_abs.2.1; omega) inb_S6x128_S1x128_3_0
    (k0_off5 L k 1#32 128#32) (k0_off5_inb L k 1 1)
    ((congrFun (k0_off5_eq L k 1 1) 0).trans (by
      show 51200 * (L 1).val + 25600 * (L 0).val + 768 * k.val + 256 * 1 + 128 * 1 = baseO L + 128 * (6 * k.val + 3)
      unfold baseO; omega))
    (congrFun (k0_off5_eq L k 1 1) 1) hn hin y

theorem outV4 (hI : ∀ x, 0 ≤ (I d x).toInt ∧ (I d x).toInt ≤ 999) (k : Fin k0_t1_loop.trips)
    (hn : S128.numel = S128x128.size gathers_S1000x128_S128x128.axis')
    (hin : ∀ x, ((ivL4).view.read (Elt F) (ivC I d L k.val) x).toNat < S1000x128.size gathers_S1000x128_S128x128.axis) (y : S128x128.Idx) :
    (outCh4 L k).view.read (Elt F) (outG m I d) y
      = SparseCore.gatherPayload gathers_S1000x128_S128x128 ((shW).view.read (Elt F) (tabC m d))
          (SparseCore.rows ((ivL4).view.read (Elt F) (ivC I d L k.val)) hn hin) y :=
  out_generic m I d L hI k.val 4 (by have := Nat.lt_of_lt_of_le k.isLt k0_t1_abs.2.1; omega) inb_S6x128_S1x128_4_0
    (k0_off5 L k 2#32 0#32) (k0_off5_inb L k 2 0)
    ((congrFun (k0_off5_eq L k 2 0) 0).trans (by
      show 51200 * (L 1).val + 25600 * (L 0).val + 768 * k.val + 256 * 2 + 128 * 0 = baseO L + 128 * (6 * k.val + 4)
      unfold baseO; omega))
    (congrFun (k0_off5_eq L k 2 0) 1) hn hin y

theorem outV5 (hI : ∀ x, 0 ≤ (I d x).toInt ∧ (I d x).toInt ≤ 999) (k : Fin k0_t1_loop.trips)
    (hn : S128.numel = S128x128.size gathers_S1000x128_S128x128.axis')
    (hin : ∀ x, ((ivL5).view.read (Elt F) (ivC I d L k.val) x).toNat < S1000x128.size gathers_S1000x128_S128x128.axis) (y : S128x128.Idx) :
    (outCh5 L k).view.read (Elt F) (outG m I d) y
      = SparseCore.gatherPayload gathers_S1000x128_S128x128 ((shW).view.read (Elt F) (tabC m d))
          (SparseCore.rows ((ivL5).view.read (Elt F) (ivC I d L k.val)) hn hin) y :=
  out_generic m I d L hI k.val 5 (by have := Nat.lt_of_lt_of_le k.isLt k0_t1_abs.2.1; omega) inb_S6x128_S1x128_5_0
    (k0_off5 L k 2#32 128#32) (k0_off5_inb L k 2 1)
    ((congrFun (k0_off5_eq L k 2 1) 0).trans (by
      show 51200 * (L 1).val + 25600 * (L 0).val + 768 * k.val + 256 * 2 + 128 * 1 = baseO L + 128 * (6 * k.val + 5)
      unfold baseO; omega))
    (congrFun (k0_off5_eq L k 2 1) 1) hn hin y

/-- The epilogue's two result windows (the worker's last 256 rows) hold the gathers at the lists in rows 0 and 1 of the
    index scratch as it stands after the last trip: rows 198 and 199 of the worker's rows of the index array. -/
theorem outVE0 (hI : ∀ x, 0 ≤ (I d x).toInt ∧ (I d x).toInt ≤ 999)
    (hn : S128.numel = S128x128.size gathers_S1000x128_S128x128.axis')
    (hin : ∀ x, ((ivL0).view.read (Elt F) (ivC I d L 33) x).toNat < S1000x128.size gathers_S1000x128_S128x128.axis) (y : S128x128.Idx) :
    (outE0 L).view.read (Elt F) (outG m I d) y
      = SparseCore.gatherPayload gathers_S1000x128_S128x128 ((shW).view.read (Elt F) (tabC m d))
          (SparseCore.rows ((ivL0).view.read (Elt F) (ivC I d L 33)) hn hin) y :=
  out_generic m I d L hI 33 0 (by omega) inb_S6x128_S1x128_0_0
    (k0_off10 L 0#32) (k0_off10_inb L 0)
    ((congrFun (k0_off10_eq L 0) 0).trans (by
      show 51200 * (L 1).val + 25600 * (L 0).val + 128 * 0 + 25344 = baseO L + 128 * (6 * 33 + 0)
      unfold baseO; omega))
    (congrFun (k0_off10_eq L 0) 1) hn hin y

theorem outVE1 (hI : ∀ x, 0 ≤ (I d x).toInt ∧ (I d x).toInt ≤ 999)
    (hn : S128.numel = S128x128.size gathers_S1000x128_S128x128.axis')
    (hin : ∀ x, ((ivL1).view.read (Elt F) (ivC I d L 33) x).toNat < S1000x128.size gathers_S1000x128_S128x128.axis) (y : S128x128.Idx) :
    (outE1 L).view.read (Elt F) (outG m I d) y
      = SparseCore.gatherPayload gathers_S1000x128_S128x128 ((shW).view.read (Elt F) (tabC m d))
          (SparseCore.rows ((ivL1).view.read (Elt F) (ivC I d L 33)) hn hin) y :=
  out_generic m I d L hI 33 1 (by omega) inb_S6x128_S1x128_1_0
    (k0_off10 L 128#32) (k0_off10_inb L 1)
    ((congrFun (k0_off10_eq L 1) 0).trans (by
      show 51200 * (L 1).val + 25600 * (L 0).val + 128 * 1 + 25344 = baseO L + 128 * (6 * 33 + 1)
      unfold baseO; omega))
    (congrFun (k0_off10_eq L 1) 1) hn hin y

end Cert.Proof.KI

end
-- ==== Proof.KIRowsTake.lean ====
/-
  Taking the worker's rows of the result and putting them back. A worker's 25600 rows are taken 768 at a time, as
  the six 128-row windows one trip of the ring writes, thirty-three times, and the last 256 rows as the epilogue's
  two windows; what was written joins back, trip by trip and then the epilogue's, to the worker's whole part, which
  is one of the thirty-two equal parts of the result.
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.KernelIdeal
import proofs.«205516_g82884278878931_cont_9to1_m_1121_21_alg».proof.Proof.Gen.KernelIdeal.Skeleton
import proofs.«205516_g82884278878931_cont_9to1_m_1121_21_alg».proof.Proof.Spec
import proofs.«205516_g82884278878931_cont_9to1_m_1121_21_alg».proof.Proof.KIValue
import proofs.«205516_g82884278878931_cont_9to1_m_1121_21_alg».proof.Proof.KIRowSets

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (tileNo shareTok shareDrop)

variable {F : FTy → Type}

local notation "𝕄" => MT nD τ sig (HIx 1) (Elt F) ℕ UU ℕ
local notation "tabV" => (Memref.whole Cert.KernelIdeal.main_arg3_scv : Memref Cert.KernelIdeal.sig Kind.scVector Space.hbm Cert.KernelIdeal.S1000x128 EltTy.f32)
local notation "idxV" => (Memref.whole Cert.KernelIdeal.main_v0_scv : Memref Cert.KernelIdeal.sig Kind.scVector Space.hbm Cert.KernelIdeal.S6400x128 EltTy.i32)
local notation "outV" => (Memref.whole Cert.KernelIdeal.main_v1_scv : Memref Cert.KernelIdeal.sig Kind.scVector Space.hbm Cert.KernelIdeal.S819200x128 EltTy.f32)
local notation "shV" => (Memref.whole Cert.KernelIdeal.cc0_scratch0 : Memref Cert.KernelIdeal.sig Kind.scVector Space.shared Cert.KernelIdeal.S1000x128 EltTy.f32)
local notation "ivV" => (Memref.whole Cert.KernelIdeal.cc0_scratch1 : Memref Cert.KernelIdeal.sig Kind.scVector Space.vmem Cert.KernelIdeal.S6x128 EltTy.i32)
local notation "bigV" => (Memref.whole Cert.KernelIdeal.cc0_scratch2 : Memref Cert.KernelIdeal.sig Kind.scVector Space.vmem Cert.KernelIdeal.S768x128 EltTy.f32)

/-! ## Splitting a range of rows, as equalities -/

/-- The points-to of a range of rows is that of its part below a row joined with that of its part from the row on. -/
theorem rows_split_eq (d : Dev nD) (c : Fin τ.nSC) (j : Fin τ.nSub) (q : PosShare TreeShare)
    (f : Buf (Elt F) ((outV).view.loc (V d c j))) {a b c' : ℕ} (h1 : a ≤ b) (h2 : b ≤ c') :
    ((outV).view.loc (V d c j) ↦[rowsSet a c']{q} f : sProp 𝕄)
      = iprop(((outV).view.loc (V d c j) ↦[rowsSet a b]{q} f) ∗ ((outV).view.loc (V d c j) ↦[rowsSet b c']{q} f)) :=
  have h := rows_split (F := F) d c j q f h1 h2
  BI.equiv_iff.mp ⟨h.1, h.2⟩

/-- Six consecutive 128-row windows and what follows them: the range from the first window's first row to e. -/
theorem rows_take6 (d : Dev nD) (c : Fin τ.nSC) (j : Fin τ.nSub) (q : PosShare TreeShare)
    (f : Buf (Elt F) ((outV).view.loc (V d c j))) (c0 c1 c2 c3 c4 c5 e : ℕ)
    (h1 : c1 = c0 + 128) (h2 : c2 = c1 + 128) (h3 : c3 = c2 + 128) (h4 : c4 = c3 + 128) (h5 : c5 = c4 + 128) (he : c5 + 128 ≤ e) :
    ((outV).view.loc (V d c j) ↦[rowsSet c0 e]{q} f : sProp 𝕄)
      = iprop(((outV).view.loc (V d c j) ↦[rowsSet c0 (c0 + 128)]{q} f) ∗ ((outV).view.loc (V d c j) ↦[rowsSet c1 (c1 + 128)]{q} f) ∗ ((outV).view.loc (V d c j) ↦[rowsSet c2 (c2 + 128)]{q} f)
          ∗ ((outV).view.loc (V d c j) ↦[rowsSet c3 (c3 + 128)]{q} f) ∗ ((outV).view.loc (V d c j) ↦[rowsSet c4 (c4 + 128)]{q} f) ∗ ((outV).view.loc (V d c j) ↦[rowsSet c5 (c5 + 128)]{q} f)
          ∗ ((outV).view.loc (V d c j) ↦[rowsSet (c5 + 128) e]{q} f)) := by
  subst h1 h2 h3 h4 h5
  rw [rows_split_eq d c j q f (a := c0) (b := c0 + 128) (c' := e) (by omega) (by omega),
    rows_split_eq d c j q f (a := c0 + 128) (b := c0 + 128 + 128) (c' := e) (by omega) (by omega),
    rows_split_eq d c j q f (a := c0 + 128 + 128) (b := c0 + 128 + 128 + 128) (c' := e) (by omega) (by omega),
    rows_split_eq d c j q f (a := c0 + 128 + 128 + 128) (b := c0 + 128 + 128 + 128 + 128) (c' := e) (by omega) (by omega),
    rows_split_eq d c j q f (a := c0 + 128 + 128 + 128 + 128) (b := c0 + 128 + 128 + 128 + 128 + 128) (c' := e) (by omega) (by omega),
    rows_split_eq d c j q f (a := c0 + 128 + 128 + 128 + 128 + 128) (b := c0 + 128 + 128 + 128 + 128 + 128 + 128) (c' := e) (by omega) (by omega)]

/-- Six consecutive 128-row windows exactly: the range from the first window's first row to the last window's end. -/
theorem rows_six (d : Dev nD) (c : Fin τ.nSC) (j : Fin τ.nSub) (q : PosShare TreeShare)
    (f : Buf (Elt F) ((outV).view.loc (V d c j))) (c0 c1 c2 c3 c4 c5 : ℕ)
    (h1 : c1 = c0 + 128) (h2 : c2 = c1 + 128) (h3 : c3 = c2 + 128) (h4 : c4 = c3 + 128) (h5 : c5 = c4 + 128) :
    ((outV).view.loc (V d c j) ↦[rowsSet c0 (c5 + 128)]{q} f : sProp 𝕄)
      = iprop(((outV).view.loc (V d c j) ↦[rowsSet c0 (c0 + 128)]{q} f) ∗ ((outV).view.loc (V d c j) ↦[rowsSet c1 (c1 + 128)]{q} f) ∗ ((outV).view.loc (V d c j) ↦[rowsSet c2 (c2 + 128)]{q} f)
          ∗ ((outV).view.loc (V d c j) ↦[rowsSet c3 (c3 + 128)]{q} f) ∗ ((outV).view.loc (V d c j) ↦[rowsSet c4 (c4 + 128)]{q} f) ∗ ((outV).view.loc (V d c j) ↦[rowsSet c5 (c5 + 128)]{q} f)) := by
  subst h1 h2 h3 h4 h5
  rw [rows_split_eq d c j q f (a := c0) (b := c0 + 128) (c' := c0 + 128 + 128 + 128 + 128 + 128 + 128) (by omega) (by omega),
    rows_split_eq d c j q f (a := c0 + 128) (b := c0 + 128 + 128) (c' := c0 + 128 + 128 + 128 + 128 + 128 + 128) (by omega) (by omega),
    rows_split_eq d c j q f (a := c0 + 128 + 128) (b := c0 + 128 + 128 + 128) (c' := c0 + 128 + 128 + 128 + 128 + 128 + 128) (by omega) (by omega),
    rows_split_eq d c j q f (a := c0 + 128 + 128 + 128) (b := c0 + 128 + 128 + 128 + 128) (c' := c0 + 128 + 128 + 128 + 128 + 128 + 128) (by omega) (by omega),
    rows_split_eq d c j q f (a := c0 + 128 + 128 + 128 + 128) (b := c0 + 128 + 128 + 128 + 128 + 128) (c' := c0 + 128 + 128 + 128 + 128 + 128 + 128) (by omega) (by omega)]

/-! ## A trip's six windows, the epilogue's two, and the worker's part -/

/-- Before trip k the worker still holds its rows from row 768 k of its part on: trip k takes its six windows of them,
    and rows from 768 (k + 1) on remain. -/
theorem todo_take (d : Dev nD) (L : grid0.Coords) (k : Fin k0_t1_loop.trips) (f : Buf (Elt F) ((outV).view.loc (V d (cV L) (jV L)))) :
    ((outV).view.loc (V d (cV L) (jV L)) ↦[rowsSet (baseO L + 768 * k.val) (baseO L + 25600)]{fullShare} f : sProp 𝕄)
      ⊣⊢ iprop(((outCh0 L k).view.loc (V d (cV L) (jV L)) ↦[(outCh0 L k).view.set]{fullShare} f)
          ∗ ((outCh1 L k).view.loc (V d (cV L) (jV L)) ↦[(outCh1 L k).view.set]{fullShare} f)
          ∗ ((outCh2 L k).view.loc (V d (cV L) (jV L)) ↦[(outCh2 L k).view.set]{fullShare} f)
          ∗ ((outCh3 L k).view.loc (V d (cV L) (jV L)) ↦[(outCh3 L k).view.set]{fullShare} f)
          ∗ ((outCh4 L k).view.loc (V d (cV L) (jV L)) ↦[(outCh4 L k).view.set]{fullShare} f)
          ∗ ((outCh5 L k).view.loc (V d (cV L) (jV L)) ↦[(outCh5 L k).view.set]{fullShare} f)
          ∗ ((outV).view.loc (V d (cV L) (jV L)) ↦[rowsSet (baseO L + 768 * (k.val + 1)) (baseO L + 25600)]{fullShare} f)) := by
  have hk : k.val < 33 := Nat.lt_of_lt_of_le k.isLt k0_t1_abs.2.1
  refine BIBase.BiEntails.of_eq ?_
  show ((outV).view.loc (V d (cV L) (jV L)) ↦[rowsSet (baseO L + 768 * k.val) (baseO L + 25600)]{fullShare} f : sProp 𝕄)
      = iprop(((outV).view.loc (V d (cV L) (jV L)) ↦[(outCh0 L k).view.set]{fullShare} f)
          ∗ ((outV).view.loc (V d (cV L) (jV L)) ↦[(outCh1 L k).view.set]{fullShare} f)
          ∗ ((outV).view.loc (V d (cV L) (jV L)) ↦[(outCh2 L k).view.set]{fullShare} f)
          ∗ ((outV).view.loc (V d (cV L) (jV L)) ↦[(outCh3 L k).view.set]{fullShare} f)
          ∗ ((outV).view.loc (V d (cV L) (jV L)) ↦[(outCh4 L k).view.set]{fullShare} f)
          ∗ ((outV).view.loc (V d (cV L) (jV L)) ↦[(outCh5 L k).view.set]{fullShare} f)
          ∗ ((outV).view.loc (V d (cV L) (jV L)) ↦[rowsSet (baseO L + 768 * (k.val + 1)) (baseO L + 25600)]{fullShare} f))
  rw [outCh0_set, outCh1_set, outCh2_set, outCh3_set, outCh4_set, outCh5_set,
    show baseO L + 768 * (k.val + 1) = baseO L + 768 * k.val + 128 * 5 + 128 from by omega]
  exact rows_take6 d _ _ fullShare f (baseO L + 768 * k.val + 128 * 0) (baseO L + 768 * k.val + 128 * 1) (baseO L + 768 * k.val + 128 * 2) (baseO L + 768 * k.val + 128 * 3) (baseO L + 768 * k.val + 128 * 4) (baseO L + 768 * k.val + 128 * 5) (baseO L + 25600)
    (by omega) (by omega) (by omega) (by omega) (by omega) (by omega)

/-- What trips 0 … kp − 1 wrote, joined with trip kp's six windows, is what trips 0 … kp wrote. -/
theorem done_put (d : Dev nD) (L : grid0.Coords) (kp : Fin k0_t1_loop.trips) (f : Buf (Elt F) ((outV).view.loc (V d (cV L) (jV L)))) :
    iprop(((outV).view.loc (V d (cV L) (jV L)) ↦[rowsSet (baseO L) (baseO L + 768 * kp.val)]{fullShare} f)
          ∗ ((outV).view.loc (V d (cV L) (jV L)) ↦[(outCh0 L kp).view.set]{fullShare} f)
          ∗ ((outV).view.loc (V d (cV L) (jV L)) ↦[(outCh1 L kp).view.set]{fullShare} f)
          ∗ ((outV).view.loc (V d (cV L) (jV L)) ↦[(outCh2 L kp).view.set]{fullShare} f)
          ∗ ((outV).view.loc (V d (cV L) (jV L)) ↦[(outCh3 L kp).view.set]{fullShare} f)
          ∗ ((outV).view.loc (V d (cV L) (jV L)) ↦[(outCh4 L kp).view.set]{fullShare} f)
          ∗ ((outV).view.loc (V d (cV L) (jV L)) ↦[(outCh5 L kp).view.set]{fullShare} f))
      ⊢ ((outV).view.loc (V d (cV L) (jV L)) ↦[rowsSet (baseO L) (baseO L + 768 * (kp.val + 1))]{fullShare} f : sProp 𝕄) := by
  refine BIBase.Entails.of_eq ?_
  rw [outCh0_set, outCh1_set, outCh2_set, outCh3_set, outCh4_set, outCh5_set,
    show baseO L + 768 * (kp.val + 1) = baseO L + 768 * kp.val + 128 * 5 + 128 from by omega,
    rows_split_eq d _ _ fullShare f (a := baseO L) (b := baseO L + 768 * kp.val) (c' := baseO L + 768 * kp.val + 128 * 5 + 128) (by omega) (by omega)]
  exact congrArg (fun X : sProp 𝕄 => iprop(((outV).view.loc (V d (cV L) (jV L)) ↦[rowsSet (baseO L) (baseO L + 768 * kp.val)]{fullShare} f) ∗ X))
    (rows_six d _ _ fullShare f (baseO L + 768 * kp.val + 128 * 0) (baseO L + 768 * kp.val + 128 * 1) (baseO L + 768 * kp.val + 128 * 2) (baseO L + 768 * kp.val + 128 * 3) (baseO L + 768 * kp.val + 128 * 4) (baseO L + 768 * kp.val + 128 * 5)
      (by omega) (by omega) (by omega) (by omega) (by omega)).symm

/-- After the last trip the worker's last 256 rows remain: the epilogue's two windows. -/
theorem last_take (d : Dev nD) (L : grid0.Coords) (f : Buf (Elt F) ((outV).view.loc (V d (cV L) (jV L)))) :
    ((outV).view.loc (V d (cV L) (jV L)) ↦[rowsSet (baseO L + 768 * 33) (baseO L + 25600)]{fullShare} f : sProp 𝕄)
      ⊣⊢ iprop(((outE0 L).view.loc (V d (cV L) (jV L)) ↦[(outE0 L).view.set]{fullShare} f)
          ∗ ((outE1 L).view.loc (V d (cV L) (jV L)) ↦[(outE1 L).view.set]{fullShare} f)) := by
  refine BIBase.BiEntails.of_eq ?_
  show ((outV).view.loc (V d (cV L) (jV L)) ↦[rowsSet (baseO L + 768 * 33) (baseO L + 25600)]{fullShare} f : sProp 𝕄)
      = iprop(((outV).view.loc (V d (cV L) (jV L)) ↦[(outE0 L).view.set]{fullShare} f) ∗ ((outV).view.loc (V d (cV L) (jV L)) ↦[(outE1 L).view.set]{fullShare} f))
  rw [outE0_set, outE1_set, show baseO L + 768 * 33 = baseO L + 25344 from by omega,
    show baseO L + 25600 = baseO L + 25472 + 128 from by omega, show baseO L + 25344 + 128 = baseO L + 25472 from by omega]
  exact rows_split_eq d _ _ fullShare f (by omega) (by omega)

/-- The worker's part of the result — part 2 i + c of the thirty-two — is its 25600 rows from row baseO on. -/
theorem part_rows (d : Dev nD) (L : grid0.Coords) (c2 : Fin 2) (i16 : Fin 16) (hc : c2.val = (L 0).val) (hi : i16.val = (L 1).val)
    (f : Buf (Elt F) (outLoc d)) :
    (outLoc d ↦[outSet (Transfers.tileNo c2 i16)]{fullShare} f : sProp 𝕄)
      = ((outV).view.loc (V d (cV L) (jV L)) ↦[rowsSet (baseO L) (baseO L + 25600)]{fullShare} f) := by
  rw [outSet_rows c2 i16, show 51200 * i16.val + 25600 * c2.val = baseO L from by unfold baseO; omega]

/-- What the thirty-three trips wrote, joined with the epilogue's two windows, is the worker's whole part. -/
theorem rows_all (d : Dev nD) (L : grid0.Coords) (f : Buf (Elt F) ((outV).view.loc (V d (cV L) (jV L)))) :
    iprop(((outV).view.loc (V d (cV L) (jV L)) ↦[rowsSet (baseO L) (baseO L + 768 * 33)]{fullShare} f)
          ∗ ((outV).view.loc (V d (cV L) (jV L)) ↦[(outE0 L).view.set]{fullShare} f) ∗ ((outV).view.loc (V d (cV L) (jV L)) ↦[(outE1 L).view.set]{fullShare} f))
      ⊢ ((outV).view.loc (V d (cV L) (jV L)) ↦[rowsSet (baseO L) (baseO L + 25600)]{fullShare} f : sProp 𝕄) := by
  refine BIBase.Entails.of_eq ?_
  rw [outE0_set, outE1_set, show baseO L + 768 * 33 = baseO L + 25344 from by omega,
    show baseO L + 25600 = baseO L + 25472 + 128 from by omega, show baseO L + 25344 + 128 = baseO L + 25472 from by omega,
    rows_split_eq d _ _ fullShare f (a := baseO L) (b := baseO L + 25344) (c' := baseO L + 25472 + 128) (by omega) (by omega)]
  exact congrArg (fun X : sProp 𝕄 => iprop(((outV).view.loc (V d (cV L) (jV L)) ↦[rowsSet (baseO L) (baseO L + 25344)]{fullShare} f) ∗ X))
    (rows_split_eq d _ _ fullShare f (a := baseO L + 25344) (b := baseO L + 25472) (c' := baseO L + 25472 + 128) (by omega) (by omega)).symm

end Cert.Proof.KI

end
-- ==== Proof.KISepL.lean ====
/-
  A chain over a list of two, and of sixteen, written out.
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.KernelIdeal
import proofs.«205516_g82884278878931_cont_9to1_m_1121_21_alg».proof.Proof.Gen.KernelIdeal.Skeleton
import proofs.«205516_g82884278878931_cont_9to1_m_1121_21_alg».proof.Proof.Spec
import proofs.«205516_g82884278878931_cont_9to1_m_1121_21_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (tileNo shareTok shareDrop)

variable {F : FTy → Type}

local notation "𝕄" => MT nD τ sig (HIx 1) (Elt F) ℕ UU ℕ
local notation "tabV" => (Memref.whole Cert.KernelIdeal.main_arg3_scv : Memref Cert.KernelIdeal.sig Kind.scVector Space.hbm Cert.KernelIdeal.S1000x128 EltTy.f32)
local notation "idxV" => (Memref.whole Cert.KernelIdeal.main_v0_scv : Memref Cert.KernelIdeal.sig Kind.scVector Space.hbm Cert.KernelIdeal.S6400x128 EltTy.i32)
local notation "outV" => (Memref.whole Cert.KernelIdeal.main_v1_scv : Memref Cert.KernelIdeal.sig Kind.scVector Space.hbm Cert.KernelIdeal.S819200x128 EltTy.f32)
local notation "shV" => (Memref.whole Cert.KernelIdeal.cc0_scratch0 : Memref Cert.KernelIdeal.sig Kind.scVector Space.shared Cert.KernelIdeal.S1000x128 EltTy.f32)
local notation "ivV" => (Memref.whole Cert.KernelIdeal.cc0_scratch1 : Memref Cert.KernelIdeal.sig Kind.scVector Space.vmem Cert.KernelIdeal.S6x128 EltTy.i32)
local notation "bigV" => (Memref.whole Cert.KernelIdeal.cc0_scratch2 : Memref Cert.KernelIdeal.sig Kind.scVector Space.vmem Cert.KernelIdeal.S768x128 EltTy.f32)

theorem bigSepL2 {J : Type} (a b : J) (Φ : J → sProp 𝕄) : bigSepL [a, b] Φ = iprop(Φ a ∗ Φ b) := rfl
theorem bigSepL16 {J : Type} (a1 a2 a3 a4 a5 a6 a7 a8 a9 a10 a11 a12 a13 a14 a15 a16 : J) (Φ : J → sProp 𝕄) :
    bigSepL [a1, a2, a3, a4, a5, a6, a7, a8, a9, a10, a11, a12, a13, a14, a15, a16] Φ = iprop(Φ a1 ∗ Φ a2 ∗ Φ a3 ∗ Φ a4 ∗ Φ a5 ∗ Φ a6 ∗ Φ a7 ∗ Φ a8 ∗ Φ a9 ∗ Φ a10 ∗ Φ a11 ∗ Φ a12 ∗ Φ a13 ∗ Φ a14 ∗ Φ a15 ∗ Φ a16) := rfl
end Cert.Proof.KI
end
-- ==== Proof.KIToks.lean ====
/-
  A read share dealt as a remainder and three, or six, read tokens, written out one by one.
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.KernelIdeal
import proofs.«205516_g82884278878931_cont_9to1_m_1121_21_alg».proof.Proof.Gen.KernelIdeal.Skeleton
import proofs.«205516_g82884278878931_cont_9to1_m_1121_21_alg».proof.Proof.Spec
import proofs.«205516_g82884278878931_cont_9to1_m_1121_21_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (tileNo shareTok shareDrop)

variable {F : FTy → Type}

local notation "𝕄" => MT nD τ sig (HIx 1) (Elt F) ℕ UU ℕ
local notation "tabV" => (Memref.whole Cert.KernelIdeal.main_arg3_scv : Memref Cert.KernelIdeal.sig Kind.scVector Space.hbm Cert.KernelIdeal.S1000x128 EltTy.f32)
local notation "idxV" => (Memref.whole Cert.KernelIdeal.main_v0_scv : Memref Cert.KernelIdeal.sig Kind.scVector Space.hbm Cert.KernelIdeal.S6400x128 EltTy.i32)
local notation "outV" => (Memref.whole Cert.KernelIdeal.main_v1_scv : Memref Cert.KernelIdeal.sig Kind.scVector Space.hbm Cert.KernelIdeal.S819200x128 EltTy.f32)
local notation "shV" => (Memref.whole Cert.KernelIdeal.cc0_scratch0 : Memref Cert.KernelIdeal.sig Kind.scVector Space.shared Cert.KernelIdeal.S1000x128 EltTy.f32)
local notation "ivV" => (Memref.whole Cert.KernelIdeal.cc0_scratch1 : Memref Cert.KernelIdeal.sig Kind.scVector Space.vmem Cert.KernelIdeal.S6x128 EltTy.i32)
local notation "bigV" => (Memref.whole Cert.KernelIdeal.cc0_scratch2 : Memref Cert.KernelIdeal.sig Kind.scVector Space.vmem Cert.KernelIdeal.S768x128 EltTy.f32)

theorem bigSep_fin3' (Φ : Fin 3 → sProp 𝕄) : bigSep Finset.univ Φ = iprop(Φ 0 ∗ Φ 1 ∗ Φ 2) := by
  rw [show (Finset.univ : Finset (Fin 3)) = {0, 1, 2} from by decide,
    SparseCore.bigSep_insert' (by decide), SparseCore.bigSep_insert' (by decide), bigSep_singleton]

theorem bigSep_fin6' (Φ : Fin 6 → sProp 𝕄) : bigSep Finset.univ Φ = iprop(Φ 0 ∗ Φ 1 ∗ Φ 2 ∗ Φ 3 ∗ Φ 4 ∗ Φ 5) := by
  rw [show (Finset.univ : Finset (Fin 6)) = {0, 1, 2, 3, 4, 5} from by decide,
    SparseCore.bigSep_insert' (by decide), SparseCore.bigSep_insert' (by decide), SparseCore.bigSep_insert' (by decide),
    SparseCore.bigSep_insert' (by decide), SparseCore.bigSep_insert' (by decide), bigSep_singleton]

/-- A share as what is left after three read tokens, and the three. -/
theorem toks3 (ℓ : Loc nD τ sig) (q : PosShare TreeShare) (f : Buf (Elt F) ℓ) :
    (ℓ ↦{q} f : sProp 𝕄) ⊣⊢ iprop((ℓ ↦{shareDrop q 3} f) ∗ (ℓ ↦{shareTok q 3 0} f) ∗ (ℓ ↦{shareTok q 3 1} f) ∗ (ℓ ↦{shareTok q 3 2} f)) := by
  have h := Transfers.pointsTo_toks (Ix := HIx 1) (Name := ℕ) (U := UU) (Lvl := ℕ) (ℓ := ℓ) (S := Finset.univ) (f := f) q 3
  rw [bigSep_fin3' (F := F) (fun i : Fin 3 => (ℓ ↦{shareTok q 3 i} f : sProp 𝕄))] at h
  exact h

/-- A share as what is left after six read tokens, and the six. -/
theorem toks6 (ℓ : Loc nD τ sig) (q : PosShare TreeShare) (f : Buf (Elt F) ℓ) :
    (ℓ ↦{q} f : sProp 𝕄) ⊣⊢ iprop((ℓ ↦{shareDrop q 6} f) ∗ (ℓ ↦{shareTok q 6 0} f) ∗ (ℓ ↦{shareTok q 6 1} f) ∗ (ℓ ↦{shareTok q 6 2} f)
        ∗ (ℓ ↦{shareTok q 6 3} f) ∗ (ℓ ↦{shareTok q 6 4} f) ∗ (ℓ ↦{shareTok q 6 5} f)) := by
  have h := Transfers.pointsTo_toks (Ix := HIx 1) (Name := ℕ) (U := UU) (Lvl := ℕ) (ℓ := ℓ) (S := Finset.univ) (f := f) q 6
  rw [bigSep_fin6' (F := F) (fun i : Fin 6 => (ℓ ↦{shareTok q 6 i} f : sProp 𝕄))] at h
  exact h

end Cert.Proof.KI
end
-- ==== Proof.KIPrologue.lean ====
/-
  The prologue of a subcore's task. Subcore 0 of a SparseCore copies the table into the SparseCore's shared memory
  and waits for the copy; every subcore starts the fetches of its first six index rows, two rows to a slot, and
  meets the others at the subcore barrier. Subcore 0 arrives at subcore j's cell with j's read token of the shared
  copy, at the table's contents, and keeps what is left of the copy after the sixteen tokens; the others arrive
  with nothing. Leaving the barrier each subcore holds its own token: the shared table may be read from then on.
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.KernelIdeal
import proofs.«205516_g82884278878931_cont_9to1_m_1121_21_alg».proof.Proof.Gen.KernelIdeal.Skeleton
import proofs.«205516_g82884278878931_cont_9to1_m_1121_21_alg».proof.Proof.Spec
import proofs.«205516_g82884278878931_cont_9to1_m_1121_21_alg».proof.Proof.KIFlight
import proofs.«205516_g82884278878931_cont_9to1_m_1121_21_alg».proof.Proof.KIRowSets
import proofs.«205516_g82884278878931_cont_9to1_m_1121_21_alg».proof.Proof.KIState
import proofs.«205516_g82884278878931_cont_9to1_m_1121_21_alg».proof.Proof.KIValueLemmas

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (tileNo shareTok shareDrop)

variable {F : FTy → Type}

local notation "𝕄" => MT nD τ sig (HIx 1) (Elt F) ℕ UU ℕ
local notation "tabV" => (Memref.whole Cert.KernelIdeal.main_arg3_scv : Memref Cert.KernelIdeal.sig Kind.scVector Space.hbm Cert.KernelIdeal.S1000x128 EltTy.f32)
local notation "idxV" => (Memref.whole Cert.KernelIdeal.main_v0_scv : Memref Cert.KernelIdeal.sig Kind.scVector Space.hbm Cert.KernelIdeal.S6400x128 EltTy.i32)
local notation "outV" => (Memref.whole Cert.KernelIdeal.main_v1_scv : Memref Cert.KernelIdeal.sig Kind.scVector Space.hbm Cert.KernelIdeal.S819200x128 EltTy.f32)
local notation "shV" => (Memref.whole Cert.KernelIdeal.cc0_scratch0 : Memref Cert.KernelIdeal.sig Kind.scVector Space.shared Cert.KernelIdeal.S1000x128 EltTy.f32)
local notation "ivV" => (Memref.whole Cert.KernelIdeal.cc0_scratch1 : Memref Cert.KernelIdeal.sig Kind.scVector Space.vmem Cert.KernelIdeal.S6x128 EltTy.i32)
local notation "bigV" => (Memref.whole Cert.KernelIdeal.cc0_scratch2 : Memref Cert.KernelIdeal.sig Kind.scVector Space.vmem Cert.KernelIdeal.S768x128 EltTy.f32)

variable (m : (ℓ : Loc nD τ sig) → Buf (Elt F) ℓ) (I : Dev nD → S6400x128.Idx → BitVec 32)
variable [FloatOps F]
section Tile
variable (d : Dev nD) (L : grid0.Coords)

omit [FloatOps F] in
/-- The guard of the table copy, as the program computes it from the subcore's number: true on subcore 0, -/
theorem guard_zero (hs : (L 1).val = 0) :
    (Scalar.cmpi .ne (Scalar.extui (Scalar.cmpi .eq (BitVec.ofNat 32 (L 1).val) (0#32)) : BitVec 32) (0#32) : BitVec 1) = 1#1 := by
  rw [hs]; decide

omit [FloatOps F] in
/-- false on the others. -/
theorem guard_pos (hs : ¬ (L 1).val = 0) :
    ¬ (Scalar.cmpi .ne (Scalar.extui (Scalar.cmpi .eq (BitVec.ofNat 32 (L 1).val) (0#32)) : BitVec 32) (0#32) : BitVec 1) = 1#1 := by
  have h : ∀ n : Fin (grid0.bound 1), ¬ n.val = 0 →
      ¬ (Scalar.cmpi .ne (Scalar.extui (Scalar.cmpi .eq (BitVec.ofNat 32 n.val) (0#32)) : BitVec 32) (0#32) : BitVec 1) = 1#1 := by decide
  exact h (L 1) hs

omit [FloatOps F] in
theorem bkit_eq : bkit m d (cV L) (jV L) = (iprop((∃ κ : GSem nD τ sig → ℕ, bigSep Finset.univ fun j : Fin (grid0.bound 1) =>
      cellInv EB (bRd (F := F) m) (κ (bcell d (cV L) (j.castLE hsub0))) (bcell d (cV L) (j.castLE hsub0)))
    ∗ (bigSep Finset.univ fun j : Fin (grid0.bound 1) => dutyTok EB (bcell d (cV L) (j.castLE hsub0)) 0 (jV L).val)
    ∗ (bigSep Finset.univ fun j : Fin (grid0.bound 1) => reached EB (bcell d (cV L) (j.castLE hsub0)) 0)
    ∗ atPos EB (bcell d (cV L) (jV L)) 0 ∅ 0
    ∗ cred (tallyAt (bcell d (cV L) (jV L)) (some 0) (grid0.bound 1))) : sProp 𝕄) := by
  unfold bkit; rfl

omit [FloatOps F] in
/-- Subcore 0's arrivals: the shared copy at the table's contents is what is left after sixteen read tokens and the
    tokens, subcore j's handed over at subcore j's cell. -/
theorem pays_intro_zero (hs : (L 1).val = 0) :
    (shLoc d (cV L) ↦{fullShare} (tabC m d : Buf (Elt F) (shLoc d (cV L))) : sProp 𝕄)
      ⊢ iprop((shLoc d (cV L) ↦{shareDrop fullShare 16} (tabC m d : Buf (Elt F) (shLoc d (cV L))))
        ∗ bigSep Finset.univ fun j : Fin (grid0.bound 1) => (bRd (F := F) m).payload (bcell d (cV L) (j.castLE hsub0)) 0 (jV L).val) := by
  have e : (bigSep Finset.univ fun i : Fin 16 => (shLoc d (cV L) ↦{shareTok fullShare 16 i} (tabC m d : Buf (Elt F) (shLoc d (cV L))) : sProp 𝕄))
      = bigSep Finset.univ fun j : Fin (grid0.bound 1) => (bRd (F := F) m).payload (bcell d (cV L) (j.castLE hsub0)) 0 (jV L).val := by
    show (bigSep (Finset.univ : Finset (Fin (grid0.bound 1))) fun j => (shLoc d (cV L) ↦{shareTok fullShare 16 j} (tabC m d : Buf (Elt F) (shLoc d (cV L))) : sProp 𝕄)) = _
    refine bigSep_congr fun j _ => ?_
    show _ = bPay m (bcell d (cV L) (j.castLE hsub0)) (jV L).val
    unfold bPay; dsimp only
    rw [if_pos (show (jV L).val = 0 from hs)]
    rfl
  rw [← e]
  exact Transfers.pointsTo_toks_split (ℓ := shLoc d (cV L)) (S := Finset.univ) (f := (tabC m d : Buf (Elt F) (shLoc d (cV L)))) fullShare 16

omit [FloatOps F] in
/-- The other subcores arrive with nothing. -/
theorem pays_intro_pos (hs : ¬ (L 1).val = 0) :
    (iprop(emp) : sProp 𝕄) ⊢ bigSep Finset.univ fun j : Fin (grid0.bound 1) => (bRd (F := F) m).payload (bcell d (cV L) (j.castLE hsub0)) 0 (jV L).val := by
  refine Entails.of_eq ((bigSep_emp' (F := F) (Finset.univ : Finset (Fin (grid0.bound 1)))).symm.trans (bigSep_congr fun j _ => ?_))
  show _ = bPay m (bcell d (cV L) (j.castLE hsub0)) (jV L).val
  unfold bPay; dsimp only
  rw [if_neg (show ¬ (jV L).val = 0 from hs)]

omit [FloatOps F] in
/-- What a subcore's own round collected: its read token of the shared copy, at the table's contents. -/
theorem pays_elim : (bigSep ((bRd (F := F) m).duties (bcell d (cV L) (jV L)) 0 \ ∅) fun n => (bRd (F := F) m).payload (bcell d (cV L) (jV L)) 0 n)
    ⊢ (shLoc d (cV L) ↦{shShare (jV L)} (tabC m d : Buf (Elt F) (shLoc d (cV L))) : sProp 𝕄) := by
  rw [Finset.sdiff_empty, bRd_duties₀]
  refine (bigSep_elim (Φ := fun n : ℕ => (bRd (F := F) m).payload (bcell d (cV L) (jV L)) 0 n) (i := (0 : ℕ))
    (Finset.mem_image.mpr ⟨(⟨0, by decide⟩ : Fin τ.nSub), Finset.mem_univ _, rfl⟩)).trans ?_
  show bPay m (bcell d (cV L) (jV L)) 0 ⊢ _
  unfold bPay; dsimp only
  rw [if_pos rfl]

omit [FloatOps F] in
/-- The shared memory written whole with the table's contents holds the table's contents. -/
theorem sh_landed (fsh : Buf (Elt F) ((shV).view.loc (V d (cV L) (jV L)))) (P : S1000x128.Idx → Elt F .f32) (hP : P = tabC m d) :
    ((shV).view.loc (V d (cV L) (jV L)) ↦{fullShare} View.write (Elt F) (shV).view fsh P Finset.univ : sProp 𝕄)
      = (shLoc d (cV L) ↦{fullShare} (tabC m d : Buf (Elt F) (shLoc d (cV L)))) := by
  subst hP
  rw [show View.write (Elt F) (shV).view fsh (tabC m d) Finset.univ = tabC m d from View.write_whole_univ cc0_scratch0 fsh _]
  rfl

set_option maxHeartbeats 4000000 in
theorem prologue_pos (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) (qi qt : PosShare TreeShare)
    (f0 : Buf (Elt F) ((ivS0).view.loc (V d (cV L) (jV L)))) (f1 : Buf (Elt F) ((ivS1).view.loc (V d (cV L) (jV L)))) (f2 : Buf (Elt F) ((ivS2).view.loc (V d (cV L) (jV L)))) (hs : ¬ (L 1).val = 0) :
    iprop(levAts (K (F := F)).L (K (F := F)).lev ∗ bkit m d (cV L) (jV L)
        ∗ ((idxV).view.loc (V d (cV L) (jV L)) ↦{shareTok qi 3 0} (I d : Buf (Elt F) ((idxV).view.loc (V d (cV L) (jV L)))))
        ∗ ((idxV).view.loc (V d (cV L) (jV L)) ↦{shareTok qi 3 1} (I d : Buf (Elt F) ((idxV).view.loc (V d (cV L) (jV L)))))
        ∗ ((idxV).view.loc (V d (cV L) (jV L)) ↦{shareTok qi 3 2} (I d : Buf (Elt F) ((idxV).view.loc (V d (cV L) (jV L)))))
        ∗ ((ivS0).view.loc (V d (cV L) (jV L)) ↦[(ivS0).view.set]{fullShare} f0)
        ∗ ((ivS1).view.loc (V d (cV L) (jV L)) ↦[(ivS1).view.set]{fullShare} f1)
        ∗ ((ivS2).view.loc (V d (cV L) (jV L)) ↦[(ivS2).view.set]{fullShare} f2)
        ∗ semVal ((V d (cV L) (jV L)), SemLoc.dma cc0_scratch15.sem) 0
        ∗ semVal ((V d (cV L) (jV L)), SemLoc.dma cc0_scratch16.sem) 0
        ∗ semVal ((V d (cV L) (jV L)), SemLoc.dma cc0_scratch17.sem) 0
        ∗ semVal ((V d (cV L) (jV L)), SemLoc.dma cc0_scoped0.sem) 0
        ∗ emp
        ∗ owes (V d (cV L) (jV L)) (O + oxV d (cV L)) W)
      ⊢ wp frame (wpE (defs₀ (F := F)) 𝒱₀ (V d (cV L) (jV L)) none) Set.univ
          (k0_part6 L tabV (Memref.isWhole_whole _) idxV (Memref.isWhole_whole _) outV (Memref.isWhole_whole _) shV (Memref.isWhole_whole _) ivV (Memref.isWhole_whole _) bigV (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scoped0)
          (afterPrologue m I d L O W qi qt) := by
  have h1 := guard_pos L hs
  iintro ⟨#Hlv, Hkit, Hi0, Hi1, Hi2, Hs0, Hs1, Hs2, Hc15, Hc16, Hc17, HcA, -, HO⟩
  ihave Hkit' := (Entails.of_eq (bkit_eq m d L)) $$ Hkit
  icases Hkit' with ⟨⟨%κ, #Hinv⟩, Htoks, #Hrch, Hat, Hcred⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  -- the three fetches
  sl_exec
  -- the barrier: nothing handed over, the subcore's own token received
  ihave Hpays := (pays_intro_pos (F := F) m d L hs) $$ []
  · iempintro
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hmine := (pays_elim (F := F) m d L) $$ Hgot
  sl_exec
  sl_step
  unfold afterPrologue
  isplitr; · ipureintro; rfl
  isplitl [Hc15 Hi0]
  · unfold fetchI0
    iapply (flight_fetch_clean (F := F) (V d (cV L) (jV L)) _ _ (ivS0).view _ _ _ (fetchP0 I d L) _ _ _ _)
    isplitl [Hi0]; · iexact Hi0
    iexact Hc15
  isplitl [Hc16 Hi1]
  · unfold fetchI1
    iapply (flight_fetch_clean (F := F) (V d (cV L) (jV L)) _ _ (ivS1).view _ _ _ (fetchP1 I d L) _ _ _ _)
    isplitl [Hi1]; · iexact Hi1
    iexact Hc16
  isplitl [Hc17 Hi2]
  · unfold fetchI2
    iapply (flight_fetch_clean (F := F) (V d (cV L) (jV L)) _ _ (ivS2).view _ _ _ (fetchP2 I d L) _ _ _ _)
    isplitl [Hi2]; · iexact Hi2
    iexact Hc17
  isplitl [HcA]; · iexact HcA
  isplitl [Hmine]; · iexact Hmine
  isplitr
  · rw [if_neg hs]; iempintro
  iexists _; isplitr
  swap; · iexact HO
  ipureintro; intro p hp
  rcases Finset.mem_insert.mp hp with hp | hp; · exact .inr (.inr (hp ▸ rfl))
  exact .inl hp

set_option maxHeartbeats 4000000 in
theorem prologue_zero (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) (qi qt : PosShare TreeShare)
    (f0 : Buf (Elt F) ((ivS0).view.loc (V d (cV L) (jV L)))) (f1 : Buf (Elt F) ((ivS1).view.loc (V d (cV L) (jV L)))) (f2 : Buf (Elt F) ((ivS2).view.loc (V d (cV L) (jV L)))) (hs : (L 1).val = 0) :
    iprop(levAts (K (F := F)).L (K (F := F)).lev ∗ bkit m d (cV L) (jV L)
        ∗ ((idxV).view.loc (V d (cV L) (jV L)) ↦{shareTok qi 3 0} (I d : Buf (Elt F) ((idxV).view.loc (V d (cV L) (jV L)))))
        ∗ ((idxV).view.loc (V d (cV L) (jV L)) ↦{shareTok qi 3 1} (I d : Buf (Elt F) ((idxV).view.loc (V d (cV L) (jV L)))))
        ∗ ((idxV).view.loc (V d (cV L) (jV L)) ↦{shareTok qi 3 2} (I d : Buf (Elt F) ((idxV).view.loc (V d (cV L) (jV L)))))
        ∗ ((ivS0).view.loc (V d (cV L) (jV L)) ↦[(ivS0).view.set]{fullShare} f0)
        ∗ ((ivS1).view.loc (V d (cV L) (jV L)) ↦[(ivS1).view.set]{fullShare} f1)
        ∗ ((ivS2).view.loc (V d (cV L) (jV L)) ↦[(ivS2).view.set]{fullShare} f2)
        ∗ semVal ((V d (cV L) (jV L)), SemLoc.dma cc0_scratch15.sem) 0
        ∗ semVal ((V d (cV L) (jV L)), SemLoc.dma cc0_scratch16.sem) 0
        ∗ semVal ((V d (cV L) (jV L)), SemLoc.dma cc0_scratch17.sem) 0
        ∗ semVal ((V d (cV L) (jV L)), SemLoc.dma cc0_scoped0.sem) 0
        ∗ iprop(((tabV).view.loc (V d (cV L) (jV L)) ↦{qt} (m (tabLoc d) : Buf (Elt F) ((tabV).view.loc (V d (cV L) (jV L))))) ∗ ∃ f, (shV).view.loc (V d (cV L) (jV L)) ↦{fullShare} f)
        ∗ owes (V d (cV L) (jV L)) (O + oxV d (cV L)) W)
      ⊢ wp frame (wpE (defs₀ (F := F)) 𝒱₀ (V d (cV L) (jV L)) none) Set.univ
          (k0_part6 L tabV (Memref.isWhole_whole _) idxV (Memref.isWhole_whole _) outV (Memref.isWhole_whole _) shV (Memref.isWhole_whole _) ivV (Memref.isWhole_whole _) bigV (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scoped0)
          (afterPrologue m I d L O W qi qt) := by
  have h1 := guard_zero L hs
  iintro ⟨#Hlv, Hkit, Hi0, Hi1, Hi2, Hs0, Hs1, Hs2, Hc15, Hc16, Hc17, HcA, ⟨Htab, %fsh, Hsh⟩, HO⟩
  ihave Hkit' := (Entails.of_eq (bkit_eq m d L)) $$ Hkit
  icases Hkit' with ⟨⟨%κ, #Hinv⟩, Htoks, #Hrch, Hat, Hcred⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  -- the table into the shared memory and the wait; the three fetches
  sl_exec
  -- the barrier: the sixteen read tokens of the shared copy handed over, the subcore's own received
  ihave Hsh' := (Entails.of_eq (sh_landed (F := F) m d L fsh (tabC m d) rfl)) $$ [Hsh]
  · iexact Hsh
  ihave Hp := (pays_intro_zero (F := F) m d L hs) $$ Hsh'
  icases Hp with ⟨Hdrop, Hpays⟩
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hmine := (pays_elim (F := F) m d L) $$ Hgot
  sl_exec
  sl_step
  unfold afterPrologue
  isplitr; · ipureintro; rfl
  isplitl [Hc15 Hi0]
  · unfold fetchI0
    iapply (flight_fetch_clean (F := F) (V d (cV L) (jV L)) _ _ (ivS0).view _ _ _ (fetchP0 I d L) _ _ _ _)
    isplitl [Hi0]; · iexact Hi0
    iexact Hc15
  isplitl [Hc16 Hi1]
  · unfold fetchI1
    iapply (flight_fetch_clean (F := F) (V d (cV L) (jV L)) _ _ (ivS1).view _ _ _ (fetchP1 I d L) _ _ _ _)
    isplitl [Hi1]; · iexact Hi1
    iexact Hc16
  isplitl [Hc17 Hi2]
  · unfold fetchI2
    iapply (flight_fetch_clean (F := F) (V d (cV L) (jV L)) _ _ (ivS2).view _ _ _ (fetchP2 I d L) _ _ _ _)
    isplitl [Hi2]; · iexact Hi2
    iexact Hc17
  isplitl [HcA]; · iexact HcA
  isplitl [Hmine]; · iexact Hmine
  isplitl [Htab Hdrop]
  · rw [if_pos hs]
    isplitl [Htab]; · iexact Htab
    iexact Hdrop
  iexists _; isplitr
  swap; · iexact HO
  ipureintro; intro p hp
  rcases Finset.mem_insert.mp hp with hp | hp; · exact .inr (.inr (hp ▸ rfl))
  rcases Finset.mem_insert.mp hp with hp | hp; · exact .inr (.inl (hp ▸ rfl))
  exact .inl hp

set_option maxHeartbeats 4000000 in
theorem prologue (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) (qi qt : PosShare TreeShare)
    (f0 : Buf (Elt F) ((ivS0).view.loc (V d (cV L) (jV L)))) (f1 : Buf (Elt F) ((ivS1).view.loc (V d (cV L) (jV L)))) (f2 : Buf (Elt F) ((ivS2).view.loc (V d (cV L) (jV L)))) :
    iprop(levAts (K (F := F)).L (K (F := F)).lev ∗ bkit m d (cV L) (jV L)
        ∗ ((idxV).view.loc (V d (cV L) (jV L)) ↦{shareTok qi 3 0} (I d : Buf (Elt F) ((idxV).view.loc (V d (cV L) (jV L)))))
        ∗ ((idxV).view.loc (V d (cV L) (jV L)) ↦{shareTok qi 3 1} (I d : Buf (Elt F) ((idxV).view.loc (V d (cV L) (jV L)))))
        ∗ ((idxV).view.loc (V d (cV L) (jV L)) ↦{shareTok qi 3 2} (I d : Buf (Elt F) ((idxV).view.loc (V d (cV L) (jV L)))))
        ∗ ((ivS0).view.loc (V d (cV L) (jV L)) ↦[(ivS0).view.set]{fullShare} f0)
        ∗ ((ivS1).view.loc (V d (cV L) (jV L)) ↦[(ivS1).view.set]{fullShare} f1)
        ∗ ((ivS2).view.loc (V d (cV L) (jV L)) ↦[(ivS2).view.set]{fullShare} f2)
        ∗ semVal ((V d (cV L) (jV L)), SemLoc.dma cc0_scratch15.sem) 0
        ∗ semVal ((V d (cV L) (jV L)), SemLoc.dma cc0_scratch16.sem) 0
        ∗ semVal ((V d (cV L) (jV L)), SemLoc.dma cc0_scratch17.sem) 0
        ∗ semVal ((V d (cV L) (jV L)), SemLoc.dma cc0_scoped0.sem) 0
        ∗ (if (L 1).val = 0 then iprop(((tabV).view.loc (V d (cV L) (jV L)) ↦{qt} (m (tabLoc d) : Buf (Elt F) ((tabV).view.loc (V d (cV L) (jV L))))) ∗ ∃ f, (shV).view.loc (V d (cV L) (jV L)) ↦{fullShare} f) else iprop(emp))
        ∗ owes (V d (cV L) (jV L)) (O + oxV d (cV L)) W)
      ⊢ wp frame (wpE (defs₀ (F := F)) 𝒱₀ (V d (cV L) (jV L)) none) Set.univ
          (k0_part6 L tabV (Memref.isWhole_whole _) idxV (Memref.isWhole_whole _) outV (Memref.isWhole_whole _) shV (Memref.isWhole_whole _) ivV (Memref.isWhole_whole _) bigV (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scoped0)
          (afterPrologue m I d L O W qi qt) := by
  by_cases hs : (L 1).val = 0
  · rw [if_pos hs]
    exact prologue_zero m I d L hF O W hO hOlev qi qt f0 f1 f2 hs
  · rw [if_neg hs]
    exact prologue_pos m I d L hF O W hO hOlev qi qt f0 f1 f2 hs

end Tile
end Cert.Proof.KI
end
-- ==== Proof.KITripMid.lean ====
/-
  One trip of the ring, from the ring's state before it to its state after it. Before trip k each slot of the index
  scratch has a fetch in flight that delivers its two rows of that trip's six; each of the six pieces of the row
  buffer has a copy out in flight from the trip before (none before the first trip). The trip waits for each
  slot's rows, gathers the 128 table rows each row of words names into a piece, copies the pieces out to the
  trip's six windows of the result, and fetches each slot's rows for the next trip (but the last trip, which
  refetches only slot 0, for the one unit left). What the copies deliver are the lookup's values on those windows.
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.KernelIdeal
import proofs.«205516_g82884278878931_cont_9to1_m_1121_21_alg».proof.Proof.Gen.KernelIdeal.Skeleton
import proofs.«205516_g82884278878931_cont_9to1_m_1121_21_alg».proof.Proof.Spec
import proofs.«205516_g82884278878931_cont_9to1_m_1121_21_alg».proof.Proof.KIFlight

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (tileNo shareTok shareDrop)

variable {F : FTy → Type}

local notation "𝕄" => MT nD τ sig (HIx 1) (Elt F) ℕ UU ℕ
local notation "tabV" => (Memref.whole Cert.KernelIdeal.main_arg3_scv : Memref Cert.KernelIdeal.sig Kind.scVector Space.hbm Cert.KernelIdeal.S1000x128 EltTy.f32)
local notation "idxV" => (Memref.whole Cert.KernelIdeal.main_v0_scv : Memref Cert.KernelIdeal.sig Kind.scVector Space.hbm Cert.KernelIdeal.S6400x128 EltTy.i32)
local notation "outV" => (Memref.whole Cert.KernelIdeal.main_v1_scv : Memref Cert.KernelIdeal.sig Kind.scVector Space.hbm Cert.KernelIdeal.S819200x128 EltTy.f32)
local notation "shV" => (Memref.whole Cert.KernelIdeal.cc0_scratch0 : Memref Cert.KernelIdeal.sig Kind.scVector Space.shared Cert.KernelIdeal.S1000x128 EltTy.f32)
local notation "ivV" => (Memref.whole Cert.KernelIdeal.cc0_scratch1 : Memref Cert.KernelIdeal.sig Kind.scVector Space.vmem Cert.KernelIdeal.S6x128 EltTy.i32)
local notation "bigV" => (Memref.whole Cert.KernelIdeal.cc0_scratch2 : Memref Cert.KernelIdeal.sig Kind.scVector Space.vmem Cert.KernelIdeal.S768x128 EltTy.f32)

variable [FloatOps F]
section Tile
variable (d : Dev nD) (L : grid0.Coords)

set_option maxHeartbeats 40000000 in
theorem trip_mid (O : CellTallies nD τ sig (HIx 1)) (W : Waits sig (HIx 1)) (k : Fin k0_t1_loop.trips) (v2 v3 : BitVec 32)
    (h2 : k0_cond2 k = 1#1) (h3 : k0_cond3 k = 1#1) (h4 : k0_cond4 k = 1#1) (h5 : k0_cond5 k = 1#1) (h6 : k0_cond6 k = 1#1) (h7 : k0_cond7 k = 1#1)
    (qi qs : PosShare TreeShare) (Iv : Buf (Elt F) ((idxV).view.loc (V d (cV L) (jV L)))) (Tsh : Buf (Elt F) ((shV).view.loc (V d (cV L) (jV L))))
    (ivK ivN : Buf (Elt F) ((ivV).view.loc (V d (cV L) (jV L)))) (Gout m0 : Buf (Elt F) ((outV).view.loc (V d (cV L) (jV L))))
    (S0 S1 S2 S3 S4 S5 : Finset S819200x128.Idx)
    (fb0 fb1 fb2 fb3 fb4 fb5 : Buf (Elt F) ((bigV).view.loc (V d (cV L) (jV L))))
    (hn : S128.numel = S128x128.size gathers_S1000x128_S128x128.axis')
    (hin0 : ∀ x, ((ivL0).view.read (Elt F) ivK x).toNat < S1000x128.size gathers_S1000x128_S128x128.axis)
    (hin1 : ∀ x, ((ivL1).view.read (Elt F) ivK x).toNat < S1000x128.size gathers_S1000x128_S128x128.axis)
    (hin2 : ∀ x, ((ivL2).view.read (Elt F) ivK x).toNat < S1000x128.size gathers_S1000x128_S128x128.axis)
    (hin3 : ∀ x, ((ivL3).view.read (Elt F) ivK x).toNat < S1000x128.size gathers_S1000x128_S128x128.axis)
    (hin4 : ∀ x, ((ivL4).view.read (Elt F) ivK x).toNat < S1000x128.size gathers_S1000x128_S128x128.axis)
    (hin5 : ∀ x, ((ivL5).view.read (Elt F) ivK x).toNat < S1000x128.size gathers_S1000x128_S128x128.axis)
    (hfe0 : ∀ y, (ivS0).view.read (Elt F) ivN y = (idxW0 L k h5).view.read (Elt F) Iv y)
    (hfe1 : ∀ y, (ivS1).view.read (Elt F) ivN y = (idxW1 L k h6).view.read (Elt F) Iv y)
    (hfe2 : ∀ y, (ivS2).view.read (Elt F) ivN y = (idxW2 L k h7).view.read (Elt F) Iv y)
    (hov0 : ∀ y, (outCh0 L k).view.read (Elt F) Gout y = SparseCore.gatherPayload gathers_S1000x128_S128x128 ((shW).view.read (Elt F) Tsh) (SparseCore.rows ((ivL0).view.read (Elt F) ivK) hn hin0) y)
    (hov1 : ∀ y, (outCh1 L k).view.read (Elt F) Gout y = SparseCore.gatherPayload gathers_S1000x128_S128x128 ((shW).view.read (Elt F) Tsh) (SparseCore.rows ((ivL1).view.read (Elt F) ivK) hn hin1) y)
    (hov2 : ∀ y, (outCh2 L k).view.read (Elt F) Gout y = SparseCore.gatherPayload gathers_S1000x128_S128x128 ((shW).view.read (Elt F) Tsh) (SparseCore.rows ((ivL2).view.read (Elt F) ivK) hn hin2) y)
    (hov3 : ∀ y, (outCh3 L k).view.read (Elt F) Gout y = SparseCore.gatherPayload gathers_S1000x128_S128x128 ((shW).view.read (Elt F) Tsh) (SparseCore.rows ((ivL3).view.read (Elt F) ivK) hn hin3) y)
    (hov4 : ∀ y, (outCh4 L k).view.read (Elt F) Gout y = SparseCore.gatherPayload gathers_S1000x128_S128x128 ((shW).view.read (Elt F) Tsh) (SparseCore.rows ((ivL4).view.read (Elt F) ivK) hn hin4) y)
    (hov5 : ∀ y, (outCh5 L k).view.read (Elt F) Gout y = SparseCore.gatherPayload gathers_S1000x128_S128x128 ((shW).view.read (Elt F) Tsh) (SparseCore.rows ((ivL5).view.read (Elt F) ivK) hn hin5) y) :
    iprop((Transfers.MayWaits (V d (cV L) (jV L)) (default : HIx 1) O : sProp 𝕄)
        ∗ Transfers.Flight countersEmb (V d (cV L) (jV L)) (SemLoc.dma cc0_scratch15.sem) (default : HIx 1) 8192
            iprop(((ivS0).view.loc (V d (cV L) (jV L)) ↦[(ivS0).view.set]{fullShare} (ivK : Buf (Elt F) ((ivS0).view.loc (V d (cV L) (jV L))))) ∗ ((idxV).view.loc (V d (cV L) (jV L)) ↦{shareTok qi 3 0} Iv))
        ∗ Transfers.Flight countersEmb (V d (cV L) (jV L)) (SemLoc.dma cc0_scratch16.sem) (default : HIx 1) 8192
            iprop(((ivS1).view.loc (V d (cV L) (jV L)) ↦[(ivS1).view.set]{fullShare} (ivK : Buf (Elt F) ((ivS1).view.loc (V d (cV L) (jV L))))) ∗ ((idxV).view.loc (V d (cV L) (jV L)) ↦{shareTok qi 3 1} Iv))
        ∗ Transfers.Flight countersEmb (V d (cV L) (jV L)) (SemLoc.dma cc0_scratch17.sem) (default : HIx 1) 8192
            iprop(((ivS2).view.loc (V d (cV L) (jV L)) ↦[(ivS2).view.set]{fullShare} (ivK : Buf (Elt F) ((ivS2).view.loc (V d (cV L) (jV L))))) ∗ ((idxV).view.loc (V d (cV L) (jV L)) ↦{shareTok qi 3 2} Iv))
        ∗ Transfers.Flight countersEmb (V d (cV L) (jV L)) (SemLoc.dma cc0_scratch9.sem) (default : HIx 1) 524288
            iprop(((outV).view.loc (V d (cV L) (jV L)) ↦[S0]{fullShare} Gout) ∗ ((bigP0).view.loc (V d (cV L) (jV L)) ↦[(bigP0).view.set]{fullShare} fb0))
        ∗ Transfers.Flight countersEmb (V d (cV L) (jV L)) (SemLoc.dma cc0_scratch10.sem) (default : HIx 1) 524288
            iprop(((outV).view.loc (V d (cV L) (jV L)) ↦[S1]{fullShare} Gout) ∗ ((bigP1).view.loc (V d (cV L) (jV L)) ↦[(bigP1).view.set]{fullShare} fb1))
        ∗ Transfers.Flight countersEmb (V d (cV L) (jV L)) (SemLoc.dma cc0_scratch11.sem) (default : HIx 1) 524288
            iprop(((outV).view.loc (V d (cV L) (jV L)) ↦[S2]{fullShare} Gout) ∗ ((bigP2).view.loc (V d (cV L) (jV L)) ↦[(bigP2).view.set]{fullShare} fb2))
        ∗ Transfers.Flight countersEmb (V d (cV L) (jV L)) (SemLoc.dma cc0_scratch12.sem) (default : HIx 1) 524288
            iprop(((outV).view.loc (V d (cV L) (jV L)) ↦[S3]{fullShare} Gout) ∗ ((bigP3).view.loc (V d (cV L) (jV L)) ↦[(bigP3).view.set]{fullShare} fb3))
        ∗ Transfers.Flight countersEmb (V d (cV L) (jV L)) (SemLoc.dma cc0_scratch13.sem) (default : HIx 1) 524288
            iprop(((outV).view.loc (V d (cV L) (jV L)) ↦[S4]{fullShare} Gout) ∗ ((bigP4).view.loc (V d (cV L) (jV L)) ↦[(bigP4).view.set]{fullShare} fb4))
        ∗ Transfers.Flight countersEmb (V d (cV L) (jV L)) (SemLoc.dma cc0_scratch14.sem) (default : HIx 1) 524288
            iprop(((outV).view.loc (V d (cV L) (jV L)) ↦[S5]{fullShare} Gout) ∗ ((bigP5).view.loc (V d (cV L) (jV L)) ↦[(bigP5).view.set]{fullShare} fb5))
        ∗ semVal ((V d (cV L) (jV L)), SemLoc.dma cc0_scratch3.sem) 0
        ∗ semVal ((V d (cV L) (jV L)), SemLoc.dma cc0_scratch4.sem) 0
        ∗ semVal ((V d (cV L) (jV L)), SemLoc.dma cc0_scratch5.sem) 0
        ∗ semVal ((V d (cV L) (jV L)), SemLoc.dma cc0_scratch6.sem) 0
        ∗ semVal ((V d (cV L) (jV L)), SemLoc.dma cc0_scratch7.sem) 0
        ∗ semVal ((V d (cV L) (jV L)), SemLoc.dma cc0_scratch8.sem) 0
        ∗ ((shV).view.loc (V d (cV L) (jV L)) ↦{shareTok qs 6 0} Tsh)
        ∗ ((shV).view.loc (V d (cV L) (jV L)) ↦{shareTok qs 6 1} Tsh)
        ∗ ((shV).view.loc (V d (cV L) (jV L)) ↦{shareTok qs 6 2} Tsh)
        ∗ ((shV).view.loc (V d (cV L) (jV L)) ↦{shareTok qs 6 3} Tsh)
        ∗ ((shV).view.loc (V d (cV L) (jV L)) ↦{shareTok qs 6 4} Tsh)
        ∗ ((shV).view.loc (V d (cV L) (jV L)) ↦{shareTok qs 6 5} Tsh)
        ∗ ((outCh0 L k).view.loc (V d (cV L) (jV L)) ↦[(outCh0 L k).view.set]{fullShare} m0)
        ∗ ((outCh1 L k).view.loc (V d (cV L) (jV L)) ↦[(outCh1 L k).view.set]{fullShare} m0)
        ∗ ((outCh2 L k).view.loc (V d (cV L) (jV L)) ↦[(outCh2 L k).view.set]{fullShare} m0)
        ∗ ((outCh3 L k).view.loc (V d (cV L) (jV L)) ↦[(outCh3 L k).view.set]{fullShare} m0)
        ∗ ((outCh4 L k).view.loc (V d (cV L) (jV L)) ↦[(outCh4 L k).view.set]{fullShare} m0)
        ∗ ((outCh5 L k).view.loc (V d (cV L) (jV L)) ↦[(outCh5 L k).view.set]{fullShare} m0)
        ∗ owes (V d (cV L) (jV L)) O W)
      ⊢ wp frame (wpE (defs₀ (F := F)) 𝒱₀ (V d (cV L) (jV L)) none) Set.univ
          (k0_t1_body L tabV (Memref.isWhole_whole _) idxV (Memref.isWhole_whole _) outV (Memref.isWhole_whole _) shV (Memref.isWhole_whole _) ivV (Memref.isWhole_whole _) bigV (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scoped0 v2 v3 0#32 k ())
          fun _ => iprop(Transfers.Flight countersEmb (V d (cV L) (jV L)) (SemLoc.dma cc0_scratch15.sem) (default : HIx 1) 8192
            iprop(((ivS0).view.loc (V d (cV L) (jV L)) ↦[(ivS0).view.set]{fullShare} (ivN : Buf (Elt F) ((ivS0).view.loc (V d (cV L) (jV L))))) ∗ ((idxV).view.loc (V d (cV L) (jV L)) ↦{shareTok qi 3 0} Iv))
        ∗ Transfers.Flight countersEmb (V d (cV L) (jV L)) (SemLoc.dma cc0_scratch16.sem) (default : HIx 1) 8192
            iprop(((ivS1).view.loc (V d (cV L) (jV L)) ↦[(ivS1).view.set]{fullShare} (ivN : Buf (Elt F) ((ivS1).view.loc (V d (cV L) (jV L))))) ∗ ((idxV).view.loc (V d (cV L) (jV L)) ↦{shareTok qi 3 1} Iv))
        ∗ Transfers.Flight countersEmb (V d (cV L) (jV L)) (SemLoc.dma cc0_scratch17.sem) (default : HIx 1) 8192
            iprop(((ivS2).view.loc (V d (cV L) (jV L)) ↦[(ivS2).view.set]{fullShare} (ivN : Buf (Elt F) ((ivS2).view.loc (V d (cV L) (jV L))))) ∗ ((idxV).view.loc (V d (cV L) (jV L)) ↦{shareTok qi 3 2} Iv))
        ∗ (∃ fb, Transfers.Flight countersEmb (V d (cV L) (jV L)) (SemLoc.dma cc0_scratch9.sem) (default : HIx 1) 524288
            iprop(((outCh0 L k).view.loc (V d (cV L) (jV L)) ↦[(outCh0 L k).view.set]{fullShare} (Gout : Buf (Elt F) ((outCh0 L k).view.loc (V d (cV L) (jV L))))) ∗ ((bigP0).view.loc (V d (cV L) (jV L)) ↦[(bigP0).view.set]{fullShare} fb)))
        ∗ (∃ fb, Transfers.Flight countersEmb (V d (cV L) (jV L)) (SemLoc.dma cc0_scratch10.sem) (default : HIx 1) 524288
            iprop(((outCh1 L k).view.loc (V d (cV L) (jV L)) ↦[(outCh1 L k).view.set]{fullShare} (Gout : Buf (Elt F) ((outCh1 L k).view.loc (V d (cV L) (jV L))))) ∗ ((bigP1).view.loc (V d (cV L) (jV L)) ↦[(bigP1).view.set]{fullShare} fb)))
        ∗ (∃ fb, Transfers.Flight countersEmb (V d (cV L) (jV L)) (SemLoc.dma cc0_scratch11.sem) (default : HIx 1) 524288
            iprop(((outCh2 L k).view.loc (V d (cV L) (jV L)) ↦[(outCh2 L k).view.set]{fullShare} (Gout : Buf (Elt F) ((outCh2 L k).view.loc (V d (cV L) (jV L))))) ∗ ((bigP2).view.loc (V d (cV L) (jV L)) ↦[(bigP2).view.set]{fullShare} fb)))
        ∗ (∃ fb, Transfers.Flight countersEmb (V d (cV L) (jV L)) (SemLoc.dma cc0_scratch12.sem) (default : HIx 1) 524288
            iprop(((outCh3 L k).view.loc (V d (cV L) (jV L)) ↦[(outCh3 L k).view.set]{fullShare} (Gout : Buf (Elt F) ((outCh3 L k).view.loc (V d (cV L) (jV L))))) ∗ ((bigP3).view.loc (V d (cV L) (jV L)) ↦[(bigP3).view.set]{fullShare} fb)))
        ∗ (∃ fb, Transfers.Flight countersEmb (V d (cV L) (jV L)) (SemLoc.dma cc0_scratch13.sem) (default : HIx 1) 524288
            iprop(((outCh4 L k).view.loc (V d (cV L) (jV L)) ↦[(outCh4 L k).view.set]{fullShare} (Gout : Buf (Elt F) ((outCh4 L k).view.loc (V d (cV L) (jV L))))) ∗ ((bigP4).view.loc (V d (cV L) (jV L)) ↦[(bigP4).view.set]{fullShare} fb)))
        ∗ (∃ fb, Transfers.Flight countersEmb (V d (cV L) (jV L)) (SemLoc.dma cc0_scratch14.sem) (default : HIx 1) 524288
            iprop(((outCh5 L k).view.loc (V d (cV L) (jV L)) ↦[(outCh5 L k).view.set]{fullShare} (Gout : Buf (Elt F) ((outCh5 L k).view.loc (V d (cV L) (jV L))))) ∗ ((bigP5).view.loc (V d (cV L) (jV L)) ↦[(bigP5).view.set]{fullShare} fb)))
        ∗ semVal ((V d (cV L) (jV L)), SemLoc.dma cc0_scratch3.sem) 0
        ∗ semVal ((V d (cV L) (jV L)), SemLoc.dma cc0_scratch4.sem) 0
        ∗ semVal ((V d (cV L) (jV L)), SemLoc.dma cc0_scratch5.sem) 0
        ∗ semVal ((V d (cV L) (jV L)), SemLoc.dma cc0_scratch6.sem) 0
        ∗ semVal ((V d (cV L) (jV L)), SemLoc.dma cc0_scratch7.sem) 0
        ∗ semVal ((V d (cV L) (jV L)), SemLoc.dma cc0_scratch8.sem) 0
        ∗ ((shV).view.loc (V d (cV L) (jV L)) ↦{shareTok qs 6 0} Tsh)
        ∗ ((shV).view.loc (V d (cV L) (jV L)) ↦{shareTok qs 6 1} Tsh)
        ∗ ((shV).view.loc (V d (cV L) (jV L)) ↦{shareTok qs 6 2} Tsh)
        ∗ ((shV).view.loc (V d (cV L) (jV L)) ↦{shareTok qs 6 3} Tsh)
        ∗ ((shV).view.loc (V d (cV L) (jV L)) ↦{shareTok qs 6 4} Tsh)
        ∗ ((shV).view.loc (V d (cV L) (jV L)) ↦{shareTok qs 6 5} Tsh)
        ∗ ((outV).view.loc (V d (cV L) (jV L)) ↦[S0]{fullShare} Gout)
        ∗ ((outV).view.loc (V d (cV L) (jV L)) ↦[S1]{fullShare} Gout)
        ∗ ((outV).view.loc (V d (cV L) (jV L)) ↦[S2]{fullShare} Gout)
        ∗ ((outV).view.loc (V d (cV L) (jV L)) ↦[S3]{fullShare} Gout)
        ∗ ((outV).view.loc (V d (cV L) (jV L)) ↦[S4]{fullShare} Gout)
        ∗ ((outV).view.loc (V d (cV L) (jV L)) ↦[S5]{fullShare} Gout)
        ∗ ∃ W', ⌜∀ p ∈ W', p ∈ W ∨ p.2 = none⌝ ∗ owes (V d (cV L) (jV L)) O W') := by
  iintro ⟨#Hmw, HfI0, HfI1, HfI2, HfO0, HfO1, HfO2, HfO3, HfO4, HfO5, Hg0, Hg1, Hg2, Hg3, Hg4, Hg5, Ht0, Ht1, Ht2, Ht3, Ht4, Ht5, Ho0, Ho1, Ho2, Ho3, Ho4, Ho5, HO⟩
  sl_exec
  ihave Hr := (slot0_rows (F := F) d (cV L) (jV L) _).1 $$ HfI0_dst
  icases Hr with ⟨Hl0, Hl1⟩
  sl_exec
  ihave Hr := (slot1_rows (F := F) d (cV L) (jV L) _).1 $$ HfI1_dst
  icases Hr with ⟨Hl2, Hl3⟩
  sl_exec
  ihave Hr := (slot2_rows (F := F) d (cV L) (jV L) _).1 $$ HfI2_dst
  icases Hr with ⟨Hl4, Hl5⟩
  sl_exec
  ihave Hs0 := (slot0_rows (F := F) d (cV L) (jV L) _).2 $$ [Hl0 Hl1]
  · isplitl [Hl0] <;> iassumption
  sl_exec
  ihave Hs1 := (slot1_rows (F := F) d (cV L) (jV L) _).2 $$ [Hl2 Hl3]
  · isplitl [Hl2] <;> iassumption
  sl_exec
  ihave Hs2 := (slot2_rows (F := F) d (cV L) (jV L) _).2 $$ [Hl4 Hl5]
  · isplitl [Hl4] <;> iassumption
  sl_exec
  sl_step
  isplitl [HfI0 HfI0_src]
  · iapply (flight_fetch_clean (F := F) (V d (cV L) (jV L)) _ _ (ivS0).view _ _ _ hfe0 _ _ _ _)
    isplitl [HfI0_src]; · iexact HfI0_src
    iexact HfI0
  isplitl [HfI1 HfI1_src]
  · iapply (flight_fetch_clean (F := F) (V d (cV L) (jV L)) _ _ (ivS1).view _ _ _ hfe1 _ _ _ _)
    isplitl [HfI1_src]; · iexact HfI1_src
    iexact HfI1
  isplitl [HfI2 HfI2_src]
  · iapply (flight_fetch_clean (F := F) (V d (cV L) (jV L)) _ _ (ivS2).view _ _ _ hfe2 _ _ _ _)
    isplitl [HfI2_src]; · iexact HfI2_src
    iexact HfI2
  isplitl [HfO0]
  · iexists _
    iapply (flight_out_clean (F := F) (V d (cV L) (jV L)) _ _ (outCh0 L k).view _ _ _ (fun y => (hov0 y).trans (congrFun (View.read_writes_whole _ _ _).symm y)) _)
    iexact HfO0
  isplitl [HfO1]
  · iexists _
    iapply (flight_out_clean (F := F) (V d (cV L) (jV L)) _ _ (outCh1 L k).view _ _ _ (fun y => (hov1 y).trans (congrFun (View.read_writes_whole _ _ _).symm y)) _)
    iexact HfO1
  isplitl [HfO2]
  · iexists _
    iapply (flight_out_clean (F := F) (V d (cV L) (jV L)) _ _ (outCh2 L k).view _ _ _ (fun y => (hov2 y).trans (congrFun (View.read_writes_whole _ _ _).symm y)) _)
    iexact HfO2
  isplitl [HfO3]
  · iexists _
    iapply (flight_out_clean (F := F) (V d (cV L) (jV L)) _ _ (outCh3 L k).view _ _ _ (fun y => (hov3 y).trans (congrFun (View.read_writes_whole _ _ _).symm y)) _)
    iexact HfO3
  isplitl [HfO4]
  · iexists _
    iapply (flight_out_clean (F := F) (V d (cV L) (jV L)) _ _ (outCh4 L k).view _ _ _ (fun y => (hov4 y).trans (congrFun (View.read_writes_whole _ _ _).symm y)) _)
    iexact HfO4
  isplitl [HfO5]
  · iexists _
    iapply (flight_out_clean (F := F) (V d (cV L) (jV L)) _ _ (outCh5 L k).view _ _ _ (fun y => (hov5 y).trans (congrFun (View.read_writes_whole _ _ _).symm y)) _)
    iexact HfO5
  isplitl [Hg0]; · iexact Hg0
  isplitl [Hg1]; · iexact Hg1
  isplitl [Hg2]; · iexact Hg2
  isplitl [Hg3]; · iexact Hg3
  isplitl [Hg4]; · iexact Hg4
  isplitl [Hg5]; · iexact Hg5
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [HfO0_dst]; · iexact HfO0_dst
  isplitl [HfO1_dst]; · iexact HfO1_dst
  isplitl [HfO2_dst]; · iexact HfO2_dst
  isplitl [HfO3_dst]; · iexact HfO3_dst
  isplitl [HfO4_dst]; · iexact HfO4_dst
  isplitl [HfO5_dst]; · iexact HfO5_dst
  iexists _; isplitr
  swap; · iexact HO
  ipureintro; intro p hp
  repeat (rcases Finset.mem_insert.mp hp with hp | hp; · exact .inr (hp ▸ rfl))
  exact .inl hp

end Tile
end Cert.Proof.KI
end
-- ==== Proof.KITripFirst.lean ====
/-
  One trip of the ring, from the ring's state before it to its state after it. Before trip k each slot of the index
  scratch has a fetch in flight that delivers its two rows of that trip's six; each of the six pieces of the row
  buffer has a copy out in flight from the trip before (none before the first trip). The trip waits for each
  slot's rows, gathers the 128 table rows each row of words names into a piece, copies the pieces out to the
  trip's six windows of the result, and fetches each slot's rows for the next trip (but the last trip, which
  refetches only slot 0, for the one unit left). What the copies deliver are the lookup's values on those windows.
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.KernelIdeal
import proofs.«205516_g82884278878931_cont_9to1_m_1121_21_alg».proof.Proof.Gen.KernelIdeal.Skeleton
import proofs.«205516_g82884278878931_cont_9to1_m_1121_21_alg».proof.Proof.Spec
import proofs.«205516_g82884278878931_cont_9to1_m_1121_21_alg».proof.Proof.KIFlight

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (tileNo shareTok shareDrop)

variable {F : FTy → Type}

local notation "𝕄" => MT nD τ sig (HIx 1) (Elt F) ℕ UU ℕ
local notation "tabV" => (Memref.whole Cert.KernelIdeal.main_arg3_scv : Memref Cert.KernelIdeal.sig Kind.scVector Space.hbm Cert.KernelIdeal.S1000x128 EltTy.f32)
local notation "idxV" => (Memref.whole Cert.KernelIdeal.main_v0_scv : Memref Cert.KernelIdeal.sig Kind.scVector Space.hbm Cert.KernelIdeal.S6400x128 EltTy.i32)
local notation "outV" => (Memref.whole Cert.KernelIdeal.main_v1_scv : Memref Cert.KernelIdeal.sig Kind.scVector Space.hbm Cert.KernelIdeal.S819200x128 EltTy.f32)
local notation "shV" => (Memref.whole Cert.KernelIdeal.cc0_scratch0 : Memref Cert.KernelIdeal.sig Kind.scVector Space.shared Cert.KernelIdeal.S1000x128 EltTy.f32)
local notation "ivV" => (Memref.whole Cert.KernelIdeal.cc0_scratch1 : Memref Cert.KernelIdeal.sig Kind.scVector Space.vmem Cert.KernelIdeal.S6x128 EltTy.i32)
local notation "bigV" => (Memref.whole Cert.KernelIdeal.cc0_scratch2 : Memref Cert.KernelIdeal.sig Kind.scVector Space.vmem Cert.KernelIdeal.S768x128 EltTy.f32)

variable [FloatOps F]
section Tile
variable (d : Dev nD) (L : grid0.Coords)

set_option maxHeartbeats 40000000 in
theorem trip_first (O : CellTallies nD τ sig (HIx 1)) (W : Waits sig (HIx 1)) (k : Fin k0_t1_loop.trips) (v2 v3 : BitVec 32)
    (h2 : ¬ k0_cond2 k = 1#1) (h3 : ¬ k0_cond3 k = 1#1) (h4 : ¬ k0_cond4 k = 1#1) (h5 : k0_cond5 k = 1#1) (h6 : k0_cond6 k = 1#1) (h7 : k0_cond7 k = 1#1)
    (qi qs : PosShare TreeShare) (Iv : Buf (Elt F) ((idxV).view.loc (V d (cV L) (jV L)))) (Tsh : Buf (Elt F) ((shV).view.loc (V d (cV L) (jV L))))
    (ivK ivN : Buf (Elt F) ((ivV).view.loc (V d (cV L) (jV L)))) (Gout m0 : Buf (Elt F) ((outV).view.loc (V d (cV L) (jV L))))

    (fb0 fb1 fb2 fb3 fb4 fb5 : Buf (Elt F) ((bigV).view.loc (V d (cV L) (jV L))))
    (hn : S128.numel = S128x128.size gathers_S1000x128_S128x128.axis')
    (hin0 : ∀ x, ((ivL0).view.read (Elt F) ivK x).toNat < S1000x128.size gathers_S1000x128_S128x128.axis)
    (hin1 : ∀ x, ((ivL1).view.read (Elt F) ivK x).toNat < S1000x128.size gathers_S1000x128_S128x128.axis)
    (hin2 : ∀ x, ((ivL2).view.read (Elt F) ivK x).toNat < S1000x128.size gathers_S1000x128_S128x128.axis)
    (hin3 : ∀ x, ((ivL3).view.read (Elt F) ivK x).toNat < S1000x128.size gathers_S1000x128_S128x128.axis)
    (hin4 : ∀ x, ((ivL4).view.read (Elt F) ivK x).toNat < S1000x128.size gathers_S1000x128_S128x128.axis)
    (hin5 : ∀ x, ((ivL5).view.read (Elt F) ivK x).toNat < S1000x128.size gathers_S1000x128_S128x128.axis)
    (hfe0 : ∀ y, (ivS0).view.read (Elt F) ivN y = (idxW0 L k h5).view.read (Elt F) Iv y)
    (hfe1 : ∀ y, (ivS1).view.read (Elt F) ivN y = (idxW1 L k h6).view.read (Elt F) Iv y)
    (hfe2 : ∀ y, (ivS2).view.read (Elt F) ivN y = (idxW2 L k h7).view.read (Elt F) Iv y)
    (hov0 : ∀ y, (outCh0 L k).view.read (Elt F) Gout y = SparseCore.gatherPayload gathers_S1000x128_S128x128 ((shW).view.read (Elt F) Tsh) (SparseCore.rows ((ivL0).view.read (Elt F) ivK) hn hin0) y)
    (hov1 : ∀ y, (outCh1 L k).view.read (Elt F) Gout y = SparseCore.gatherPayload gathers_S1000x128_S128x128 ((shW).view.read (Elt F) Tsh) (SparseCore.rows ((ivL1).view.read (Elt F) ivK) hn hin1) y)
    (hov2 : ∀ y, (outCh2 L k).view.read (Elt F) Gout y = SparseCore.gatherPayload gathers_S1000x128_S128x128 ((shW).view.read (Elt F) Tsh) (SparseCore.rows ((ivL2).view.read (Elt F) ivK) hn hin2) y)
    (hov3 : ∀ y, (outCh3 L k).view.read (Elt F) Gout y = SparseCore.gatherPayload gathers_S1000x128_S128x128 ((shW).view.read (Elt F) Tsh) (SparseCore.rows ((ivL3).view.read (Elt F) ivK) hn hin3) y)
    (hov4 : ∀ y, (outCh4 L k).view.read (Elt F) Gout y = SparseCore.gatherPayload gathers_S1000x128_S128x128 ((shW).view.read (Elt F) Tsh) (SparseCore.rows ((ivL4).view.read (Elt F) ivK) hn hin4) y)
    (hov5 : ∀ y, (outCh5 L k).view.read (Elt F) Gout y = SparseCore.gatherPayload gathers_S1000x128_S128x128 ((shW).view.read (Elt F) Tsh) (SparseCore.rows ((ivL5).view.read (Elt F) ivK) hn hin5) y) :
    iprop((Transfers.MayWaits (V d (cV L) (jV L)) (default : HIx 1) O : sProp 𝕄)
        ∗ Transfers.Flight countersEmb (V d (cV L) (jV L)) (SemLoc.dma cc0_scratch15.sem) (default : HIx 1) 8192
            iprop(((ivS0).view.loc (V d (cV L) (jV L)) ↦[(ivS0).view.set]{fullShare} (ivK : Buf (Elt F) ((ivS0).view.loc (V d (cV L) (jV L))))) ∗ ((idxV).view.loc (V d (cV L) (jV L)) ↦{shareTok qi 3 0} Iv))
        ∗ Transfers.Flight countersEmb (V d (cV L) (jV L)) (SemLoc.dma cc0_scratch16.sem) (default : HIx 1) 8192
            iprop(((ivS1).view.loc (V d (cV L) (jV L)) ↦[(ivS1).view.set]{fullShare} (ivK : Buf (Elt F) ((ivS1).view.loc (V d (cV L) (jV L))))) ∗ ((idxV).view.loc (V d (cV L) (jV L)) ↦{shareTok qi 3 1} Iv))
        ∗ Transfers.Flight countersEmb (V d (cV L) (jV L)) (SemLoc.dma cc0_scratch17.sem) (default : HIx 1) 8192
            iprop(((ivS2).view.loc (V d (cV L) (jV L)) ↦[(ivS2).view.set]{fullShare} (ivK : Buf (Elt F) ((ivS2).view.loc (V d (cV L) (jV L))))) ∗ ((idxV).view.loc (V d (cV L) (jV L)) ↦{shareTok qi 3 2} Iv))
        ∗ ((bigP0).view.loc (V d (cV L) (jV L)) ↦[(bigP0).view.set]{fullShare} fb0) ∗ semVal ((V d (cV L) (jV L)), SemLoc.dma cc0_scratch9.sem) 0
        ∗ ((bigP1).view.loc (V d (cV L) (jV L)) ↦[(bigP1).view.set]{fullShare} fb1) ∗ semVal ((V d (cV L) (jV L)), SemLoc.dma cc0_scratch10.sem) 0
        ∗ ((bigP2).view.loc (V d (cV L) (jV L)) ↦[(bigP2).view.set]{fullShare} fb2) ∗ semVal ((V d (cV L) (jV L)), SemLoc.dma cc0_scratch11.sem) 0
        ∗ ((bigP3).view.loc (V d (cV L) (jV L)) ↦[(bigP3).view.set]{fullShare} fb3) ∗ semVal ((V d (cV L) (jV L)), SemLoc.dma cc0_scratch12.sem) 0
        ∗ ((bigP4).view.loc (V d (cV L) (jV L)) ↦[(bigP4).view.set]{fullShare} fb4) ∗ semVal ((V d (cV L) (jV L)), SemLoc.dma cc0_scratch13.sem) 0
        ∗ ((bigP5).view.loc (V d (cV L) (jV L)) ↦[(bigP5).view.set]{fullShare} fb5) ∗ semVal ((V d (cV L) (jV L)), SemLoc.dma cc0_scratch14.sem) 0
        ∗ semVal ((V d (cV L) (jV L)), SemLoc.dma cc0_scratch3.sem) 0
        ∗ semVal ((V d (cV L) (jV L)), SemLoc.dma cc0_scratch4.sem) 0
        ∗ semVal ((V d (cV L) (jV L)), SemLoc.dma cc0_scratch5.sem) 0
        ∗ semVal ((V d (cV L) (jV L)), SemLoc.dma cc0_scratch6.sem) 0
        ∗ semVal ((V d (cV L) (jV L)), SemLoc.dma cc0_scratch7.sem) 0
        ∗ semVal ((V d (cV L) (jV L)), SemLoc.dma cc0_scratch8.sem) 0
        ∗ ((shV).view.loc (V d (cV L) (jV L)) ↦{shareTok qs 6 0} Tsh)
        ∗ ((shV).view.loc (V d (cV L) (jV L)) ↦{shareTok qs 6 1} Tsh)
        ∗ ((shV).view.loc (V d (cV L) (jV L)) ↦{shareTok qs 6 2} Tsh)
        ∗ ((shV).view.loc (V d (cV L) (jV L)) ↦{shareTok qs 6 3} Tsh)
        ∗ ((shV).view.loc (V d (cV L) (jV L)) ↦{shareTok qs 6 4} Tsh)
        ∗ ((shV).view.loc (V d (cV L) (jV L)) ↦{shareTok qs 6 5} Tsh)
        ∗ ((outCh0 L k).view.loc (V d (cV L) (jV L)) ↦[(outCh0 L k).view.set]{fullShare} m0)
        ∗ ((outCh1 L k).view.loc (V d (cV L) (jV L)) ↦[(outCh1 L k).view.set]{fullShare} m0)
        ∗ ((outCh2 L k).view.loc (V d (cV L) (jV L)) ↦[(outCh2 L k).view.set]{fullShare} m0)
        ∗ ((outCh3 L k).view.loc (V d (cV L) (jV L)) ↦[(outCh3 L k).view.set]{fullShare} m0)
        ∗ ((outCh4 L k).view.loc (V d (cV L) (jV L)) ↦[(outCh4 L k).view.set]{fullShare} m0)
        ∗ ((outCh5 L k).view.loc (V d (cV L) (jV L)) ↦[(outCh5 L k).view.set]{fullShare} m0)
        ∗ owes (V d (cV L) (jV L)) O W)
      ⊢ wp frame (wpE (defs₀ (F := F)) 𝒱₀ (V d (cV L) (jV L)) none) Set.univ
          (k0_t1_body L tabV (Memref.isWhole_whole _) idxV (Memref.isWhole_whole _) outV (Memref.isWhole_whole _) shV (Memref.isWhole_whole _) ivV (Memref.isWhole_whole _) bigV (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scoped0 v2 v3 0#32 k ())
          fun _ => iprop(Transfers.Flight countersEmb (V d (cV L) (jV L)) (SemLoc.dma cc0_scratch15.sem) (default : HIx 1) 8192
            iprop(((ivS0).view.loc (V d (cV L) (jV L)) ↦[(ivS0).view.set]{fullShare} (ivN : Buf (Elt F) ((ivS0).view.loc (V d (cV L) (jV L))))) ∗ ((idxV).view.loc (V d (cV L) (jV L)) ↦{shareTok qi 3 0} Iv))
        ∗ Transfers.Flight countersEmb (V d (cV L) (jV L)) (SemLoc.dma cc0_scratch16.sem) (default : HIx 1) 8192
            iprop(((ivS1).view.loc (V d (cV L) (jV L)) ↦[(ivS1).view.set]{fullShare} (ivN : Buf (Elt F) ((ivS1).view.loc (V d (cV L) (jV L))))) ∗ ((idxV).view.loc (V d (cV L) (jV L)) ↦{shareTok qi 3 1} Iv))
        ∗ Transfers.Flight countersEmb (V d (cV L) (jV L)) (SemLoc.dma cc0_scratch17.sem) (default : HIx 1) 8192
            iprop(((ivS2).view.loc (V d (cV L) (jV L)) ↦[(ivS2).view.set]{fullShare} (ivN : Buf (Elt F) ((ivS2).view.loc (V d (cV L) (jV L))))) ∗ ((idxV).view.loc (V d (cV L) (jV L)) ↦{shareTok qi 3 2} Iv))
        ∗ (∃ fb, Transfers.Flight countersEmb (V d (cV L) (jV L)) (SemLoc.dma cc0_scratch9.sem) (default : HIx 1) 524288
            iprop(((outCh0 L k).view.loc (V d (cV L) (jV L)) ↦[(outCh0 L k).view.set]{fullShare} (Gout : Buf (Elt F) ((outCh0 L k).view.loc (V d (cV L) (jV L))))) ∗ ((bigP0).view.loc (V d (cV L) (jV L)) ↦[(bigP0).view.set]{fullShare} fb)))
        ∗ (∃ fb, Transfers.Flight countersEmb (V d (cV L) (jV L)) (SemLoc.dma cc0_scratch10.sem) (default : HIx 1) 524288
            iprop(((outCh1 L k).view.loc (V d (cV L) (jV L)) ↦[(outCh1 L k).view.set]{fullShare} (Gout : Buf (Elt F) ((outCh1 L k).view.loc (V d (cV L) (jV L))))) ∗ ((bigP1).view.loc (V d (cV L) (jV L)) ↦[(bigP1).view.set]{fullShare} fb)))
        ∗ (∃ fb, Transfers.Flight countersEmb (V d (cV L) (jV L)) (SemLoc.dma cc0_scratch11.sem) (default : HIx 1) 524288
            iprop(((outCh2 L k).view.loc (V d (cV L) (jV L)) ↦[(outCh2 L k).view.set]{fullShare} (Gout : Buf (Elt F) ((outCh2 L k).view.loc (V d (cV L) (jV L))))) ∗ ((bigP2).view.loc (V d (cV L) (jV L)) ↦[(bigP2).view.set]{fullShare} fb)))
        ∗ (∃ fb, Transfers.Flight countersEmb (V d (cV L) (jV L)) (SemLoc.dma cc0_scratch12.sem) (default : HIx 1) 524288
            iprop(((outCh3 L k).view.loc (V d (cV L) (jV L)) ↦[(outCh3 L k).view.set]{fullShare} (Gout : Buf (Elt F) ((outCh3 L k).view.loc (V d (cV L) (jV L))))) ∗ ((bigP3).view.loc (V d (cV L) (jV L)) ↦[(bigP3).view.set]{fullShare} fb)))
        ∗ (∃ fb, Transfers.Flight countersEmb (V d (cV L) (jV L)) (SemLoc.dma cc0_scratch13.sem) (default : HIx 1) 524288
            iprop(((outCh4 L k).view.loc (V d (cV L) (jV L)) ↦[(outCh4 L k).view.set]{fullShare} (Gout : Buf (Elt F) ((outCh4 L k).view.loc (V d (cV L) (jV L))))) ∗ ((bigP4).view.loc (V d (cV L) (jV L)) ↦[(bigP4).view.set]{fullShare} fb)))
        ∗ (∃ fb, Transfers.Flight countersEmb (V d (cV L) (jV L)) (SemLoc.dma cc0_scratch14.sem) (default : HIx 1) 524288
            iprop(((outCh5 L k).view.loc (V d (cV L) (jV L)) ↦[(outCh5 L k).view.set]{fullShare} (Gout : Buf (Elt F) ((outCh5 L k).view.loc (V d (cV L) (jV L))))) ∗ ((bigP5).view.loc (V d (cV L) (jV L)) ↦[(bigP5).view.set]{fullShare} fb)))
        ∗ semVal ((V d (cV L) (jV L)), SemLoc.dma cc0_scratch3.sem) 0
        ∗ semVal ((V d (cV L) (jV L)), SemLoc.dma cc0_scratch4.sem) 0
        ∗ semVal ((V d (cV L) (jV L)), SemLoc.dma cc0_scratch5.sem) 0
        ∗ semVal ((V d (cV L) (jV L)), SemLoc.dma cc0_scratch6.sem) 0
        ∗ semVal ((V d (cV L) (jV L)), SemLoc.dma cc0_scratch7.sem) 0
        ∗ semVal ((V d (cV L) (jV L)), SemLoc.dma cc0_scratch8.sem) 0
        ∗ ((shV).view.loc (V d (cV L) (jV L)) ↦{shareTok qs 6 0} Tsh)
        ∗ ((shV).view.loc (V d (cV L) (jV L)) ↦{shareTok qs 6 1} Tsh)
        ∗ ((shV).view.loc (V d (cV L) (jV L)) ↦{shareTok qs 6 2} Tsh)
        ∗ ((shV).view.loc (V d (cV L) (jV L)) ↦{shareTok qs 6 3} Tsh)
        ∗ ((shV).view.loc (V d (cV L) (jV L)) ↦{shareTok qs 6 4} Tsh)
        ∗ ((shV).view.loc (V d (cV L) (jV L)) ↦{shareTok qs 6 5} Tsh)
        ∗ ∃ W', ⌜∀ p ∈ W', p ∈ W ∨ p.2 = none⌝ ∗ owes (V d (cV L) (jV L)) O W') := by
  iintro ⟨#Hmw, HfI0, HfI1, HfI2, Hb0, HfO0, Hb1, HfO1, Hb2, HfO2, Hb3, HfO3, Hb4, HfO4, Hb5, HfO5, Hg0, Hg1, Hg2, Hg3, Hg4, Hg5, Ht0, Ht1, Ht2, Ht3, Ht4, Ht5, Ho0, Ho1, Ho2, Ho3, Ho4, Ho5, HO⟩
  sl_exec
  ihave Hr := (slot0_rows (F := F) d (cV L) (jV L) _).1 $$ HfI0_dst
  icases Hr with ⟨Hl0, Hl1⟩
  sl_exec
  ihave Hr := (slot1_rows (F := F) d (cV L) (jV L) _).1 $$ HfI1_dst
  icases Hr with ⟨Hl2, Hl3⟩
  sl_exec
  ihave Hr := (slot2_rows (F := F) d (cV L) (jV L) _).1 $$ HfI2_dst
  icases Hr with ⟨Hl4, Hl5⟩
  sl_exec
  ihave Hs0 := (slot0_rows (F := F) d (cV L) (jV L) _).2 $$ [Hl0 Hl1]
  · isplitl [Hl0] <;> iassumption
  sl_exec
  ihave Hs1 := (slot1_rows (F := F) d (cV L) (jV L) _).2 $$ [Hl2 Hl3]
  · isplitl [Hl2] <;> iassumption
  sl_exec
  ihave Hs2 := (slot2_rows (F := F) d (cV L) (jV L) _).2 $$ [Hl4 Hl5]
  · isplitl [Hl4] <;> iassumption
  sl_exec
  sl_step
  isplitl [HfI0 HfI0_src]
  · iapply (flight_fetch_clean (F := F) (V d (cV L) (jV L)) _ _ (ivS0).view _ _ _ hfe0 _ _ _ _)
    isplitl [HfI0_src]; · iexact HfI0_src
    iexact HfI0
  isplitl [HfI1 HfI1_src]
  · iapply (flight_fetch_clean (F := F) (V d (cV L) (jV L)) _ _ (ivS1).view _ _ _ hfe1 _ _ _ _)
    isplitl [HfI1_src]; · iexact HfI1_src
    iexact HfI1
  isplitl [HfI2 HfI2_src]
  · iapply (flight_fetch_clean (F := F) (V d (cV L) (jV L)) _ _ (ivS2).view _ _ _ hfe2 _ _ _ _)
    isplitl [HfI2_src]; · iexact HfI2_src
    iexact HfI2
  isplitl [HfO0]
  · iexists _
    iapply (flight_out_clean (F := F) (V d (cV L) (jV L)) _ _ (outCh0 L k).view _ _ _ (fun y => (hov0 y).trans (congrFun (View.read_writes_whole _ _ _).symm y)) _)
    iexact HfO0
  isplitl [HfO1]
  · iexists _
    iapply (flight_out_clean (F := F) (V d (cV L) (jV L)) _ _ (outCh1 L k).view _ _ _ (fun y => (hov1 y).trans (congrFun (View.read_writes_whole _ _ _).symm y)) _)
    iexact HfO1
  isplitl [HfO2]
  · iexists _
    iapply (flight_out_clean (F := F) (V d (cV L) (jV L)) _ _ (outCh2 L k).view _ _ _ (fun y => (hov2 y).trans (congrFun (View.read_writes_whole _ _ _).symm y)) _)
    iexact HfO2
  isplitl [HfO3]
  · iexists _
    iapply (flight_out_clean (F := F) (V d (cV L) (jV L)) _ _ (outCh3 L k).view _ _ _ (fun y => (hov3 y).trans (congrFun (View.read_writes_whole _ _ _).symm y)) _)
    iexact HfO3
  isplitl [HfO4]
  · iexists _
    iapply (flight_out_clean (F := F) (V d (cV L) (jV L)) _ _ (outCh4 L k).view _ _ _ (fun y => (hov4 y).trans (congrFun (View.read_writes_whole _ _ _).symm y)) _)
    iexact HfO4
  isplitl [HfO5]
  · iexists _
    iapply (flight_out_clean (F := F) (V d (cV L) (jV L)) _ _ (outCh5 L k).view _ _ _ (fun y => (hov5 y).trans (congrFun (View.read_writes_whole _ _ _).symm y)) _)
    iexact HfO5
  isplitl [Hg0]; · iexact Hg0
  isplitl [Hg1]; · iexact Hg1
  isplitl [Hg2]; · iexact Hg2
  isplitl [Hg3]; · iexact Hg3
  isplitl [Hg4]; · iexact Hg4
  isplitl [Hg5]; · iexact Hg5
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  iexists _; isplitr
  swap; · iexact HO
  ipureintro; intro p hp
  repeat (rcases Finset.mem_insert.mp hp with hp | hp; · exact .inr (hp ▸ rfl))
  exact .inl hp

end Tile
end Cert.Proof.KI
end
-- ==== Proof.KITripLast.lean ====
/-
  One trip of the ring, from the ring's state before it to its state after it. Before trip k each slot of the index
  scratch has a fetch in flight that delivers its two rows of that trip's six; each of the six pieces of the row
  buffer has a copy out in flight from the trip before (none before the first trip). The trip waits for each
  slot's rows, gathers the 128 table rows each row of words names into a piece, copies the pieces out to the
  trip's six windows of the result, and fetches each slot's rows for the next trip (but the last trip, which
  refetches only slot 0, for the one unit left). What the copies deliver are the lookup's values on those windows.
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.KernelIdeal
import proofs.«205516_g82884278878931_cont_9to1_m_1121_21_alg».proof.Proof.Gen.KernelIdeal.Skeleton
import proofs.«205516_g82884278878931_cont_9to1_m_1121_21_alg».proof.Proof.Spec
import proofs.«205516_g82884278878931_cont_9to1_m_1121_21_alg».proof.Proof.KIFlight

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (tileNo shareTok shareDrop)

variable {F : FTy → Type}

local notation "𝕄" => MT nD τ sig (HIx 1) (Elt F) ℕ UU ℕ
local notation "tabV" => (Memref.whole Cert.KernelIdeal.main_arg3_scv : Memref Cert.KernelIdeal.sig Kind.scVector Space.hbm Cert.KernelIdeal.S1000x128 EltTy.f32)
local notation "idxV" => (Memref.whole Cert.KernelIdeal.main_v0_scv : Memref Cert.KernelIdeal.sig Kind.scVector Space.hbm Cert.KernelIdeal.S6400x128 EltTy.i32)
local notation "outV" => (Memref.whole Cert.KernelIdeal.main_v1_scv : Memref Cert.KernelIdeal.sig Kind.scVector Space.hbm Cert.KernelIdeal.S819200x128 EltTy.f32)
local notation "shV" => (Memref.whole Cert.KernelIdeal.cc0_scratch0 : Memref Cert.KernelIdeal.sig Kind.scVector Space.shared Cert.KernelIdeal.S1000x128 EltTy.f32)
local notation "ivV" => (Memref.whole Cert.KernelIdeal.cc0_scratch1 : Memref Cert.KernelIdeal.sig Kind.scVector Space.vmem Cert.KernelIdeal.S6x128 EltTy.i32)
local notation "bigV" => (Memref.whole Cert.KernelIdeal.cc0_scratch2 : Memref Cert.KernelIdeal.sig Kind.scVector Space.vmem Cert.KernelIdeal.S768x128 EltTy.f32)

variable [FloatOps F]
section Tile
variable (d : Dev nD) (L : grid0.Coords)

set_option maxHeartbeats 40000000 in
theorem trip_last (O : CellTallies nD τ sig (HIx 1)) (W : Waits sig (HIx 1)) (k : Fin k0_t1_loop.trips) (v2 v3 : BitVec 32)
    (h2 : k0_cond2 k = 1#1) (h3 : k0_cond3 k = 1#1) (h4 : k0_cond4 k = 1#1) (h5 : k0_cond5 k = 1#1) (h6 : ¬ k0_cond6 k = 1#1) (h7 : ¬ k0_cond7 k = 1#1)
    (qi qs : PosShare TreeShare) (Iv : Buf (Elt F) ((idxV).view.loc (V d (cV L) (jV L)))) (Tsh : Buf (Elt F) ((shV).view.loc (V d (cV L) (jV L))))
    (ivK ivN : Buf (Elt F) ((ivV).view.loc (V d (cV L) (jV L)))) (Gout m0 : Buf (Elt F) ((outV).view.loc (V d (cV L) (jV L))))
    (S0 S1 S2 S3 S4 S5 : Finset S819200x128.Idx)
    (fb0 fb1 fb2 fb3 fb4 fb5 : Buf (Elt F) ((bigV).view.loc (V d (cV L) (jV L))))
    (hn : S128.numel = S128x128.size gathers_S1000x128_S128x128.axis')
    (hin0 : ∀ x, ((ivL0).view.read (Elt F) ivK x).toNat < S1000x128.size gathers_S1000x128_S128x128.axis)
    (hin1 : ∀ x, ((ivL1).view.read (Elt F) ivK x).toNat < S1000x128.size gathers_S1000x128_S128x128.axis)
    (hin2 : ∀ x, ((ivL2).view.read (Elt F) ivK x).toNat < S1000x128.size gathers_S1000x128_S128x128.axis)
    (hin3 : ∀ x, ((ivL3).view.read (Elt F) ivK x).toNat < S1000x128.size gathers_S1000x128_S128x128.axis)
    (hin4 : ∀ x, ((ivL4).view.read (Elt F) ivK x).toNat < S1000x128.size gathers_S1000x128_S128x128.axis)
    (hin5 : ∀ x, ((ivL5).view.read (Elt F) ivK x).toNat < S1000x128.size gathers_S1000x128_S128x128.axis)
    (hfe0 : ∀ y, (ivS0).view.read (Elt F) ivN y = (idxW0 L k h5).view.read (Elt F) Iv y)
    (hov0 : ∀ y, (outCh0 L k).view.read (Elt F) Gout y = SparseCore.gatherPayload gathers_S1000x128_S128x128 ((shW).view.read (Elt F) Tsh) (SparseCore.rows ((ivL0).view.read (Elt F) ivK) hn hin0) y)
    (hov1 : ∀ y, (outCh1 L k).view.read (Elt F) Gout y = SparseCore.gatherPayload gathers_S1000x128_S128x128 ((shW).view.read (Elt F) Tsh) (SparseCore.rows ((ivL1).view.read (Elt F) ivK) hn hin1) y)
    (hov2 : ∀ y, (outCh2 L k).view.read (Elt F) Gout y = SparseCore.gatherPayload gathers_S1000x128_S128x128 ((shW).view.read (Elt F) Tsh) (SparseCore.rows ((ivL2).view.read (Elt F) ivK) hn hin2) y)
    (hov3 : ∀ y, (outCh3 L k).view.read (Elt F) Gout y = SparseCore.gatherPayload gathers_S1000x128_S128x128 ((shW).view.read (Elt F) Tsh) (SparseCore.rows ((ivL3).view.read (Elt F) ivK) hn hin3) y)
    (hov4 : ∀ y, (outCh4 L k).view.read (Elt F) Gout y = SparseCore.gatherPayload gathers_S1000x128_S128x128 ((shW).view.read (Elt F) Tsh) (SparseCore.rows ((ivL4).view.read (Elt F) ivK) hn hin4) y)
    (hov5 : ∀ y, (outCh5 L k).view.read (Elt F) Gout y = SparseCore.gatherPayload gathers_S1000x128_S128x128 ((shW).view.read (Elt F) Tsh) (SparseCore.rows ((ivL5).view.read (Elt F) ivK) hn hin5) y) :
    iprop((Transfers.MayWaits (V d (cV L) (jV L)) (default : HIx 1) O : sProp 𝕄)
        ∗ Transfers.Flight countersEmb (V d (cV L) (jV L)) (SemLoc.dma cc0_scratch15.sem) (default : HIx 1) 8192
            iprop(((ivS0).view.loc (V d (cV L) (jV L)) ↦[(ivS0).view.set]{fullShare} (ivK : Buf (Elt F) ((ivS0).view.loc (V d (cV L) (jV L))))) ∗ ((idxV).view.loc (V d (cV L) (jV L)) ↦{shareTok qi 3 0} Iv))
        ∗ Transfers.Flight countersEmb (V d (cV L) (jV L)) (SemLoc.dma cc0_scratch16.sem) (default : HIx 1) 8192
            iprop(((ivS1).view.loc (V d (cV L) (jV L)) ↦[(ivS1).view.set]{fullShare} (ivK : Buf (Elt F) ((ivS1).view.loc (V d (cV L) (jV L))))) ∗ ((idxV).view.loc (V d (cV L) (jV L)) ↦{shareTok qi 3 1} Iv))
        ∗ Transfers.Flight countersEmb (V d (cV L) (jV L)) (SemLoc.dma cc0_scratch17.sem) (default : HIx 1) 8192
            iprop(((ivS2).view.loc (V d (cV L) (jV L)) ↦[(ivS2).view.set]{fullShare} (ivK : Buf (Elt F) ((ivS2).view.loc (V d (cV L) (jV L))))) ∗ ((idxV).view.loc (V d (cV L) (jV L)) ↦{shareTok qi 3 2} Iv))
        ∗ Transfers.Flight countersEmb (V d (cV L) (jV L)) (SemLoc.dma cc0_scratch9.sem) (default : HIx 1) 524288
            iprop(((outV).view.loc (V d (cV L) (jV L)) ↦[S0]{fullShare} Gout) ∗ ((bigP0).view.loc (V d (cV L) (jV L)) ↦[(bigP0).view.set]{fullShare} fb0))
        ∗ Transfers.Flight countersEmb (V d (cV L) (jV L)) (SemLoc.dma cc0_scratch10.sem) (default : HIx 1) 524288
            iprop(((outV).view.loc (V d (cV L) (jV L)) ↦[S1]{fullShare} Gout) ∗ ((bigP1).view.loc (V d (cV L) (jV L)) ↦[(bigP1).view.set]{fullShare} fb1))
        ∗ Transfers.Flight countersEmb (V d (cV L) (jV L)) (SemLoc.dma cc0_scratch11.sem) (default : HIx 1) 524288
            iprop(((outV).view.loc (V d (cV L) (jV L)) ↦[S2]{fullShare} Gout) ∗ ((bigP2).view.loc (V d (cV L) (jV L)) ↦[(bigP2).view.set]{fullShare} fb2))
        ∗ Transfers.Flight countersEmb (V d (cV L) (jV L)) (SemLoc.dma cc0_scratch12.sem) (default : HIx 1) 524288
            iprop(((outV).view.loc (V d (cV L) (jV L)) ↦[S3]{fullShare} Gout) ∗ ((bigP3).view.loc (V d (cV L) (jV L)) ↦[(bigP3).view.set]{fullShare} fb3))
        ∗ Transfers.Flight countersEmb (V d (cV L) (jV L)) (SemLoc.dma cc0_scratch13.sem) (default : HIx 1) 524288
            iprop(((outV).view.loc (V d (cV L) (jV L)) ↦[S4]{fullShare} Gout) ∗ ((bigP4).view.loc (V d (cV L) (jV L)) ↦[(bigP4).view.set]{fullShare} fb4))
        ∗ Transfers.Flight countersEmb (V d (cV L) (jV L)) (SemLoc.dma cc0_scratch14.sem) (default : HIx 1) 524288
            iprop(((outV).view.loc (V d (cV L) (jV L)) ↦[S5]{fullShare} Gout) ∗ ((bigP5).view.loc (V d (cV L) (jV L)) ↦[(bigP5).view.set]{fullShare} fb5))
        ∗ semVal ((V d (cV L) (jV L)), SemLoc.dma cc0_scratch3.sem) 0
        ∗ semVal ((V d (cV L) (jV L)), SemLoc.dma cc0_scratch4.sem) 0
        ∗ semVal ((V d (cV L) (jV L)), SemLoc.dma cc0_scratch5.sem) 0
        ∗ semVal ((V d (cV L) (jV L)), SemLoc.dma cc0_scratch6.sem) 0
        ∗ semVal ((V d (cV L) (jV L)), SemLoc.dma cc0_scratch7.sem) 0
        ∗ semVal ((V d (cV L) (jV L)), SemLoc.dma cc0_scratch8.sem) 0
        ∗ ((shV).view.loc (V d (cV L) (jV L)) ↦{shareTok qs 6 0} Tsh)
        ∗ ((shV).view.loc (V d (cV L) (jV L)) ↦{shareTok qs 6 1} Tsh)
        ∗ ((shV).view.loc (V d (cV L) (jV L)) ↦{shareTok qs 6 2} Tsh)
        ∗ ((shV).view.loc (V d (cV L) (jV L)) ↦{shareTok qs 6 3} Tsh)
        ∗ ((shV).view.loc (V d (cV L) (jV L)) ↦{shareTok qs 6 4} Tsh)
        ∗ ((shV).view.loc (V d (cV L) (jV L)) ↦{shareTok qs 6 5} Tsh)
        ∗ ((outCh0 L k).view.loc (V d (cV L) (jV L)) ↦[(outCh0 L k).view.set]{fullShare} m0)
        ∗ ((outCh1 L k).view.loc (V d (cV L) (jV L)) ↦[(outCh1 L k).view.set]{fullShare} m0)
        ∗ ((outCh2 L k).view.loc (V d (cV L) (jV L)) ↦[(outCh2 L k).view.set]{fullShare} m0)
        ∗ ((outCh3 L k).view.loc (V d (cV L) (jV L)) ↦[(outCh3 L k).view.set]{fullShare} m0)
        ∗ ((outCh4 L k).view.loc (V d (cV L) (jV L)) ↦[(outCh4 L k).view.set]{fullShare} m0)
        ∗ ((outCh5 L k).view.loc (V d (cV L) (jV L)) ↦[(outCh5 L k).view.set]{fullShare} m0)
        ∗ owes (V d (cV L) (jV L)) O W)
      ⊢ wp frame (wpE (defs₀ (F := F)) 𝒱₀ (V d (cV L) (jV L)) none) Set.univ
          (k0_t1_body L tabV (Memref.isWhole_whole _) idxV (Memref.isWhole_whole _) outV (Memref.isWhole_whole _) shV (Memref.isWhole_whole _) ivV (Memref.isWhole_whole _) bigV (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scoped0 v2 v3 0#32 k ())
          fun _ => iprop(Transfers.Flight countersEmb (V d (cV L) (jV L)) (SemLoc.dma cc0_scratch15.sem) (default : HIx 1) 8192
            iprop(((ivS0).view.loc (V d (cV L) (jV L)) ↦[(ivS0).view.set]{fullShare} (ivN : Buf (Elt F) ((ivS0).view.loc (V d (cV L) (jV L))))) ∗ ((idxV).view.loc (V d (cV L) (jV L)) ↦{shareTok qi 3 0} Iv))
        ∗ iprop(((ivS1).view.loc (V d (cV L) (jV L)) ↦[(ivS1).view.set]{fullShare} (ivK : Buf (Elt F) ((ivS1).view.loc (V d (cV L) (jV L))))) ∗ ((idxV).view.loc (V d (cV L) (jV L)) ↦{shareTok qi 3 1} Iv) ∗ semVal ((V d (cV L) (jV L)), SemLoc.dma cc0_scratch16.sem) 0)
        ∗ iprop(((ivS2).view.loc (V d (cV L) (jV L)) ↦[(ivS2).view.set]{fullShare} (ivK : Buf (Elt F) ((ivS2).view.loc (V d (cV L) (jV L))))) ∗ ((idxV).view.loc (V d (cV L) (jV L)) ↦{shareTok qi 3 2} Iv) ∗ semVal ((V d (cV L) (jV L)), SemLoc.dma cc0_scratch17.sem) 0)
        ∗ (∃ fb, Transfers.Flight countersEmb (V d (cV L) (jV L)) (SemLoc.dma cc0_scratch9.sem) (default : HIx 1) 524288
            iprop(((outCh0 L k).view.loc (V d (cV L) (jV L)) ↦[(outCh0 L k).view.set]{fullShare} (Gout : Buf (Elt F) ((outCh0 L k).view.loc (V d (cV L) (jV L))))) ∗ ((bigP0).view.loc (V d (cV L) (jV L)) ↦[(bigP0).view.set]{fullShare} fb)))
        ∗ (∃ fb, Transfers.Flight countersEmb (V d (cV L) (jV L)) (SemLoc.dma cc0_scratch10.sem) (default : HIx 1) 524288
            iprop(((outCh1 L k).view.loc (V d (cV L) (jV L)) ↦[(outCh1 L k).view.set]{fullShare} (Gout : Buf (Elt F) ((outCh1 L k).view.loc (V d (cV L) (jV L))))) ∗ ((bigP1).view.loc (V d (cV L) (jV L)) ↦[(bigP1).view.set]{fullShare} fb)))
        ∗ (∃ fb, Transfers.Flight countersEmb (V d (cV L) (jV L)) (SemLoc.dma cc0_scratch11.sem) (default : HIx 1) 524288
            iprop(((outCh2 L k).view.loc (V d (cV L) (jV L)) ↦[(outCh2 L k).view.set]{fullShare} (Gout : Buf (Elt F) ((outCh2 L k).view.loc (V d (cV L) (jV L))))) ∗ ((bigP2).view.loc (V d (cV L) (jV L)) ↦[(bigP2).view.set]{fullShare} fb)))
        ∗ (∃ fb, Transfers.Flight countersEmb (V d (cV L) (jV L)) (SemLoc.dma cc0_scratch12.sem) (default : HIx 1) 524288
            iprop(((outCh3 L k).view.loc (V d (cV L) (jV L)) ↦[(outCh3 L k).view.set]{fullShare} (Gout : Buf (Elt F) ((outCh3 L k).view.loc (V d (cV L) (jV L))))) ∗ ((bigP3).view.loc (V d (cV L) (jV L)) ↦[(bigP3).view.set]{fullShare} fb)))
        ∗ (∃ fb, Transfers.Flight countersEmb (V d (cV L) (jV L)) (SemLoc.dma cc0_scratch13.sem) (default : HIx 1) 524288
            iprop(((outCh4 L k).view.loc (V d (cV L) (jV L)) ↦[(outCh4 L k).view.set]{fullShare} (Gout : Buf (Elt F) ((outCh4 L k).view.loc (V d (cV L) (jV L))))) ∗ ((bigP4).view.loc (V d (cV L) (jV L)) ↦[(bigP4).view.set]{fullShare} fb)))
        ∗ (∃ fb, Transfers.Flight countersEmb (V d (cV L) (jV L)) (SemLoc.dma cc0_scratch14.sem) (default : HIx 1) 524288
            iprop(((outCh5 L k).view.loc (V d (cV L) (jV L)) ↦[(outCh5 L k).view.set]{fullShare} (Gout : Buf (Elt F) ((outCh5 L k).view.loc (V d (cV L) (jV L))))) ∗ ((bigP5).view.loc (V d (cV L) (jV L)) ↦[(bigP5).view.set]{fullShare} fb)))
        ∗ semVal ((V d (cV L) (jV L)), SemLoc.dma cc0_scratch3.sem) 0
        ∗ semVal ((V d (cV L) (jV L)), SemLoc.dma cc0_scratch4.sem) 0
        ∗ semVal ((V d (cV L) (jV L)), SemLoc.dma cc0_scratch5.sem) 0
        ∗ semVal ((V d (cV L) (jV L)), SemLoc.dma cc0_scratch6.sem) 0
        ∗ semVal ((V d (cV L) (jV L)), SemLoc.dma cc0_scratch7.sem) 0
        ∗ semVal ((V d (cV L) (jV L)), SemLoc.dma cc0_scratch8.sem) 0
        ∗ ((shV).view.loc (V d (cV L) (jV L)) ↦{shareTok qs 6 0} Tsh)
        ∗ ((shV).view.loc (V d (cV L) (jV L)) ↦{shareTok qs 6 1} Tsh)
        ∗ ((shV).view.loc (V d (cV L) (jV L)) ↦{shareTok qs 6 2} Tsh)
        ∗ ((shV).view.loc (V d (cV L) (jV L)) ↦{shareTok qs 6 3} Tsh)
        ∗ ((shV).view.loc (V d (cV L) (jV L)) ↦{shareTok qs 6 4} Tsh)
        ∗ ((shV).view.loc (V d (cV L) (jV L)) ↦{shareTok qs 6 5} Tsh)
        ∗ ((outV).view.loc (V d (cV L) (jV L)) ↦[S0]{fullShare} Gout)
        ∗ ((outV).view.loc (V d (cV L) (jV L)) ↦[S1]{fullShare} Gout)
        ∗ ((outV).view.loc (V d (cV L) (jV L)) ↦[S2]{fullShare} Gout)
        ∗ ((outV).view.loc (V d (cV L) (jV L)) ↦[S3]{fullShare} Gout)
        ∗ ((outV).view.loc (V d (cV L) (jV L)) ↦[S4]{fullShare} Gout)
        ∗ ((outV).view.loc (V d (cV L) (jV L)) ↦[S5]{fullShare} Gout)
        ∗ ∃ W', ⌜∀ p ∈ W', p ∈ W ∨ p.2 = none⌝ ∗ owes (V d (cV L) (jV L)) O W') := by
  iintro ⟨#Hmw, HfI0, HfI1, HfI2, HfO0, HfO1, HfO2, HfO3, HfO4, HfO5, Hg0, Hg1, Hg2, Hg3, Hg4, Hg5, Ht0, Ht1, Ht2, Ht3, Ht4, Ht5, Ho0, Ho1, Ho2, Ho3, Ho4, Ho5, HO⟩
  sl_exec
  ihave Hr := (slot0_rows (F := F) d (cV L) (jV L) _).1 $$ HfI0_dst
  icases Hr with ⟨Hl0, Hl1⟩
  sl_exec
  ihave Hr := (slot1_rows (F := F) d (cV L) (jV L) _).1 $$ HfI1_dst
  icases Hr with ⟨Hl2, Hl3⟩
  sl_exec
  ihave Hr := (slot2_rows (F := F) d (cV L) (jV L) _).1 $$ HfI2_dst
  icases Hr with ⟨Hl4, Hl5⟩
  sl_exec
  ihave Hs0 := (slot0_rows (F := F) d (cV L) (jV L) _).2 $$ [Hl0 Hl1]
  · isplitl [Hl0] <;> iassumption
  sl_exec
  sl_step
  isplitl [HfI0 HfI0_src]
  · iapply (flight_fetch_clean (F := F) (V d (cV L) (jV L)) _ _ (ivS0).view _ _ _ hfe0 _ _ _ _)
    isplitl [HfI0_src]; · iexact HfI0_src
    iexact HfI0
  isplitl [Hl2 Hl3 HfI1_src HfI1]
  · isplitl [Hl2 Hl3]
    · iapply (slot1_rows (F := F) d (cV L) (jV L) _).2; isplitl [Hl2] <;> iassumption
    isplitl [HfI1_src]; · iexact HfI1_src
    iexact HfI1
  isplitl [Hl4 Hl5 HfI2_src HfI2]
  · isplitl [Hl4 Hl5]
    · iapply (slot2_rows (F := F) d (cV L) (jV L) _).2; isplitl [Hl4] <;> iassumption
    isplitl [HfI2_src]; · iexact HfI2_src
    iexact HfI2
  isplitl [HfO0]
  · iexists _
    iapply (flight_out_clean (F := F) (V d (cV L) (jV L)) _ _ (outCh0 L k).view _ _ _ (fun y => (hov0 y).trans (congrFun (View.read_writes_whole _ _ _).symm y)) _)
    iexact HfO0
  isplitl [HfO1]
  · iexists _
    iapply (flight_out_clean (F := F) (V d (cV L) (jV L)) _ _ (outCh1 L k).view _ _ _ (fun y => (hov1 y).trans (congrFun (View.read_writes_whole _ _ _).symm y)) _)
    iexact HfO1
  isplitl [HfO2]
  · iexists _
    iapply (flight_out_clean (F := F) (V d (cV L) (jV L)) _ _ (outCh2 L k).view _ _ _ (fun y => (hov2 y).trans (congrFun (View.read_writes_whole _ _ _).symm y)) _)
    iexact HfO2
  isplitl [HfO3]
  · iexists _
    iapply (flight_out_clean (F := F) (V d (cV L) (jV L)) _ _ (outCh3 L k).view _ _ _ (fun y => (hov3 y).trans (congrFun (View.read_writes_whole _ _ _).symm y)) _)
    iexact HfO3
  isplitl [HfO4]
  · iexists _
    iapply (flight_out_clean (F := F) (V d (cV L) (jV L)) _ _ (outCh4 L k).view _ _ _ (fun y => (hov4 y).trans (congrFun (View.read_writes_whole _ _ _).symm y)) _)
    iexact HfO4
  isplitl [HfO5]
  · iexists _
    iapply (flight_out_clean (F := F) (V d (cV L) (jV L)) _ _ (outCh5 L k).view _ _ _ (fun y => (hov5 y).trans (congrFun (View.read_writes_whole _ _ _).symm y)) _)
    iexact HfO5
  isplitl [Hg0]; · iexact Hg0
  isplitl [Hg1]; · iexact Hg1
  isplitl [Hg2]; · iexact Hg2
  isplitl [Hg3]; · iexact Hg3
  isplitl [Hg4]; · iexact Hg4
  isplitl [Hg5]; · iexact Hg5
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [HfO0_dst]; · iexact HfO0_dst
  isplitl [HfO1_dst]; · iexact HfO1_dst
  isplitl [HfO2_dst]; · iexact HfO2_dst
  isplitl [HfO3_dst]; · iexact HfO3_dst
  isplitl [HfO4_dst]; · iexact HfO4_dst
  isplitl [HfO5_dst]; · iexact HfO5_dst
  iexists _; isplitr
  swap; · iexact HO
  ipureintro; intro p hp
  repeat (rcases Finset.mem_insert.mp hp with hp | hp; · exact .inr (hp ▸ rfl))
  exact .inl hp

end Tile
end Cert.Proof.KI
end
-- ==== Proof.KILoop.lean ====
/-
  One step of the loop: from the ring's state before trip k to its state before trip k + 1. The trip's six windows
  are taken out of the rows still to write; the trip runs (the first trip has no copies out to wait for, the last
  refetches only slot 0); the windows the previous trip's copies delivered join the completed rows.
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.KernelIdeal
import proofs.«205516_g82884278878931_cont_9to1_m_1121_21_alg».proof.Proof.Gen.KernelIdeal.Skeleton
import proofs.«205516_g82884278878931_cont_9to1_m_1121_21_alg».proof.Proof.Spec
import proofs.«205516_g82884278878931_cont_9to1_m_1121_21_alg».proof.Proof.KIState
import proofs.«205516_g82884278878931_cont_9to1_m_1121_21_alg».proof.Proof.KITripMid
import proofs.«205516_g82884278878931_cont_9to1_m_1121_21_alg».proof.Proof.KITripFirst
import proofs.«205516_g82884278878931_cont_9to1_m_1121_21_alg».proof.Proof.KITripLast
import proofs.«205516_g82884278878931_cont_9to1_m_1121_21_alg».proof.Proof.KIValueLemmas
import proofs.«205516_g82884278878931_cont_9to1_m_1121_21_alg».proof.Proof.KIRowsTake

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (tileNo shareTok shareDrop)

variable {F : FTy → Type}

local notation "𝕄" => MT nD τ sig (HIx 1) (Elt F) ℕ UU ℕ
local notation "tabV" => (Memref.whole Cert.KernelIdeal.main_arg3_scv : Memref Cert.KernelIdeal.sig Kind.scVector Space.hbm Cert.KernelIdeal.S1000x128 EltTy.f32)
local notation "idxV" => (Memref.whole Cert.KernelIdeal.main_v0_scv : Memref Cert.KernelIdeal.sig Kind.scVector Space.hbm Cert.KernelIdeal.S6400x128 EltTy.i32)
local notation "outV" => (Memref.whole Cert.KernelIdeal.main_v1_scv : Memref Cert.KernelIdeal.sig Kind.scVector Space.hbm Cert.KernelIdeal.S819200x128 EltTy.f32)
local notation "shV" => (Memref.whole Cert.KernelIdeal.cc0_scratch0 : Memref Cert.KernelIdeal.sig Kind.scVector Space.shared Cert.KernelIdeal.S1000x128 EltTy.f32)
local notation "ivV" => (Memref.whole Cert.KernelIdeal.cc0_scratch1 : Memref Cert.KernelIdeal.sig Kind.scVector Space.vmem Cert.KernelIdeal.S6x128 EltTy.i32)
local notation "bigV" => (Memref.whole Cert.KernelIdeal.cc0_scratch2 : Memref Cert.KernelIdeal.sig Kind.scVector Space.vmem Cert.KernelIdeal.S768x128 EltTy.f32)

variable (m : (ℓ : Loc nD τ sig) → Buf (Elt F) ℓ) (I : Dev nD → S6400x128.Idx → BitVec 32)
variable [FloatOps F]

omit [FloatOps F] in
theorem trips_eq : k0_t1_loop.trips = 33 := by decide
omit [FloatOps F] in
theorem hnG : S128.numel = S128x128.size gathers_S1000x128_S128x128.axis' := by decide

/-! ### The trip's guards, decided by the trip number -/
omit [FloatOps F] in theorem cond2_pos : ∀ k : Fin k0_t1_loop.trips, 0 < k.val → k0_cond2 k = 1#1 := by decide +kernel
omit [FloatOps F] in theorem cond3_pos : ∀ k : Fin k0_t1_loop.trips, 0 < k.val → k0_cond3 k = 1#1 := by decide +kernel
omit [FloatOps F] in theorem cond4_pos : ∀ k : Fin k0_t1_loop.trips, 0 < k.val → k0_cond4 k = 1#1 := by decide +kernel
omit [FloatOps F] in theorem cond2_zero : ∀ k : Fin k0_t1_loop.trips, k.val = 0 → ¬ k0_cond2 k = 1#1 := by decide +kernel
omit [FloatOps F] in theorem cond3_zero : ∀ k : Fin k0_t1_loop.trips, k.val = 0 → ¬ k0_cond3 k = 1#1 := by decide +kernel
omit [FloatOps F] in theorem cond4_zero : ∀ k : Fin k0_t1_loop.trips, k.val = 0 → ¬ k0_cond4 k = 1#1 := by decide +kernel
omit [FloatOps F] in theorem cond5_all : ∀ k : Fin k0_t1_loop.trips, k0_cond5 k = 1#1 := by decide +kernel
omit [FloatOps F] in theorem cond6_lt : ∀ k : Fin k0_t1_loop.trips, k.val < 32 → k0_cond6 k = 1#1 := by decide +kernel
omit [FloatOps F] in theorem cond7_lt : ∀ k : Fin k0_t1_loop.trips, k.val < 32 → k0_cond7 k = 1#1 := by decide +kernel
omit [FloatOps F] in theorem cond6_last : ∀ k : Fin k0_t1_loop.trips, k.val = 32 → ¬ k0_cond6 k = 1#1 := by decide +kernel
omit [FloatOps F] in theorem cond7_last : ∀ k : Fin k0_t1_loop.trips, k.val = 32 → ¬ k0_cond7 k = 1#1 := by decide +kernel

section Tile
variable (d : Dev nD) (L : grid0.Coords)

theorem idxPart_lt (qi : PosShare TreeShare) {n : ℕ} (h : n < 33) : idxPart (F := F) I d L qi n = iprop(Transfers.Flight countersEmb (V d (cV L) (jV L)) (SemLoc.dma cc0_scratch16.sem) (default : HIx 1) 8192
        iprop(((ivS1).view.loc (V d (cV L) (jV L)) ↦[(ivS1).view.set]{fullShare} (ivC I d L n : Buf (Elt F) ((ivS1).view.loc (V d (cV L) (jV L))))) ∗ ((idxV).view.loc (V d (cV L) (jV L)) ↦{shareTok qi 3 1} (I d : Buf (Elt F) ((idxV).view.loc (V d (cV L) (jV L))))))
      ∗ Transfers.Flight countersEmb (V d (cV L) (jV L)) (SemLoc.dma cc0_scratch17.sem) (default : HIx 1) 8192
        iprop(((ivS2).view.loc (V d (cV L) (jV L)) ↦[(ivS2).view.set]{fullShare} (ivC I d L n : Buf (Elt F) ((ivS2).view.loc (V d (cV L) (jV L))))) ∗ ((idxV).view.loc (V d (cV L) (jV L)) ↦{shareTok qi 3 2} (I d : Buf (Elt F) ((idxV).view.loc (V d (cV L) (jV L))))))) := by unfold idxPart; rw [if_pos h]
theorem idxPart_33 (qi : PosShare TreeShare) : idxPart (F := F) I d L qi 33 = iprop(iprop(∃ f : Buf (Elt F) ((ivS1).view.loc (V d (cV L) (jV L))), ((ivS1).view.loc (V d (cV L) (jV L)) ↦[(ivS1).view.set]{fullShare} f) ∗ ((idxV).view.loc (V d (cV L) (jV L)) ↦{shareTok qi 3 1} (I d : Buf (Elt F) ((idxV).view.loc (V d (cV L) (jV L))))) ∗ semVal ((V d (cV L) (jV L)), SemLoc.dma cc0_scratch16.sem) 0) ∗ iprop(∃ f : Buf (Elt F) ((ivS2).view.loc (V d (cV L) (jV L))), ((ivS2).view.loc (V d (cV L) (jV L)) ↦[(ivS2).view.set]{fullShare} f) ∗ ((idxV).view.loc (V d (cV L) (jV L)) ↦{shareTok qi 3 2} (I d : Buf (Elt F) ((idxV).view.loc (V d (cV L) (jV L))))) ∗ semVal ((V d (cV L) (jV L)), SemLoc.dma cc0_scratch17.sem) 0)) := by unfold idxPart; rw [if_neg (by decide)]
theorem outPart_zero : outPart (F := F) m I d L 0 = iprop(iprop((∃ fb, (bigP0).view.loc (V d (cV L) (jV L)) ↦[(bigP0).view.set]{fullShare} fb) ∗ semVal ((V d (cV L) (jV L)), SemLoc.dma cc0_scratch9.sem) 0)
      ∗ iprop((∃ fb, (bigP1).view.loc (V d (cV L) (jV L)) ↦[(bigP1).view.set]{fullShare} fb) ∗ semVal ((V d (cV L) (jV L)), SemLoc.dma cc0_scratch10.sem) 0)
      ∗ iprop((∃ fb, (bigP2).view.loc (V d (cV L) (jV L)) ↦[(bigP2).view.set]{fullShare} fb) ∗ semVal ((V d (cV L) (jV L)), SemLoc.dma cc0_scratch11.sem) 0)
      ∗ iprop((∃ fb, (bigP3).view.loc (V d (cV L) (jV L)) ↦[(bigP3).view.set]{fullShare} fb) ∗ semVal ((V d (cV L) (jV L)), SemLoc.dma cc0_scratch12.sem) 0)
      ∗ iprop((∃ fb, (bigP4).view.loc (V d (cV L) (jV L)) ↦[(bigP4).view.set]{fullShare} fb) ∗ semVal ((V d (cV L) (jV L)), SemLoc.dma cc0_scratch13.sem) 0)
      ∗ iprop((∃ fb, (bigP5).view.loc (V d (cV L) (jV L)) ↦[(bigP5).view.set]{fullShare} fb) ∗ semVal ((V d (cV L) (jV L)), SemLoc.dma cc0_scratch14.sem) 0)) := by unfold outPart; rw [if_pos rfl]
theorem outPart_pos {n : ℕ} (h : n ≠ 0) : outPart (F := F) m I d L n = iprop(∃ kp : Fin k0_t1_loop.trips, ⌜kp.val + 1 = n⌝
      ∗ (∃ fb, Transfers.Flight countersEmb (V d (cV L) (jV L)) (SemLoc.dma cc0_scratch9.sem) (default : HIx 1) 524288
        iprop(((outCh0 L kp).view.loc (V d (cV L) (jV L)) ↦[(outCh0 L kp).view.set]{fullShare} (outG m I d : Buf (Elt F) ((outCh0 L kp).view.loc (V d (cV L) (jV L))))) ∗ ((bigP0).view.loc (V d (cV L) (jV L)) ↦[(bigP0).view.set]{fullShare} fb)))
      ∗ (∃ fb, Transfers.Flight countersEmb (V d (cV L) (jV L)) (SemLoc.dma cc0_scratch10.sem) (default : HIx 1) 524288
        iprop(((outCh1 L kp).view.loc (V d (cV L) (jV L)) ↦[(outCh1 L kp).view.set]{fullShare} (outG m I d : Buf (Elt F) ((outCh1 L kp).view.loc (V d (cV L) (jV L))))) ∗ ((bigP1).view.loc (V d (cV L) (jV L)) ↦[(bigP1).view.set]{fullShare} fb)))
      ∗ (∃ fb, Transfers.Flight countersEmb (V d (cV L) (jV L)) (SemLoc.dma cc0_scratch11.sem) (default : HIx 1) 524288
        iprop(((outCh2 L kp).view.loc (V d (cV L) (jV L)) ↦[(outCh2 L kp).view.set]{fullShare} (outG m I d : Buf (Elt F) ((outCh2 L kp).view.loc (V d (cV L) (jV L))))) ∗ ((bigP2).view.loc (V d (cV L) (jV L)) ↦[(bigP2).view.set]{fullShare} fb)))
      ∗ (∃ fb, Transfers.Flight countersEmb (V d (cV L) (jV L)) (SemLoc.dma cc0_scratch12.sem) (default : HIx 1) 524288
        iprop(((outCh3 L kp).view.loc (V d (cV L) (jV L)) ↦[(outCh3 L kp).view.set]{fullShare} (outG m I d : Buf (Elt F) ((outCh3 L kp).view.loc (V d (cV L) (jV L))))) ∗ ((bigP3).view.loc (V d (cV L) (jV L)) ↦[(bigP3).view.set]{fullShare} fb)))
      ∗ (∃ fb, Transfers.Flight countersEmb (V d (cV L) (jV L)) (SemLoc.dma cc0_scratch13.sem) (default : HIx 1) 524288
        iprop(((outCh4 L kp).view.loc (V d (cV L) (jV L)) ↦[(outCh4 L kp).view.set]{fullShare} (outG m I d : Buf (Elt F) ((outCh4 L kp).view.loc (V d (cV L) (jV L))))) ∗ ((bigP4).view.loc (V d (cV L) (jV L)) ↦[(bigP4).view.set]{fullShare} fb)))
      ∗ (∃ fb, Transfers.Flight countersEmb (V d (cV L) (jV L)) (SemLoc.dma cc0_scratch14.sem) (default : HIx 1) 524288
        iprop(((outCh5 L kp).view.loc (V d (cV L) (jV L)) ↦[(outCh5 L kp).view.set]{fullShare} (outG m I d : Buf (Elt F) ((outCh5 L kp).view.loc (V d (cV L) (jV L))))) ∗ ((bigP5).view.loc (V d (cV L) (jV L)) ↦[(bigP5).view.set]{fullShare} fb)))) := by unfold outPart; rw [if_neg h]

set_option maxRecDepth 65536 in
set_option maxHeartbeats 4000000 in
theorem loop_step (hI : ∀ x, 0 ≤ (I d x).toInt ∧ (I d x).toInt ≤ 999) (O : CellTallies nD τ sig (HIx 1)) (W : Waits sig (HIx 1)) (qi qs : PosShare TreeShare)
    (m0 : Buf (Elt F) ((outV).view.loc (V d (cV L) (jV L)))) (v2 v3 : BitVec 32) (k : Fin k0_t1_loop.trips) (acc : Unit) :
    inv m I d L O W qi qs m0 k.val acc
      ⊢ wp frame (wpE (defs₀ (F := F)) 𝒱₀ (V d (cV L) (jV L)) none) Set.univ (k0_t1_body L tabV (Memref.isWhole_whole _) idxV (Memref.isWhole_whole _) outV (Memref.isWhole_whole _) shV (Memref.isWhole_whole _) ivV (Memref.isWhole_whole _) bigV (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scoped0 v2 v3 0#32 k acc)
          (inv m I d L O W qi qs m0 (k.val + 1)) := by
  have hk : k.val < 33 := lt_of_lt_of_eq k.isLt trips_eq
  unfold inv
  rw [idxPart_lt I d L qi hk]
  rcases (show k.val = 0 ∨ (0 < k.val ∧ k.val = 32) ∨ (0 < k.val ∧ k.val ≠ 32) from by omega) with h0 | ⟨hpos, h32⟩ | ⟨hpos, h32⟩
  · -- the first trip
    rw [show outPart (F := F) m I d L k.val = outPart (F := F) m I d L 0 from by rw [h0], outPart_zero]
    iintro ⟨#Hmw, %hle, HfI0, ⟨HfI1, HfI2⟩, ⟨⟨⟨%fb0, Hb0⟩, HfO0⟩, ⟨⟨%fb1, Hb1⟩, HfO1⟩, ⟨⟨%fb2, Hb2⟩, HfO2⟩, ⟨⟨%fb3, Hb3⟩, HfO3⟩, ⟨⟨%fb4, Hb4⟩, HfO4⟩, ⟨⟨%fb5, Hb5⟩, HfO5⟩⟩, Hg0, Hg1, Hg2, Hg3, Hg4, Hg5, Ht0, Ht1, Ht2, Ht3, Ht4, Ht5, Hdone, Htodo, %W', %hW', HO⟩
    ihave Hch := (todo_take (F := F) d L k m0).1 $$ Htodo
    icases Hch with ⟨Hc0, Hc1, Hc2, Hc3, Hc4, Hc5, Htodo⟩
    iapply (wp_wand_r frame _ Set.univ)
    isplitl [HfI0 HfI1 HfI2 Hb0 HfO0 Hb1 HfO1 Hb2 HfO2 Hb3 HfO3 Hb4 HfO4 Hb5 HfO5 Hg0 Hg1 Hg2 Hg3 Hg4 Hg5 Ht0 Ht1 Ht2 Ht3 Ht4 Ht5 Hc0 Hc1 Hc2 Hc3 Hc4 Hc5 HO]
    · iapply (trip_first (F := F) d L O W' k v2 v3 (cond2_zero k h0) (cond3_zero k h0) (cond4_zero k h0) (cond5_all k) (cond6_lt k (by omega)) (cond7_lt k (by omega)) qi qs (I d) (tabC m d) (ivC I d L k.val) (ivC I d L (k.val + 1)) (outG m I d) m0
        fb0 fb1 fb2 fb3 fb4 fb5 hnG (hin0 I d L hI k.val) (hin1 I d L hI k.val) (hin2 I d L hI k.val) (hin3 I d L hI k.val) (hin4 I d L hI k.val) (hin5 I d L hI k.val)
        (fetchW0 I d L k (cond5_all k)) (fetchW1 I d L k (cond6_lt k (by omega))) (fetchW2 I d L k (cond7_lt k (by omega)))
        (outV0 m I d L hI k hnG (hin0 I d L hI k.val)) (outV1 m I d L hI k hnG (hin1 I d L hI k.val)) (outV2 m I d L hI k hnG (hin2 I d L hI k.val)) (outV3 m I d L hI k hnG (hin3 I d L hI k.val)) (outV4 m I d L hI k hnG (hin4 I d L hI k.val)) (outV5 m I d L hI k hnG (hin5 I d L hI k.val)))
      isplitr; · iexact Hmw
      isplitl [HfI0]; · iexact HfI0
      isplitl [HfI1]; · iexact HfI1
      isplitl [HfI2]; · iexact HfI2
      isplitl [Hb0]; · iexact Hb0
      isplitl [HfO0]; · iexact HfO0
      isplitl [Hb1]; · iexact Hb1
      isplitl [HfO1]; · iexact HfO1
      isplitl [Hb2]; · iexact Hb2
      isplitl [HfO2]; · iexact HfO2
      isplitl [Hb3]; · iexact Hb3
      isplitl [HfO3]; · iexact HfO3
      isplitl [Hb4]; · iexact Hb4
      isplitl [HfO4]; · iexact HfO4
      isplitl [Hb5]; · iexact Hb5
      isplitl [HfO5]; · iexact HfO5
      isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      iexact HO
    · iintro %a ⟨HfI0, HfI1, HfI2, ⟨%gb0, HfO0⟩, ⟨%gb1, HfO1⟩, ⟨%gb2, HfO2⟩, ⟨%gb3, HfO3⟩, ⟨%gb4, HfO4⟩, ⟨%gb5, HfO5⟩, Hg0, Hg1, Hg2, Hg3, Hg4, Hg5, Ht0, Ht1, Ht2, Ht3, Ht4, Ht5, ⟨%W'', %hW'', HO⟩⟩
      rw [idxPart_lt I d L qi (show k.val + 1 < 33 from by omega)]
      rw [outPart_pos m I d L (show (k.val + 1) ≠ 0 from by omega)]
      isplitr; · iexact Hmw
      isplitr; · ipureintro; omega
      isplitl [HfI0]; · iexact HfI0
      isplitl [HfI1 HfI2]
      · isplitl [HfI1]; · iexact HfI1
        iexact HfI2
      isplitl [HfO0 HfO1 HfO2 HfO3 HfO4 HfO5]
      · iexists k; isplitr; · ipureintro; omega
        isplitl [HfO0]; · iexists _; iexact HfO0
        isplitl [HfO1]; · iexists _; iexact HfO1
        isplitl [HfO2]; · iexists _; iexact HfO2
        isplitl [HfO3]; · iexists _; iexact HfO3
        isplitl [HfO4]; · iexists _; iexact HfO4
        iexists _; iexact HfO5
      isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Hdone]
      · iapply (Entails.of_eq (congrArg (fun n : ℕ => ((outV).view.loc (V d (cV L) (jV L)) ↦[rowsSet (baseO L) (baseO L + 768 * n)]{fullShare} (outG m I d : Buf (Elt F) ((outV).view.loc (V d (cV L) (jV L)))) : sProp 𝕄)) (show k.val - 1 = k.val + 1 - 1 from by omega)))
        iexact Hdone
      isplitl [Htodo]; · iexact Htodo
      iexists W''; isplitr
      · ipureintro; intro p hp
        rcases hW'' p hp with h | h
        · exact hW' p h
        · exact .inr h
      · iexact HO

  · -- the last trip
    rw [outPart_pos m I d L (show k.val ≠ 0 from by omega)]
    iintro ⟨#Hmw, %hle, HfI0, ⟨HfI1, HfI2⟩, ⟨%kp, %hkp, ⟨%fb0, HfO0⟩, ⟨%fb1, HfO1⟩, ⟨%fb2, HfO2⟩, ⟨%fb3, HfO3⟩, ⟨%fb4, HfO4⟩, ⟨%fb5, HfO5⟩⟩, Hg0, Hg1, Hg2, Hg3, Hg4, Hg5, Ht0, Ht1, Ht2, Ht3, Ht4, Ht5, Hdone, Htodo, %W', %hW', HO⟩
    ihave Hch := (todo_take (F := F) d L k m0).1 $$ Htodo
    icases Hch with ⟨Hc0, Hc1, Hc2, Hc3, Hc4, Hc5, Htodo⟩
    iapply (wp_wand_r frame _ Set.univ)
    isplitl [HfI0 HfI1 HfI2 HfO0 HfO1 HfO2 HfO3 HfO4 HfO5 Hg0 Hg1 Hg2 Hg3 Hg4 Hg5 Ht0 Ht1 Ht2 Ht3 Ht4 Ht5 Hc0 Hc1 Hc2 Hc3 Hc4 Hc5 HO]
    · iapply (trip_last (F := F) d L O W' k v2 v3 (cond2_pos k (by omega)) (cond3_pos k (by omega)) (cond4_pos k (by omega)) (cond5_all k) (cond6_last k h32) (cond7_last k h32) qi qs (I d) (tabC m d) (ivC I d L k.val) (ivC I d L (k.val + 1)) (outG m I d) m0 (outCh0 L kp).view.set (outCh1 L kp).view.set (outCh2 L kp).view.set (outCh3 L kp).view.set (outCh4 L kp).view.set (outCh5 L kp).view.set
        fb0 fb1 fb2 fb3 fb4 fb5 hnG (hin0 I d L hI k.val) (hin1 I d L hI k.val) (hin2 I d L hI k.val) (hin3 I d L hI k.val) (hin4 I d L hI k.val) (hin5 I d L hI k.val)
        (fetchW0 I d L k (cond5_all k))
        (outV0 m I d L hI k hnG (hin0 I d L hI k.val)) (outV1 m I d L hI k hnG (hin1 I d L hI k.val)) (outV2 m I d L hI k hnG (hin2 I d L hI k.val)) (outV3 m I d L hI k hnG (hin3 I d L hI k.val)) (outV4 m I d L hI k hnG (hin4 I d L hI k.val)) (outV5 m I d L hI k hnG (hin5 I d L hI k.val)))
      isplitr; · iexact Hmw
      isplitl [HfI0]; · iexact HfI0
      isplitl [HfI1]; · iexact HfI1
      isplitl [HfI2]; · iexact HfI2
      isplitl [HfO0]; · iexact HfO0
      isplitl [HfO1]; · iexact HfO1
      isplitl [HfO2]; · iexact HfO2
      isplitl [HfO3]; · iexact HfO3
      isplitl [HfO4]; · iexact HfO4
      isplitl [HfO5]; · iexact HfO5
      isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      iexact HO
    · iintro %a ⟨HfI0, ⟨Hs1, Hi1, Hq1⟩, ⟨Hs2, Hi2, Hq2⟩, ⟨%gb0, HfO0⟩, ⟨%gb1, HfO1⟩, ⟨%gb2, HfO2⟩, ⟨%gb3, HfO3⟩, ⟨%gb4, HfO4⟩, ⟨%gb5, HfO5⟩, Hg0, Hg1, Hg2, Hg3, Hg4, Hg5, Ht0, Ht1, Ht2, Ht3, Ht4, Ht5, Hold0, Hold1, Hold2, Hold3, Hold4, Hold5, ⟨%W'', %hW'', HO⟩⟩
      rw [show k.val + 1 = 33 from by omega, idxPart_33]
      rw [outPart_pos m I d L (show 33 ≠ 0 from by omega)]
      isplitr; · iexact Hmw
      isplitr; · ipureintro; omega
      isplitl [HfI0]; · iexact HfI0
      isplitl [Hs1 Hi1 Hq1 Hs2 Hi2 Hq2]
      · isplitl [Hs1 Hi1 Hq1]
        · iexists _; isplitl [Hs1]; · iexact Hs1
          isplitl [Hi1]; · iexact Hi1
          iexact Hq1
        · iexists _; isplitl [Hs2]; · iexact Hs2
          isplitl [Hi2]; · iexact Hi2
          iexact Hq2
      isplitl [HfO0 HfO1 HfO2 HfO3 HfO4 HfO5]
      · iexists k; isplitr; · ipureintro; omega
        isplitl [HfO0]; · iexists _; iexact HfO0
        isplitl [HfO1]; · iexists _; iexact HfO1
        isplitl [HfO2]; · iexists _; iexact HfO2
        isplitl [HfO3]; · iexists _; iexact HfO3
        isplitl [HfO4]; · iexists _; iexact HfO4
        iexists _; iexact HfO5
      isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Hdone Hold0 Hold1 Hold2 Hold3 Hold4 Hold5]
      · iapply (Entails.of_eq (congrArg (fun n : ℕ => ((outV).view.loc (V d (cV L) (jV L)) ↦[rowsSet (baseO L) (baseO L + 768 * n)]{fullShare} (outG m I d : Buf (Elt F) ((outV).view.loc (V d (cV L) (jV L)))) : sProp 𝕄)) (show kp.val + 1 = 33 - 1 from by omega)))
        iapply (done_put (F := F) d L kp (outG m I d : Buf (Elt F) ((outV).view.loc (V d (cV L) (jV L)))))
        isplitl [Hdone]
        · iapply (Entails.of_eq (congrArg (fun n : ℕ => ((outV).view.loc (V d (cV L) (jV L)) ↦[rowsSet (baseO L) (baseO L + 768 * n)]{fullShare} (outG m I d : Buf (Elt F) ((outV).view.loc (V d (cV L) (jV L)))) : sProp 𝕄)) (show k.val - 1 = kp.val from by omega)))
          iexact Hdone
        isplitl [Hold0]; · iexact Hold0
        isplitl [Hold1]; · iexact Hold1
        isplitl [Hold2]; · iexact Hold2
        isplitl [Hold3]; · iexact Hold3
        isplitl [Hold4]; · iexact Hold4
        iexact Hold5
      isplitl [Htodo]; · iexact Htodo
      iexists W''; isplitr
      · ipureintro; intro p hp
        rcases hW'' p hp with h | h
        · exact hW' p h
        · exact .inr h
      · iexact HO

  · -- a trip between
    rw [outPart_pos m I d L (show k.val ≠ 0 from by omega)]
    iintro ⟨#Hmw, %hle, HfI0, ⟨HfI1, HfI2⟩, ⟨%kp, %hkp, ⟨%fb0, HfO0⟩, ⟨%fb1, HfO1⟩, ⟨%fb2, HfO2⟩, ⟨%fb3, HfO3⟩, ⟨%fb4, HfO4⟩, ⟨%fb5, HfO5⟩⟩, Hg0, Hg1, Hg2, Hg3, Hg4, Hg5, Ht0, Ht1, Ht2, Ht3, Ht4, Ht5, Hdone, Htodo, %W', %hW', HO⟩
    ihave Hch := (todo_take (F := F) d L k m0).1 $$ Htodo
    icases Hch with ⟨Hc0, Hc1, Hc2, Hc3, Hc4, Hc5, Htodo⟩
    iapply (wp_wand_r frame _ Set.univ)
    isplitl [HfI0 HfI1 HfI2 HfO0 HfO1 HfO2 HfO3 HfO4 HfO5 Hg0 Hg1 Hg2 Hg3 Hg4 Hg5 Ht0 Ht1 Ht2 Ht3 Ht4 Ht5 Hc0 Hc1 Hc2 Hc3 Hc4 Hc5 HO]
    · iapply (trip_mid (F := F) d L O W' k v2 v3 (cond2_pos k (by omega)) (cond3_pos k (by omega)) (cond4_pos k (by omega)) (cond5_all k) (cond6_lt k (by omega)) (cond7_lt k (by omega)) qi qs (I d) (tabC m d) (ivC I d L k.val) (ivC I d L (k.val + 1)) (outG m I d) m0 (outCh0 L kp).view.set (outCh1 L kp).view.set (outCh2 L kp).view.set (outCh3 L kp).view.set (outCh4 L kp).view.set (outCh5 L kp).view.set
        fb0 fb1 fb2 fb3 fb4 fb5 hnG (hin0 I d L hI k.val) (hin1 I d L hI k.val) (hin2 I d L hI k.val) (hin3 I d L hI k.val) (hin4 I d L hI k.val) (hin5 I d L hI k.val)
        (fetchW0 I d L k (cond5_all k)) (fetchW1 I d L k (cond6_lt k (by omega))) (fetchW2 I d L k (cond7_lt k (by omega)))
        (outV0 m I d L hI k hnG (hin0 I d L hI k.val)) (outV1 m I d L hI k hnG (hin1 I d L hI k.val)) (outV2 m I d L hI k hnG (hin2 I d L hI k.val)) (outV3 m I d L hI k hnG (hin3 I d L hI k.val)) (outV4 m I d L hI k hnG (hin4 I d L hI k.val)) (outV5 m I d L hI k hnG (hin5 I d L hI k.val)))
      isplitr; · iexact Hmw
      isplitl [HfI0]; · iexact HfI0
      isplitl [HfI1]; · iexact HfI1
      isplitl [HfI2]; · iexact HfI2
      isplitl [HfO0]; · iexact HfO0
      isplitl [HfO1]; · iexact HfO1
      isplitl [HfO2]; · iexact HfO2
      isplitl [HfO3]; · iexact HfO3
      isplitl [HfO4]; · iexact HfO4
      isplitl [HfO5]; · iexact HfO5
      isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      iexact HO
    · iintro %a ⟨HfI0, HfI1, HfI2, ⟨%gb0, HfO0⟩, ⟨%gb1, HfO1⟩, ⟨%gb2, HfO2⟩, ⟨%gb3, HfO3⟩, ⟨%gb4, HfO4⟩, ⟨%gb5, HfO5⟩, Hg0, Hg1, Hg2, Hg3, Hg4, Hg5, Ht0, Ht1, Ht2, Ht3, Ht4, Ht5, Hold0, Hold1, Hold2, Hold3, Hold4, Hold5, ⟨%W'', %hW'', HO⟩⟩
      rw [idxPart_lt I d L qi (show k.val + 1 < 33 from by omega)]
      rw [outPart_pos m I d L (show (k.val + 1) ≠ 0 from by omega)]
      isplitr; · iexact Hmw
      isplitr; · ipureintro; omega
      isplitl [HfI0]; · iexact HfI0
      isplitl [HfI1 HfI2]
      · isplitl [HfI1]; · iexact HfI1
        iexact HfI2
      isplitl [HfO0 HfO1 HfO2 HfO3 HfO4 HfO5]
      · iexists k; isplitr; · ipureintro; omega
        isplitl [HfO0]; · iexists _; iexact HfO0
        isplitl [HfO1]; · iexists _; iexact HfO1
        isplitl [HfO2]; · iexists _; iexact HfO2
        isplitl [HfO3]; · iexists _; iexact HfO3
        isplitl [HfO4]; · iexists _; iexact HfO4
        iexists _; iexact HfO5
      isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Hdone Hold0 Hold1 Hold2 Hold3 Hold4 Hold5]
      · iapply (Entails.of_eq (congrArg (fun n : ℕ => ((outV).view.loc (V d (cV L) (jV L)) ↦[rowsSet (baseO L) (baseO L + 768 * n)]{fullShare} (outG m I d : Buf (Elt F) ((outV).view.loc (V d (cV L) (jV L)))) : sProp 𝕄)) (show kp.val + 1 = k.val + 1 - 1 from by omega)))
        iapply (done_put (F := F) d L kp (outG m I d : Buf (Elt F) ((outV).view.loc (V d (cV L) (jV L)))))
        isplitl [Hdone]
        · iapply (Entails.of_eq (congrArg (fun n : ℕ => ((outV).view.loc (V d (cV L) (jV L)) ↦[rowsSet (baseO L) (baseO L + 768 * n)]{fullShare} (outG m I d : Buf (Elt F) ((outV).view.loc (V d (cV L) (jV L)))) : sProp 𝕄)) (show k.val - 1 = kp.val from by omega)))
          iexact Hdone
        isplitl [Hold0]; · iexact Hold0
        isplitl [Hold1]; · iexact Hold1
        isplitl [Hold2]; · iexact Hold2
        isplitl [Hold3]; · iexact Hold3
        isplitl [Hold4]; · iexact Hold4
        iexact Hold5
      isplitl [Htodo]; · iexact Htodo
      iexists W''; isplitr
      · ipureintro; intro p hp
        rcases hW'' p hp with h | h
        · exact hW' p h
        · exact .inr h
      · iexact HO

end Tile
end Cert.Proof.KI
end
-- ==== Proof.KIBody.lean ====
/-
  A subcore's whole task. Handed its read share of the index array, its 25600 rows of the result and its scoped
  storage (subcore 0 also the table's share and the shared memory), it runs the prologue (the table into the shared
  memory on subcore 0, the first three fetches, the barrier, after which every subcore holds a read share of the
  shared table), then the ring's thirty-three trips by the ring's invariant, then the one unit left: its two rows
  of words are waited for, the 256 table rows they name gathered and copied out, and every copy still in flight
  waited for. The rows written join into the worker's part of the result at the lookup's values; the read share of
  the shared table, the scratch buffers and the sixteen semaphores go back as they came.
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.KernelIdeal
import proofs.«205516_g82884278878931_cont_9to1_m_1121_21_alg».proof.Proof.Gen.KernelIdeal.Skeleton
import proofs.«205516_g82884278878931_cont_9to1_m_1121_21_alg».proof.Proof.Spec
import proofs.«205516_g82884278878931_cont_9to1_m_1121_21_alg».proof.Proof.KIState
import proofs.«205516_g82884278878931_cont_9to1_m_1121_21_alg».proof.Proof.KIGo
import proofs.«205516_g82884278878931_cont_9to1_m_1121_21_alg».proof.Proof.KIScratch
import proofs.«205516_g82884278878931_cont_9to1_m_1121_21_alg».proof.Proof.LibOwnSplit
import proofs.«205516_g82884278878931_cont_9to1_m_1121_21_alg».proof.Proof.KIValueLemmas
import proofs.«205516_g82884278878931_cont_9to1_m_1121_21_alg».proof.Proof.KIRowsTake
import proofs.«205516_g82884278878931_cont_9to1_m_1121_21_alg».proof.Proof.KISepL
import proofs.«205516_g82884278878931_cont_9to1_m_1121_21_alg».proof.Proof.KIToks
import proofs.«205516_g82884278878931_cont_9to1_m_1121_21_alg».proof.Proof.KIPrologue
import proofs.«205516_g82884278878931_cont_9to1_m_1121_21_alg».proof.Proof.KILoop

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (tileNo shareTok shareDrop)

variable {F : FTy → Type}

local notation "𝕄" => MT nD τ sig (HIx 1) (Elt F) ℕ UU ℕ
local notation "tabV" => (Memref.whole Cert.KernelIdeal.main_arg3_scv : Memref Cert.KernelIdeal.sig Kind.scVector Space.hbm Cert.KernelIdeal.S1000x128 EltTy.f32)
local notation "idxV" => (Memref.whole Cert.KernelIdeal.main_v0_scv : Memref Cert.KernelIdeal.sig Kind.scVector Space.hbm Cert.KernelIdeal.S6400x128 EltTy.i32)
local notation "outV" => (Memref.whole Cert.KernelIdeal.main_v1_scv : Memref Cert.KernelIdeal.sig Kind.scVector Space.hbm Cert.KernelIdeal.S819200x128 EltTy.f32)
local notation "shV" => (Memref.whole Cert.KernelIdeal.cc0_scratch0 : Memref Cert.KernelIdeal.sig Kind.scVector Space.shared Cert.KernelIdeal.S1000x128 EltTy.f32)
local notation "ivV" => (Memref.whole Cert.KernelIdeal.cc0_scratch1 : Memref Cert.KernelIdeal.sig Kind.scVector Space.vmem Cert.KernelIdeal.S6x128 EltTy.i32)
local notation "bigV" => (Memref.whole Cert.KernelIdeal.cc0_scratch2 : Memref Cert.KernelIdeal.sig Kind.scVector Space.vmem Cert.KernelIdeal.S768x128 EltTy.f32)

variable (m : (ℓ : Loc nD τ sig) → Buf (Elt F) ℓ) (I : Dev nD → S6400x128.Idx → BitVec 32)
variable [FloatOps F]

section Tile
variable (d : Dev nD) (L : grid0.Coords)

theorem fetchI0_eq (qi : PosShare TreeShare) (n : ℕ) : fetchI0 (F := F) I d L qi n = Transfers.Flight countersEmb (V d (cV L) (jV L)) (SemLoc.dma cc0_scratch15.sem) (default : HIx 1) 8192
        iprop(((ivS0).view.loc (V d (cV L) (jV L)) ↦[(ivS0).view.set]{fullShare} (ivC I d L n : Buf (Elt F) ((ivS0).view.loc (V d (cV L) (jV L))))) ∗ ((idxV).view.loc (V d (cV L) (jV L)) ↦{shareTok qi 3 0} (I d : Buf (Elt F) ((idxV).view.loc (V d (cV L) (jV L)))))) := rfl
theorem fetchI1_eq (qi : PosShare TreeShare) (n : ℕ) : fetchI1 (F := F) I d L qi n = Transfers.Flight countersEmb (V d (cV L) (jV L)) (SemLoc.dma cc0_scratch16.sem) (default : HIx 1) 8192
        iprop(((ivS1).view.loc (V d (cV L) (jV L)) ↦[(ivS1).view.set]{fullShare} (ivC I d L n : Buf (Elt F) ((ivS1).view.loc (V d (cV L) (jV L))))) ∗ ((idxV).view.loc (V d (cV L) (jV L)) ↦{shareTok qi 3 1} (I d : Buf (Elt F) ((idxV).view.loc (V d (cV L) (jV L)))))) := rfl
theorem fetchI2_eq (qi : PosShare TreeShare) (n : ℕ) : fetchI2 (F := F) I d L qi n = Transfers.Flight countersEmb (V d (cV L) (jV L)) (SemLoc.dma cc0_scratch17.sem) (default : HIx 1) 8192
        iprop(((ivS2).view.loc (V d (cV L) (jV L)) ↦[(ivS2).view.set]{fullShare} (ivC I d L n : Buf (Elt F) ((ivS2).view.loc (V d (cV L) (jV L))))) ∗ ((idxV).view.loc (V d (cV L) (jV L)) ↦{shareTok qi 3 2} (I d : Buf (Elt F) ((idxV).view.loc (V d (cV L) (jV L)))))) := rfl

omit [FloatOps F] in
/-- Of what subcore 0 keeps beside the barrier, the second part. -/
theorem sub0_keep (c : Prop) [Decidable c] (A B : sProp 𝕄) : (if c then iprop(A ∗ B) else iprop(emp) : sProp 𝕄) ⊢ (if c then B else iprop(emp)) := by
  split
  · exact sep_elim_right
  · exact BI.Entails.refl _

end Tile

set_option maxRecDepth 65536 in
set_option maxHeartbeats 40000000 in
theorem tile_body (hI : ∀ d x, 0 ≤ (I d x).toInt ∧ (I d x).toInt ≤ 999) : BodyStmt (F := F) m I := by
  intro hF d L O W hO hOlev
  -- the program, once, as its parts in sequence
  rw [cc0_run_eq_skeleton]; unfold cc0_run_skel
  rw [k0_part9_eq_skeleton]; unfold k0_part9_skel
  rw [wp_bind, wp_bind]
  unfold goL tdL
  have hbl : ([(Proc.scVector (cV L) (jV L)).devRef cc0_scratch1, (Proc.scVector (cV L) (jV L)).devRef cc0_scratch2] : List (DevRef τ sig)).Nodup := by
    refine List.nodup_cons.mpr ⟨?_, List.nodup_singleton _⟩
    intro h; rw [List.mem_singleton] at h
    have := congrArg (fun b : DevRef τ sig => b.idx.val) h
    exact absurd this (show ¬ ((0 : ℕ) = 1) from by decide)
  rw [(K (F := F)).scopedBufs_V hF d (cV L) (jV L), SparseCore.Cfg.scopedSems0_V (Val := Elt F) d (cV L) (jV L),
    Cert.Lib.OwnSplit.ownSems0_split (Val := Elt F) (V d (cV L) (jV L)) [SemLoc.dma cc0_scratch3.sem, SemLoc.dma cc0_scratch4.sem, SemLoc.dma cc0_scratch5.sem, SemLoc.dma cc0_scratch6.sem, SemLoc.dma cc0_scratch7.sem, SemLoc.dma cc0_scratch8.sem, SemLoc.dma cc0_scratch9.sem, SemLoc.dma cc0_scratch10.sem, SemLoc.dma cc0_scratch11.sem, SemLoc.dma cc0_scratch12.sem, SemLoc.dma cc0_scratch13.sem, SemLoc.dma cc0_scratch14.sem, SemLoc.dma cc0_scratch15.sem, SemLoc.dma cc0_scratch16.sem, SemLoc.dma cc0_scratch17.sem, SemLoc.dma cc0_scoped0.sem] (by decide) (show ∀ s ∈ [SemLoc.dma cc0_scratch3.sem, SemLoc.dma cc0_scratch4.sem, SemLoc.dma cc0_scratch5.sem, SemLoc.dma cc0_scratch6.sem, SemLoc.dma cc0_scratch7.sem, SemLoc.dma cc0_scratch8.sem, SemLoc.dma cc0_scratch9.sem, SemLoc.dma cc0_scratch10.sem, SemLoc.dma cc0_scratch11.sem, SemLoc.dma cc0_scratch12.sem, SemLoc.dma cc0_scratch13.sem, SemLoc.dma cc0_scratch14.sem, SemLoc.dma cc0_scratch15.sem, SemLoc.dma cc0_scratch16.sem, SemLoc.dma cc0_scratch17.sem, SemLoc.dma cc0_scoped0.sem], SemLoc.isScoped (sig := sig) Kind.scVector s = true from by decide),
    Cert.Lib.OwnSplit.ownBufs_split (Val := Elt F) (V d (cV L) (jV L)) [(Proc.scVector (cV L) (jV L)).devRef cc0_scratch1, (Proc.scVector (cV L) (jV L)).devRef cc0_scratch2] hbl (fun b hb => by rcases List.mem_cons.mp hb with h | h; exacts [h ▸ rfl, (List.mem_singleton.mp h) ▸ rfl]),
    part_rows (F := F) d L (cL L) (iL L) rfl rfl, part_rows (F := F) d L (cL L) (iL L) rfl rfl]
  rw [bigSepL2, bigSepL16]
  iintro ⟨#Hlv, Hkit, ⟨Hidx, Hout, Hsub0⟩, ⟨⟨⟨%fiv, Hiv⟩, ⟨%fbig, Hbig⟩⟩, Hbrest⟩, ⟨⟨Hc3, Hc4, Hc5, Hc6, Hc7, Hc8, Hc9, Hc10, Hc11, Hc12, Hc13, Hc14, Hc15, Hc16, Hc17, Hcs0⟩, Hsrest⟩, HO⟩
  -- what was handed over, as the subcore's memrefs address it and in the pieces the program moves
  ihave Hidx3 := (toks3 (F := F) (idxLoc d) (shareTok (shareTok fullShare 2 (cL L)) 16 (iL L)) _).1 $$ Hidx
  icases Hidx3 with ⟨Hidrop, Hi0, Hi1, Hi2⟩
  ihave Hiv3 := (ivV_split (F := F) d (cV L) (jV L) fiv).1 $$ Hiv
  icases Hiv3 with ⟨Hs0, Hs1, Hs2⟩
  ihave Hbig6 := (bigV_split (F := F) d (cV L) (jV L) fbig).1 $$ Hbig
  icases Hbig6 with ⟨Hb0, Hb1, Hb2, Hb3, Hb4, Hb5⟩
  -- the prologue
  iapply (wp_wand_r frame _ Set.univ)
  isplitl [Hkit Hi0 Hi1 Hi2 Hs0 Hs1 Hs2 Hc15 Hc16 Hc17 Hcs0 Hsub0 HO]
  · iapply (prologue (F := F) m I d L hF O W hO hOlev (shareTok (shareTok fullShare 2 (cL L)) 16 (iL L)) (shareTok fullShare 2 (cL L)) fiv fiv fiv)
    isplitr; · iexact Hlv
    isplitl [Hkit]; · iexact Hkit
    isplitl [Hi0]; · iexact Hi0
    isplitl [Hi1]; · iexact Hi1
    isplitl [Hi2]; · iexact Hi2
    isplitl [Hs0]; · iexact Hs0
    isplitl [Hs1]; · iexact Hs1
    isplitl [Hs2]; · iexact Hs2
    isplitl [Hc15]; · iexact Hc15
    isplitl [Hc16]; · iexact Hc16
    isplitl [Hc17]; · iexact Hc17
    isplitl [Hcs0]; · iexact Hcs0
    isplitl [Hsub0]; · iexact Hsub0
    iexact HO
  iintro %r Hpost
  unfold afterPrologue
  icases Hpost with ⟨%hr, HfI0, HfI1, HfI2, Hcs0, Hsh, Hsub0, %W6, %hW6, HO⟩
  obtain ⟨v2, v3, c0⟩ := r
  dsimp only at hr
  subst hr
  ihave Hsh6 := (toks6 (F := F) _ (shShare (jV L)) _).1 $$ Hsh
  icases Hsh6 with ⟨Hshdrop, Ht0, Ht1, Ht2, Ht3, Ht4, Ht5⟩
  have hMW : (levAts (K (F := F)).L (K (F := F)).lev : sProp 𝕄) ⊢ Transfers.MayWaits (V d (cV L) (jV L)) (default : HIx 1) O :=
    (K (F := F)).mayWaits_none (thr := (V d (cV L) (jV L))) hO
  ihave Hmw := hMW $$ Hlv
  sl_exec
  sl_for (inv (F := F) m I d L O W6 (shareTok (shareTok fullShare 2 (cL L)) 16 (iL L)) (shShare (jV L)) (m (outLoc d) : Buf (Elt F) ((outV).view.loc (V d (cV L) (jV L))))) $$ [Hmw HfI0 HfI1 HfI2 Hb0 Hb1 Hb2 Hb3 Hb4 Hb5 Hc9 Hc10 Hc11 Hc12 Hc13 Hc14 Hc3 Hc4 Hc5 Hc6 Hc7 Hc8 Ht0 Ht1 Ht2 Ht3 Ht4 Ht5 Hout HO]
  case region =>
    intro k acc
    exact loop_step (F := F) m I d L (hI d) O W6 (shareTok (shareTok fullShare 2 (cL L)) 16 (iL L)) (shShare (jV L)) (m (outLoc d) : Buf (Elt F) ((outV).view.loc (V d (cV L) (jV L)))) v2 v3 k acc
  · -- the ring's state before the first trip
    unfold inv
    rw [idxPart_lt I d L (shareTok (shareTok fullShare 2 (cL L)) 16 (iL L)) (show (0 : ℕ) < 33 from by decide), outPart_zero]
    isplitr; · iexact Hmw
    isplitr; · ipureintro; decide
    isplitl [HfI0]; · iapply (Entails.of_eq (fetchI0_eq (F := F) I d L _ 0)); iexact HfI0
    isplitl [HfI1 HfI2]
    · isplitl [HfI1]; · iapply (Entails.of_eq (fetchI1_eq (F := F) I d L _ 0)); iexact HfI1
      iapply (Entails.of_eq (fetchI2_eq (F := F) I d L _ 0)); iexact HfI2
    isplitl [Hb0 Hb1 Hb2 Hb3 Hb4 Hb5 Hc9 Hc10 Hc11 Hc12 Hc13 Hc14]
    · isplitl [Hb0 Hc9]
      · isplitl [Hb0]; · iexists _; iexact Hb0
        iexact Hc9
      isplitl [Hb1 Hc10]
      · isplitl [Hb1]; · iexists _; iexact Hb1
        iexact Hc10
      isplitl [Hb2 Hc11]
      · isplitl [Hb2]; · iexists _; iexact Hb2
        iexact Hc11
      isplitl [Hb3 Hc12]
      · isplitl [Hb3]; · iexists _; iexact Hb3
        iexact Hc12
      isplitl [Hb4 Hc13]
      · isplitl [Hb4]; · iexists _; iexact Hb4
        iexact Hc13
      isplitl [Hb5]; · iexists _; iexact Hb5
      iexact Hc14
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitr
    · iapply (Entails.of_eq (rows_empty (F := F) d (cV L) (jV L) fullShare _ (baseO L)).symm); iempintro
    isplitl [Hout]; · iexact Hout
    iexists W6; isplitr
    · ipureintro; exact fun p hp => .inl hp
    · iexact HO
  iintro %aL HI
  rw [show inv (F := F) m I d L O W6 (shareTok (shareTok fullShare 2 (cL L)) 16 (iL L)) (shShare (jV L)) (m (outLoc d) : Buf (Elt F) ((outV).view.loc (V d (cV L) (jV L)))) k0_t1_loop.trips = inv (F := F) m I d L O W6 (shareTok (shareTok fullShare 2 (cL L)) 16 (iL L)) (shShare (jV L)) (m (outLoc d) : Buf (Elt F) ((outV).view.loc (V d (cV L) (jV L)))) 33 from by rw [trips_eq]]
  unfold inv
  rw [idxPart_33, outPart_pos m I d L (show (33 : ℕ) ≠ 0 from by decide)]
  icases HI with ⟨-, -, HfI0, ⟨⟨%g1, Hs1, Hi1, Hq1⟩, ⟨%g2, Hs2, Hi2, Hq2⟩⟩, ⟨%kp, %hkp, ⟨%fb0, HfO0⟩, ⟨%fb1, HfO1⟩, ⟨%fb2, HfO2⟩, ⟨%fb3, HfO3⟩, ⟨%fb4, HfO4⟩, ⟨%fb5, HfO5⟩⟩, Hg0, Hg1, Hg2, Hg3, Hg4, Hg5, Ht0, Ht1, Ht2, Ht3, Ht4, Ht5, Hdone, Htodo, %W7, %hW7, HO⟩
  ihave Hlast := (last_take (F := F) d L _).1 $$ Htodo
  icases Hlast with ⟨He0, He1⟩
  have hinE0 := hin0 (F := F) I d L (hI d) 33
  have hinE1 := hin1 (F := F) I d L (hI d) 33
  sl_exec
  ihave Hr := (slot0_rows (F := F) d (cV L) (jV L) _).1 $$ HfI0_dst
  icases Hr with ⟨Hl0, Hl1⟩
  sl_exec
  sl_step
  icases Hidrop with -
  icases HfI0_src with -
  icases Hi1 with -
  icases Hi2 with -
  -- the worker's part of the result, the shared table's share, the scoped storage
  isplitl [Hdone HfO0_dst HfO1_dst HfO2_dst HfO3_dst HfO4_dst HfO5_dst He0 He1 Ht0 Ht1 Ht2 Ht3 Ht4 Ht5 Hshdrop Hsub0]
  · isplitl [Hdone HfO0_dst HfO1_dst HfO2_dst HfO3_dst HfO4_dst HfO5_dst He0 He1]
    · iapply (rows_all (F := F) d L _)
      isplitl [Hdone HfO0_dst HfO1_dst HfO2_dst HfO3_dst HfO4_dst HfO5_dst]
      · iapply (Entails.of_eq (congrArg (fun n : ℕ => ((outV).view.loc (V d (cV L) (jV L)) ↦[rowsSet (baseO L) (baseO L + 768 * n)]{fullShare} (outG m I d : Buf (Elt F) ((outV).view.loc (V d (cV L) (jV L)))) : sProp 𝕄)) (show kp.val + 1 = 33 from hkp)))
        iapply (done_put (F := F) d L kp _)
        isplitl [Hdone]
        · iapply (Entails.of_eq (congrArg (fun n : ℕ => ((outV).view.loc (V d (cV L) (jV L)) ↦[rowsSet (baseO L) (baseO L + 768 * n)]{fullShare} (outG m I d : Buf (Elt F) ((outV).view.loc (V d (cV L) (jV L)))) : sProp 𝕄)) (show 33 - 1 = kp.val from by omega)))
          iexact Hdone
        isplitl [HfO0_dst]; · iexact HfO0_dst
        isplitl [HfO1_dst]; · iexact HfO1_dst
        isplitl [HfO2_dst]; · iexact HfO2_dst
        isplitl [HfO3_dst]; · iexact HfO3_dst
        isplitl [HfO4_dst]; · iexact HfO4_dst
        iexact HfO5_dst
      isplitl [He0]
      · iapply (Entails.of_eq (pointsTo_writes_whole_congr (F := F) (V d (cV L) (jV L)) (outE0 L).view fullShare _ (outG m I d : Buf (Elt F) ((outE0 L).view.loc (V d (cV L) (jV L)))) _
          (fun y => (outVE0 (F := F) m I d L (hI d) hnG hinE0 y).trans (congrFun (View.read_writes_whole _ _ _).symm y))))
        iexact He0
      · iapply (Entails.of_eq (pointsTo_writes_whole_congr (F := F) (V d (cV L) (jV L)) (outE1 L).view fullShare _ (outG m I d : Buf (Elt F) ((outE1 L).view.loc (V d (cV L) (jV L)))) _
          (fun y => (outVE1 (F := F) m I d L (hI d) hnG hinE1 y).trans (congrFun (View.read_writes_whole _ _ _).symm y))))
        iexact He1
    isplitl [Ht0 Ht1 Ht2 Ht3 Ht4 Ht5 Hshdrop]
    · iapply (toks6 (F := F) _ (shShare (jV L)) _).2
      isplitl [Hshdrop]; · iexact Hshdrop
      isplitl [Ht0]; · iexact Ht0
      isplitl [Ht1]; · iexact Ht1
      isplitl [Ht2]; · iexact Ht2
      isplitl [Ht3]; · iexact Ht3
      isplitl [Ht4]; · iexact Ht4
      iexact Ht5
    · iapply (sub0_keep (F := F) ((L 1).val = 0) _ _)
      iexact Hsub0
  isplitl [Hl0 Hl1 Hs1 Hs2 HfO0_src HfO1_src HfO2_src HfO3_src HfO4_src HfO5_src Hbrest]
  · isplitl [Hl0 Hl1 Hs1 Hs2 HfO0_src HfO1_src HfO2_src HfO3_src HfO4_src HfO5_src]
    · isplitl [Hl0 Hl1 Hs1 Hs2]
      · iapply (ivV_join (F := F) d (cV L) (jV L) _ _ _)
        isplitl [Hl0 Hl1]
        · iapply (slot0_rows (F := F) d (cV L) (jV L) _).2
          isplitl [Hl0] <;> iassumption
        isplitl [Hs1]; · iexact Hs1
        iexact Hs2
      · iapply (bigV_join (F := F) d (cV L) (jV L) _ _ _ _ _ _)
        isplitl [HfO0_src]; · iexact HfO0_src
        isplitl [HfO1_src]; · iexact HfO1_src
        isplitl [HfO2_src]; · iexact HfO2_src
        isplitl [HfO3_src]; · iexact HfO3_src
        isplitl [HfO4_src]; · iexact HfO4_src
        iexact HfO5_src
    iexact Hbrest
  isplitl [Hg0 Hg1 Hg2 Hg3 Hg4 Hg5 HfO0 HfO1 HfO2 HfO3 HfO4 HfO5 HfI0 Hq1 Hq2 Hcs0 Hsrest]
  · isplitl [Hg0 Hg1 Hg2 Hg3 Hg4 Hg5 HfO0 HfO1 HfO2 HfO3 HfO4 HfO5 HfI0 Hq1 Hq2 Hcs0]
    · isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [HfO0]; · iexact HfO0
      isplitl [HfO1]; · iexact HfO1
      isplitl [HfO2]; · iexact HfO2
      isplitl [HfO3]; · iexact HfO3
      isplitl [HfO4]; · iexact HfO4
      isplitl [HfO5]; · iexact HfO5
      isplitl [HfI0]; · iexact HfI0
      isplitl [Hq1]; · iexact Hq1
      isplitl [Hq2]; · iexact Hq2
      iexact Hcs0
    iexact Hsrest
  iexists _; isplitr
  swap; · iexact HO
  ipureintro; intro p hp
  repeat (rcases Finset.mem_insert.mp hp with hp | hp; · exact .inr (.inl (hp ▸ rfl)))
  rcases hW7 p hp with h | h
  · exact hW6 p h
  · exact .inr (.inl h)

end Cert.Proof.KI
end
-- ==== Proof.KITileObl.lean ====
/-
  The obligation of a subcore's task, from the statement of the task's body. The launch theorem asks, of the task
  of subcore i of SparseCore c, that from its barrier kit, what it is handed, its scoped storage and what it owes,
  the program the task is defined to run reaches what it hands back. That program is the printed kernel at the
  grid coordinates (c, i), lifted; what the task is handed and hands back, spelt at the launch's numbering of
  cores and subcores, is what the body's statement names at those coordinates.
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.KernelIdeal
import proofs.«205516_g82884278878931_cont_9to1_m_1121_21_alg».proof.Proof.Gen.KernelIdeal.Skeleton
import proofs.«205516_g82884278878931_cont_9to1_m_1121_21_alg».proof.Proof.Spec
import proofs.«205516_g82884278878931_cont_9to1_m_1121_21_alg».proof.Proof.KIGo

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (tileNo shareTok shareDrop)

variable {F : FTy → Type}

local notation "𝕄" => MT nD τ sig (HIx 1) (Elt F) ℕ UU ℕ
local notation "tabV" => (Memref.whole Cert.KernelIdeal.main_arg3_scv : Memref Cert.KernelIdeal.sig Kind.scVector Space.hbm Cert.KernelIdeal.S1000x128 EltTy.f32)
local notation "idxV" => (Memref.whole Cert.KernelIdeal.main_v0_scv : Memref Cert.KernelIdeal.sig Kind.scVector Space.hbm Cert.KernelIdeal.S6400x128 EltTy.i32)
local notation "outV" => (Memref.whole Cert.KernelIdeal.main_v1_scv : Memref Cert.KernelIdeal.sig Kind.scVector Space.hbm Cert.KernelIdeal.S819200x128 EltTy.f32)
local notation "shV" => (Memref.whole Cert.KernelIdeal.cc0_scratch0 : Memref Cert.KernelIdeal.sig Kind.scVector Space.shared Cert.KernelIdeal.S1000x128 EltTy.f32)
local notation "ivV" => (Memref.whole Cert.KernelIdeal.cc0_scratch1 : Memref Cert.KernelIdeal.sig Kind.scVector Space.vmem Cert.KernelIdeal.S6x128 EltTy.i32)
local notation "bigV" => (Memref.whole Cert.KernelIdeal.cc0_scratch2 : Memref Cert.KernelIdeal.sig Kind.scVector Space.vmem Cert.KernelIdeal.S768x128 EltTy.f32)

variable [FloatOps F]

/-- The grid coordinates of subcore s of SparseCore c. -/
def coordsV (c : Fin (grid0.bound 0)) (s : Fin (grid0.bound 1)) : grid0.Coords :=
  fun | 0 => c | 1 => s | ⟨_ + 2, h⟩ => absurd h (Nat.not_lt.2 (Nat.le_add_left _ _))

/-- What a vector subcore is defined to run for the kernel: on a subcore of the grid, the printed kernel at its
    coordinates over the whole arrays and scratch buffers. -/
theorem defs₀_vector (c : Fin τ.nSC) (s : Fin τ.nSub) :
    defs₀ (F := F) (.scVector c s) 0 ()
      = SparseCore.onTile hcore0 hsub0 (fun c s => cc0_run (coordsV c s) tabV (Memref.isWhole_whole _) idxV (Memref.isWhole_whole _) outV (Memref.isWhole_whole _) shV (Memref.isWhole_whole _) ivV (Memref.isWhole_whole _) bigV (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scoped0) ⟨⟩ c s := rfl

set_option maxRecDepth 16384 in
/-- The task's obligation follows from the body's statement at the task's coordinates. -/
theorem tileObl_of_body (m : (ℓ : Loc nD τ sig) → Buf (Elt F) ℓ) (I : Dev nD → S6400x128.Idx → BitVec 32)
    (hF : (K (F := F)).Facts) (hbody : BodyStmt (F := F) m I) :
    (K (F := F)).TileObl (D (F := F)) 𝒱 (P m I) v₀ 0 := by
  intro d c i O W hO hOlev _
  have hc : ((K (F := F)).core 0 c).val < 2 := c.isLt
  have hci : ((K (F := F)).core 0 c).val < grid0.bound 0 ∧ ((K (F := F)).sub 0 i).val < grid0.bound 1 := ⟨c.isLt, i.isLt⟩
  rw [show (P m I).ox 0 (V d ((K (F := F)).core 0 c) ((K (F := F)).sub 0 i)) = oxV d ((K (F := F)).core 0 c) from if_pos hc,
    show (P m I).x 0 (V d ((K (F := F)).core 0 c) ((K (F := F)).sub 0 i)) = bkit m d ((K (F := F)).core 0 c) ((K (F := F)).sub 0 i) from if_pos hc]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact hbody hF d (coordsV ⟨_, hci.1⟩ ⟨_, hci.2⟩) O W hO hOlev

end Cert.Proof.KI

end
-- ==== Proof.KITile.lean ====
/-
  The subcores' task, as the launch theorem asks for it. The body of the kernel, proved once at a symbolic subcore
  for any contents of the index array whose words name rows of the table, is the task's obligation at every
  subcore of every SparseCore: the launch theorem's wrapper around the body adds nothing to prove.
-/
import proofs.«205516_g82884278878931_cont_9to1_m_1121_21_alg».proof.Proof.KIBody
import proofs.«205516_g82884278878931_cont_9to1_m_1121_21_alg».proof.Proof.KITileObl

noncomputable section

namespace Cert.Proof.KI

open Cert.KernelIdeal Cert.KernelIdeal.Gen

open Idealize.ShloMosaic

variable {F : FTy → Type}

/-- The task of the kernel's one call, at every subcore, for any index contents in the table's range. -/
theorem tileObl [FloatOps F] (m : (ℓ : Loc nD τ sig) → Buf (Elt F) ℓ) (I : Dev nD → S6400x128.Idx → BitVec 32)
    (hI : ∀ d x, 0 ≤ (I d x).toInt ∧ (I d x).toInt ≤ 999) :
    (K (F := F)).TileObl (D (F := F)) 𝒱 (P m I) v₀ 0 :=
  tileObl_of_body m I facts (tile_body m I hI)

end Cert.Proof.KI

end
-- ==== Proof.KBPieces.lean ====
/-
  The pieces of a subcore's scratch buffers and of the result, as the program addresses them: the index
  scratch's three two-row slots and six rows (each row a list of 128 index words), the row buffer's six pieces
  of 128 rows, the six 128-row windows of the result that one trip of the ring writes. A slot is its two rows.
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.Kernel
import proofs.«205516_g82884278878931_cont_9to1_m_1121_21_alg».proof.Proof.Gen.Kernel.Skeleton
import proofs.«205516_g82884278878931_cont_9to1_m_1121_21_alg».proof.Proof.Spec
import proofs.«205516_g82884278878931_cont_9to1_m_1121_21_alg».proof.Proof.KBSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (tileNo shareTok shareDrop)

variable {F : FTy → Type}

local notation "𝕄" => MT nD τ sig (HIx 1) (Elt F) ℕ UU ℕ
local notation "tabV" => (Memref.whole Cert.Kernel.main_arg3_scv : Memref Cert.Kernel.sig Kind.scVector Space.hbm Cert.Kernel.S1000x128 EltTy.f32)
local notation "idxV" => (Memref.whole Cert.Kernel.main_v0_scv : Memref Cert.Kernel.sig Kind.scVector Space.hbm Cert.Kernel.S6400x128 EltTy.i32)
local notation "outV" => (Memref.whole Cert.Kernel.main_v1_scv : Memref Cert.Kernel.sig Kind.scVector Space.hbm Cert.Kernel.S819200x128 EltTy.f32)
local notation "shV" => (Memref.whole Cert.Kernel.cc0_scratch0 : Memref Cert.Kernel.sig Kind.scVector Space.shared Cert.Kernel.S1000x128 EltTy.f32)
local notation "ivV" => (Memref.whole Cert.Kernel.cc0_scratch1 : Memref Cert.Kernel.sig Kind.scVector Space.vmem Cert.Kernel.S6x128 EltTy.i32)
local notation "bigV" => (Memref.whole Cert.Kernel.cc0_scratch2 : Memref Cert.Kernel.sig Kind.scVector Space.vmem Cert.Kernel.S768x128 EltTy.f32)

variable [FloatOps F]

/-! ## The scratch buffers' pieces, as the program addresses them -/

abbrev cV (L : grid0.Coords) : Fin τ.nSC := (L 0).castLE hcore0
abbrev jV (L : grid0.Coords) : Fin τ.nSub := (L 1).castLE hsub0

abbrev ivS0 : Memref sig .scVector .vmem S2x128 .i32 := (ivV).slice (Rect.unit (s := S6x128) ![0, 0] S2x128.size inb_S6x128_S2x128_0_0) (fun _ => rfl)
abbrev ivS1 : Memref sig .scVector .vmem S2x128 .i32 := (ivV).slice (Rect.unit (s := S6x128) ![2, 0] S2x128.size inb_S6x128_S2x128_2_0) (fun _ => rfl)
abbrev ivS2 : Memref sig .scVector .vmem S2x128 .i32 := (ivV).slice (Rect.unit (s := S6x128) ![4, 0] S2x128.size inb_S6x128_S2x128_4_0) (fun _ => rfl)
abbrev bigP0 : Memref sig .scVector .vmem S128x128 .f32 := (bigV).slice (Rect.unit (s := S768x128) ![0, 0] S128x128.size inb_S768x128_S128x128_0_0) (fun _ => rfl)
abbrev bigP1 : Memref sig .scVector .vmem S128x128 .f32 := (bigV).slice (Rect.unit (s := S768x128) ![128, 0] S128x128.size inb_S768x128_S128x128_128_0) (fun _ => rfl)
abbrev bigP2 : Memref sig .scVector .vmem S128x128 .f32 := (bigV).slice (Rect.unit (s := S768x128) ![256, 0] S128x128.size inb_S768x128_S128x128_256_0) (fun _ => rfl)
abbrev bigP3 : Memref sig .scVector .vmem S128x128 .f32 := (bigV).slice (Rect.unit (s := S768x128) ![384, 0] S128x128.size inb_S768x128_S128x128_384_0) (fun _ => rfl)
abbrev bigP4 : Memref sig .scVector .vmem S128x128 .f32 := (bigV).slice (Rect.unit (s := S768x128) ![512, 0] S128x128.size inb_S768x128_S128x128_512_0) (fun _ => rfl)
abbrev bigP5 : Memref sig .scVector .vmem S128x128 .f32 := (bigV).slice (Rect.unit (s := S768x128) ![640, 0] S128x128.size inb_S768x128_S128x128_640_0) (fun _ => rfl)

abbrev outCh0 (L : grid0.Coords) (k : Fin k0_t1_loop.trips) : Memref sig .scVector .hbm S128x128 .f32 := (outV).slice (Rect.unit (s := S819200x128) (k0_off5 L k 0#32 0#32) S128x128.size (k0_off5_inb L k 0 0)) (fun _ => rfl)
abbrev outCh1 (L : grid0.Coords) (k : Fin k0_t1_loop.trips) : Memref sig .scVector .hbm S128x128 .f32 := (outV).slice (Rect.unit (s := S819200x128) (k0_off5 L k 0#32 128#32) S128x128.size (k0_off5_inb L k 0 1)) (fun _ => rfl)
abbrev outCh2 (L : grid0.Coords) (k : Fin k0_t1_loop.trips) : Memref sig .scVector .hbm S128x128 .f32 := (outV).slice (Rect.unit (s := S819200x128) (k0_off5 L k 1#32 0#32) S128x128.size (k0_off5_inb L k 1 0)) (fun _ => rfl)
abbrev outCh3 (L : grid0.Coords) (k : Fin k0_t1_loop.trips) : Memref sig .scVector .hbm S128x128 .f32 := (outV).slice (Rect.unit (s := S819200x128) (k0_off5 L k 1#32 128#32) S128x128.size (k0_off5_inb L k 1 1)) (fun _ => rfl)
abbrev outCh4 (L : grid0.Coords) (k : Fin k0_t1_loop.trips) : Memref sig .scVector .hbm S128x128 .f32 := (outV).slice (Rect.unit (s := S819200x128) (k0_off5 L k 2#32 0#32) S128x128.size (k0_off5_inb L k 2 0)) (fun _ => rfl)
abbrev outCh5 (L : grid0.Coords) (k : Fin k0_t1_loop.trips) : Memref sig .scVector .hbm S128x128 .f32 := (outV).slice (Rect.unit (s := S819200x128) (k0_off5 L k 2#32 128#32) S128x128.size (k0_off5_inb L k 2 1)) (fun _ => rfl)
abbrev ivL0 : Memref sig .scVector .vmem S128 .i32 := ((ivV).slice (Rect.unit (s := S6x128) ![0, 0] S1x128.size inb_S6x128_S1x128_0_0) (fun _ => rfl)).squeeze S128 squeezes_S1x128_S128
abbrev ivL1 : Memref sig .scVector .vmem S128 .i32 := ((ivV).slice (Rect.unit (s := S6x128) ![1, 0] S1x128.size inb_S6x128_S1x128_1_0) (fun _ => rfl)).squeeze S128 squeezes_S1x128_S128
abbrev ivL2 : Memref sig .scVector .vmem S128 .i32 := ((ivV).slice (Rect.unit (s := S6x128) ![2, 0] S1x128.size inb_S6x128_S1x128_2_0) (fun _ => rfl)).squeeze S128 squeezes_S1x128_S128
abbrev ivL3 : Memref sig .scVector .vmem S128 .i32 := ((ivV).slice (Rect.unit (s := S6x128) ![3, 0] S1x128.size inb_S6x128_S1x128_3_0) (fun _ => rfl)).squeeze S128 squeezes_S1x128_S128
abbrev ivL4 : Memref sig .scVector .vmem S128 .i32 := ((ivV).slice (Rect.unit (s := S6x128) ![4, 0] S1x128.size inb_S6x128_S1x128_4_0) (fun _ => rfl)).squeeze S128 squeezes_S1x128_S128
abbrev ivL5 : Memref sig .scVector .vmem S128 .i32 := ((ivV).slice (Rect.unit (s := S6x128) ![5, 0] S1x128.size inb_S6x128_S1x128_5_0) (fun _ => rfl)).squeeze S128 squeezes_S1x128_S128

omit [FloatOps F] in
theorem ivL0_set : (ivL0).view.set = (Rect.unit (s := S6x128) ![0, 0] S1x128.size inb_S6x128_S1x128_0_0).set := by
  rw [Memref.set_view_squeeze]
  show ((View.whole (cc0_scratch1 : Ref sig .scVector)).slice (Rect.unit (s := S6x128) ![0, 0] S1x128.size inb_S6x128_S1x128_0_0)).set = _
  rw [View.set_slice]; exact Finset.map_refl

omit [FloatOps F] in
theorem ivL1_set : (ivL1).view.set = (Rect.unit (s := S6x128) ![1, 0] S1x128.size inb_S6x128_S1x128_1_0).set := by
  rw [Memref.set_view_squeeze]
  show ((View.whole (cc0_scratch1 : Ref sig .scVector)).slice (Rect.unit (s := S6x128) ![1, 0] S1x128.size inb_S6x128_S1x128_1_0)).set = _
  rw [View.set_slice]; exact Finset.map_refl

omit [FloatOps F] in
theorem ivL2_set : (ivL2).view.set = (Rect.unit (s := S6x128) ![2, 0] S1x128.size inb_S6x128_S1x128_2_0).set := by
  rw [Memref.set_view_squeeze]
  show ((View.whole (cc0_scratch1 : Ref sig .scVector)).slice (Rect.unit (s := S6x128) ![2, 0] S1x128.size inb_S6x128_S1x128_2_0)).set = _
  rw [View.set_slice]; exact Finset.map_refl

omit [FloatOps F] in
theorem ivL3_set : (ivL3).view.set = (Rect.unit (s := S6x128) ![3, 0] S1x128.size inb_S6x128_S1x128_3_0).set := by
  rw [Memref.set_view_squeeze]
  show ((View.whole (cc0_scratch1 : Ref sig .scVector)).slice (Rect.unit (s := S6x128) ![3, 0] S1x128.size inb_S6x128_S1x128_3_0)).set = _
  rw [View.set_slice]; exact Finset.map_refl

omit [FloatOps F] in
theorem ivL4_set : (ivL4).view.set = (Rect.unit (s := S6x128) ![4, 0] S1x128.size inb_S6x128_S1x128_4_0).set := by
  rw [Memref.set_view_squeeze]
  show ((View.whole (cc0_scratch1 : Ref sig .scVector)).slice (Rect.unit (s := S6x128) ![4, 0] S1x128.size inb_S6x128_S1x128_4_0)).set = _
  rw [View.set_slice]; exact Finset.map_refl

omit [FloatOps F] in
theorem ivL5_set : (ivL5).view.set = (Rect.unit (s := S6x128) ![5, 0] S1x128.size inb_S6x128_S1x128_5_0).set := by
  rw [Memref.set_view_squeeze]
  show ((View.whole (cc0_scratch1 : Ref sig .scVector)).slice (Rect.unit (s := S6x128) ![5, 0] S1x128.size inb_S6x128_S1x128_5_0)).set = _
  rw [View.set_slice]; exact Finset.map_refl
omit [FloatOps F] in
theorem ivS0_set : (ivS0).view.set = (Rect.unit (s := S6x128) ![0, 0] S2x128.size inb_S6x128_S2x128_0_0).set := by
  show ((View.whole (cc0_scratch1 : Ref sig .scVector)).slice (Rect.unit (s := S6x128) ![0, 0] S2x128.size inb_S6x128_S2x128_0_0)).set = _
  rw [View.set_slice]; exact Finset.map_refl

omit [FloatOps F] in
theorem ivS1_set : (ivS1).view.set = (Rect.unit (s := S6x128) ![2, 0] S2x128.size inb_S6x128_S2x128_2_0).set := by
  show ((View.whole (cc0_scratch1 : Ref sig .scVector)).slice (Rect.unit (s := S6x128) ![2, 0] S2x128.size inb_S6x128_S2x128_2_0)).set = _
  rw [View.set_slice]; exact Finset.map_refl

omit [FloatOps F] in
theorem ivS2_set : (ivS2).view.set = (Rect.unit (s := S6x128) ![4, 0] S2x128.size inb_S6x128_S2x128_4_0).set := by
  show ((View.whole (cc0_scratch1 : Ref sig .scVector)).slice (Rect.unit (s := S6x128) ![4, 0] S2x128.size inb_S6x128_S2x128_4_0)).set = _
  rw [View.set_slice]; exact Finset.map_refl

omit [FloatOps F] in
theorem slot0_set : (ivS0).view.set = (ivL0).view.set ∪ (ivL1).view.set := by
  rw [ivS0_set, ivL0_set, ivL1_set]
  ext x
  simp only [Finset.mem_union, Rect.mem_set_unit]
  constructor
  · intro h
    have h0 := h 0; have h1 := h 1
    have h0a : 0 ≤ (x 0).val := h0.1
    have h0b : (x 0).val < 0 + 2 := h0.2
    by_cases hx : (x 0).val = 0
    · left; intro a; match a with
      | 0 => exact ⟨(show 0 ≤ (x 0).val by omega), (show (x 0).val < 0 + 1 by omega)⟩
      | 1 => exact h1
    · right; intro a; match a with
      | 0 => exact ⟨(show 1 ≤ (x 0).val by omega), (show (x 0).val < 1 + 1 by omega)⟩
      | 1 => exact h1
  · rintro (h | h) a
    · have h0a : 0 ≤ (x 0).val := (h 0).1
      have h0b : (x 0).val < 0 + 1 := (h 0).2
      match a with
      | 0 => exact ⟨(show 0 ≤ (x 0).val by omega), (show (x 0).val < 0 + 2 by omega)⟩
      | 1 => exact h 1
    · have h0a : 1 ≤ (x 0).val := (h 0).1
      have h0b : (x 0).val < 1 + 1 := (h 0).2
      match a with
      | 0 => exact ⟨(show 0 ≤ (x 0).val by omega), (show (x 0).val < 0 + 2 by omega)⟩
      | 1 => exact h 1

omit [FloatOps F] in
theorem slot0_disj : Disjoint (ivL0).view.set (ivL1).view.set := by
  rw [ivL0_set, ivL1_set, Finset.disjoint_left]
  intro x hx hy
  have a : (x 0).val < 0 + 1 := ((Rect.mem_set_unit.mp hx) 0).2
  have b : 1 ≤ (x 0).val := ((Rect.mem_set_unit.mp hy) 0).1
  omega

omit [FloatOps F] in
/-- A two-row slot of the index scratch is its two rows, at any contents. -/
theorem slot0_rows (d : Dev nD) (c : Fin τ.nSC) (j : Fin τ.nSub) (f : Buf (Elt F) ((ivS0).view.loc (V d c j))) :
    ((ivS0).view.loc (V d c j) ↦[(ivS0).view.set]{fullShare} f : sProp 𝕄)
      ⊣⊢ iprop(((ivL0).view.loc (V d c j) ↦[(ivL0).view.set]{fullShare} f) ∗ ((ivL1).view.loc (V d c j) ↦[(ivL1).view.set]{fullShare} f)) := by
  rw [slot0_set]
  exact pointsTo_union slot0_disj

omit [FloatOps F] in
theorem slot1_set : (ivS1).view.set = (ivL2).view.set ∪ (ivL3).view.set := by
  rw [ivS1_set, ivL2_set, ivL3_set]
  ext x
  simp only [Finset.mem_union, Rect.mem_set_unit]
  constructor
  · intro h
    have h0 := h 0; have h1 := h 1
    have h0a : 2 ≤ (x 0).val := h0.1
    have h0b : (x 0).val < 2 + 2 := h0.2
    by_cases hx : (x 0).val = 2
    · left; intro a; match a with
      | 0 => exact ⟨(show 2 ≤ (x 0).val by omega), (show (x 0).val < 2 + 1 by omega)⟩
      | 1 => exact h1
    · right; intro a; match a with
      | 0 => exact ⟨(show 3 ≤ (x 0).val by omega), (show (x 0).val < 3 + 1 by omega)⟩
      | 1 => exact h1
  · rintro (h | h) a
    · have h0a : 2 ≤ (x 0).val := (h 0).1
      have h0b : (x 0).val < 2 + 1 := (h 0).2
      match a with
      | 0 => exact ⟨(show 2 ≤ (x 0).val by omega), (show (x 0).val < 2 + 2 by omega)⟩
      | 1 => exact h 1
    · have h0a : 3 ≤ (x 0).val := (h 0).1
      have h0b : (x 0).val < 3 + 1 := (h 0).2
      match a with
      | 0 => exact ⟨(show 2 ≤ (x 0).val by omega), (show (x 0).val < 2 + 2 by omega)⟩
      | 1 => exact h 1

omit [FloatOps F] in
theorem slot1_disj : Disjoint (ivL2).view.set (ivL3).view.set := by
  rw [ivL2_set, ivL3_set, Finset.disjoint_left]
  intro x hx hy
  have a : (x 0).val < 2 + 1 := ((Rect.mem_set_unit.mp hx) 0).2
  have b : 3 ≤ (x 0).val := ((Rect.mem_set_unit.mp hy) 0).1
  omega

omit [FloatOps F] in
/-- A two-row slot of the index scratch is its two rows, at any contents. -/
theorem slot1_rows (d : Dev nD) (c : Fin τ.nSC) (j : Fin τ.nSub) (f : Buf (Elt F) ((ivS1).view.loc (V d c j))) :
    ((ivS1).view.loc (V d c j) ↦[(ivS1).view.set]{fullShare} f : sProp 𝕄)
      ⊣⊢ iprop(((ivL2).view.loc (V d c j) ↦[(ivL2).view.set]{fullShare} f) ∗ ((ivL3).view.loc (V d c j) ↦[(ivL3).view.set]{fullShare} f)) := by
  rw [slot1_set]
  exact pointsTo_union slot1_disj

omit [FloatOps F] in
theorem slot2_set : (ivS2).view.set = (ivL4).view.set ∪ (ivL5).view.set := by
  rw [ivS2_set, ivL4_set, ivL5_set]
  ext x
  simp only [Finset.mem_union, Rect.mem_set_unit]
  constructor
  · intro h
    have h0 := h 0; have h1 := h 1
    have h0a : 4 ≤ (x 0).val := h0.1
    have h0b : (x 0).val < 4 + 2 := h0.2
    by_cases hx : (x 0).val = 4
    · left; intro a; match a with
      | 0 => exact ⟨(show 4 ≤ (x 0).val by omega), (show (x 0).val < 4 + 1 by omega)⟩
      | 1 => exact h1
    · right; intro a; match a with
      | 0 => exact ⟨(show 5 ≤ (x 0).val by omega), (show (x 0).val < 5 + 1 by omega)⟩
      | 1 => exact h1
  · rintro (h | h) a
    · have h0a : 4 ≤ (x 0).val := (h 0).1
      have h0b : (x 0).val < 4 + 1 := (h 0).2
      match a with
      | 0 => exact ⟨(show 4 ≤ (x 0).val by omega), (show (x 0).val < 4 + 2 by omega)⟩
      | 1 => exact h 1
    · have h0a : 5 ≤ (x 0).val := (h 0).1
      have h0b : (x 0).val < 5 + 1 := (h 0).2
      match a with
      | 0 => exact ⟨(show 4 ≤ (x 0).val by omega), (show (x 0).val < 4 + 2 by omega)⟩
      | 1 => exact h 1

omit [FloatOps F] in
theorem slot2_disj : Disjoint (ivL4).view.set (ivL5).view.set := by
  rw [ivL4_set, ivL5_set, Finset.disjoint_left]
  intro x hx hy
  have a : (x 0).val < 4 + 1 := ((Rect.mem_set_unit.mp hx) 0).2
  have b : 5 ≤ (x 0).val := ((Rect.mem_set_unit.mp hy) 0).1
  omega

omit [FloatOps F] in
/-- A two-row slot of the index scratch is its two rows, at any contents. -/
theorem slot2_rows (d : Dev nD) (c : Fin τ.nSC) (j : Fin τ.nSub) (f : Buf (Elt F) ((ivS2).view.loc (V d c j))) :
    ((ivS2).view.loc (V d c j) ↦[(ivS2).view.set]{fullShare} f : sProp 𝕄)
      ⊣⊢ iprop(((ivL4).view.loc (V d c j) ↦[(ivL4).view.set]{fullShare} f) ∗ ((ivL5).view.loc (V d c j) ↦[(ivL5).view.set]{fullShare} f)) := by
  rw [slot2_set]
  exact pointsTo_union slot2_disj

end Cert.Proof.KB

end
-- ==== Proof.KBValue.lean ====
/-
  Values. A buffer piece that one transfer filled whole holds, on the piece's own elements, any contents that read
  back the transfer's payload through the piece. The closed forms the ring's invariant names: before trip k the
  index scratch's row r is to hold row 6 k + r of the worker's 200 rows of the index array, and the result's row p
  is the table's row named by word p of the index array.
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.Kernel
import proofs.«205516_g82884278878931_cont_9to1_m_1121_21_alg».proof.Proof.Gen.Kernel.Skeleton
import proofs.«205516_g82884278878931_cont_9to1_m_1121_21_alg».proof.Proof.Spec
import proofs.«205516_g82884278878931_cont_9to1_m_1121_21_alg».proof.Proof.KBPieces
import proofs.«205516_g82884278878931_cont_9to1_m_1121_21_alg».proof.Proof.KBPay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (tileNo shareTok shareDrop)

variable {F : FTy → Type}

local notation "𝕄" => MT nD τ sig (HIx 1) (Elt F) ℕ UU ℕ
local notation "tabV" => (Memref.whole Cert.Kernel.main_arg3_scv : Memref Cert.Kernel.sig Kind.scVector Space.hbm Cert.Kernel.S1000x128 EltTy.f32)
local notation "idxV" => (Memref.whole Cert.Kernel.main_v0_scv : Memref Cert.Kernel.sig Kind.scVector Space.hbm Cert.Kernel.S6400x128 EltTy.i32)
local notation "outV" => (Memref.whole Cert.Kernel.main_v1_scv : Memref Cert.Kernel.sig Kind.scVector Space.hbm Cert.Kernel.S819200x128 EltTy.f32)
local notation "shV" => (Memref.whole Cert.Kernel.cc0_scratch0 : Memref Cert.Kernel.sig Kind.scVector Space.shared Cert.Kernel.S1000x128 EltTy.f32)
local notation "ivV" => (Memref.whole Cert.Kernel.cc0_scratch1 : Memref Cert.Kernel.sig Kind.scVector Space.vmem Cert.Kernel.S6x128 EltTy.i32)
local notation "bigV" => (Memref.whole Cert.Kernel.cc0_scratch2 : Memref Cert.Kernel.sig Kind.scVector Space.vmem Cert.Kernel.S768x128 EltTy.f32)

section Generic
variable {κ : Kind} {sp : Space} {s : Shape} {e : EltTy}

/-- One whole-rectangle write through a view, read on the view's own elements: the payload. -/
theorem writes_whole_emb (v : View sig κ sp s e) (f : v.ty.Contents (Elt F)) (P : s.Idx → Elt F e) (y : s.Idx) :
    v.writes (Elt F) f [⟨Rect.whole s, P⟩] (v.emb y) = _root_.cast (congrArg (Elt F) v.elt_eq.symm) (P y) := by
  rw [← View.write_univ_eq_writes_whole v f [] P, View.writes_nil, View.write_emb_of_mem _ _ (Finset.mem_univ _)]

/-- so the piece's points-to at the written contents is its points-to at any contents reading back the payload. -/
theorem pointsTo_writes_whole_congr (c : Thread nD τ) (v : View sig c.2.kind sp s e) (q : PosShare TreeShare)
    (f g : Buf (Elt F) (v.loc c)) (P : s.Idx → Elt F e) (h : ∀ y, v.read (Elt F) g y = P y) :
    (v.loc c ↦[v.set]{q} v.writes (Elt F) f [⟨Rect.whole s, P⟩] : sProp 𝕄) = v.loc c ↦[v.set]{q} g :=
  pointsTo_congr fun i hi => by
    obtain ⟨y, -, rfl⟩ := Finset.mem_map.mp hi
    rw [writes_whole_emb, ← h y, View.read_apply, cast_cast, cast_eq]

end Generic

variable (m : (ℓ : Loc nD τ sig) → Buf (Elt F) ℓ) (I : Dev nD → S6400x128.Idx → BitVec 32) (d : Dev nD) (L : grid0.Coords)

/-- The worker's first row of the index array, and of the result. -/
def baseI (L : grid0.Coords) : ℕ := 400 * (L 1).val + 200 * (L 0).val
def baseO (L : grid0.Coords) : ℕ := 51200 * (L 1).val + 25600 * (L 0).val

/-- What the index scratch is to hold before trip k: row r is row 6 k + r of the worker's rows of the index array. -/
def ivC (k : ℕ) : S6x128.Idx → BitVec 32 := fun x =>
  I d (ValueIdx.ix2 (n0 := 6400) (n1 := 128) ⟨(baseI L + 6 * k + (x 0).val) % 6400, Nat.mod_lt _ (by decide)⟩ (x 1))

/-! ## The windows of the index array and of the result that the prologue, a trip and the epilogue move -/

variable [FloatOps F]

/-- The three index windows the prologue fetches: the worker's rows 0–1, 2–3, 4–5. -/
abbrev idxP0 (L : grid0.Coords) : Memref sig .scVector .hbm S2x128 .i32 := (idxV).slice (Rect.unit (s := S6400x128) (k0_off1 L 0#32) S2x128.size (k0_off1_inb L 0)) (fun _ => rfl)
abbrev idxP1 (L : grid0.Coords) : Memref sig .scVector .hbm S2x128 .i32 := (idxV).slice (Rect.unit (s := S6400x128) (k0_off1 L 2#32) S2x128.size (k0_off1_inb L 1)) (fun _ => rfl)
abbrev idxP2 (L : grid0.Coords) : Memref sig .scVector .hbm S2x128 .i32 := (idxV).slice (Rect.unit (s := S6400x128) (k0_off1 L 4#32) S2x128.size (k0_off1_inb L 2)) (fun _ => rfl)
/-- The index windows trip k fetches for trip k + 1, one per slot. -/
abbrev idxW0 (L : grid0.Coords) (k : Fin k0_t1_loop.trips) (h : k0_cond5 k = 1#1) : Memref sig .scVector .hbm S2x128 .i32 := (idxV).slice (Rect.unit (s := S6400x128) (k0_off6 L k) S2x128.size (k0_off6_inb L k h)) (fun _ => rfl)
abbrev idxW1 (L : grid0.Coords) (k : Fin k0_t1_loop.trips) (h : k0_cond6 k = 1#1) : Memref sig .scVector .hbm S2x128 .i32 := (idxV).slice (Rect.unit (s := S6400x128) (k0_off7 L k) S2x128.size (k0_off7_inb L k h)) (fun _ => rfl)
abbrev idxW2 (L : grid0.Coords) (k : Fin k0_t1_loop.trips) (h : k0_cond7 k = 1#1) : Memref sig .scVector .hbm S2x128 .i32 := (idxV).slice (Rect.unit (s := S6400x128) (k0_off8 L k) S2x128.size (k0_off8_inb L k h)) (fun _ => rfl)
/-- The two result windows the epilogue writes (the worker's last 256 rows). -/
abbrev outE0 (L : grid0.Coords) : Memref sig .scVector .hbm S128x128 .f32 := (outV).slice (Rect.unit (s := S819200x128) (k0_off10 L 0#32) S128x128.size (k0_off10_inb L 0)) (fun _ => rfl)
abbrev outE1 (L : grid0.Coords) : Memref sig .scVector .hbm S128x128 .f32 := (outV).slice (Rect.unit (s := S819200x128) (k0_off10 L 128#32) S128x128.size (k0_off10_inb L 1)) (fun _ => rfl)
/-- The shared table as a gather names it (the whole of it). -/
abbrev shW : Memref sig .scVector .shared S1000x128 .f32 := (shV).slice (Rect.unit (s := S1000x128) ![0, 0] S1000x128.size inb_S1000x128_S1000x128_0_0) (fun _ => rfl)

end Cert.Proof.KB

end
-- ==== Proof.KBFlight.lean ====
/-
  Transfers in flight, restated. What a transfer delivers when it lands may be restated (a delivery yields anything
  it entails) and may take along what was kept beside it. Two uses: a fetch of index rows delivers the slot at any
  contents that read back the fetched window, with the read token of the index array whole again; a copy of gathered
  rows out to the result delivers the result window at any contents that read back the copied rows.
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.Kernel
import proofs.«205516_g82884278878931_cont_9to1_m_1121_21_alg».proof.Proof.Gen.Kernel.Skeleton
import proofs.«205516_g82884278878931_cont_9to1_m_1121_21_alg».proof.Proof.Spec
import proofs.«205516_g82884278878931_cont_9to1_m_1121_21_alg».proof.Proof.KBValue

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (tileNo shareTok shareDrop)

variable {F : FTy → Type}

local notation "𝕄" => MT nD τ sig (HIx 1) (Elt F) ℕ UU ℕ
local notation "tabV" => (Memref.whole Cert.Kernel.main_arg3_scv : Memref Cert.Kernel.sig Kind.scVector Space.hbm Cert.Kernel.S1000x128 EltTy.f32)
local notation "idxV" => (Memref.whole Cert.Kernel.main_v0_scv : Memref Cert.Kernel.sig Kind.scVector Space.hbm Cert.Kernel.S6400x128 EltTy.i32)
local notation "outV" => (Memref.whole Cert.Kernel.main_v1_scv : Memref Cert.Kernel.sig Kind.scVector Space.hbm Cert.Kernel.S819200x128 EltTy.f32)
local notation "shV" => (Memref.whole Cert.Kernel.cc0_scratch0 : Memref Cert.Kernel.sig Kind.scVector Space.shared Cert.Kernel.S1000x128 EltTy.f32)
local notation "ivV" => (Memref.whole Cert.Kernel.cc0_scratch1 : Memref Cert.Kernel.sig Kind.scVector Space.vmem Cert.Kernel.S6x128 EltTy.i32)
local notation "bigV" => (Memref.whole Cert.Kernel.cc0_scratch2 : Memref Cert.Kernel.sig Kind.scVector Space.vmem Cert.Kernel.S768x128 EltTy.f32)

variable [FloatOps F]

section Generic
variable {sp : Space} {s : Shape} {e : EltTy}

/-- A transfer filling the view v whole while reading a window W of an array held at share q, the rest of the share
    kept beside it: it delivers v at any contents g reading back the payload, and the array's share whole. -/
theorem flight_fetch_clean (c : Thread nD τ) (sm : SemLoc sig) (N : ℕ) (v : View sig c.2.kind sp s e) (f g : Buf (Elt F) (v.loc c))
    (P : s.Idx → Elt F e) (h : ∀ y, v.read (Elt F) g y = P y) (ℓ : Loc nD τ sig) (W : Finset (Idx ℓ)) (q : PosShare TreeShare) (fI : Buf (Elt F) ℓ) :
    iprop((ℓ ↦[Finset.univ \ W]{q} fI)
        ∗ Transfers.Flight countersEmb c sm (default : HIx 1) N iprop((v.loc c ↦[v.set]{fullShare} v.writes (Elt F) f [⟨Rect.whole s, P⟩]) ∗ (ℓ ↦[W]{q} fI)))
      ⊢ (Transfers.Flight countersEmb c sm (default : HIx 1) N iprop((v.loc c ↦[v.set]{fullShare} g) ∗ (ℓ ↦{q} fI)) : sProp 𝕄) := by
  refine (Transfers.Flight_frame countersEmb c).trans (Transfers.Flight_mono countersEmb c ?_)
  rw [pointsTo_writes_whole_congr c v fullShare f g P h]
  iintro ⟨Hr, Hv, Hw⟩
  isplitl [Hv]; · iexact Hv
  have hu : W ∪ (Finset.univ \ W) = Finset.univ := Finset.union_sdiff_of_subset (Finset.subset_univ W)
  rw [show (ℓ ↦{q} fI : sProp 𝕄) = (ℓ ↦[W ∪ (Finset.univ \ W)]{q} fI) from by rw [hu]]
  iapply (pointsTo_union Finset.disjoint_sdiff).2
  isplitl [Hw] <;> iassumption

/-- A transfer filling the view v whole out of a piece held beside: it delivers v at any contents reading back the
    payload, the piece at whatever it held. -/
theorem flight_out_clean (c : Thread nD τ) (sm : SemLoc sig) (N : ℕ) (v : View sig c.2.kind sp s e) (f g : Buf (Elt F) (v.loc c))
    (P : s.Idx → Elt F e) (h : ∀ y, v.read (Elt F) g y = P y) (R : sProp 𝕄) :
    (Transfers.Flight countersEmb c sm (default : HIx 1) N iprop((v.loc c ↦[v.set]{fullShare} v.writes (Elt F) f [⟨Rect.whole s, P⟩]) ∗ R) : sProp 𝕄)
      ⊢ Transfers.Flight countersEmb c sm (default : HIx 1) N iprop((v.loc c ↦[v.set]{fullShare} g) ∗ R) := by
  refine Transfers.Flight_mono countersEmb c ?_
  rw [pointsTo_writes_whole_congr c v fullShare f g P h]

end Generic

end Cert.Proof.KB

end
-- ==== Proof.KBRowSets.lean ====
/-
  Ranges of rows of the result. The result array has 819200 rows of 128 elements; a set of its elements given by
  a range of rows [lo, hi). A range splits at any row between its ends, and so does its points-to. The six
  128-row windows one trip of the ring writes, the two the epilogue writes, and a worker's 25600-row part are
  such ranges.
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.Kernel
import proofs.«205516_g82884278878931_cont_9to1_m_1121_21_alg».proof.Proof.Gen.Kernel.Skeleton
import proofs.«205516_g82884278878931_cont_9to1_m_1121_21_alg».proof.Proof.Spec
import proofs.«205516_g82884278878931_cont_9to1_m_1121_21_alg».proof.Proof.KBValue

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (tileNo shareTok shareDrop)

variable {F : FTy → Type}

local notation "𝕄" => MT nD τ sig (HIx 1) (Elt F) ℕ UU ℕ
local notation "tabV" => (Memref.whole Cert.Kernel.main_arg3_scv : Memref Cert.Kernel.sig Kind.scVector Space.hbm Cert.Kernel.S1000x128 EltTy.f32)
local notation "idxV" => (Memref.whole Cert.Kernel.main_v0_scv : Memref Cert.Kernel.sig Kind.scVector Space.hbm Cert.Kernel.S6400x128 EltTy.i32)
local notation "outV" => (Memref.whole Cert.Kernel.main_v1_scv : Memref Cert.Kernel.sig Kind.scVector Space.hbm Cert.Kernel.S819200x128 EltTy.f32)
local notation "shV" => (Memref.whole Cert.Kernel.cc0_scratch0 : Memref Cert.Kernel.sig Kind.scVector Space.shared Cert.Kernel.S1000x128 EltTy.f32)
local notation "ivV" => (Memref.whole Cert.Kernel.cc0_scratch1 : Memref Cert.Kernel.sig Kind.scVector Space.vmem Cert.Kernel.S6x128 EltTy.i32)
local notation "bigV" => (Memref.whole Cert.Kernel.cc0_scratch2 : Memref Cert.Kernel.sig Kind.scVector Space.vmem Cert.Kernel.S768x128 EltTy.f32)

/-! ## Ranges of rows -/

/-- The elements of the result on rows [lo, hi). -/
def rowsSet (lo hi : ℕ) : Finset S819200x128.Idx := Finset.univ.filter fun x => lo ≤ (x 0).val ∧ (x 0).val < hi

theorem mem_rowsSet {lo hi : ℕ} {x : S819200x128.Idx} : x ∈ rowsSet lo hi ↔ lo ≤ (x 0).val ∧ (x 0).val < hi := by
  simp only [rowsSet, Finset.mem_filter, Finset.mem_univ, true_and]

/-- A range is its part below a row and its part from that row on, -/
theorem rowsSet_union {a b c : ℕ} (h1 : a ≤ b) (h2 : b ≤ c) : rowsSet a b ∪ rowsSet b c = rowsSet a c := by
  ext x
  simp only [Finset.mem_union, mem_rowsSet]
  omega

/-- and the two parts share no element. -/
theorem rowsSet_disj (a b c : ℕ) : Disjoint (rowsSet a b) (rowsSet b c) := by
  rw [Finset.disjoint_left]
  intro x hx hy
  have h1 := (mem_rowsSet.mp hx).2
  have h2 := (mem_rowsSet.mp hy).1
  omega

/-- A range that ends where it starts has no element. -/
theorem rowsSet_self (a : ℕ) : rowsSet a a = ∅ := by
  ext x
  simp only [mem_rowsSet, Finset.notMem_empty, iff_false]
  omega

/-- The points-to of a range of rows splits at any row between the range's ends. -/
theorem rows_split (d : Dev nD) (c : Fin τ.nSC) (j : Fin τ.nSub) (q : PosShare TreeShare)
    (f : Buf (Elt F) ((outV).view.loc (V d c j))) {a b c' : ℕ} (h1 : a ≤ b) (h2 : b ≤ c') :
    ((outV).view.loc (V d c j) ↦[rowsSet a c']{q} f : sProp 𝕄)
      ⊣⊢ iprop(((outV).view.loc (V d c j) ↦[rowsSet a b]{q} f) ∗ ((outV).view.loc (V d c j) ↦[rowsSet b c']{q} f)) := by
  rw [← rowsSet_union h1 h2]
  exact pointsTo_union (rowsSet_disj _ _ _)

/-- The points-to of an empty range is nothing. -/
theorem rows_empty (d : Dev nD) (c : Fin τ.nSC) (j : Fin τ.nSub) (q : PosShare TreeShare)
    (f : Buf (Elt F) ((outV).view.loc (V d c j))) (a : ℕ) :
    ((outV).view.loc (V d c j) ↦[rowsSet a a]{q} f : sProp 𝕄) = iprop(emp) := by
  rw [rowsSet_self]
  exact pointsTo_empty

/-! ## The windows as ranges of rows -/

/-- A 128-row window of the result at row a, all 128 columns, is the range [a, a + 128). -/
theorem unit_rows {off : Fin 2 → ℕ} {inb : ∀ i, off i + S128x128.size i ≤ S819200x128.size i} {a : ℕ} (h : off = ![a, 0]) :
    (Rect.unit (s := S819200x128) off S128x128.size inb).set = rowsSet a (a + 128) := by
  subst h
  ext x
  simp only [mem_rowsSet, Rect.mem_set_unit]
  constructor
  · intro h; exact h 0
  · intro h i
    match i with
    | 0 => exact h
    | 1 => exact ⟨Nat.zero_le _, (show (x 1).val < 0 + 128 by have := (x 1).isLt; change (x 1).val < 128 at this; omega)⟩

variable [FloatOps F]

omit [FloatOps F] in
theorem outCh0_set (L : grid0.Coords) (k : Fin k0_t1_loop.trips) :
    (outCh0 L k).view.set = rowsSet (baseO L + 768 * k.val + 128 * 0) (baseO L + 768 * k.val + 128 * 0 + 128) := by
  show ((View.whole (main_v1_scv : Ref sig .scVector)).slice (Rect.unit (s := S819200x128) (k0_off5 L k 0#32 0#32) S128x128.size (k0_off5_inb L k 0 0))).set = _
  rw [View.set_slice]
  refine Finset.map_refl.trans (unit_rows ?_)
  have h : k0_off5 L k 0#32 0#32 = ![51200 * (L 1).val + 25600 * (L 0).val + 768 * k.val + 256 * 0 + 128 * 0, 0] :=
    k0_off5_eq L k ⟨0, by decide⟩ ⟨0, by decide⟩
  rw [h]
  exact congrArg (fun n : ℕ => ![n, 0]) (by unfold baseO; omega)

omit [FloatOps F] in
theorem outCh1_set (L : grid0.Coords) (k : Fin k0_t1_loop.trips) :
    (outCh1 L k).view.set = rowsSet (baseO L + 768 * k.val + 128 * 1) (baseO L + 768 * k.val + 128 * 1 + 128) := by
  show ((View.whole (main_v1_scv : Ref sig .scVector)).slice (Rect.unit (s := S819200x128) (k0_off5 L k 0#32 128#32) S128x128.size (k0_off5_inb L k 0 1))).set = _
  rw [View.set_slice]
  refine Finset.map_refl.trans (unit_rows ?_)
  have h : k0_off5 L k 0#32 128#32 = ![51200 * (L 1).val + 25600 * (L 0).val + 768 * k.val + 256 * 0 + 128 * 1, 0] :=
    k0_off5_eq L k ⟨0, by decide⟩ ⟨1, by decide⟩
  rw [h]
  exact congrArg (fun n : ℕ => ![n, 0]) (by unfold baseO; omega)

omit [FloatOps F] in
theorem outCh2_set (L : grid0.Coords) (k : Fin k0_t1_loop.trips) :
    (outCh2 L k).view.set = rowsSet (baseO L + 768 * k.val + 128 * 2) (baseO L + 768 * k.val + 128 * 2 + 128) := by
  show ((View.whole (main_v1_scv : Ref sig .scVector)).slice (Rect.unit (s := S819200x128) (k0_off5 L k 1#32 0#32) S128x128.size (k0_off5_inb L k 1 0))).set = _
  rw [View.set_slice]
  refine Finset.map_refl.trans (unit_rows ?_)
  have h : k0_off5 L k 1#32 0#32 = ![51200 * (L 1).val + 25600 * (L 0).val + 768 * k.val + 256 * 1 + 128 * 0, 0] :=
    k0_off5_eq L k ⟨1, by decide⟩ ⟨0, by decide⟩
  rw [h]
  exact congrArg (fun n : ℕ => ![n, 0]) (by unfold baseO; omega)

omit [FloatOps F] in
theorem outCh3_set (L : grid0.Coords) (k : Fin k0_t1_loop.trips) :
    (outCh3 L k).view.set = rowsSet (baseO L + 768 * k.val + 128 * 3) (baseO L + 768 * k.val + 128 * 3 + 128) := by
  show ((View.whole (main_v1_scv : Ref sig .scVector)).slice (Rect.unit (s := S819200x128) (k0_off5 L k 1#32 128#32) S128x128.size (k0_off5_inb L k 1 1))).set = _
  rw [View.set_slice]
  refine Finset.map_refl.trans (unit_rows ?_)
  have h : k0_off5 L k 1#32 128#32 = ![51200 * (L 1).val + 25600 * (L 0).val + 768 * k.val + 256 * 1 + 128 * 1, 0] :=
    k0_off5_eq L k ⟨1, by decide⟩ ⟨1, by decide⟩
  rw [h]
  exact congrArg (fun n : ℕ => ![n, 0]) (by unfold baseO; omega)

omit [FloatOps F] in
theorem outCh4_set (L : grid0.Coords) (k : Fin k0_t1_loop.trips) :
    (outCh4 L k).view.set = rowsSet (baseO L + 768 * k.val + 128 * 4) (baseO L + 768 * k.val + 128 * 4 + 128) := by
  show ((View.whole (main_v1_scv : Ref sig .scVector)).slice (Rect.unit (s := S819200x128) (k0_off5 L k 2#32 0#32) S128x128.size (k0_off5_inb L k 2 0))).set = _
  rw [View.set_slice]
  refine Finset.map_refl.trans (unit_rows ?_)
  have h : k0_off5 L k 2#32 0#32 = ![51200 * (L 1).val + 25600 * (L 0).val + 768 * k.val + 256 * 2 + 128 * 0, 0] :=
    k0_off5_eq L k ⟨2, by decide⟩ ⟨0, by decide⟩
  rw [h]
  exact congrArg (fun n : ℕ => ![n, 0]) (by unfold baseO; omega)

omit [FloatOps F] in
theorem outCh5_set (L : grid0.Coords) (k : Fin k0_t1_loop.trips) :
    (outCh5 L k).view.set = rowsSet (baseO L + 768 * k.val + 128 * 5) (baseO L + 768 * k.val + 128 * 5 + 128) := by
  show ((View.whole (main_v1_scv : Ref sig .scVector)).slice (Rect.unit (s := S819200x128) (k0_off5 L k 2#32 128#32) S128x128.size (k0_off5_inb L k 2 1))).set = _
  rw [View.set_slice]
  refine Finset.map_refl.trans (unit_rows ?_)
  have h : k0_off5 L k 2#32 128#32 = ![51200 * (L 1).val + 25600 * (L 0).val + 768 * k.val + 256 * 2 + 128 * 1, 0] :=
    k0_off5_eq L k ⟨2, by decide⟩ ⟨1, by decide⟩
  rw [h]
  exact congrArg (fun n : ℕ => ![n, 0]) (by unfold baseO; omega)

omit [FloatOps F] in
theorem outE0_set (L : grid0.Coords) :
    (outE0 L).view.set = rowsSet (baseO L + 25344) (baseO L + 25344 + 128) := by
  show ((View.whole (main_v1_scv : Ref sig .scVector)).slice (Rect.unit (s := S819200x128) (k0_off10 L 0#32) S128x128.size (k0_off10_inb L 0))).set = _
  rw [View.set_slice]
  refine Finset.map_refl.trans (unit_rows ?_)
  have h : k0_off10 L 0#32 = ![51200 * (L 1).val + 25600 * (L 0).val + 128 * 0 + 25344, 0] :=
    k0_off10_eq L ⟨0, by decide⟩
  rw [h]
  exact congrArg (fun n : ℕ => ![n, 0]) (by unfold baseO; omega)

omit [FloatOps F] in
theorem outE1_set (L : grid0.Coords) :
    (outE1 L).view.set = rowsSet (baseO L + 25472) (baseO L + 25472 + 128) := by
  show ((View.whole (main_v1_scv : Ref sig .scVector)).slice (Rect.unit (s := S819200x128) (k0_off10 L 128#32) S128x128.size (k0_off10_inb L 1))).set = _
  rw [View.set_slice]
  refine Finset.map_refl.trans (unit_rows ?_)
  have h : k0_off10 L 128#32 = ![51200 * (L 1).val + 25600 * (L 0).val + 128 * 1 + 25344, 0] :=
    k0_off10_eq L ⟨1, by decide⟩
  rw [h]
  exact congrArg (fun n : ℕ => ![n, 0]) (by unfold baseO; omega)

omit [FloatOps F] in
/-- Part 2 i + c of the thirty-two equal parts of the result's rows is the range of 25600 rows from row
    51200 i + 25600 c. -/
theorem outSet_rows (c : Fin 2) (i : Fin 16) :
    outSet (Transfers.tileNo c i) = rowsSet (51200 * i.val + 25600 * c.val) (51200 * i.val + 25600 * c.val + 25600) := by
  ext x
  simp only [mem_rowsSet, Rect.mem_set_unit]
  have hsz : S819200x128.size 0 / 32 = 25600 := by decide
  constructor
  · intro h
    have h0 := h 0
    simp only [Shape.partIx, Shape.partSize, if_true, Transfers.tileNo_val, hsz] at h0
    omega
  · intro h a
    match a with
    | 0 =>
      simp only [Shape.partIx, Shape.partSize, if_true, Transfers.tileNo_val, hsz]
      omega
    | 1 =>
      have := (x 1).isLt
      change (x 1).val < 128 at this
      simp [Shape.partIx, Shape.partSize]
      exact this

end Cert.Proof.KB

end
-- ==== Proof.KBState.lean ====
/-
  The states of a subcore's run between the parts of its program: after the prologue (the table copied by subcore 0,
  the first three fetches in flight, the barrier passed: a read share of the shared table held), before each trip of
  the ring, and after the loop.
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.Kernel
import proofs.«205516_g82884278878931_cont_9to1_m_1121_21_alg».proof.Proof.Gen.Kernel.Skeleton
import proofs.«205516_g82884278878931_cont_9to1_m_1121_21_alg».proof.Proof.Spec
import proofs.«205516_g82884278878931_cont_9to1_m_1121_21_alg».proof.Proof.KBFlight
import proofs.«205516_g82884278878931_cont_9to1_m_1121_21_alg».proof.Proof.KBRowSets

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (tileNo shareTok shareDrop)

variable {F : FTy → Type}

local notation "𝕄" => MT nD τ sig (HIx 1) (Elt F) ℕ UU ℕ
local notation "tabV" => (Memref.whole Cert.Kernel.main_arg3_scv : Memref Cert.Kernel.sig Kind.scVector Space.hbm Cert.Kernel.S1000x128 EltTy.f32)
local notation "idxV" => (Memref.whole Cert.Kernel.main_v0_scv : Memref Cert.Kernel.sig Kind.scVector Space.hbm Cert.Kernel.S6400x128 EltTy.i32)
local notation "outV" => (Memref.whole Cert.Kernel.main_v1_scv : Memref Cert.Kernel.sig Kind.scVector Space.hbm Cert.Kernel.S819200x128 EltTy.f32)
local notation "shV" => (Memref.whole Cert.Kernel.cc0_scratch0 : Memref Cert.Kernel.sig Kind.scVector Space.shared Cert.Kernel.S1000x128 EltTy.f32)
local notation "ivV" => (Memref.whole Cert.Kernel.cc0_scratch1 : Memref Cert.Kernel.sig Kind.scVector Space.vmem Cert.Kernel.S6x128 EltTy.i32)
local notation "bigV" => (Memref.whole Cert.Kernel.cc0_scratch2 : Memref Cert.Kernel.sig Kind.scVector Space.vmem Cert.Kernel.S768x128 EltTy.f32)

variable (m : (ℓ : Loc nD τ sig) → Buf (Elt F) ℓ) (I : Dev nD → S6400x128.Idx → BitVec 32)
variable [FloatOps F]
section Tile
variable (d : Dev nD) (L : grid0.Coords)

/-- A slot's fetch in flight, delivering the slot's two rows of what the index scratch is to hold before trip n, and
    the read token of the index array it travels with. -/
def fetchI0 (qi : PosShare TreeShare) (n : ℕ) : sProp 𝕄 := Transfers.Flight countersEmb (V d (cV L) (jV L)) (SemLoc.dma cc0_scratch15.sem) (default : HIx 1) 8192
        iprop(((ivS0).view.loc (V d (cV L) (jV L)) ↦[(ivS0).view.set]{fullShare} (ivC I d L n : Buf (Elt F) ((ivS0).view.loc (V d (cV L) (jV L))))) ∗ ((idxV).view.loc (V d (cV L) (jV L)) ↦{shareTok qi 3 0} (I d : Buf (Elt F) ((idxV).view.loc (V d (cV L) (jV L))))))
def fetchI1 (qi : PosShare TreeShare) (n : ℕ) : sProp 𝕄 := Transfers.Flight countersEmb (V d (cV L) (jV L)) (SemLoc.dma cc0_scratch16.sem) (default : HIx 1) 8192
        iprop(((ivS1).view.loc (V d (cV L) (jV L)) ↦[(ivS1).view.set]{fullShare} (ivC I d L n : Buf (Elt F) ((ivS1).view.loc (V d (cV L) (jV L))))) ∗ ((idxV).view.loc (V d (cV L) (jV L)) ↦{shareTok qi 3 1} (I d : Buf (Elt F) ((idxV).view.loc (V d (cV L) (jV L))))))
def fetchI2 (qi : PosShare TreeShare) (n : ℕ) : sProp 𝕄 := Transfers.Flight countersEmb (V d (cV L) (jV L)) (SemLoc.dma cc0_scratch17.sem) (default : HIx 1) 8192
        iprop(((ivS2).view.loc (V d (cV L) (jV L)) ↦[(ivS2).view.set]{fullShare} (ivC I d L n : Buf (Elt F) ((ivS2).view.loc (V d (cV L) (jV L))))) ∗ ((idxV).view.loc (V d (cV L) (jV L)) ↦{shareTok qi 3 2} (I d : Buf (Elt F) ((idxV).view.loc (V d (cV L) (jV L))))))

/-- After the prologue: the three fetches for trip 0 in flight, the table-copy semaphore back at zero, subcore j's read
    share of the shared table at the table's contents (subcore 0 also keeps the table's share it copied from and what
    is left of the shared copy after the sixteen tokens), the waits recorded. -/
def afterPrologue (O : CellTallies nD τ sig (HIx 1)) (W : Waits sig (HIx 1)) (qi qt : PosShare TreeShare)
    (r : Σ' (_ : BitVec 32) (_ : BitVec 32), BitVec 32) : sProp 𝕄 :=
  iprop(⌜r.2.2 = 0#32⌝
    ∗ fetchI0 I d L qi 0 ∗ fetchI1 I d L qi 0 ∗ fetchI2 I d L qi 0
    ∗ semVal ((V d (cV L) (jV L)), SemLoc.dma cc0_scoped0.sem) 0
    ∗ ((shV).view.loc (V d (cV L) (jV L)) ↦{shShare (jV L)} (tabC m d : Buf (Elt F) ((shV).view.loc (V d (cV L) (jV L)))))
    ∗ (if (L 1).val = 0 then iprop(((tabV).view.loc (V d (cV L) (jV L)) ↦{qt} (m (tabLoc d) : Buf (Elt F) ((tabV).view.loc (V d (cV L) (jV L)))))
          ∗ ((shV).view.loc (V d (cV L) (jV L)) ↦{shareDrop fullShare 16} (tabC m d : Buf (Elt F) ((shV).view.loc (V d (cV L) (jV L)))))) else iprop(emp))
    ∗ ∃ W', ⌜∀ p ∈ W', p ∈ W ∨ p.2 = none ∨ p.2 = some (0 : Fin 1)⌝ ∗ owes (V d (cV L) (jV L)) O W')

/-- The fetches for slots 1 and 2: in flight before every trip, idle after the last. -/
def idxPart (qi : PosShare TreeShare) (n : ℕ) : sProp 𝕄 :=
  if n < 33 then iprop(Transfers.Flight countersEmb (V d (cV L) (jV L)) (SemLoc.dma cc0_scratch16.sem) (default : HIx 1) 8192
        iprop(((ivS1).view.loc (V d (cV L) (jV L)) ↦[(ivS1).view.set]{fullShare} (ivC I d L n : Buf (Elt F) ((ivS1).view.loc (V d (cV L) (jV L))))) ∗ ((idxV).view.loc (V d (cV L) (jV L)) ↦{shareTok qi 3 1} (I d : Buf (Elt F) ((idxV).view.loc (V d (cV L) (jV L))))))
      ∗ Transfers.Flight countersEmb (V d (cV L) (jV L)) (SemLoc.dma cc0_scratch17.sem) (default : HIx 1) 8192
        iprop(((ivS2).view.loc (V d (cV L) (jV L)) ↦[(ivS2).view.set]{fullShare} (ivC I d L n : Buf (Elt F) ((ivS2).view.loc (V d (cV L) (jV L))))) ∗ ((idxV).view.loc (V d (cV L) (jV L)) ↦{shareTok qi 3 2} (I d : Buf (Elt F) ((idxV).view.loc (V d (cV L) (jV L)))))))
  else iprop(iprop(∃ f : Buf (Elt F) ((ivS1).view.loc (V d (cV L) (jV L))), ((ivS1).view.loc (V d (cV L) (jV L)) ↦[(ivS1).view.set]{fullShare} f) ∗ ((idxV).view.loc (V d (cV L) (jV L)) ↦{shareTok qi 3 1} (I d : Buf (Elt F) ((idxV).view.loc (V d (cV L) (jV L))))) ∗ semVal ((V d (cV L) (jV L)), SemLoc.dma cc0_scratch16.sem) 0) ∗ iprop(∃ f : Buf (Elt F) ((ivS2).view.loc (V d (cV L) (jV L))), ((ivS2).view.loc (V d (cV L) (jV L)) ↦[(ivS2).view.set]{fullShare} f) ∗ ((idxV).view.loc (V d (cV L) (jV L)) ↦{shareTok qi 3 2} (I d : Buf (Elt F) ((idxV).view.loc (V d (cV L) (jV L))))) ∗ semVal ((V d (cV L) (jV L)), SemLoc.dma cc0_scratch17.sem) 0))

/-- The row buffer's six pieces: idle before the first trip, afterwards each the source of a copy in flight to the
    previous trip's window of the result, which it delivers at the lookup's values. -/
def outPart (n : ℕ) : sProp 𝕄 :=
  if n = 0 then iprop(iprop((∃ fb, (bigP0).view.loc (V d (cV L) (jV L)) ↦[(bigP0).view.set]{fullShare} fb) ∗ semVal ((V d (cV L) (jV L)), SemLoc.dma cc0_scratch9.sem) 0)
      ∗ iprop((∃ fb, (bigP1).view.loc (V d (cV L) (jV L)) ↦[(bigP1).view.set]{fullShare} fb) ∗ semVal ((V d (cV L) (jV L)), SemLoc.dma cc0_scratch10.sem) 0)
      ∗ iprop((∃ fb, (bigP2).view.loc (V d (cV L) (jV L)) ↦[(bigP2).view.set]{fullShare} fb) ∗ semVal ((V d (cV L) (jV L)), SemLoc.dma cc0_scratch11.sem) 0)
      ∗ iprop((∃ fb, (bigP3).view.loc (V d (cV L) (jV L)) ↦[(bigP3).view.set]{fullShare} fb) ∗ semVal ((V d (cV L) (jV L)), SemLoc.dma cc0_scratch12.sem) 0)
      ∗ iprop((∃ fb, (bigP4).view.loc (V d (cV L) (jV L)) ↦[(bigP4).view.set]{fullShare} fb) ∗ semVal ((V d (cV L) (jV L)), SemLoc.dma cc0_scratch13.sem) 0)
      ∗ iprop((∃ fb, (bigP5).view.loc (V d (cV L) (jV L)) ↦[(bigP5).view.set]{fullShare} fb) ∗ semVal ((V d (cV L) (jV L)), SemLoc.dma cc0_scratch14.sem) 0))
  else iprop(∃ kp : Fin k0_t1_loop.trips, ⌜kp.val + 1 = n⌝
      ∗ (∃ fb, Transfers.Flight countersEmb (V d (cV L) (jV L)) (SemLoc.dma cc0_scratch9.sem) (default : HIx 1) 524288
        iprop(((outCh0 L kp).view.loc (V d (cV L) (jV L)) ↦[(outCh0 L kp).view.set]{fullShare} (outG m I d : Buf (Elt F) ((outCh0 L kp).view.loc (V d (cV L) (jV L))))) ∗ ((bigP0).view.loc (V d (cV L) (jV L)) ↦[(bigP0).view.set]{fullShare} fb)))
      ∗ (∃ fb, Transfers.Flight countersEmb (V d (cV L) (jV L)) (SemLoc.dma cc0_scratch10.sem) (default : HIx 1) 524288
        iprop(((outCh1 L kp).view.loc (V d (cV L) (jV L)) ↦[(outCh1 L kp).view.set]{fullShare} (outG m I d : Buf (Elt F) ((outCh1 L kp).view.loc (V d (cV L) (jV L))))) ∗ ((bigP1).view.loc (V d (cV L) (jV L)) ↦[(bigP1).view.set]{fullShare} fb)))
      ∗ (∃ fb, Transfers.Flight countersEmb (V d (cV L) (jV L)) (SemLoc.dma cc0_scratch11.sem) (default : HIx 1) 524288
        iprop(((outCh2 L kp).view.loc (V d (cV L) (jV L)) ↦[(outCh2 L kp).view.set]{fullShare} (outG m I d : Buf (Elt F) ((outCh2 L kp).view.loc (V d (cV L) (jV L))))) ∗ ((bigP2).view.loc (V d (cV L) (jV L)) ↦[(bigP2).view.set]{fullShare} fb)))
      ∗ (∃ fb, Transfers.Flight countersEmb (V d (cV L) (jV L)) (SemLoc.dma cc0_scratch12.sem) (default : HIx 1) 524288
        iprop(((outCh3 L kp).view.loc (V d (cV L) (jV L)) ↦[(outCh3 L kp).view.set]{fullShare} (outG m I d : Buf (Elt F) ((outCh3 L kp).view.loc (V d (cV L) (jV L))))) ∗ ((bigP3).view.loc (V d (cV L) (jV L)) ↦[(bigP3).view.set]{fullShare} fb)))
      ∗ (∃ fb, Transfers.Flight countersEmb (V d (cV L) (jV L)) (SemLoc.dma cc0_scratch13.sem) (default : HIx 1) 524288
        iprop(((outCh4 L kp).view.loc (V d (cV L) (jV L)) ↦[(outCh4 L kp).view.set]{fullShare} (outG m I d : Buf (Elt F) ((outCh4 L kp).view.loc (V d (cV L) (jV L))))) ∗ ((bigP4).view.loc (V d (cV L) (jV L)) ↦[(bigP4).view.set]{fullShare} fb)))
      ∗ (∃ fb, Transfers.Flight countersEmb (V d (cV L) (jV L)) (SemLoc.dma cc0_scratch14.sem) (default : HIx 1) 524288
        iprop(((outCh5 L kp).view.loc (V d (cV L) (jV L)) ↦[(outCh5 L kp).view.set]{fullShare} (outG m I d : Buf (Elt F) ((outCh5 L kp).view.loc (V d (cV L) (jV L))))) ∗ ((bigP5).view.loc (V d (cV L) (jV L)) ↦[(bigP5).view.set]{fullShare} fb))))

/-- The ring's state before trip n (and, at n = 33, after the loop): slot 0's fetch in flight with rows 6 n, 6 n + 1 of
    the worker's index rows; slots 1 and 2 likewise (idle at 33); the pieces as above; the gathers' semaphores at zero
    and the shared table's six read tokens; the result's rows the earlier trips completed, at the lookup's values;
    the rows still to write, at the launch contents; the waits recorded so far. -/
def inv (O : CellTallies nD τ sig (HIx 1)) (W : Waits sig (HIx 1)) (qi qs : PosShare TreeShare) (m0 : Buf (Elt F) ((outV).view.loc (V d (cV L) (jV L))))
    (n : ℕ) (_ : Unit) : sProp 𝕄 :=
  iprop((Transfers.MayWaits (V d (cV L) (jV L)) (default : HIx 1) O)
    ∗ ⌜n ≤ 33⌝
    ∗ Transfers.Flight countersEmb (V d (cV L) (jV L)) (SemLoc.dma cc0_scratch15.sem) (default : HIx 1) 8192
        iprop(((ivS0).view.loc (V d (cV L) (jV L)) ↦[(ivS0).view.set]{fullShare} (ivC I d L n : Buf (Elt F) ((ivS0).view.loc (V d (cV L) (jV L))))) ∗ ((idxV).view.loc (V d (cV L) (jV L)) ↦{shareTok qi 3 0} (I d : Buf (Elt F) ((idxV).view.loc (V d (cV L) (jV L))))))
    ∗ idxPart I d L qi n
    ∗ outPart m I d L n
    ∗ semVal ((V d (cV L) (jV L)), SemLoc.dma cc0_scratch3.sem) 0
    ∗ semVal ((V d (cV L) (jV L)), SemLoc.dma cc0_scratch4.sem) 0
    ∗ semVal ((V d (cV L) (jV L)), SemLoc.dma cc0_scratch5.sem) 0
    ∗ semVal ((V d (cV L) (jV L)), SemLoc.dma cc0_scratch6.sem) 0
    ∗ semVal ((V d (cV L) (jV L)), SemLoc.dma cc0_scratch7.sem) 0
    ∗ semVal ((V d (cV L) (jV L)), SemLoc.dma cc0_scratch8.sem) 0
    ∗ ((shV).view.loc (V d (cV L) (jV L)) ↦{shareTok qs 6 0} (tabC m d : Buf (Elt F) ((shV).view.loc (V d (cV L) (jV L)))))
    ∗ ((shV).view.loc (V d (cV L) (jV L)) ↦{shareTok qs 6 1} (tabC m d : Buf (Elt F) ((shV).view.loc (V d (cV L) (jV L)))))
    ∗ ((shV).view.loc (V d (cV L) (jV L)) ↦{shareTok qs 6 2} (tabC m d : Buf (Elt F) ((shV).view.loc (V d (cV L) (jV L)))))
    ∗ ((shV).view.loc (V d (cV L) (jV L)) ↦{shareTok qs 6 3} (tabC m d : Buf (Elt F) ((shV).view.loc (V d (cV L) (jV L)))))
    ∗ ((shV).view.loc (V d (cV L) (jV L)) ↦{shareTok qs 6 4} (tabC m d : Buf (Elt F) ((shV).view.loc (V d (cV L) (jV L)))))
    ∗ ((shV).view.loc (V d (cV L) (jV L)) ↦{shareTok qs 6 5} (tabC m d : Buf (Elt F) ((shV).view.loc (V d (cV L) (jV L)))))
    ∗ ((outV).view.loc (V d (cV L) (jV L)) ↦[rowsSet (baseO L) (baseO L + 768 * (n - 1))]{fullShare} (outG m I d : Buf (Elt F) ((outV).view.loc (V d (cV L) (jV L)))))
    ∗ ((outV).view.loc (V d (cV L) (jV L)) ↦[rowsSet (baseO L + 768 * n) (baseO L + 25600)]{fullShare} m0)
    ∗ ∃ W', ⌜∀ p ∈ W', p ∈ W ∨ p.2 = none⌝ ∗ owes (V d (cV L) (jV L)) O W')

end Tile
end Cert.Proof.KB
end
-- ==== Proof.KBGo.lean ====
/-
  What a subcore's task is handed and hands back, spelt at the subcore's grid coordinates, and the statement of the
  task's body: from its barrier kit, what it is handed, its scoped storage and what it owes, the printed kernel runs
  to what it hands back, the scoped storage restored, the barrier's debt paid.
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.Kernel
import proofs.«205516_g82884278878931_cont_9to1_m_1121_21_alg».proof.Proof.Gen.Kernel.Skeleton
import proofs.«205516_g82884278878931_cont_9to1_m_1121_21_alg».proof.Proof.Spec
import proofs.«205516_g82884278878931_cont_9to1_m_1121_21_alg».proof.Proof.KBPieces
import proofs.«205516_g82884278878931_cont_9to1_m_1121_21_alg».proof.Proof.KBPay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (tileNo shareTok shareDrop)

variable {F : FTy → Type}

local notation "𝕄" => MT nD τ sig (HIx 1) (Elt F) ℕ UU ℕ
local notation "tabV" => (Memref.whole Cert.Kernel.main_arg3_scv : Memref Cert.Kernel.sig Kind.scVector Space.hbm Cert.Kernel.S1000x128 EltTy.f32)
local notation "idxV" => (Memref.whole Cert.Kernel.main_v0_scv : Memref Cert.Kernel.sig Kind.scVector Space.hbm Cert.Kernel.S6400x128 EltTy.i32)
local notation "outV" => (Memref.whole Cert.Kernel.main_v1_scv : Memref Cert.Kernel.sig Kind.scVector Space.hbm Cert.Kernel.S819200x128 EltTy.f32)
local notation "shV" => (Memref.whole Cert.Kernel.cc0_scratch0 : Memref Cert.Kernel.sig Kind.scVector Space.shared Cert.Kernel.S1000x128 EltTy.f32)
local notation "ivV" => (Memref.whole Cert.Kernel.cc0_scratch1 : Memref Cert.Kernel.sig Kind.scVector Space.vmem Cert.Kernel.S6x128 EltTy.i32)
local notation "bigV" => (Memref.whole Cert.Kernel.cc0_scratch2 : Memref Cert.Kernel.sig Kind.scVector Space.vmem Cert.Kernel.S768x128 EltTy.f32)

variable (m : (ℓ : Loc nD τ sig) → Buf (Elt F) ℓ) (I : Dev nD → S6400x128.Idx → BitVec 32)

theorem bound_zero : grid0.bound 0 = 2 := rfl
theorem bound_one : grid0.bound 1 = 16 := rfl
/-- The subcore's SparseCore and number, as numbers of the two and of the sixteen. -/
abbrev cL (L : grid0.Coords) : Fin 2 := Fin.cast bound_zero (L 0)
abbrev iL (L : grid0.Coords) : Fin 16 := Fin.cast bound_one (L 1)

variable [FloatOps F]

/-- Handed to the task at (c, i): its read share of the index array, its part of the result at the launch contents,
    and, to subcore 0, the SparseCore's share of the table and the shared memory whole. -/
def goL (d : Dev nD) (L : grid0.Coords) : sProp 𝕄 :=
  iprop((idxLoc d ↦{shareTok (shareTok fullShare 2 (cL L)) 16 (iL L)} (I d : Buf (Elt F) (idxLoc d)))
    ∗ (outLoc d ↦[outSet (tileNo (cL L) (iL L))]{fullShare} m (outLoc d))
    ∗ (if (iL L).val = 0 then iprop((tabLoc d ↦{shareTok fullShare 2 (cL L)} m (tabLoc d)) ∗ ∃ f, shLoc d (cV L) ↦{fullShare} f) else iprop(emp)))

/-- Handed back: its part of the result at the lookup's values, its read token of the shared table at the table's
    contents, and, from subcore 0, what was left of the shared copy's share. -/
def tdL (d : Dev nD) (L : grid0.Coords) : sProp 𝕄 :=
  iprop((outLoc d ↦[outSet (tileNo (cL L) (iL L))]{fullShare} (outG m I d : Buf (Elt F) (outLoc d)))
    ∗ (shLoc d (cV L) ↦{shareTok fullShare 16 (iL L)} (tabC m d : Buf (Elt F) (shLoc d (cV L))))
    ∗ (if (iL L).val = 0 then iprop(shLoc d (cV L) ↦{shareDrop fullShare 16} (tabC m d : Buf (Elt F) (shLoc d (cV L)))) else iprop(emp)))

/-- The statement of a task's body. -/
def BodyStmt : Prop :=
  ∀ (hF : (K (F := F)).Facts) (d : Dev nD) (L : grid0.Coords) (O : CellTallies nD τ sig (HIx 1)) (W : Waits sig (HIx 1)) (hO : ∀ g, O g none = 0)
    (hOlev : ∀ g ι, 0 < O g ι → 8 * (0 : Fin 1).val + 6 ≤ (K (F := F)).lev g ι),
    iprop(levAts (K (F := F)).L (K (F := F)).lev ∗ bkit m d (cV L) (jV L)
        ∗ goL m I d L
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0_run L tabV (Memref.isWhole_whole _) idxV (Memref.isWhole_whole _) outV (Memref.isWhole_whole _) shV (Memref.isWhole_whole _) ivV (Memref.isWhole_whole _) bigV (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scoped0)
          fun _ => iprop(tdL m I d L ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W')

end Cert.Proof.KB
end
-- ==== Proof.KBScratch.lean ====
/-
  A subcore's scratch buffers and their pieces. The index scratch, six rows of 128 words, is its three two-row
  slots; the row buffer, 768 rows of 128, is its six pieces of 128 rows. The pieces are pairwise disjoint and
  cover the buffer, so a points-to of the whole buffer is the separating product of the pieces' at the same
  contents, and pieces held each at contents of its own join to the whole buffer at some contents.
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.Kernel
import proofs.«205516_g82884278878931_cont_9to1_m_1121_21_alg».proof.Proof.Gen.Kernel.Skeleton
import proofs.«205516_g82884278878931_cont_9to1_m_1121_21_alg».proof.Proof.Spec
import proofs.«205516_g82884278878931_cont_9to1_m_1121_21_alg».proof.Proof.KBPieces

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (tileNo shareTok shareDrop)

variable {F : FTy → Type}

local notation "𝕄" => MT nD τ sig (HIx 1) (Elt F) ℕ UU ℕ
local notation "tabV" => (Memref.whole Cert.Kernel.main_arg3_scv : Memref Cert.Kernel.sig Kind.scVector Space.hbm Cert.Kernel.S1000x128 EltTy.f32)
local notation "idxV" => (Memref.whole Cert.Kernel.main_v0_scv : Memref Cert.Kernel.sig Kind.scVector Space.hbm Cert.Kernel.S6400x128 EltTy.i32)
local notation "outV" => (Memref.whole Cert.Kernel.main_v1_scv : Memref Cert.Kernel.sig Kind.scVector Space.hbm Cert.Kernel.S819200x128 EltTy.f32)
local notation "shV" => (Memref.whole Cert.Kernel.cc0_scratch0 : Memref Cert.Kernel.sig Kind.scVector Space.shared Cert.Kernel.S1000x128 EltTy.f32)
local notation "ivV" => (Memref.whole Cert.Kernel.cc0_scratch1 : Memref Cert.Kernel.sig Kind.scVector Space.vmem Cert.Kernel.S6x128 EltTy.i32)
local notation "bigV" => (Memref.whole Cert.Kernel.cc0_scratch2 : Memref Cert.Kernel.sig Kind.scVector Space.vmem Cert.Kernel.S768x128 EltTy.f32)

/-! ## Splitting and joining along a chain of disjoint element sets -/

section Generic
variable {ℓ : Loc nD τ sig} {q : PosShare TreeShare}

/-- Along disjoint element sets, as an equation. -/
theorem pointsTo_union_eq {I J : Finset (Idx ℓ)} (h : Disjoint I J) (f : Buf (Elt F) ℓ) :
    (ℓ ↦[I ∪ J]{q} f : sProp 𝕄) = iprop((ℓ ↦[I]{q} f) ∗ ℓ ↦[J]{q} f) :=
  BI.equiv_iff.mp ⟨(pointsTo_union h).1, (pointsTo_union h).2⟩

/-- A piece at contents of its own and the rest at some contents are their union at some contents. -/
theorem join_step {I J : Finset (Idx ℓ)} (h : Disjoint I J) (f : Buf (Elt F) ℓ) (R : sProp 𝕄)
    (hR : R ⊢ iprop(∃ g, ℓ ↦[J]{q} g)) :
    iprop((ℓ ↦[I]{q} f) ∗ R) ⊢ (iprop(∃ g, ℓ ↦[I ∪ J]{q} g) : sProp 𝕄) := by
  iintro ⟨H, HR⟩
  ihave HR' := hR $$ HR
  icases HR' with ⟨%g, Hg⟩
  iexists (J.piecewise g f)
  iapply (pointsTo_join h)
  isplitl [H]; · iexact H
  iexact Hg

theorem join_last {J : Finset (Idx ℓ)} (f : Buf (Elt F) ℓ) :
    (ℓ ↦[J]{q} f : sProp 𝕄) ⊢ iprop(∃ g, ℓ ↦[J]{q} g) := by
  iintro H; iexists f; iexact H

/-- Three pairwise disjoint sets that cover a buffer: its points-to is the three sets', at one contents; -/
theorem split3 {A B C : Finset (Idx ℓ)} (h0 : Disjoint A (B ∪ C)) (h1 : Disjoint B C)
    (hcov : A ∪ (B ∪ C) = Finset.univ) (f : Buf (Elt F) ℓ) :
    (ℓ ↦{q} f : sProp 𝕄) ⊣⊢ iprop((ℓ ↦[A]{q} f) ∗ (ℓ ↦[B]{q} f) ∗ (ℓ ↦[C]{q} f)) := by
  rw [← hcov, pointsTo_union_eq h0, pointsTo_union_eq h1]

/-- and held each at contents of its own they join to the buffer at some contents. -/
theorem join3 {A B C : Finset (Idx ℓ)} (h0 : Disjoint A (B ∪ C)) (h1 : Disjoint B C)
    (hcov : A ∪ (B ∪ C) = Finset.univ) (f0 f1 f2 : Buf (Elt F) ℓ) :
    iprop((ℓ ↦[A]{q} f0) ∗ (ℓ ↦[B]{q} f1) ∗ (ℓ ↦[C]{q} f2)) ⊢ (iprop(∃ f, ℓ ↦{q} f) : sProp 𝕄) := by
  rw [← hcov]
  exact join_step h0 f0 _ (join_step h1 f1 _ (join_last f2))

/-- The same for six sets. -/
theorem split6 {A0 A1 A2 A3 A4 A5 : Finset (Idx ℓ)} (h0 : Disjoint A0 (A1 ∪ (A2 ∪ (A3 ∪ (A4 ∪ A5)))))
    (h1 : Disjoint A1 (A2 ∪ (A3 ∪ (A4 ∪ A5)))) (h2 : Disjoint A2 (A3 ∪ (A4 ∪ A5))) (h3 : Disjoint A3 (A4 ∪ A5))
    (h4 : Disjoint A4 A5) (hcov : A0 ∪ (A1 ∪ (A2 ∪ (A3 ∪ (A4 ∪ A5)))) = Finset.univ) (f : Buf (Elt F) ℓ) :
    (ℓ ↦{q} f : sProp 𝕄) ⊣⊢ iprop((ℓ ↦[A0]{q} f) ∗ (ℓ ↦[A1]{q} f) ∗ (ℓ ↦[A2]{q} f) ∗ (ℓ ↦[A3]{q} f) ∗ (ℓ ↦[A4]{q} f) ∗ (ℓ ↦[A5]{q} f)) := by
  rw [← hcov, pointsTo_union_eq h0, pointsTo_union_eq h1, pointsTo_union_eq h2, pointsTo_union_eq h3, pointsTo_union_eq h4]

theorem join6 {A0 A1 A2 A3 A4 A5 : Finset (Idx ℓ)} (h0 : Disjoint A0 (A1 ∪ (A2 ∪ (A3 ∪ (A4 ∪ A5)))))
    (h1 : Disjoint A1 (A2 ∪ (A3 ∪ (A4 ∪ A5)))) (h2 : Disjoint A2 (A3 ∪ (A4 ∪ A5))) (h3 : Disjoint A3 (A4 ∪ A5))
    (h4 : Disjoint A4 A5) (hcov : A0 ∪ (A1 ∪ (A2 ∪ (A3 ∪ (A4 ∪ A5)))) = Finset.univ) (f0 f1 f2 f3 f4 f5 : Buf (Elt F) ℓ) :
    iprop((ℓ ↦[A0]{q} f0) ∗ (ℓ ↦[A1]{q} f1) ∗ (ℓ ↦[A2]{q} f2) ∗ (ℓ ↦[A3]{q} f3) ∗ (ℓ ↦[A4]{q} f4) ∗ (ℓ ↦[A5]{q} f5))
      ⊢ (iprop(∃ f, ℓ ↦{q} f) : sProp 𝕄) := by
  rw [← hcov]
  exact join_step h0 f0 _ (join_step h1 f1 _ (join_step h2 f2 _ (join_step h3 f3 _ (join_step h4 f4 _ (join_last f5)))))

end Generic

/-! ## The row buffer's pieces have their rectangles' own elements -/

variable [FloatOps F]

omit [FloatOps F] in
theorem bigP0_set : (bigP0).view.set = (Rect.unit (s := S768x128) ![0, 0] S128x128.size inb_S768x128_S128x128_0_0).set := by
  show ((View.whole (cc0_scratch2 : Ref sig .scVector)).slice (Rect.unit (s := S768x128) ![0, 0] S128x128.size inb_S768x128_S128x128_0_0)).set = _
  rw [View.set_slice]; exact Finset.map_refl

omit [FloatOps F] in
theorem bigP1_set : (bigP1).view.set = (Rect.unit (s := S768x128) ![128, 0] S128x128.size inb_S768x128_S128x128_128_0).set := by
  show ((View.whole (cc0_scratch2 : Ref sig .scVector)).slice (Rect.unit (s := S768x128) ![128, 0] S128x128.size inb_S768x128_S128x128_128_0)).set = _
  rw [View.set_slice]; exact Finset.map_refl

omit [FloatOps F] in
theorem bigP2_set : (bigP2).view.set = (Rect.unit (s := S768x128) ![256, 0] S128x128.size inb_S768x128_S128x128_256_0).set := by
  show ((View.whole (cc0_scratch2 : Ref sig .scVector)).slice (Rect.unit (s := S768x128) ![256, 0] S128x128.size inb_S768x128_S128x128_256_0)).set = _
  rw [View.set_slice]; exact Finset.map_refl

omit [FloatOps F] in
theorem bigP3_set : (bigP3).view.set = (Rect.unit (s := S768x128) ![384, 0] S128x128.size inb_S768x128_S128x128_384_0).set := by
  show ((View.whole (cc0_scratch2 : Ref sig .scVector)).slice (Rect.unit (s := S768x128) ![384, 0] S128x128.size inb_S768x128_S128x128_384_0)).set = _
  rw [View.set_slice]; exact Finset.map_refl

omit [FloatOps F] in
theorem bigP4_set : (bigP4).view.set = (Rect.unit (s := S768x128) ![512, 0] S128x128.size inb_S768x128_S128x128_512_0).set := by
  show ((View.whole (cc0_scratch2 : Ref sig .scVector)).slice (Rect.unit (s := S768x128) ![512, 0] S128x128.size inb_S768x128_S128x128_512_0)).set = _
  rw [View.set_slice]; exact Finset.map_refl

omit [FloatOps F] in
theorem bigP5_set : (bigP5).view.set = (Rect.unit (s := S768x128) ![640, 0] S128x128.size inb_S768x128_S128x128_640_0).set := by
  show ((View.whole (cc0_scratch2 : Ref sig .scVector)).slice (Rect.unit (s := S768x128) ![640, 0] S128x128.size inb_S768x128_S128x128_640_0)).set = _
  rw [View.set_slice]; exact Finset.map_refl

/-! ## The slots are pairwise disjoint and cover the index scratch; the pieces, the row buffer -/

omit [FloatOps F] in
theorem iv_disj_0_1 : Disjoint (ivS0).view.set (ivS1).view.set := by
  rw [ivS0_set, ivS1_set]
  exact Rect.unit_disjoint 0 (Or.inl (by decide))

omit [FloatOps F] in
theorem iv_disj_0_2 : Disjoint (ivS0).view.set (ivS2).view.set := by
  rw [ivS0_set, ivS2_set]
  exact Rect.unit_disjoint 0 (Or.inl (by decide))

omit [FloatOps F] in
theorem iv_disj_1_2 : Disjoint (ivS1).view.set (ivS2).view.set := by
  rw [ivS1_set, ivS2_set]
  exact Rect.unit_disjoint 0 (Or.inl (by decide))

omit [FloatOps F] in
theorem big_disj_0_1 : Disjoint (bigP0).view.set (bigP1).view.set := by
  rw [bigP0_set, bigP1_set]
  exact Rect.unit_disjoint 0 (Or.inl (by decide))

omit [FloatOps F] in
theorem big_disj_0_2 : Disjoint (bigP0).view.set (bigP2).view.set := by
  rw [bigP0_set, bigP2_set]
  exact Rect.unit_disjoint 0 (Or.inl (by decide))

omit [FloatOps F] in
theorem big_disj_0_3 : Disjoint (bigP0).view.set (bigP3).view.set := by
  rw [bigP0_set, bigP3_set]
  exact Rect.unit_disjoint 0 (Or.inl (by decide))

omit [FloatOps F] in
theorem big_disj_0_4 : Disjoint (bigP0).view.set (bigP4).view.set := by
  rw [bigP0_set, bigP4_set]
  exact Rect.unit_disjoint 0 (Or.inl (by decide))

omit [FloatOps F] in
theorem big_disj_0_5 : Disjoint (bigP0).view.set (bigP5).view.set := by
  rw [bigP0_set, bigP5_set]
  exact Rect.unit_disjoint 0 (Or.inl (by decide))

omit [FloatOps F] in
theorem big_disj_1_2 : Disjoint (bigP1).view.set (bigP2).view.set := by
  rw [bigP1_set, bigP2_set]
  exact Rect.unit_disjoint 0 (Or.inl (by decide))

omit [FloatOps F] in
theorem big_disj_1_3 : Disjoint (bigP1).view.set (bigP3).view.set := by
  rw [bigP1_set, bigP3_set]
  exact Rect.unit_disjoint 0 (Or.inl (by decide))

omit [FloatOps F] in
theorem big_disj_1_4 : Disjoint (bigP1).view.set (bigP4).view.set := by
  rw [bigP1_set, bigP4_set]
  exact Rect.unit_disjoint 0 (Or.inl (by decide))

omit [FloatOps F] in
theorem big_disj_1_5 : Disjoint (bigP1).view.set (bigP5).view.set := by
  rw [bigP1_set, bigP5_set]
  exact Rect.unit_disjoint 0 (Or.inl (by decide))

omit [FloatOps F] in
theorem big_disj_2_3 : Disjoint (bigP2).view.set (bigP3).view.set := by
  rw [bigP2_set, bigP3_set]
  exact Rect.unit_disjoint 0 (Or.inl (by decide))

omit [FloatOps F] in
theorem big_disj_2_4 : Disjoint (bigP2).view.set (bigP4).view.set := by
  rw [bigP2_set, bigP4_set]
  exact Rect.unit_disjoint 0 (Or.inl (by decide))

omit [FloatOps F] in
theorem big_disj_2_5 : Disjoint (bigP2).view.set (bigP5).view.set := by
  rw [bigP2_set, bigP5_set]
  exact Rect.unit_disjoint 0 (Or.inl (by decide))

omit [FloatOps F] in
theorem big_disj_3_4 : Disjoint (bigP3).view.set (bigP4).view.set := by
  rw [bigP3_set, bigP4_set]
  exact Rect.unit_disjoint 0 (Or.inl (by decide))

omit [FloatOps F] in
theorem big_disj_3_5 : Disjoint (bigP3).view.set (bigP5).view.set := by
  rw [bigP3_set, bigP5_set]
  exact Rect.unit_disjoint 0 (Or.inl (by decide))

omit [FloatOps F] in
theorem big_disj_4_5 : Disjoint (bigP4).view.set (bigP5).view.set := by
  rw [bigP4_set, bigP5_set]
  exact Rect.unit_disjoint 0 (Or.inl (by decide))

omit [FloatOps F] in
theorem iv_cover : (ivS0).view.set ∪ ((ivS1).view.set ∪ (ivS2).view.set) = Finset.univ := by
  rw [ivS0_set, ivS1_set, ivS2_set]
  ext x
  simp only [Finset.mem_univ, Finset.mem_union, Rect.mem_set_unit, iff_true]
  have hx : (x 0).val < 6 := (x 0).isLt
  have hy : (x 1).val < 128 := (x 1).isLt
  by_cases h0 : (x 0).val < 2
  · left; intro a; match a with
      | 0 => exact ⟨(show 0 ≤ (x 0).val by omega), (show (x 0).val < 0 + 2 by omega)⟩
      | 1 => exact ⟨(show 0 ≤ (x 1).val by omega), (show (x 1).val < 0 + 128 by omega)⟩
  · right
    by_cases h1 : (x 0).val < 4
    · left; intro a; match a with
      | 0 => exact ⟨(show 2 ≤ (x 0).val by omega), (show (x 0).val < 2 + 2 by omega)⟩
      | 1 => exact ⟨(show 0 ≤ (x 1).val by omega), (show (x 1).val < 0 + 128 by omega)⟩
    · right; intro a; match a with
      | 0 => exact ⟨(show 4 ≤ (x 0).val by omega), (show (x 0).val < 4 + 2 by omega)⟩
      | 1 => exact ⟨(show 0 ≤ (x 1).val by omega), (show (x 1).val < 0 + 128 by omega)⟩

omit [FloatOps F] in
theorem big_cover : (bigP0).view.set ∪ ((bigP1).view.set ∪ ((bigP2).view.set ∪ ((bigP3).view.set ∪ ((bigP4).view.set ∪ (bigP5).view.set)))) = Finset.univ := by
  rw [bigP0_set, bigP1_set, bigP2_set, bigP3_set, bigP4_set, bigP5_set]
  ext x
  simp only [Finset.mem_univ, Finset.mem_union, Rect.mem_set_unit, iff_true]
  have hx : (x 0).val < 768 := (x 0).isLt
  have hy : (x 1).val < 128 := (x 1).isLt
  by_cases h0 : (x 0).val < 128
  · left; intro a; match a with
      | 0 => exact ⟨(show 0 ≤ (x 0).val by omega), (show (x 0).val < 0 + 128 by omega)⟩
      | 1 => exact ⟨(show 0 ≤ (x 1).val by omega), (show (x 1).val < 0 + 128 by omega)⟩
  · right
    by_cases h1 : (x 0).val < 256
    · left; intro a; match a with
        | 0 => exact ⟨(show 128 ≤ (x 0).val by omega), (show (x 0).val < 128 + 128 by omega)⟩
        | 1 => exact ⟨(show 0 ≤ (x 1).val by omega), (show (x 1).val < 0 + 128 by omega)⟩
    · right
      by_cases h2 : (x 0).val < 384
      · left; intro a; match a with
          | 0 => exact ⟨(show 256 ≤ (x 0).val by omega), (show (x 0).val < 256 + 128 by omega)⟩
          | 1 => exact ⟨(show 0 ≤ (x 1).val by omega), (show (x 1).val < 0 + 128 by omega)⟩
      · right
        by_cases h3 : (x 0).val < 512
        · left; intro a; match a with
            | 0 => exact ⟨(show 384 ≤ (x 0).val by omega), (show (x 0).val < 384 + 128 by omega)⟩
            | 1 => exact ⟨(show 0 ≤ (x 1).val by omega), (show (x 1).val < 0 + 128 by omega)⟩
        · right
          by_cases h4 : (x 0).val < 640
          · left; intro a; match a with
              | 0 => exact ⟨(show 512 ≤ (x 0).val by omega), (show (x 0).val < 512 + 128 by omega)⟩
              | 1 => exact ⟨(show 0 ≤ (x 1).val by omega), (show (x 1).val < 0 + 128 by omega)⟩
          · right
            intro a; match a with
              | 0 => exact ⟨(show 640 ≤ (x 0).val by omega), (show (x 0).val < 640 + 128 by omega)⟩
              | 1 => exact ⟨(show 0 ≤ (x 1).val by omega), (show (x 1).val < 0 + 128 by omega)⟩

/-! ## The buffers split into their pieces and the pieces join -/

omit [FloatOps F] in
/-- The index scratch is its three slots, at any contents. -/
theorem ivV_split (d : Dev nD) (c : Fin τ.nSC) (j : Fin τ.nSub) (f : Buf (Elt F) ((ivV).view.loc (V d c j))) :
    ((ivV).view.loc (V d c j) ↦{fullShare} f : sProp 𝕄)
      ⊣⊢ iprop(((ivS0).view.loc (V d c j) ↦[(ivS0).view.set]{fullShare} f) ∗ ((ivS1).view.loc (V d c j) ↦[(ivS1).view.set]{fullShare} f) ∗ ((ivS2).view.loc (V d c j) ↦[(ivS2).view.set]{fullShare} f)) :=
  split3 (Finset.disjoint_union_right.mpr ⟨iv_disj_0_1, iv_disj_0_2⟩) iv_disj_1_2 iv_cover f

omit [FloatOps F] in
/-- The three slots, each at contents of its own, are the index scratch at some contents. -/
theorem ivV_join (d : Dev nD) (c : Fin τ.nSC) (j : Fin τ.nSub) (f0 : Buf (Elt F) ((ivS0).view.loc (V d c j)))
    (f1 : Buf (Elt F) ((ivS1).view.loc (V d c j))) (f2 : Buf (Elt F) ((ivS2).view.loc (V d c j))) :
    iprop(((ivS0).view.loc (V d c j) ↦[(ivS0).view.set]{fullShare} f0) ∗ ((ivS1).view.loc (V d c j) ↦[(ivS1).view.set]{fullShare} f1) ∗ ((ivS2).view.loc (V d c j) ↦[(ivS2).view.set]{fullShare} f2))
      ⊢ (iprop(∃ f, (ivV).view.loc (V d c j) ↦{fullShare} f) : sProp 𝕄) :=
  join3 (Finset.disjoint_union_right.mpr ⟨iv_disj_0_1, iv_disj_0_2⟩) iv_disj_1_2 iv_cover f0 f1 f2

omit [FloatOps F] in
/-- The row buffer is its six pieces, at any contents. -/
theorem bigV_split (d : Dev nD) (c : Fin τ.nSC) (j : Fin τ.nSub) (f : Buf (Elt F) ((bigV).view.loc (V d c j))) :
    ((bigV).view.loc (V d c j) ↦{fullShare} f : sProp 𝕄)
      ⊣⊢ iprop(((bigP0).view.loc (V d c j) ↦[(bigP0).view.set]{fullShare} f)
          ∗ ((bigP1).view.loc (V d c j) ↦[(bigP1).view.set]{fullShare} f)
          ∗ ((bigP2).view.loc (V d c j) ↦[(bigP2).view.set]{fullShare} f)
          ∗ ((bigP3).view.loc (V d c j) ↦[(bigP3).view.set]{fullShare} f)
          ∗ ((bigP4).view.loc (V d c j) ↦[(bigP4).view.set]{fullShare} f)
          ∗ ((bigP5).view.loc (V d c j) ↦[(bigP5).view.set]{fullShare} f)) :=
  split6 (Finset.disjoint_union_right.mpr ⟨big_disj_0_1, (Finset.disjoint_union_right.mpr ⟨big_disj_0_2, (Finset.disjoint_union_right.mpr ⟨big_disj_0_3, (Finset.disjoint_union_right.mpr ⟨big_disj_0_4, big_disj_0_5⟩)⟩)⟩)⟩)
    (Finset.disjoint_union_right.mpr ⟨big_disj_1_2, (Finset.disjoint_union_right.mpr ⟨big_disj_1_3, (Finset.disjoint_union_right.mpr ⟨big_disj_1_4, big_disj_1_5⟩)⟩)⟩)
    (Finset.disjoint_union_right.mpr ⟨big_disj_2_3, (Finset.disjoint_union_right.mpr ⟨big_disj_2_4, big_disj_2_5⟩)⟩)
    (Finset.disjoint_union_right.mpr ⟨big_disj_3_4, big_disj_3_5⟩)
    big_disj_4_5 big_cover f

omit [FloatOps F] in
/-- The six pieces, each at contents of its own, are the row buffer at some contents. -/
theorem bigV_join (d : Dev nD) (c : Fin τ.nSC) (j : Fin τ.nSub)
    (f0 : Buf (Elt F) ((bigP0).view.loc (V d c j)))
    (f1 : Buf (Elt F) ((bigP1).view.loc (V d c j)))
    (f2 : Buf (Elt F) ((bigP2).view.loc (V d c j)))
    (f3 : Buf (Elt F) ((bigP3).view.loc (V d c j)))
    (f4 : Buf (Elt F) ((bigP4).view.loc (V d c j)))
    (f5 : Buf (Elt F) ((bigP5).view.loc (V d c j))) :
    iprop(((bigP0).view.loc (V d c j) ↦[(bigP0).view.set]{fullShare} f0)
          ∗ ((bigP1).view.loc (V d c j) ↦[(bigP1).view.set]{fullShare} f1)
          ∗ ((bigP2).view.loc (V d c j) ↦[(bigP2).view.set]{fullShare} f2)
          ∗ ((bigP3).view.loc (V d c j) ↦[(bigP3).view.set]{fullShare} f3)
          ∗ ((bigP4).view.loc (V d c j) ↦[(bigP4).view.set]{fullShare} f4)
          ∗ ((bigP5).view.loc (V d c j) ↦[(bigP5).view.set]{fullShare} f5))
      ⊢ (iprop(∃ f, (bigV).view.loc (V d c j) ↦{fullShare} f) : sProp 𝕄) :=
  join6 (Finset.disjoint_union_right.mpr ⟨big_disj_0_1, (Finset.disjoint_union_right.mpr ⟨big_disj_0_2, (Finset.disjoint_union_right.mpr ⟨big_disj_0_3, (Finset.disjoint_union_right.mpr ⟨big_disj_0_4, big_disj_0_5⟩)⟩)⟩)⟩)
    (Finset.disjoint_union_right.mpr ⟨big_disj_1_2, (Finset.disjoint_union_right.mpr ⟨big_disj_1_3, (Finset.disjoint_union_right.mpr ⟨big_disj_1_4, big_disj_1_5⟩)⟩)⟩)
    (Finset.disjoint_union_right.mpr ⟨big_disj_2_3, (Finset.disjoint_union_right.mpr ⟨big_disj_2_4, big_disj_2_5⟩)⟩)
    (Finset.disjoint_union_right.mpr ⟨big_disj_3_4, big_disj_3_5⟩)
    big_disj_4_5 big_cover f0 f1 f2 f3 f4 f5

omit [FloatOps F] in
/-- The buffers as the subcore's memrefs address them are the thread's own scratch buffers. -/
theorem pts_ivV (d : Dev nD) (c : Fin τ.nSC) (j : Fin τ.nSub) (f : Buf (Elt F) ((ivV).view.loc (V d c j))) :
    ((ivV).view.loc (V d c j) ↦{fullShare} f : sProp 𝕄) = (V d c j).loc cc0_scratch1 ↦{fullShare} f := rfl

omit [FloatOps F] in
theorem pts_bigV (d : Dev nD) (c : Fin τ.nSC) (j : Fin τ.nSub) (f : Buf (Elt F) ((bigV).view.loc (V d c j))) :
    ((bigV).view.loc (V d c j) ↦{fullShare} f : sProp 𝕄) = (V d c j).loc cc0_scratch2 ↦{fullShare} f := rfl

end Cert.Proof.KB

end
-- ==== Proof.KBValueLemmas.lean ====
/-
  Values at an index. The contents the ring's invariant names, read through the pieces the program addresses:
  an index fetch lands the next trip's rows of the index array in its slot of the index scratch; every list of
  index words the scratch is to hold has its words below the table's height when the index array's words lie in
  [0, 999]; and each 128-row window of the result holds the gather of the table's rows at its list.
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.Kernel
import proofs.«205516_g82884278878931_cont_9to1_m_1121_21_alg».proof.Proof.Gen.Kernel.Skeleton
import proofs.«205516_g82884278878931_cont_9to1_m_1121_21_alg».proof.Proof.Spec
import proofs.«205516_g82884278878931_cont_9to1_m_1121_21_alg».proof.Proof.KBPieces
import proofs.«205516_g82884278878931_cont_9to1_m_1121_21_alg».proof.Proof.KBPay
import proofs.«205516_g82884278878931_cont_9to1_m_1121_21_alg».proof.Proof.KBValue

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (tileNo shareTok shareDrop)

variable {F : FTy → Type}

local notation "𝕄" => MT nD τ sig (HIx 1) (Elt F) ℕ UU ℕ
local notation "tabV" => (Memref.whole Cert.Kernel.main_arg3_scv : Memref Cert.Kernel.sig Kind.scVector Space.hbm Cert.Kernel.S1000x128 EltTy.f32)
local notation "idxV" => (Memref.whole Cert.Kernel.main_v0_scv : Memref Cert.Kernel.sig Kind.scVector Space.hbm Cert.Kernel.S6400x128 EltTy.i32)
local notation "outV" => (Memref.whole Cert.Kernel.main_v1_scv : Memref Cert.Kernel.sig Kind.scVector Space.hbm Cert.Kernel.S819200x128 EltTy.f32)
local notation "shV" => (Memref.whole Cert.Kernel.cc0_scratch0 : Memref Cert.Kernel.sig Kind.scVector Space.shared Cert.Kernel.S1000x128 EltTy.f32)
local notation "ivV" => (Memref.whole Cert.Kernel.cc0_scratch1 : Memref Cert.Kernel.sig Kind.scVector Space.vmem Cert.Kernel.S6x128 EltTy.i32)
local notation "bigV" => (Memref.whole Cert.Kernel.cc0_scratch2 : Memref Cert.Kernel.sig Kind.scVector Space.vmem Cert.Kernel.S768x128 EltTy.f32)

variable (m : (ℓ : Loc nD τ sig) → Buf (Elt F) ℓ) (I : Dev nD → S6400x128.Idx → BitVec 32) (d : Dev nD) (L : grid0.Coords)

/-! ## The range of the list words -/

/-- Every word the index scratch is to hold is a word of the index array: below the table's height when the index
    array's words, read signed, lie in [0, 999]. -/
theorem ivC_lt (hI : ∀ x, 0 ≤ (I d x).toInt ∧ (I d x).toInt ≤ 999) (k : ℕ) (x : S6x128.Idx) : (ivC I d L k x).toNat < 1000 :=
  Cert.Spec.toNat_lt_of_range _ (hI _).1 (hI _).2

variable [FloatOps F]

/-- Row r of the index scratch, read as a list of 128 words: each word is below the table's height. -/
theorem hin0 (hI : ∀ x, 0 ≤ (I d x).toInt ∧ (I d x).toInt ≤ 999) (k : ℕ) :
    ∀ x, ((ivL0).view.read (Elt F) (ivC I d L k) x).toNat < S1000x128.size gathers_S1000x128_S128x128.axis :=
  fun x => ivC_lt I d L hI k ((ivL0).view.emb x)

theorem hin1 (hI : ∀ x, 0 ≤ (I d x).toInt ∧ (I d x).toInt ≤ 999) (k : ℕ) :
    ∀ x, ((ivL1).view.read (Elt F) (ivC I d L k) x).toNat < S1000x128.size gathers_S1000x128_S128x128.axis :=
  fun x => ivC_lt I d L hI k ((ivL1).view.emb x)

theorem hin2 (hI : ∀ x, 0 ≤ (I d x).toInt ∧ (I d x).toInt ≤ 999) (k : ℕ) :
    ∀ x, ((ivL2).view.read (Elt F) (ivC I d L k) x).toNat < S1000x128.size gathers_S1000x128_S128x128.axis :=
  fun x => ivC_lt I d L hI k ((ivL2).view.emb x)

theorem hin3 (hI : ∀ x, 0 ≤ (I d x).toInt ∧ (I d x).toInt ≤ 999) (k : ℕ) :
    ∀ x, ((ivL3).view.read (Elt F) (ivC I d L k) x).toNat < S1000x128.size gathers_S1000x128_S128x128.axis :=
  fun x => ivC_lt I d L hI k ((ivL3).view.emb x)

theorem hin4 (hI : ∀ x, 0 ≤ (I d x).toInt ∧ (I d x).toInt ≤ 999) (k : ℕ) :
    ∀ x, ((ivL4).view.read (Elt F) (ivC I d L k) x).toNat < S1000x128.size gathers_S1000x128_S128x128.axis :=
  fun x => ivC_lt I d L hI k ((ivL4).view.emb x)

theorem hin5 (hI : ∀ x, 0 ≤ (I d x).toInt ∧ (I d x).toInt ≤ 999) (k : ℕ) :
    ∀ x, ((ivL5).view.read (Elt F) (ivC I d L k) x).toNat < S1000x128.size gathers_S1000x128_S128x128.axis :=
  fun x => ivC_lt I d L hI k ((ivL5).view.emb x)

/-! ## What an index fetch lands -/

omit [FloatOps F] in
/-- The worker's rows of the index array lie inside it: row baseI + j for j < 200 is below 6400. -/
theorem baseI_lt (L : grid0.Coords) : baseI L + 200 ≤ 6400 := by
  have h0 : (L 0).val < 2 := (L 0).isLt
  have h1 : (L 1).val < 16 := (L 1).isLt
  unfold baseI
  omega

/-- The two-row slot of the index scratch at rows ro, ro + 1, read at the contents the scratch is to hold before
    trip k, is the two-row window of the index array at rows baseI + 6 k + ro and the next, read at the index array:
    row t of either is row baseI + 6 k + ro + t of the index array (no reduction: the row is below 6400). -/
theorem fetch_generic (k ro : ℕ) (inbS : ∀ a, (![ro, 0] : Fin 2 → ℕ) a + S2x128.size a ≤ S6x128.size a)
    (off : Fin S6400x128.rank → ℕ) (inbI : ∀ a, off a + S2x128.size a ≤ S6400x128.size a)
    (h0 : off 0 = baseI L + 6 * k + ro) (h1 : off 1 = 0) (y : S2x128.Idx) :
    ((ivV).slice (Rect.unit (s := S6x128) ![ro, 0] S2x128.size inbS) (fun _ => rfl)).view.read (Elt F) (ivC I d L k) y
      = ((idxV).slice (Rect.unit (s := S6400x128) off S2x128.size inbI) (fun _ => rfl)).view.read (Elt F) (I d) y := by
  rw [View.read_apply, View.read_apply]
  show ivC I d L k _ = I d _
  unfold ivC
  congr 1
  funext a
  refine Fin.ext ?_
  have hy0 : (y 0).val < 2 := (y 0).isLt
  have hb := inbI 0
  have hs : S2x128.size 0 = 2 := rfl
  have hS : S6400x128.size 0 = 6400 := rfl
  match a with
  | ⟨0, _⟩ =>
    show (baseI L + 6 * k + (ro + 1 * (y 0).val)) % 6400 = off 0 + 1 * (y 0).val
    rw [h0, Nat.mod_eq_of_lt (by rw [h0, hs, hS] at hb; omega)]
    omega
  | ⟨1, _⟩ =>
    show 0 + 1 * (y 1).val = off 1 + 1 * (y 1).val
    rw [h1]

/-- The prologue's three fetches land the rows the scratch is to hold before trip 0. -/
theorem fetchP0 (y : S2x128.Idx) : (ivS0).view.read (Elt F) (ivC I d L 0) y = (idxP0 L).view.read (Elt F) (I d) y :=
  fetch_generic I d L 0 0 inb_S6x128_S2x128_0_0 (k0_off1 L 0#32) (k0_off1_inb L 0)
    ((congrFun (k0_off1_eq L 0) 0).trans (by
      show 400 * (L 1).val + 200 * (L 0).val + 2 * 0 = baseI L + 6 * 0 + 0
      unfold baseI; omega))
    (congrFun (k0_off1_eq L 0) 1) y

theorem fetchP1 (y : S2x128.Idx) : (ivS1).view.read (Elt F) (ivC I d L 0) y = (idxP1 L).view.read (Elt F) (I d) y :=
  fetch_generic I d L 0 2 inb_S6x128_S2x128_2_0 (k0_off1 L 2#32) (k0_off1_inb L 1)
    ((congrFun (k0_off1_eq L 1) 0).trans (by
      show 400 * (L 1).val + 200 * (L 0).val + 2 * 1 = baseI L + 6 * 0 + 2
      unfold baseI; omega))
    (congrFun (k0_off1_eq L 1) 1) y

theorem fetchP2 (y : S2x128.Idx) : (ivS2).view.read (Elt F) (ivC I d L 0) y = (idxP2 L).view.read (Elt F) (I d) y :=
  fetch_generic I d L 0 4 inb_S6x128_S2x128_4_0 (k0_off1 L 4#32) (k0_off1_inb L 2)
    ((congrFun (k0_off1_eq L 2) 0).trans (by
      show 400 * (L 1).val + 200 * (L 0).val + 2 * 2 = baseI L + 6 * 0 + 4
      unfold baseI; omega))
    (congrFun (k0_off1_eq L 2) 1) y

/-- Trip k's three fetches land the rows the scratch is to hold before trip k + 1. -/
theorem fetchW0 (k : Fin k0_t1_loop.trips) (h : k0_cond5 k = 1#1) (y : S2x128.Idx) :
    (ivS0).view.read (Elt F) (ivC I d L (k.val + 1)) y = (idxW0 L k h).view.read (Elt F) (I d) y :=
  fetch_generic I d L (k.val + 1) 0 inb_S6x128_S2x128_0_0 (k0_off6 L k) (k0_off6_inb L k h)
    ((congrFun (k0_off6_eq L k) 0).trans (by
      show 400 * (L 1).val + 200 * (L 0).val + 6 * k.val + 6 = baseI L + 6 * (k.val + 1) + 0
      unfold baseI; omega))
    (congrFun (k0_off6_eq L k) 1) y

theorem fetchW1 (k : Fin k0_t1_loop.trips) (h : k0_cond6 k = 1#1) (y : S2x128.Idx) :
    (ivS1).view.read (Elt F) (ivC I d L (k.val + 1)) y = (idxW1 L k h).view.read (Elt F) (I d) y :=
  fetch_generic I d L (k.val + 1) 2 inb_S6x128_S2x128_2_0 (k0_off7 L k) (k0_off7_inb L k h)
    ((congrFun (k0_off7_eq L k) 0).trans (by
      show 400 * (L 1).val + 200 * (L 0).val + 6 * k.val + 8 = baseI L + 6 * (k.val + 1) + 2
      unfold baseI; omega))
    (congrFun (k0_off7_eq L k) 1) y

theorem fetchW2 (k : Fin k0_t1_loop.trips) (h : k0_cond7 k = 1#1) (y : S2x128.Idx) :
    (ivS2).view.read (Elt F) (ivC I d L (k.val + 1)) y = (idxW2 L k h).view.read (Elt F) (I d) y :=
  fetch_generic I d L (k.val + 1) 4 inb_S6x128_S2x128_4_0 (k0_off8 L k) (k0_off8_inb L k h)
    ((congrFun (k0_off8_eq L k) 0).trans (by
      show 400 * (L 1).val + 200 * (L 0).val + 6 * k.val + 10 = baseI L + 6 * (k.val + 1) + 4
      unfold baseI; omega))
    (congrFun (k0_off8_eq L k) 1) y

/-! ## What a result copy lands -/

omit [FloatOps F] in
/-- The worker's first row of the result is 128 times its first row of the index array. -/
theorem baseO_eq (L : grid0.Coords) : baseO L = 128 * baseI L := by unfold baseO baseI; omega

omit [FloatOps F] in
/-- Word x of the list in row ro of the index scratch sits at (ro, x): the list is the one-row rectangle at row ro with
    its unit axis dropped. -/
theorem list_emb (ro : ℕ) (inbL : ∀ a, (![ro, 0] : Fin 2 → ℕ) a + S1x128.size a ≤ S6x128.size a) (x : S128.Idx) (a : Fin 2) :
    (((((ivV).slice (Rect.unit (s := S6x128) ![ro, 0] S1x128.size inbL) (fun _ => rfl)).squeeze S128 squeezes_S1x128_S128).view.emb x) a).val
      = (![ro, (x 0).val] : Fin 2 → ℕ) a := by
  show ((Rect.unit (s := S6x128) ![ro, 0] S1x128.size inbL).emb (Shape.reshapeEquiv _ x) a).val = _
  rw [Shape.reshapeEquiv_cons_one]
  match a with
  | ⟨0, _⟩ => show ro + 1 * 0 = ro; omega
  | ⟨1, _⟩ => show 0 + 1 * (x 0).val = (x 0).val; omega

omit [FloatOps F] in
/-- At rank one the index with row-major position z has coordinate z. -/
theorem symm_val_one (z : Fin S128.numel) : ((S128.rowMajor.symm z) 0).val = z.val := by
  have h := Shape.rowMajor_val_one (d := ![128]) (S128.rowMajor.symm z)
  rw [Equiv.apply_symm_apply] at h
  exact h.symm

/-- The 128-row window of the result at row baseO + 128 (6 k + ro), read at the lookup of the whole index array, is the
    gather of the table's rows at the list in row ro of the index scratch as it is to stand before trip k: result row
    128 (baseI + 6 k + ro) + t reads word t of row baseI + 6 k + ro of the index array, which is word t of that list. -/
theorem out_generic (hI : ∀ x, 0 ≤ (I d x).toInt ∧ (I d x).toInt ≤ 999) (k ro : ℕ) (hk : 6 * k + ro < 200)
    (inbL : ∀ a, (![ro, 0] : Fin 2 → ℕ) a + S1x128.size a ≤ S6x128.size a)
    (off : Fin S819200x128.rank → ℕ) (inbO : ∀ a, off a + S128x128.size a ≤ S819200x128.size a)
    (h0 : off 0 = baseO L + 128 * (6 * k + ro)) (h1 : off 1 = 0)
    (hn : S128.numel = S128x128.size gathers_S1000x128_S128x128.axis')
    (hin : ∀ x, ((((ivV).slice (Rect.unit (s := S6x128) ![ro, 0] S1x128.size inbL) (fun _ => rfl)).squeeze S128 squeezes_S1x128_S128).view.read (Elt F) (ivC I d L k) x).toNat
      < S1000x128.size gathers_S1000x128_S128x128.axis)
    (y : S128x128.Idx) :
    ((outV).slice (Rect.unit (s := S819200x128) off S128x128.size inbO) (fun _ => rfl)).view.read (Elt F) (outG m I d) y
      = SparseCore.gatherPayload gathers_S1000x128_S128x128 ((shW).view.read (Elt F) (tabC m d))
          (SparseCore.rows ((((ivV).slice (Rect.unit (s := S6x128) ![ro, 0] S1x128.size inbL) (fun _ => rfl)).squeeze S128 squeezes_S1x128_S128).view.read (Elt F) (ivC I d L k)) hn hin) y := by
  unfold SparseCore.gatherPayload
  rw [View.read_apply, View.read_apply]
  show outG m I d _ = tabC m d _
  unfold outG
  congr 1
  funext b
  refine Fin.ext ?_
  have hy : (y 0).val < 128 := (y 0).isLt
  have hB := baseI_lt L
  match b with
  | ⟨0, _⟩ =>
    rw [Cert.Spec.rowOf_val_of_range _ (hI _).1 (hI _).2]
    show (I d _).toNat = 0 + 1 * (ivC I d L k
      (((((ivV).slice (Rect.unit (s := S6x128) ![ro, 0] S1x128.size inbL) (fun _ => rfl)).squeeze S128 squeezes_S1x128_S128).view.emb
        (S128.rowMajor.symm ((y 0).cast hn.symm))))).toNat
    rw [Nat.zero_add, Nat.one_mul]
    unfold ivC
    congr 2
    funext a
    refine Fin.ext ?_
    match a with
    | ⟨0, _⟩ =>
      show (off 0 + 1 * (y 0).val) / 128 = (baseI L + 6 * k + _) % 6400
      rw [list_emb ro inbL _ 0]
      show (off 0 + 1 * (y 0).val) / 128 = (baseI L + 6 * k + ro) % 6400
      rw [h0, baseO_eq, Nat.mod_eq_of_lt (by omega)]
      omega
    | ⟨1, _⟩ =>
      show (off 0 + 1 * (y 0).val) % 128 = _
      rw [list_emb ro inbL _ 1]
      show (off 0 + 1 * (y 0).val) % 128 = ((S128.rowMajor.symm ((y 0).cast hn.symm)) 0).val
      rw [symm_val_one, h0, baseO_eq]
      show _ = (y 0).val
      omega
  | ⟨1, _⟩ =>
    show off 1 + 1 * (y 1).val = 0 + 1 * ((gathers_S1000x128_S128x128.idx _ y) 1).val
    rw [h1, Shape.Gathers.idx_of_ne _ _ _ 1 (by decide)]
    rfl

/-- The six result windows trip k writes: window r (of rows 128 (6 k + r) on of the worker's part) holds the gather at
    the list in row r of the index scratch as it stands before trip k. -/
theorem outV0 (hI : ∀ x, 0 ≤ (I d x).toInt ∧ (I d x).toInt ≤ 999) (k : Fin k0_t1_loop.trips)
    (hn : S128.numel = S128x128.size gathers_S1000x128_S128x128.axis')
    (hin : ∀ x, ((ivL0).view.read (Elt F) (ivC I d L k.val) x).toNat < S1000x128.size gathers_S1000x128_S128x128.axis) (y : S128x128.Idx) :
    (outCh0 L k).view.read (Elt F) (outG m I d) y
      = SparseCore.gatherPayload gathers_S1000x128_S128x128 ((shW).view.read (Elt F) (tabC m d))
          (SparseCore.rows ((ivL0).view.read (Elt F) (ivC I d L k.val)) hn hin) y :=
  out_generic m I d L hI k.val 0 (by have := Nat.lt_of_lt_of_le k.isLt k0_t1_abs.2.1; omega) inb_S6x128_S1x128_0_0
    (k0_off5 L k 0#32 0#32) (k0_off5_inb L k 0 0)
    ((congrFun (k0_off5_eq L k 0 0) 0).trans (by
      show 51200 * (L 1).val + 25600 * (L 0).val + 768 * k.val + 256 * 0 + 128 * 0 = baseO L + 128 * (6 * k.val + 0)
      unfold baseO; omega))
    (congrFun (k0_off5_eq L k 0 0) 1) hn hin y

theorem outV1 (hI : ∀ x, 0 ≤ (I d x).toInt ∧ (I d x).toInt ≤ 999) (k : Fin k0_t1_loop.trips)
    (hn : S128.numel = S128x128.size gathers_S1000x128_S128x128.axis')
    (hin : ∀ x, ((ivL1).view.read (Elt F) (ivC I d L k.val) x).toNat < S1000x128.size gathers_S1000x128_S128x128.axis) (y : S128x128.Idx) :
    (outCh1 L k).view.read (Elt F) (outG m I d) y
      = SparseCore.gatherPayload gathers_S1000x128_S128x128 ((shW).view.read (Elt F) (tabC m d))
          (SparseCore.rows ((ivL1).view.read (Elt F) (ivC I d L k.val)) hn hin) y :=
  out_generic m I d L hI k.val 1 (by have := Nat.lt_of_lt_of_le k.isLt k0_t1_abs.2.1; omega) inb_S6x128_S1x128_1_0
    (k0_off5 L k 0#32 128#32) (k0_off5_inb L k 0 1)
    ((congrFun (k0_off5_eq L k 0 1) 0).trans (by
      show 51200 * (L 1).val + 25600 * (L 0).val + 768 * k.val + 256 * 0 + 128 * 1 = baseO L + 128 * (6 * k.val + 1)
      unfold baseO; omega))
    (congrFun (k0_off5_eq L k 0 1) 1) hn hin y

theorem outV2 (hI : ∀ x, 0 ≤ (I d x).toInt ∧ (I d x).toInt ≤ 999) (k : Fin k0_t1_loop.trips)
    (hn : S128.numel = S128x128.size gathers_S1000x128_S128x128.axis')
    (hin : ∀ x, ((ivL2).view.read (Elt F) (ivC I d L k.val) x).toNat < S1000x128.size gathers_S1000x128_S128x128.axis) (y : S128x128.Idx) :
    (outCh2 L k).view.read (Elt F) (outG m I d) y
      = SparseCore.gatherPayload gathers_S1000x128_S128x128 ((shW).view.read (Elt F) (tabC m d))
          (SparseCore.rows ((ivL2).view.read (Elt F) (ivC I d L k.val)) hn hin) y :=
  out_generic m I d L hI k.val 2 (by have := Nat.lt_of_lt_of_le k.isLt k0_t1_abs.2.1; omega) inb_S6x128_S1x128_2_0
    (k0_off5 L k 1#32 0#32) (k0_off5_inb L k 1 0)
    ((congrFun (k0_off5_eq L k 1 0) 0).trans (by
      show 51200 * (L 1).val + 25600 * (L 0).val + 768 * k.val + 256 * 1 + 128 * 0 = baseO L + 128 * (6 * k.val + 2)
      unfold baseO; omega))
    (congrFun (k0_off5_eq L k 1 0) 1) hn hin y

theorem outV3 (hI : ∀ x, 0 ≤ (I d x).toInt ∧ (I d x).toInt ≤ 999) (k : Fin k0_t1_loop.trips)
    (hn : S128.numel = S128x128.size gathers_S1000x128_S128x128.axis')
    (hin : ∀ x, ((ivL3).view.read (Elt F) (ivC I d L k.val) x).toNat < S1000x128.size gathers_S1000x128_S128x128.axis) (y : S128x128.Idx) :
    (outCh3 L k).view.read (Elt F) (outG m I d) y
      = SparseCore.gatherPayload gathers_S1000x128_S128x128 ((shW).view.read (Elt F) (tabC m d))
          (SparseCore.rows ((ivL3).view.read (Elt F) (ivC I d L k.val)) hn hin) y :=
  out_generic m I d L hI k.val 3 (by have := Nat.lt_of_lt_of_le k.isLt k0_t1_abs.2.1; omega) inb_S6x128_S1x128_3_0
    (k0_off5 L k 1#32 128#32) (k0_off5_inb L k 1 1)
    ((congrFun (k0_off5_eq L k 1 1) 0).trans (by
      show 51200 * (L 1).val + 25600 * (L 0).val + 768 * k.val + 256 * 1 + 128 * 1 = baseO L + 128 * (6 * k.val + 3)
      unfold baseO; omega))
    (congrFun (k0_off5_eq L k 1 1) 1) hn hin y

theorem outV4 (hI : ∀ x, 0 ≤ (I d x).toInt ∧ (I d x).toInt ≤ 999) (k : Fin k0_t1_loop.trips)
    (hn : S128.numel = S128x128.size gathers_S1000x128_S128x128.axis')
    (hin : ∀ x, ((ivL4).view.read (Elt F) (ivC I d L k.val) x).toNat < S1000x128.size gathers_S1000x128_S128x128.axis) (y : S128x128.Idx) :
    (outCh4 L k).view.read (Elt F) (outG m I d) y
      = SparseCore.gatherPayload gathers_S1000x128_S128x128 ((shW).view.read (Elt F) (tabC m d))
          (SparseCore.rows ((ivL4).view.read (Elt F) (ivC I d L k.val)) hn hin) y :=
  out_generic m I d L hI k.val 4 (by have := Nat.lt_of_lt_of_le k.isLt k0_t1_abs.2.1; omega) inb_S6x128_S1x128_4_0
    (k0_off5 L k 2#32 0#32) (k0_off5_inb L k 2 0)
    ((congrFun (k0_off5_eq L k 2 0) 0).trans (by
      show 51200 * (L 1).val + 25600 * (L 0).val + 768 * k.val + 256 * 2 + 128 * 0 = baseO L + 128 * (6 * k.val + 4)
      unfold baseO; omega))
    (congrFun (k0_off5_eq L k 2 0) 1) hn hin y

theorem outV5 (hI : ∀ x, 0 ≤ (I d x).toInt ∧ (I d x).toInt ≤ 999) (k : Fin k0_t1_loop.trips)
    (hn : S128.numel = S128x128.size gathers_S1000x128_S128x128.axis')
    (hin : ∀ x, ((ivL5).view.read (Elt F) (ivC I d L k.val) x).toNat < S1000x128.size gathers_S1000x128_S128x128.axis) (y : S128x128.Idx) :
    (outCh5 L k).view.read (Elt F) (outG m I d) y
      = SparseCore.gatherPayload gathers_S1000x128_S128x128 ((shW).view.read (Elt F) (tabC m d))
          (SparseCore.rows ((ivL5).view.read (Elt F) (ivC I d L k.val)) hn hin) y :=
  out_generic m I d L hI k.val 5 (by have := Nat.lt_of_lt_of_le k.isLt k0_t1_abs.2.1; omega) inb_S6x128_S1x128_5_0
    (k0_off5 L k 2#32 128#32) (k0_off5_inb L k 2 1)
    ((congrFun (k0_off5_eq L k 2 1) 0).trans (by
      show 51200 * (L 1).val + 25600 * (L 0).val + 768 * k.val + 256 * 2 + 128 * 1 = baseO L + 128 * (6 * k.val + 5)
      unfold baseO; omega))
    (congrFun (k0_off5_eq L k 2 1) 1) hn hin y

/-- The epilogue's two result windows (the worker's last 256 rows) hold the gathers at the lists in rows 0 and 1 of the
    index scratch as it stands after the last trip: rows 198 and 199 of the worker's rows of the index array. -/
theorem outVE0 (hI : ∀ x, 0 ≤ (I d x).toInt ∧ (I d x).toInt ≤ 999)
    (hn : S128.numel = S128x128.size gathers_S1000x128_S128x128.axis')
    (hin : ∀ x, ((ivL0).view.read (Elt F) (ivC I d L 33) x).toNat < S1000x128.size gathers_S1000x128_S128x128.axis) (y : S128x128.Idx) :
    (outE0 L).view.read (Elt F) (outG m I d) y
      = SparseCore.gatherPayload gathers_S1000x128_S128x128 ((shW).view.read (Elt F) (tabC m d))
          (SparseCore.rows ((ivL0).view.read (Elt F) (ivC I d L 33)) hn hin) y :=
  out_generic m I d L hI 33 0 (by omega) inb_S6x128_S1x128_0_0
    (k0_off10 L 0#32) (k0_off10_inb L 0)
    ((congrFun (k0_off10_eq L 0) 0).trans (by
      show 51200 * (L 1).val + 25600 * (L 0).val + 128 * 0 + 25344 = baseO L + 128 * (6 * 33 + 0)
      unfold baseO; omega))
    (congrFun (k0_off10_eq L 0) 1) hn hin y

theorem outVE1 (hI : ∀ x, 0 ≤ (I d x).toInt ∧ (I d x).toInt ≤ 999)
    (hn : S128.numel = S128x128.size gathers_S1000x128_S128x128.axis')
    (hin : ∀ x, ((ivL1).view.read (Elt F) (ivC I d L 33) x).toNat < S1000x128.size gathers_S1000x128_S128x128.axis) (y : S128x128.Idx) :
    (outE1 L).view.read (Elt F) (outG m I d) y
      = SparseCore.gatherPayload gathers_S1000x128_S128x128 ((shW).view.read (Elt F) (tabC m d))
          (SparseCore.rows ((ivL1).view.read (Elt F) (ivC I d L 33)) hn hin) y :=
  out_generic m I d L hI 33 1 (by omega) inb_S6x128_S1x128_1_0
    (k0_off10 L 128#32) (k0_off10_inb L 1)
    ((congrFun (k0_off10_eq L 1) 0).trans (by
      show 51200 * (L 1).val + 25600 * (L 0).val + 128 * 1 + 25344 = baseO L + 128 * (6 * 33 + 1)
      unfold baseO; omega))
    (congrFun (k0_off10_eq L 1) 1) hn hin y

end Cert.Proof.KB

end
-- ==== Proof.KBRowsTake.lean ====
/-
  Taking the worker's rows of the result and putting them back. A worker's 25600 rows are taken 768 at a time, as
  the six 128-row windows one trip of the ring writes, thirty-three times, and the last 256 rows as the epilogue's
  two windows; what was written joins back, trip by trip and then the epilogue's, to the worker's whole part, which
  is one of the thirty-two equal parts of the result.
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.Kernel
import proofs.«205516_g82884278878931_cont_9to1_m_1121_21_alg».proof.Proof.Gen.Kernel.Skeleton
import proofs.«205516_g82884278878931_cont_9to1_m_1121_21_alg».proof.Proof.Spec
import proofs.«205516_g82884278878931_cont_9to1_m_1121_21_alg».proof.Proof.KBValue
import proofs.«205516_g82884278878931_cont_9to1_m_1121_21_alg».proof.Proof.KBRowSets

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (tileNo shareTok shareDrop)

variable {F : FTy → Type}

local notation "𝕄" => MT nD τ sig (HIx 1) (Elt F) ℕ UU ℕ
local notation "tabV" => (Memref.whole Cert.Kernel.main_arg3_scv : Memref Cert.Kernel.sig Kind.scVector Space.hbm Cert.Kernel.S1000x128 EltTy.f32)
local notation "idxV" => (Memref.whole Cert.Kernel.main_v0_scv : Memref Cert.Kernel.sig Kind.scVector Space.hbm Cert.Kernel.S6400x128 EltTy.i32)
local notation "outV" => (Memref.whole Cert.Kernel.main_v1_scv : Memref Cert.Kernel.sig Kind.scVector Space.hbm Cert.Kernel.S819200x128 EltTy.f32)
local notation "shV" => (Memref.whole Cert.Kernel.cc0_scratch0 : Memref Cert.Kernel.sig Kind.scVector Space.shared Cert.Kernel.S1000x128 EltTy.f32)
local notation "ivV" => (Memref.whole Cert.Kernel.cc0_scratch1 : Memref Cert.Kernel.sig Kind.scVector Space.vmem Cert.Kernel.S6x128 EltTy.i32)
local notation "bigV" => (Memref.whole Cert.Kernel.cc0_scratch2 : Memref Cert.Kernel.sig Kind.scVector Space.vmem Cert.Kernel.S768x128 EltTy.f32)

/-! ## Splitting a range of rows, as equalities -/

/-- The points-to of a range of rows is that of its part below a row joined with that of its part from the row on. -/
theorem rows_split_eq (d : Dev nD) (c : Fin τ.nSC) (j : Fin τ.nSub) (q : PosShare TreeShare)
    (f : Buf (Elt F) ((outV).view.loc (V d c j))) {a b c' : ℕ} (h1 : a ≤ b) (h2 : b ≤ c') :
    ((outV).view.loc (V d c j) ↦[rowsSet a c']{q} f : sProp 𝕄)
      = iprop(((outV).view.loc (V d c j) ↦[rowsSet a b]{q} f) ∗ ((outV).view.loc (V d c j) ↦[rowsSet b c']{q} f)) :=
  have h := rows_split (F := F) d c j q f h1 h2
  BI.equiv_iff.mp ⟨h.1, h.2⟩

/-- Six consecutive 128-row windows and what follows them: the range from the first window's first row to e. -/
theorem rows_take6 (d : Dev nD) (c : Fin τ.nSC) (j : Fin τ.nSub) (q : PosShare TreeShare)
    (f : Buf (Elt F) ((outV).view.loc (V d c j))) (c0 c1 c2 c3 c4 c5 e : ℕ)
    (h1 : c1 = c0 + 128) (h2 : c2 = c1 + 128) (h3 : c3 = c2 + 128) (h4 : c4 = c3 + 128) (h5 : c5 = c4 + 128) (he : c5 + 128 ≤ e) :
    ((outV).view.loc (V d c j) ↦[rowsSet c0 e]{q} f : sProp 𝕄)
      = iprop(((outV).view.loc (V d c j) ↦[rowsSet c0 (c0 + 128)]{q} f) ∗ ((outV).view.loc (V d c j) ↦[rowsSet c1 (c1 + 128)]{q} f) ∗ ((outV).view.loc (V d c j) ↦[rowsSet c2 (c2 + 128)]{q} f)
          ∗ ((outV).view.loc (V d c j) ↦[rowsSet c3 (c3 + 128)]{q} f) ∗ ((outV).view.loc (V d c j) ↦[rowsSet c4 (c4 + 128)]{q} f) ∗ ((outV).view.loc (V d c j) ↦[rowsSet c5 (c5 + 128)]{q} f)
          ∗ ((outV).view.loc (V d c j) ↦[rowsSet (c5 + 128) e]{q} f)) := by
  subst h1 h2 h3 h4 h5
  rw [rows_split_eq d c j q f (a := c0) (b := c0 + 128) (c' := e) (by omega) (by omega),
    rows_split_eq d c j q f (a := c0 + 128) (b := c0 + 128 + 128) (c' := e) (by omega) (by omega),
    rows_split_eq d c j q f (a := c0 + 128 + 128) (b := c0 + 128 + 128 + 128) (c' := e) (by omega) (by omega),
    rows_split_eq d c j q f (a := c0 + 128 + 128 + 128) (b := c0 + 128 + 128 + 128 + 128) (c' := e) (by omega) (by omega),
    rows_split_eq d c j q f (a := c0 + 128 + 128 + 128 + 128) (b := c0 + 128 + 128 + 128 + 128 + 128) (c' := e) (by omega) (by omega),
    rows_split_eq d c j q f (a := c0 + 128 + 128 + 128 + 128 + 128) (b := c0 + 128 + 128 + 128 + 128 + 128 + 128) (c' := e) (by omega) (by omega)]

/-- Six consecutive 128-row windows exactly: the range from the first window's first row to the last window's end. -/
theorem rows_six (d : Dev nD) (c : Fin τ.nSC) (j : Fin τ.nSub) (q : PosShare TreeShare)
    (f : Buf (Elt F) ((outV).view.loc (V d c j))) (c0 c1 c2 c3 c4 c5 : ℕ)
    (h1 : c1 = c0 + 128) (h2 : c2 = c1 + 128) (h3 : c3 = c2 + 128) (h4 : c4 = c3 + 128) (h5 : c5 = c4 + 128) :
    ((outV).view.loc (V d c j) ↦[rowsSet c0 (c5 + 128)]{q} f : sProp 𝕄)
      = iprop(((outV).view.loc (V d c j) ↦[rowsSet c0 (c0 + 128)]{q} f) ∗ ((outV).view.loc (V d c j) ↦[rowsSet c1 (c1 + 128)]{q} f) ∗ ((outV).view.loc (V d c j) ↦[rowsSet c2 (c2 + 128)]{q} f)
          ∗ ((outV).view.loc (V d c j) ↦[rowsSet c3 (c3 + 128)]{q} f) ∗ ((outV).view.loc (V d c j) ↦[rowsSet c4 (c4 + 128)]{q} f) ∗ ((outV).view.loc (V d c j) ↦[rowsSet c5 (c5 + 128)]{q} f)) := by
  subst h1 h2 h3 h4 h5
  rw [rows_split_eq d c j q f (a := c0) (b := c0 + 128) (c' := c0 + 128 + 128 + 128 + 128 + 128 + 128) (by omega) (by omega),
    rows_split_eq d c j q f (a := c0 + 128) (b := c0 + 128 + 128) (c' := c0 + 128 + 128 + 128 + 128 + 128 + 128) (by omega) (by omega),
    rows_split_eq d c j q f (a := c0 + 128 + 128) (b := c0 + 128 + 128 + 128) (c' := c0 + 128 + 128 + 128 + 128 + 128 + 128) (by omega) (by omega),
    rows_split_eq d c j q f (a := c0 + 128 + 128 + 128) (b := c0 + 128 + 128 + 128 + 128) (c' := c0 + 128 + 128 + 128 + 128 + 128 + 128) (by omega) (by omega),
    rows_split_eq d c j q f (a := c0 + 128 + 128 + 128 + 128) (b := c0 + 128 + 128 + 128 + 128 + 128) (c' := c0 + 128 + 128 + 128 + 128 + 128 + 128) (by omega) (by omega)]

/-! ## A trip's six windows, the epilogue's two, and the worker's part -/

/-- Before trip k the worker still holds its rows from row 768 k of its part on: trip k takes its six windows of them,
    and rows from 768 (k + 1) on remain. -/
theorem todo_take (d : Dev nD) (L : grid0.Coords) (k : Fin k0_t1_loop.trips) (f : Buf (Elt F) ((outV).view.loc (V d (cV L) (jV L)))) :
    ((outV).view.loc (V d (cV L) (jV L)) ↦[rowsSet (baseO L + 768 * k.val) (baseO L + 25600)]{fullShare} f : sProp 𝕄)
      ⊣⊢ iprop(((outCh0 L k).view.loc (V d (cV L) (jV L)) ↦[(outCh0 L k).view.set]{fullShare} f)
          ∗ ((outCh1 L k).view.loc (V d (cV L) (jV L)) ↦[(outCh1 L k).view.set]{fullShare} f)
          ∗ ((outCh2 L k).view.loc (V d (cV L) (jV L)) ↦[(outCh2 L k).view.set]{fullShare} f)
          ∗ ((outCh3 L k).view.loc (V d (cV L) (jV L)) ↦[(outCh3 L k).view.set]{fullShare} f)
          ∗ ((outCh4 L k).view.loc (V d (cV L) (jV L)) ↦[(outCh4 L k).view.set]{fullShare} f)
          ∗ ((outCh5 L k).view.loc (V d (cV L) (jV L)) ↦[(outCh5 L k).view.set]{fullShare} f)
          ∗ ((outV).view.loc (V d (cV L) (jV L)) ↦[rowsSet (baseO L + 768 * (k.val + 1)) (baseO L + 25600)]{fullShare} f)) := by
  have hk : k.val < 33 := Nat.lt_of_lt_of_le k.isLt k0_t1_abs.2.1
  refine BIBase.BiEntails.of_eq ?_
  show ((outV).view.loc (V d (cV L) (jV L)) ↦[rowsSet (baseO L + 768 * k.val) (baseO L + 25600)]{fullShare} f : sProp 𝕄)
      = iprop(((outV).view.loc (V d (cV L) (jV L)) ↦[(outCh0 L k).view.set]{fullShare} f)
          ∗ ((outV).view.loc (V d (cV L) (jV L)) ↦[(outCh1 L k).view.set]{fullShare} f)
          ∗ ((outV).view.loc (V d (cV L) (jV L)) ↦[(outCh2 L k).view.set]{fullShare} f)
          ∗ ((outV).view.loc (V d (cV L) (jV L)) ↦[(outCh3 L k).view.set]{fullShare} f)
          ∗ ((outV).view.loc (V d (cV L) (jV L)) ↦[(outCh4 L k).view.set]{fullShare} f)
          ∗ ((outV).view.loc (V d (cV L) (jV L)) ↦[(outCh5 L k).view.set]{fullShare} f)
          ∗ ((outV).view.loc (V d (cV L) (jV L)) ↦[rowsSet (baseO L + 768 * (k.val + 1)) (baseO L + 25600)]{fullShare} f))
  rw [outCh0_set, outCh1_set, outCh2_set, outCh3_set, outCh4_set, outCh5_set,
    show baseO L + 768 * (k.val + 1) = baseO L + 768 * k.val + 128 * 5 + 128 from by omega]
  exact rows_take6 d _ _ fullShare f (baseO L + 768 * k.val + 128 * 0) (baseO L + 768 * k.val + 128 * 1) (baseO L + 768 * k.val + 128 * 2) (baseO L + 768 * k.val + 128 * 3) (baseO L + 768 * k.val + 128 * 4) (baseO L + 768 * k.val + 128 * 5) (baseO L + 25600)
    (by omega) (by omega) (by omega) (by omega) (by omega) (by omega)

/-- What trips 0 … kp − 1 wrote, joined with trip kp's six windows, is what trips 0 … kp wrote. -/
theorem done_put (d : Dev nD) (L : grid0.Coords) (kp : Fin k0_t1_loop.trips) (f : Buf (Elt F) ((outV).view.loc (V d (cV L) (jV L)))) :
    iprop(((outV).view.loc (V d (cV L) (jV L)) ↦[rowsSet (baseO L) (baseO L + 768 * kp.val)]{fullShare} f)
          ∗ ((outV).view.loc (V d (cV L) (jV L)) ↦[(outCh0 L kp).view.set]{fullShare} f)
          ∗ ((outV).view.loc (V d (cV L) (jV L)) ↦[(outCh1 L kp).view.set]{fullShare} f)
          ∗ ((outV).view.loc (V d (cV L) (jV L)) ↦[(outCh2 L kp).view.set]{fullShare} f)
          ∗ ((outV).view.loc (V d (cV L) (jV L)) ↦[(outCh3 L kp).view.set]{fullShare} f)
          ∗ ((outV).view.loc (V d (cV L) (jV L)) ↦[(outCh4 L kp).view.set]{fullShare} f)
          ∗ ((outV).view.loc (V d (cV L) (jV L)) ↦[(outCh5 L kp).view.set]{fullShare} f))
      ⊢ ((outV).view.loc (V d (cV L) (jV L)) ↦[rowsSet (baseO L) (baseO L + 768 * (kp.val + 1))]{fullShare} f : sProp 𝕄) := by
  refine BIBase.Entails.of_eq ?_
  rw [outCh0_set, outCh1_set, outCh2_set, outCh3_set, outCh4_set, outCh5_set,
    show baseO L + 768 * (kp.val + 1) = baseO L + 768 * kp.val + 128 * 5 + 128 from by omega,
    rows_split_eq d _ _ fullShare f (a := baseO L) (b := baseO L + 768 * kp.val) (c' := baseO L + 768 * kp.val + 128 * 5 + 128) (by omega) (by omega)]
  exact congrArg (fun X : sProp 𝕄 => iprop(((outV).view.loc (V d (cV L) (jV L)) ↦[rowsSet (baseO L) (baseO L + 768 * kp.val)]{fullShare} f) ∗ X))
    (rows_six d _ _ fullShare f (baseO L + 768 * kp.val + 128 * 0) (baseO L + 768 * kp.val + 128 * 1) (baseO L + 768 * kp.val + 128 * 2) (baseO L + 768 * kp.val + 128 * 3) (baseO L + 768 * kp.val + 128 * 4) (baseO L + 768 * kp.val + 128 * 5)
      (by omega) (by omega) (by omega) (by omega) (by omega)).symm

/-- After the last trip the worker's last 256 rows remain: the epilogue's two windows. -/
theorem last_take (d : Dev nD) (L : grid0.Coords) (f : Buf (Elt F) ((outV).view.loc (V d (cV L) (jV L)))) :
    ((outV).view.loc (V d (cV L) (jV L)) ↦[rowsSet (baseO L + 768 * 33) (baseO L + 25600)]{fullShare} f : sProp 𝕄)
      ⊣⊢ iprop(((outE0 L).view.loc (V d (cV L) (jV L)) ↦[(outE0 L).view.set]{fullShare} f)
          ∗ ((outE1 L).view.loc (V d (cV L) (jV L)) ↦[(outE1 L).view.set]{fullShare} f)) := by
  refine BIBase.BiEntails.of_eq ?_
  show ((outV).view.loc (V d (cV L) (jV L)) ↦[rowsSet (baseO L + 768 * 33) (baseO L + 25600)]{fullShare} f : sProp 𝕄)
      = iprop(((outV).view.loc (V d (cV L) (jV L)) ↦[(outE0 L).view.set]{fullShare} f) ∗ ((outV).view.loc (V d (cV L) (jV L)) ↦[(outE1 L).view.set]{fullShare} f))
  rw [outE0_set, outE1_set, show baseO L + 768 * 33 = baseO L + 25344 from by omega,
    show baseO L + 25600 = baseO L + 25472 + 128 from by omega, show baseO L + 25344 + 128 = baseO L + 25472 from by omega]
  exact rows_split_eq d _ _ fullShare f (by omega) (by omega)

/-- The worker's part of the result — part 2 i + c of the thirty-two — is its 25600 rows from row baseO on. -/
theorem part_rows (d : Dev nD) (L : grid0.Coords) (c2 : Fin 2) (i16 : Fin 16) (hc : c2.val = (L 0).val) (hi : i16.val = (L 1).val)
    (f : Buf (Elt F) (outLoc d)) :
    (outLoc d ↦[outSet (Transfers.tileNo c2 i16)]{fullShare} f : sProp 𝕄)
      = ((outV).view.loc (V d (cV L) (jV L)) ↦[rowsSet (baseO L) (baseO L + 25600)]{fullShare} f) := by
  rw [outSet_rows c2 i16, show 51200 * i16.val + 25600 * c2.val = baseO L from by unfold baseO; omega]

/-- What the thirty-three trips wrote, joined with the epilogue's two windows, is the worker's whole part. -/
theorem rows_all (d : Dev nD) (L : grid0.Coords) (f : Buf (Elt F) ((outV).view.loc (V d (cV L) (jV L)))) :
    iprop(((outV).view.loc (V d (cV L) (jV L)) ↦[rowsSet (baseO L) (baseO L + 768 * 33)]{fullShare} f)
          ∗ ((outV).view.loc (V d (cV L) (jV L)) ↦[(outE0 L).view.set]{fullShare} f) ∗ ((outV).view.loc (V d (cV L) (jV L)) ↦[(outE1 L).view.set]{fullShare} f))
      ⊢ ((outV).view.loc (V d (cV L) (jV L)) ↦[rowsSet (baseO L) (baseO L + 25600)]{fullShare} f : sProp 𝕄) := by
  refine BIBase.Entails.of_eq ?_
  rw [outE0_set, outE1_set, show baseO L + 768 * 33 = baseO L + 25344 from by omega,
    show baseO L + 25600 = baseO L + 25472 + 128 from by omega, show baseO L + 25344 + 128 = baseO L + 25472 from by omega,
    rows_split_eq d _ _ fullShare f (a := baseO L) (b := baseO L + 25344) (c' := baseO L + 25472 + 128) (by omega) (by omega)]
  exact congrArg (fun X : sProp 𝕄 => iprop(((outV).view.loc (V d (cV L) (jV L)) ↦[rowsSet (baseO L) (baseO L + 25344)]{fullShare} f) ∗ X))
    (rows_split_eq d _ _ fullShare f (a := baseO L + 25344) (b := baseO L + 25472) (c' := baseO L + 25472 + 128) (by omega) (by omega)).symm

end Cert.Proof.KB

end
-- ==== Proof.KBSepL.lean ====
/-
  A chain over a list of two, and of sixteen, written out.
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.Kernel
import proofs.«205516_g82884278878931_cont_9to1_m_1121_21_alg».proof.Proof.Gen.Kernel.Skeleton
import proofs.«205516_g82884278878931_cont_9to1_m_1121_21_alg».proof.Proof.Spec
import proofs.«205516_g82884278878931_cont_9to1_m_1121_21_alg».proof.Proof.KBSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (tileNo shareTok shareDrop)

variable {F : FTy → Type}

local notation "𝕄" => MT nD τ sig (HIx 1) (Elt F) ℕ UU ℕ
local notation "tabV" => (Memref.whole Cert.Kernel.main_arg3_scv : Memref Cert.Kernel.sig Kind.scVector Space.hbm Cert.Kernel.S1000x128 EltTy.f32)
local notation "idxV" => (Memref.whole Cert.Kernel.main_v0_scv : Memref Cert.Kernel.sig Kind.scVector Space.hbm Cert.Kernel.S6400x128 EltTy.i32)
local notation "outV" => (Memref.whole Cert.Kernel.main_v1_scv : Memref Cert.Kernel.sig Kind.scVector Space.hbm Cert.Kernel.S819200x128 EltTy.f32)
local notation "shV" => (Memref.whole Cert.Kernel.cc0_scratch0 : Memref Cert.Kernel.sig Kind.scVector Space.shared Cert.Kernel.S1000x128 EltTy.f32)
local notation "ivV" => (Memref.whole Cert.Kernel.cc0_scratch1 : Memref Cert.Kernel.sig Kind.scVector Space.vmem Cert.Kernel.S6x128 EltTy.i32)
local notation "bigV" => (Memref.whole Cert.Kernel.cc0_scratch2 : Memref Cert.Kernel.sig Kind.scVector Space.vmem Cert.Kernel.S768x128 EltTy.f32)

theorem bigSepL2 {J : Type} (a b : J) (Φ : J → sProp 𝕄) : bigSepL [a, b] Φ = iprop(Φ a ∗ Φ b) := rfl
theorem bigSepL16 {J : Type} (a1 a2 a3 a4 a5 a6 a7 a8 a9 a10 a11 a12 a13 a14 a15 a16 : J) (Φ : J → sProp 𝕄) :
    bigSepL [a1, a2, a3, a4, a5, a6, a7, a8, a9, a10, a11, a12, a13, a14, a15, a16] Φ = iprop(Φ a1 ∗ Φ a2 ∗ Φ a3 ∗ Φ a4 ∗ Φ a5 ∗ Φ a6 ∗ Φ a7 ∗ Φ a8 ∗ Φ a9 ∗ Φ a10 ∗ Φ a11 ∗ Φ a12 ∗ Φ a13 ∗ Φ a14 ∗ Φ a15 ∗ Φ a16) := rfl
end Cert.Proof.KB
end
-- ==== Proof.KBToks.lean ====
/-
  A read share dealt as a remainder and three, or six, read tokens, written out one by one.
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.Kernel
import proofs.«205516_g82884278878931_cont_9to1_m_1121_21_alg».proof.Proof.Gen.Kernel.Skeleton
import proofs.«205516_g82884278878931_cont_9to1_m_1121_21_alg».proof.Proof.Spec
import proofs.«205516_g82884278878931_cont_9to1_m_1121_21_alg».proof.Proof.KBSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (tileNo shareTok shareDrop)

variable {F : FTy → Type}

local notation "𝕄" => MT nD τ sig (HIx 1) (Elt F) ℕ UU ℕ
local notation "tabV" => (Memref.whole Cert.Kernel.main_arg3_scv : Memref Cert.Kernel.sig Kind.scVector Space.hbm Cert.Kernel.S1000x128 EltTy.f32)
local notation "idxV" => (Memref.whole Cert.Kernel.main_v0_scv : Memref Cert.Kernel.sig Kind.scVector Space.hbm Cert.Kernel.S6400x128 EltTy.i32)
local notation "outV" => (Memref.whole Cert.Kernel.main_v1_scv : Memref Cert.Kernel.sig Kind.scVector Space.hbm Cert.Kernel.S819200x128 EltTy.f32)
local notation "shV" => (Memref.whole Cert.Kernel.cc0_scratch0 : Memref Cert.Kernel.sig Kind.scVector Space.shared Cert.Kernel.S1000x128 EltTy.f32)
local notation "ivV" => (Memref.whole Cert.Kernel.cc0_scratch1 : Memref Cert.Kernel.sig Kind.scVector Space.vmem Cert.Kernel.S6x128 EltTy.i32)
local notation "bigV" => (Memref.whole Cert.Kernel.cc0_scratch2 : Memref Cert.Kernel.sig Kind.scVector Space.vmem Cert.Kernel.S768x128 EltTy.f32)

theorem bigSep_fin3' (Φ : Fin 3 → sProp 𝕄) : bigSep Finset.univ Φ = iprop(Φ 0 ∗ Φ 1 ∗ Φ 2) := by
  rw [show (Finset.univ : Finset (Fin 3)) = {0, 1, 2} from by decide,
    SparseCore.bigSep_insert' (by decide), SparseCore.bigSep_insert' (by decide), bigSep_singleton]

theorem bigSep_fin6' (Φ : Fin 6 → sProp 𝕄) : bigSep Finset.univ Φ = iprop(Φ 0 ∗ Φ 1 ∗ Φ 2 ∗ Φ 3 ∗ Φ 4 ∗ Φ 5) := by
  rw [show (Finset.univ : Finset (Fin 6)) = {0, 1, 2, 3, 4, 5} from by decide,
    SparseCore.bigSep_insert' (by decide), SparseCore.bigSep_insert' (by decide), SparseCore.bigSep_insert' (by decide),
    SparseCore.bigSep_insert' (by decide), SparseCore.bigSep_insert' (by decide), bigSep_singleton]

/-- A share as what is left after three read tokens, and the three. -/
theorem toks3 (ℓ : Loc nD τ sig) (q : PosShare TreeShare) (f : Buf (Elt F) ℓ) :
    (ℓ ↦{q} f : sProp 𝕄) ⊣⊢ iprop((ℓ ↦{shareDrop q 3} f) ∗ (ℓ ↦{shareTok q 3 0} f) ∗ (ℓ ↦{shareTok q 3 1} f) ∗ (ℓ ↦{shareTok q 3 2} f)) := by
  have h := Transfers.pointsTo_toks (Ix := HIx 1) (Name := ℕ) (U := UU) (Lvl := ℕ) (ℓ := ℓ) (S := Finset.univ) (f := f) q 3
  rw [bigSep_fin3' (F := F) (fun i : Fin 3 => (ℓ ↦{shareTok q 3 i} f : sProp 𝕄))] at h
  exact h

/-- A share as what is left after six read tokens, and the six. -/
theorem toks6 (ℓ : Loc nD τ sig) (q : PosShare TreeShare) (f : Buf (Elt F) ℓ) :
    (ℓ ↦{q} f : sProp 𝕄) ⊣⊢ iprop((ℓ ↦{shareDrop q 6} f) ∗ (ℓ ↦{shareTok q 6 0} f) ∗ (ℓ ↦{shareTok q 6 1} f) ∗ (ℓ ↦{shareTok q 6 2} f)
        ∗ (ℓ ↦{shareTok q 6 3} f) ∗ (ℓ ↦{shareTok q 6 4} f) ∗ (ℓ ↦{shareTok q 6 5} f)) := by
  have h := Transfers.pointsTo_toks (Ix := HIx 1) (Name := ℕ) (U := UU) (Lvl := ℕ) (ℓ := ℓ) (S := Finset.univ) (f := f) q 6
  rw [bigSep_fin6' (F := F) (fun i : Fin 6 => (ℓ ↦{shareTok q 6 i} f : sProp 𝕄))] at h
  exact h

end Cert.Proof.KB
end
-- ==== Proof.KBPrologue.lean ====
/-
  The prologue of a subcore's task. Subcore 0 of a SparseCore copies the table into the SparseCore's shared memory
  and waits for the copy; every subcore starts the fetches of its first six index rows, two rows to a slot, and
  meets the others at the subcore barrier. Subcore 0 arrives at subcore j's cell with j's read token of the shared
  copy, at the table's contents, and keeps what is left of the copy after the sixteen tokens; the others arrive
  with nothing. Leaving the barrier each subcore holds its own token: the shared table may be read from then on.
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.Kernel
import proofs.«205516_g82884278878931_cont_9to1_m_1121_21_alg».proof.Proof.Gen.Kernel.Skeleton
import proofs.«205516_g82884278878931_cont_9to1_m_1121_21_alg».proof.Proof.Spec
import proofs.«205516_g82884278878931_cont_9to1_m_1121_21_alg».proof.Proof.KBFlight
import proofs.«205516_g82884278878931_cont_9to1_m_1121_21_alg».proof.Proof.KBRowSets
import proofs.«205516_g82884278878931_cont_9to1_m_1121_21_alg».proof.Proof.KBState
import proofs.«205516_g82884278878931_cont_9to1_m_1121_21_alg».proof.Proof.KBValueLemmas

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (tileNo shareTok shareDrop)

variable {F : FTy → Type}

local notation "𝕄" => MT nD τ sig (HIx 1) (Elt F) ℕ UU ℕ
local notation "tabV" => (Memref.whole Cert.Kernel.main_arg3_scv : Memref Cert.Kernel.sig Kind.scVector Space.hbm Cert.Kernel.S1000x128 EltTy.f32)
local notation "idxV" => (Memref.whole Cert.Kernel.main_v0_scv : Memref Cert.Kernel.sig Kind.scVector Space.hbm Cert.Kernel.S6400x128 EltTy.i32)
local notation "outV" => (Memref.whole Cert.Kernel.main_v1_scv : Memref Cert.Kernel.sig Kind.scVector Space.hbm Cert.Kernel.S819200x128 EltTy.f32)
local notation "shV" => (Memref.whole Cert.Kernel.cc0_scratch0 : Memref Cert.Kernel.sig Kind.scVector Space.shared Cert.Kernel.S1000x128 EltTy.f32)
local notation "ivV" => (Memref.whole Cert.Kernel.cc0_scratch1 : Memref Cert.Kernel.sig Kind.scVector Space.vmem Cert.Kernel.S6x128 EltTy.i32)
local notation "bigV" => (Memref.whole Cert.Kernel.cc0_scratch2 : Memref Cert.Kernel.sig Kind.scVector Space.vmem Cert.Kernel.S768x128 EltTy.f32)

variable (m : (ℓ : Loc nD τ sig) → Buf (Elt F) ℓ) (I : Dev nD → S6400x128.Idx → BitVec 32)
variable [FloatOps F]
section Tile
variable (d : Dev nD) (L : grid0.Coords)

omit [FloatOps F] in
/-- The guard of the table copy, as the program computes it from the subcore's number: true on subcore 0, -/
theorem guard_zero (hs : (L 1).val = 0) :
    (Scalar.cmpi .ne (Scalar.extui (Scalar.cmpi .eq (BitVec.ofNat 32 (L 1).val) (0#32)) : BitVec 32) (0#32) : BitVec 1) = 1#1 := by
  rw [hs]; decide

omit [FloatOps F] in
/-- false on the others. -/
theorem guard_pos (hs : ¬ (L 1).val = 0) :
    ¬ (Scalar.cmpi .ne (Scalar.extui (Scalar.cmpi .eq (BitVec.ofNat 32 (L 1).val) (0#32)) : BitVec 32) (0#32) : BitVec 1) = 1#1 := by
  have h : ∀ n : Fin (grid0.bound 1), ¬ n.val = 0 →
      ¬ (Scalar.cmpi .ne (Scalar.extui (Scalar.cmpi .eq (BitVec.ofNat 32 n.val) (0#32)) : BitVec 32) (0#32) : BitVec 1) = 1#1 := by decide
  exact h (L 1) hs

omit [FloatOps F] in
theorem bkit_eq : bkit m d (cV L) (jV L) = (iprop((∃ κ : GSem nD τ sig → ℕ, bigSep Finset.univ fun j : Fin (grid0.bound 1) =>
      cellInv EB (bRd (F := F) m) (κ (bcell d (cV L) (j.castLE hsub0))) (bcell d (cV L) (j.castLE hsub0)))
    ∗ (bigSep Finset.univ fun j : Fin (grid0.bound 1) => dutyTok EB (bcell d (cV L) (j.castLE hsub0)) 0 (jV L).val)
    ∗ (bigSep Finset.univ fun j : Fin (grid0.bound 1) => reached EB (bcell d (cV L) (j.castLE hsub0)) 0)
    ∗ atPos EB (bcell d (cV L) (jV L)) 0 ∅ 0
    ∗ cred (tallyAt (bcell d (cV L) (jV L)) (some 0) (grid0.bound 1))) : sProp 𝕄) := by
  unfold bkit; rfl

omit [FloatOps F] in
/-- Subcore 0's arrivals: the shared copy at the table's contents is what is left after sixteen read tokens and the
    tokens, subcore j's handed over at subcore j's cell. -/
theorem pays_intro_zero (hs : (L 1).val = 0) :
    (shLoc d (cV L) ↦{fullShare} (tabC m d : Buf (Elt F) (shLoc d (cV L))) : sProp 𝕄)
      ⊢ iprop((shLoc d (cV L) ↦{shareDrop fullShare 16} (tabC m d : Buf (Elt F) (shLoc d (cV L))))
        ∗ bigSep Finset.univ fun j : Fin (grid0.bound 1) => (bRd (F := F) m).payload (bcell d (cV L) (j.castLE hsub0)) 0 (jV L).val) := by
  have e : (bigSep Finset.univ fun i : Fin 16 => (shLoc d (cV L) ↦{shareTok fullShare 16 i} (tabC m d : Buf (Elt F) (shLoc d (cV L))) : sProp 𝕄))
      = bigSep Finset.univ fun j : Fin (grid0.bound 1) => (bRd (F := F) m).payload (bcell d (cV L) (j.castLE hsub0)) 0 (jV L).val := by
    show (bigSep (Finset.univ : Finset (Fin (grid0.bound 1))) fun j => (shLoc d (cV L) ↦{shareTok fullShare 16 j} (tabC m d : Buf (Elt F) (shLoc d (cV L))) : sProp 𝕄)) = _
    refine bigSep_congr fun j _ => ?_
    show _ = bPay m (bcell d (cV L) (j.castLE hsub0)) (jV L).val
    unfold bPay; dsimp only
    rw [if_pos (show (jV L).val = 0 from hs)]
    rfl
  rw [← e]
  exact Transfers.pointsTo_toks_split (ℓ := shLoc d (cV L)) (S := Finset.univ) (f := (tabC m d : Buf (Elt F) (shLoc d (cV L)))) fullShare 16

omit [FloatOps F] in
/-- The other subcores arrive with nothing. -/
theorem pays_intro_pos (hs : ¬ (L 1).val = 0) :
    (iprop(emp) : sProp 𝕄) ⊢ bigSep Finset.univ fun j : Fin (grid0.bound 1) => (bRd (F := F) m).payload (bcell d (cV L) (j.castLE hsub0)) 0 (jV L).val := by
  refine Entails.of_eq ((bigSep_emp' (F := F) (Finset.univ : Finset (Fin (grid0.bound 1)))).symm.trans (bigSep_congr fun j _ => ?_))
  show _ = bPay m (bcell d (cV L) (j.castLE hsub0)) (jV L).val
  unfold bPay; dsimp only
  rw [if_neg (show ¬ (jV L).val = 0 from hs)]

omit [FloatOps F] in
/-- What a subcore's own round collected: its read token of the shared copy, at the table's contents. -/
theorem pays_elim : (bigSep ((bRd (F := F) m).duties (bcell d (cV L) (jV L)) 0 \ ∅) fun n => (bRd (F := F) m).payload (bcell d (cV L) (jV L)) 0 n)
    ⊢ (shLoc d (cV L) ↦{shShare (jV L)} (tabC m d : Buf (Elt F) (shLoc d (cV L))) : sProp 𝕄) := by
  rw [Finset.sdiff_empty, bRd_duties₀]
  refine (bigSep_elim (Φ := fun n : ℕ => (bRd (F := F) m).payload (bcell d (cV L) (jV L)) 0 n) (i := (0 : ℕ))
    (Finset.mem_image.mpr ⟨(⟨0, by decide⟩ : Fin τ.nSub), Finset.mem_univ _, rfl⟩)).trans ?_
  show bPay m (bcell d (cV L) (jV L)) 0 ⊢ _
  unfold bPay; dsimp only
  rw [if_pos rfl]

omit [FloatOps F] in
/-- The shared memory written whole with the table's contents holds the table's contents. -/
theorem sh_landed (fsh : Buf (Elt F) ((shV).view.loc (V d (cV L) (jV L)))) (P : S1000x128.Idx → Elt F .f32) (hP : P = tabC m d) :
    ((shV).view.loc (V d (cV L) (jV L)) ↦{fullShare} View.write (Elt F) (shV).view fsh P Finset.univ : sProp 𝕄)
      = (shLoc d (cV L) ↦{fullShare} (tabC m d : Buf (Elt F) (shLoc d (cV L)))) := by
  subst hP
  rw [show View.write (Elt F) (shV).view fsh (tabC m d) Finset.univ = tabC m d from View.write_whole_univ cc0_scratch0 fsh _]
  rfl

set_option maxHeartbeats 4000000 in
theorem prologue_pos (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) (qi qt : PosShare TreeShare)
    (f0 : Buf (Elt F) ((ivS0).view.loc (V d (cV L) (jV L)))) (f1 : Buf (Elt F) ((ivS1).view.loc (V d (cV L) (jV L)))) (f2 : Buf (Elt F) ((ivS2).view.loc (V d (cV L) (jV L)))) (hs : ¬ (L 1).val = 0) :
    iprop(levAts (K (F := F)).L (K (F := F)).lev ∗ bkit m d (cV L) (jV L)
        ∗ ((idxV).view.loc (V d (cV L) (jV L)) ↦{shareTok qi 3 0} (I d : Buf (Elt F) ((idxV).view.loc (V d (cV L) (jV L)))))
        ∗ ((idxV).view.loc (V d (cV L) (jV L)) ↦{shareTok qi 3 1} (I d : Buf (Elt F) ((idxV).view.loc (V d (cV L) (jV L)))))
        ∗ ((idxV).view.loc (V d (cV L) (jV L)) ↦{shareTok qi 3 2} (I d : Buf (Elt F) ((idxV).view.loc (V d (cV L) (jV L)))))
        ∗ ((ivS0).view.loc (V d (cV L) (jV L)) ↦[(ivS0).view.set]{fullShare} f0)
        ∗ ((ivS1).view.loc (V d (cV L) (jV L)) ↦[(ivS1).view.set]{fullShare} f1)
        ∗ ((ivS2).view.loc (V d (cV L) (jV L)) ↦[(ivS2).view.set]{fullShare} f2)
        ∗ semVal ((V d (cV L) (jV L)), SemLoc.dma cc0_scratch15.sem) 0
        ∗ semVal ((V d (cV L) (jV L)), SemLoc.dma cc0_scratch16.sem) 0
        ∗ semVal ((V d (cV L) (jV L)), SemLoc.dma cc0_scratch17.sem) 0
        ∗ semVal ((V d (cV L) (jV L)), SemLoc.dma cc0_scoped0.sem) 0
        ∗ emp
        ∗ owes (V d (cV L) (jV L)) (O + oxV d (cV L)) W)
      ⊢ wp frame (wpE (defs₀ (F := F)) 𝒱₀ (V d (cV L) (jV L)) none) Set.univ
          (k0_part6 L tabV (Memref.isWhole_whole _) idxV (Memref.isWhole_whole _) outV (Memref.isWhole_whole _) shV (Memref.isWhole_whole _) ivV (Memref.isWhole_whole _) bigV (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scoped0)
          (afterPrologue m I d L O W qi qt) := by
  have h1 := guard_pos L hs
  iintro ⟨#Hlv, Hkit, Hi0, Hi1, Hi2, Hs0, Hs1, Hs2, Hc15, Hc16, Hc17, HcA, -, HO⟩
  ihave Hkit' := (Entails.of_eq (bkit_eq m d L)) $$ Hkit
  icases Hkit' with ⟨⟨%κ, #Hinv⟩, Htoks, #Hrch, Hat, Hcred⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  -- the three fetches
  sl_exec
  -- the barrier: nothing handed over, the subcore's own token received
  ihave Hpays := (pays_intro_pos (F := F) m d L hs) $$ []
  · iempintro
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hmine := (pays_elim (F := F) m d L) $$ Hgot
  sl_exec
  sl_step
  unfold afterPrologue
  isplitr; · ipureintro; rfl
  isplitl [Hc15 Hi0]
  · unfold fetchI0
    iapply (flight_fetch_clean (F := F) (V d (cV L) (jV L)) _ _ (ivS0).view _ _ _ (fetchP0 I d L) _ _ _ _)
    isplitl [Hi0]; · iexact Hi0
    iexact Hc15
  isplitl [Hc16 Hi1]
  · unfold fetchI1
    iapply (flight_fetch_clean (F := F) (V d (cV L) (jV L)) _ _ (ivS1).view _ _ _ (fetchP1 I d L) _ _ _ _)
    isplitl [Hi1]; · iexact Hi1
    iexact Hc16
  isplitl [Hc17 Hi2]
  · unfold fetchI2
    iapply (flight_fetch_clean (F := F) (V d (cV L) (jV L)) _ _ (ivS2).view _ _ _ (fetchP2 I d L) _ _ _ _)
    isplitl [Hi2]; · iexact Hi2
    iexact Hc17
  isplitl [HcA]; · iexact HcA
  isplitl [Hmine]; · iexact Hmine
  isplitr
  · rw [if_neg hs]; iempintro
  iexists _; isplitr
  swap; · iexact HO
  ipureintro; intro p hp
  rcases Finset.mem_insert.mp hp with hp | hp; · exact .inr (.inr (hp ▸ rfl))
  exact .inl hp

set_option maxHeartbeats 4000000 in
theorem prologue_zero (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) (qi qt : PosShare TreeShare)
    (f0 : Buf (Elt F) ((ivS0).view.loc (V d (cV L) (jV L)))) (f1 : Buf (Elt F) ((ivS1).view.loc (V d (cV L) (jV L)))) (f2 : Buf (Elt F) ((ivS2).view.loc (V d (cV L) (jV L)))) (hs : (L 1).val = 0) :
    iprop(levAts (K (F := F)).L (K (F := F)).lev ∗ bkit m d (cV L) (jV L)
        ∗ ((idxV).view.loc (V d (cV L) (jV L)) ↦{shareTok qi 3 0} (I d : Buf (Elt F) ((idxV).view.loc (V d (cV L) (jV L)))))
        ∗ ((idxV).view.loc (V d (cV L) (jV L)) ↦{shareTok qi 3 1} (I d : Buf (Elt F) ((idxV).view.loc (V d (cV L) (jV L)))))
        ∗ ((idxV).view.loc (V d (cV L) (jV L)) ↦{shareTok qi 3 2} (I d : Buf (Elt F) ((idxV).view.loc (V d (cV L) (jV L)))))
        ∗ ((ivS0).view.loc (V d (cV L) (jV L)) ↦[(ivS0).view.set]{fullShare} f0)
        ∗ ((ivS1).view.loc (V d (cV L) (jV L)) ↦[(ivS1).view.set]{fullShare} f1)
        ∗ ((ivS2).view.loc (V d (cV L) (jV L)) ↦[(ivS2).view.set]{fullShare} f2)
        ∗ semVal ((V d (cV L) (jV L)), SemLoc.dma cc0_scratch15.sem) 0
        ∗ semVal ((V d (cV L) (jV L)), SemLoc.dma cc0_scratch16.sem) 0
        ∗ semVal ((V d (cV L) (jV L)), SemLoc.dma cc0_scratch17.sem) 0
        ∗ semVal ((V d (cV L) (jV L)), SemLoc.dma cc0_scoped0.sem) 0
        ∗ iprop(((tabV).view.loc (V d (cV L) (jV L)) ↦{qt} (m (tabLoc d) : Buf (Elt F) ((tabV).view.loc (V d (cV L) (jV L))))) ∗ ∃ f, (shV).view.loc (V d (cV L) (jV L)) ↦{fullShare} f)
        ∗ owes (V d (cV L) (jV L)) (O + oxV d (cV L)) W)
      ⊢ wp frame (wpE (defs₀ (F := F)) 𝒱₀ (V d (cV L) (jV L)) none) Set.univ
          (k0_part6 L tabV (Memref.isWhole_whole _) idxV (Memref.isWhole_whole _) outV (Memref.isWhole_whole _) shV (Memref.isWhole_whole _) ivV (Memref.isWhole_whole _) bigV (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scoped0)
          (afterPrologue m I d L O W qi qt) := by
  have h1 := guard_zero L hs
  iintro ⟨#Hlv, Hkit, Hi0, Hi1, Hi2, Hs0, Hs1, Hs2, Hc15, Hc16, Hc17, HcA, ⟨Htab, %fsh, Hsh⟩, HO⟩
  ihave Hkit' := (Entails.of_eq (bkit_eq m d L)) $$ Hkit
  icases Hkit' with ⟨⟨%κ, #Hinv⟩, Htoks, #Hrch, Hat, Hcred⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  -- the table into the shared memory and the wait; the three fetches
  sl_exec
  -- the barrier: the sixteen read tokens of the shared copy handed over, the subcore's own received
  ihave Hsh' := (Entails.of_eq (sh_landed (F := F) m d L fsh (tabC m d) rfl)) $$ [Hsh]
  · iexact Hsh
  ihave Hp := (pays_intro_zero (F := F) m d L hs) $$ Hsh'
  icases Hp with ⟨Hdrop, Hpays⟩
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hmine := (pays_elim (F := F) m d L) $$ Hgot
  sl_exec
  sl_step
  unfold afterPrologue
  isplitr; · ipureintro; rfl
  isplitl [Hc15 Hi0]
  · unfold fetchI0
    iapply (flight_fetch_clean (F := F) (V d (cV L) (jV L)) _ _ (ivS0).view _ _ _ (fetchP0 I d L) _ _ _ _)
    isplitl [Hi0]; · iexact Hi0
    iexact Hc15
  isplitl [Hc16 Hi1]
  · unfold fetchI1
    iapply (flight_fetch_clean (F := F) (V d (cV L) (jV L)) _ _ (ivS1).view _ _ _ (fetchP1 I d L) _ _ _ _)
    isplitl [Hi1]; · iexact Hi1
    iexact Hc16
  isplitl [Hc17 Hi2]
  · unfold fetchI2
    iapply (flight_fetch_clean (F := F) (V d (cV L) (jV L)) _ _ (ivS2).view _ _ _ (fetchP2 I d L) _ _ _ _)
    isplitl [Hi2]; · iexact Hi2
    iexact Hc17
  isplitl [HcA]; · iexact HcA
  isplitl [Hmine]; · iexact Hmine
  isplitl [Htab Hdrop]
  · rw [if_pos hs]
    isplitl [Htab]; · iexact Htab
    iexact Hdrop
  iexists _; isplitr
  swap; · iexact HO
  ipureintro; intro p hp
  rcases Finset.mem_insert.mp hp with hp | hp; · exact .inr (.inr (hp ▸ rfl))
  rcases Finset.mem_insert.mp hp with hp | hp; · exact .inr (.inl (hp ▸ rfl))
  exact .inl hp

set_option maxHeartbeats 4000000 in
theorem prologue (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) (qi qt : PosShare TreeShare)
    (f0 : Buf (Elt F) ((ivS0).view.loc (V d (cV L) (jV L)))) (f1 : Buf (Elt F) ((ivS1).view.loc (V d (cV L) (jV L)))) (f2 : Buf (Elt F) ((ivS2).view.loc (V d (cV L) (jV L)))) :
    iprop(levAts (K (F := F)).L (K (F := F)).lev ∗ bkit m d (cV L) (jV L)
        ∗ ((idxV).view.loc (V d (cV L) (jV L)) ↦{shareTok qi 3 0} (I d : Buf (Elt F) ((idxV).view.loc (V d (cV L) (jV L)))))
        ∗ ((idxV).view.loc (V d (cV L) (jV L)) ↦{shareTok qi 3 1} (I d : Buf (Elt F) ((idxV).view.loc (V d (cV L) (jV L)))))
        ∗ ((idxV).view.loc (V d (cV L) (jV L)) ↦{shareTok qi 3 2} (I d : Buf (Elt F) ((idxV).view.loc (V d (cV L) (jV L)))))
        ∗ ((ivS0).view.loc (V d (cV L) (jV L)) ↦[(ivS0).view.set]{fullShare} f0)
        ∗ ((ivS1).view.loc (V d (cV L) (jV L)) ↦[(ivS1).view.set]{fullShare} f1)
        ∗ ((ivS2).view.loc (V d (cV L) (jV L)) ↦[(ivS2).view.set]{fullShare} f2)
        ∗ semVal ((V d (cV L) (jV L)), SemLoc.dma cc0_scratch15.sem) 0
        ∗ semVal ((V d (cV L) (jV L)), SemLoc.dma cc0_scratch16.sem) 0
        ∗ semVal ((V d (cV L) (jV L)), SemLoc.dma cc0_scratch17.sem) 0
        ∗ semVal ((V d (cV L) (jV L)), SemLoc.dma cc0_scoped0.sem) 0
        ∗ (if (L 1).val = 0 then iprop(((tabV).view.loc (V d (cV L) (jV L)) ↦{qt} (m (tabLoc d) : Buf (Elt F) ((tabV).view.loc (V d (cV L) (jV L))))) ∗ ∃ f, (shV).view.loc (V d (cV L) (jV L)) ↦{fullShare} f) else iprop(emp))
        ∗ owes (V d (cV L) (jV L)) (O + oxV d (cV L)) W)
      ⊢ wp frame (wpE (defs₀ (F := F)) 𝒱₀ (V d (cV L) (jV L)) none) Set.univ
          (k0_part6 L tabV (Memref.isWhole_whole _) idxV (Memref.isWhole_whole _) outV (Memref.isWhole_whole _) shV (Memref.isWhole_whole _) ivV (Memref.isWhole_whole _) bigV (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scoped0)
          (afterPrologue m I d L O W qi qt) := by
  by_cases hs : (L 1).val = 0
  · rw [if_pos hs]
    exact prologue_zero m I d L hF O W hO hOlev qi qt f0 f1 f2 hs
  · rw [if_neg hs]
    exact prologue_pos m I d L hF O W hO hOlev qi qt f0 f1 f2 hs

end Tile
end Cert.Proof.KB
end
-- ==== Proof.KBTripMid.lean ====
/-
  One trip of the ring, from the ring's state before it to its state after it. Before trip k each slot of the index
  scratch has a fetch in flight that delivers its two rows of that trip's six; each of the six pieces of the row
  buffer has a copy out in flight from the trip before (none before the first trip). The trip waits for each
  slot's rows, gathers the 128 table rows each row of words names into a piece, copies the pieces out to the
  trip's six windows of the result, and fetches each slot's rows for the next trip (but the last trip, which
  refetches only slot 0, for the one unit left). What the copies deliver are the lookup's values on those windows.
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.Kernel
import proofs.«205516_g82884278878931_cont_9to1_m_1121_21_alg».proof.Proof.Gen.Kernel.Skeleton
import proofs.«205516_g82884278878931_cont_9to1_m_1121_21_alg».proof.Proof.Spec
import proofs.«205516_g82884278878931_cont_9to1_m_1121_21_alg».proof.Proof.KBFlight

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (tileNo shareTok shareDrop)

variable {F : FTy → Type}

local notation "𝕄" => MT nD τ sig (HIx 1) (Elt F) ℕ UU ℕ
local notation "tabV" => (Memref.whole Cert.Kernel.main_arg3_scv : Memref Cert.Kernel.sig Kind.scVector Space.hbm Cert.Kernel.S1000x128 EltTy.f32)
local notation "idxV" => (Memref.whole Cert.Kernel.main_v0_scv : Memref Cert.Kernel.sig Kind.scVector Space.hbm Cert.Kernel.S6400x128 EltTy.i32)
local notation "outV" => (Memref.whole Cert.Kernel.main_v1_scv : Memref Cert.Kernel.sig Kind.scVector Space.hbm Cert.Kernel.S819200x128 EltTy.f32)
local notation "shV" => (Memref.whole Cert.Kernel.cc0_scratch0 : Memref Cert.Kernel.sig Kind.scVector Space.shared Cert.Kernel.S1000x128 EltTy.f32)
local notation "ivV" => (Memref.whole Cert.Kernel.cc0_scratch1 : Memref Cert.Kernel.sig Kind.scVector Space.vmem Cert.Kernel.S6x128 EltTy.i32)
local notation "bigV" => (Memref.whole Cert.Kernel.cc0_scratch2 : Memref Cert.Kernel.sig Kind.scVector Space.vmem Cert.Kernel.S768x128 EltTy.f32)

variable [FloatOps F]
section Tile
variable (d : Dev nD) (L : grid0.Coords)

set_option maxHeartbeats 40000000 in
theorem trip_mid (O : CellTallies nD τ sig (HIx 1)) (W : Waits sig (HIx 1)) (k : Fin k0_t1_loop.trips) (v2 v3 : BitVec 32)
    (h2 : k0_cond2 k = 1#1) (h3 : k0_cond3 k = 1#1) (h4 : k0_cond4 k = 1#1) (h5 : k0_cond5 k = 1#1) (h6 : k0_cond6 k = 1#1) (h7 : k0_cond7 k = 1#1)
    (qi qs : PosShare TreeShare) (Iv : Buf (Elt F) ((idxV).view.loc (V d (cV L) (jV L)))) (Tsh : Buf (Elt F) ((shV).view.loc (V d (cV L) (jV L))))
    (ivK ivN : Buf (Elt F) ((ivV).view.loc (V d (cV L) (jV L)))) (Gout m0 : Buf (Elt F) ((outV).view.loc (V d (cV L) (jV L))))
    (S0 S1 S2 S3 S4 S5 : Finset S819200x128.Idx)
    (fb0 fb1 fb2 fb3 fb4 fb5 : Buf (Elt F) ((bigV).view.loc (V d (cV L) (jV L))))
    (hn : S128.numel = S128x128.size gathers_S1000x128_S128x128.axis')
    (hin0 : ∀ x, ((ivL0).view.read (Elt F) ivK x).toNat < S1000x128.size gathers_S1000x128_S128x128.axis)
    (hin1 : ∀ x, ((ivL1).view.read (Elt F) ivK x).toNat < S1000x128.size gathers_S1000x128_S128x128.axis)
    (hin2 : ∀ x, ((ivL2).view.read (Elt F) ivK x).toNat < S1000x128.size gathers_S1000x128_S128x128.axis)
    (hin3 : ∀ x, ((ivL3).view.read (Elt F) ivK x).toNat < S1000x128.size gathers_S1000x128_S128x128.axis)
    (hin4 : ∀ x, ((ivL4).view.read (Elt F) ivK x).toNat < S1000x128.size gathers_S1000x128_S128x128.axis)
    (hin5 : ∀ x, ((ivL5).view.read (Elt F) ivK x).toNat < S1000x128.size gathers_S1000x128_S128x128.axis)
    (hfe0 : ∀ y, (ivS0).view.read (Elt F) ivN y = (idxW0 L k h5).view.read (Elt F) Iv y)
    (hfe1 : ∀ y, (ivS1).view.read (Elt F) ivN y = (idxW1 L k h6).view.read (Elt F) Iv y)
    (hfe2 : ∀ y, (ivS2).view.read (Elt F) ivN y = (idxW2 L k h7).view.read (Elt F) Iv y)
    (hov0 : ∀ y, (outCh0 L k).view.read (Elt F) Gout y = SparseCore.gatherPayload gathers_S1000x128_S128x128 ((shW).view.read (Elt F) Tsh) (SparseCore.rows ((ivL0).view.read (Elt F) ivK) hn hin0) y)
    (hov1 : ∀ y, (outCh1 L k).view.read (Elt F) Gout y = SparseCore.gatherPayload gathers_S1000x128_S128x128 ((shW).view.read (Elt F) Tsh) (SparseCore.rows ((ivL1).view.read (Elt F) ivK) hn hin1) y)
    (hov2 : ∀ y, (outCh2 L k).view.read (Elt F) Gout y = SparseCore.gatherPayload gathers_S1000x128_S128x128 ((shW).view.read (Elt F) Tsh) (SparseCore.rows ((ivL2).view.read (Elt F) ivK) hn hin2) y)
    (hov3 : ∀ y, (outCh3 L k).view.read (Elt F) Gout y = SparseCore.gatherPayload gathers_S1000x128_S128x128 ((shW).view.read (Elt F) Tsh) (SparseCore.rows ((ivL3).view.read (Elt F) ivK) hn hin3) y)
    (hov4 : ∀ y, (outCh4 L k).view.read (Elt F) Gout y = SparseCore.gatherPayload gathers_S1000x128_S128x128 ((shW).view.read (Elt F) Tsh) (SparseCore.rows ((ivL4).view.read (Elt F) ivK) hn hin4) y)
    (hov5 : ∀ y, (outCh5 L k).view.read (Elt F) Gout y = SparseCore.gatherPayload gathers_S1000x128_S128x128 ((shW).view.read (Elt F) Tsh) (SparseCore.rows ((ivL5).view.read (Elt F) ivK) hn hin5) y) :
    iprop((Transfers.MayWaits (V d (cV L) (jV L)) (default : HIx 1) O : sProp 𝕄)
        ∗ Transfers.Flight countersEmb (V d (cV L) (jV L)) (SemLoc.dma cc0_scratch15.sem) (default : HIx 1) 8192
            iprop(((ivS0).view.loc (V d (cV L) (jV L)) ↦[(ivS0).view.set]{fullShare} (ivK : Buf (Elt F) ((ivS0).view.loc (V d (cV L) (jV L))))) ∗ ((idxV).view.loc (V d (cV L) (jV L)) ↦{shareTok qi 3 0} Iv))
        ∗ Transfers.Flight countersEmb (V d (cV L) (jV L)) (SemLoc.dma cc0_scratch16.sem) (default : HIx 1) 8192
            iprop(((ivS1).view.loc (V d (cV L) (jV L)) ↦[(ivS1).view.set]{fullShare} (ivK : Buf (Elt F) ((ivS1).view.loc (V d (cV L) (jV L))))) ∗ ((idxV).view.loc (V d (cV L) (jV L)) ↦{shareTok qi 3 1} Iv))
        ∗ Transfers.Flight countersEmb (V d (cV L) (jV L)) (SemLoc.dma cc0_scratch17.sem) (default : HIx 1) 8192
            iprop(((ivS2).view.loc (V d (cV L) (jV L)) ↦[(ivS2).view.set]{fullShare} (ivK : Buf (Elt F) ((ivS2).view.loc (V d (cV L) (jV L))))) ∗ ((idxV).view.loc (V d (cV L) (jV L)) ↦{shareTok qi 3 2} Iv))
        ∗ Transfers.Flight countersEmb (V d (cV L) (jV L)) (SemLoc.dma cc0_scratch9.sem) (default : HIx 1) 524288
            iprop(((outV).view.loc (V d (cV L) (jV L)) ↦[S0]{fullShare} Gout) ∗ ((bigP0).view.loc (V d (cV L) (jV L)) ↦[(bigP0).view.set]{fullShare} fb0))
        ∗ Transfers.Flight countersEmb (V d (cV L) (jV L)) (SemLoc.dma cc0_scratch10.sem) (default : HIx 1) 524288
            iprop(((outV).view.loc (V d (cV L) (jV L)) ↦[S1]{fullShare} Gout) ∗ ((bigP1).view.loc (V d (cV L) (jV L)) ↦[(bigP1).view.set]{fullShare} fb1))
        ∗ Transfers.Flight countersEmb (V d (cV L) (jV L)) (SemLoc.dma cc0_scratch11.sem) (default : HIx 1) 524288
            iprop(((outV).view.loc (V d (cV L) (jV L)) ↦[S2]{fullShare} Gout) ∗ ((bigP2).view.loc (V d (cV L) (jV L)) ↦[(bigP2).view.set]{fullShare} fb2))
        ∗ Transfers.Flight countersEmb (V d (cV L) (jV L)) (SemLoc.dma cc0_scratch12.sem) (default : HIx 1) 524288
            iprop(((outV).view.loc (V d (cV L) (jV L)) ↦[S3]{fullShare} Gout) ∗ ((bigP3).view.loc (V d (cV L) (jV L)) ↦[(bigP3).view.set]{fullShare} fb3))
        ∗ Transfers.Flight countersEmb (V d (cV L) (jV L)) (SemLoc.dma cc0_scratch13.sem) (default : HIx 1) 524288
            iprop(((outV).view.loc (V d (cV L) (jV L)) ↦[S4]{fullShare} Gout) ∗ ((bigP4).view.loc (V d (cV L) (jV L)) ↦[(bigP4).view.set]{fullShare} fb4))
        ∗ Transfers.Flight countersEmb (V d (cV L) (jV L)) (SemLoc.dma cc0_scratch14.sem) (default : HIx 1) 524288
            iprop(((outV).view.loc (V d (cV L) (jV L)) ↦[S5]{fullShare} Gout) ∗ ((bigP5).view.loc (V d (cV L) (jV L)) ↦[(bigP5).view.set]{fullShare} fb5))
        ∗ semVal ((V d (cV L) (jV L)), SemLoc.dma cc0_scratch3.sem) 0
        ∗ semVal ((V d (cV L) (jV L)), SemLoc.dma cc0_scratch4.sem) 0
        ∗ semVal ((V d (cV L) (jV L)), SemLoc.dma cc0_scratch5.sem) 0
        ∗ semVal ((V d (cV L) (jV L)), SemLoc.dma cc0_scratch6.sem) 0
        ∗ semVal ((V d (cV L) (jV L)), SemLoc.dma cc0_scratch7.sem) 0
        ∗ semVal ((V d (cV L) (jV L)), SemLoc.dma cc0_scratch8.sem) 0
        ∗ ((shV).view.loc (V d (cV L) (jV L)) ↦{shareTok qs 6 0} Tsh)
        ∗ ((shV).view.loc (V d (cV L) (jV L)) ↦{shareTok qs 6 1} Tsh)
        ∗ ((shV).view.loc (V d (cV L) (jV L)) ↦{shareTok qs 6 2} Tsh)
        ∗ ((shV).view.loc (V d (cV L) (jV L)) ↦{shareTok qs 6 3} Tsh)
        ∗ ((shV).view.loc (V d (cV L) (jV L)) ↦{shareTok qs 6 4} Tsh)
        ∗ ((shV).view.loc (V d (cV L) (jV L)) ↦{shareTok qs 6 5} Tsh)
        ∗ ((outCh0 L k).view.loc (V d (cV L) (jV L)) ↦[(outCh0 L k).view.set]{fullShare} m0)
        ∗ ((outCh1 L k).view.loc (V d (cV L) (jV L)) ↦[(outCh1 L k).view.set]{fullShare} m0)
        ∗ ((outCh2 L k).view.loc (V d (cV L) (jV L)) ↦[(outCh2 L k).view.set]{fullShare} m0)
        ∗ ((outCh3 L k).view.loc (V d (cV L) (jV L)) ↦[(outCh3 L k).view.set]{fullShare} m0)
        ∗ ((outCh4 L k).view.loc (V d (cV L) (jV L)) ↦[(outCh4 L k).view.set]{fullShare} m0)
        ∗ ((outCh5 L k).view.loc (V d (cV L) (jV L)) ↦[(outCh5 L k).view.set]{fullShare} m0)
        ∗ owes (V d (cV L) (jV L)) O W)
      ⊢ wp frame (wpE (defs₀ (F := F)) 𝒱₀ (V d (cV L) (jV L)) none) Set.univ
          (k0_t1_body L tabV (Memref.isWhole_whole _) idxV (Memref.isWhole_whole _) outV (Memref.isWhole_whole _) shV (Memref.isWhole_whole _) ivV (Memref.isWhole_whole _) bigV (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scoped0 v2 v3 0#32 k ())
          fun _ => iprop(Transfers.Flight countersEmb (V d (cV L) (jV L)) (SemLoc.dma cc0_scratch15.sem) (default : HIx 1) 8192
            iprop(((ivS0).view.loc (V d (cV L) (jV L)) ↦[(ivS0).view.set]{fullShare} (ivN : Buf (Elt F) ((ivS0).view.loc (V d (cV L) (jV L))))) ∗ ((idxV).view.loc (V d (cV L) (jV L)) ↦{shareTok qi 3 0} Iv))
        ∗ Transfers.Flight countersEmb (V d (cV L) (jV L)) (SemLoc.dma cc0_scratch16.sem) (default : HIx 1) 8192
            iprop(((ivS1).view.loc (V d (cV L) (jV L)) ↦[(ivS1).view.set]{fullShare} (ivN : Buf (Elt F) ((ivS1).view.loc (V d (cV L) (jV L))))) ∗ ((idxV).view.loc (V d (cV L) (jV L)) ↦{shareTok qi 3 1} Iv))
        ∗ Transfers.Flight countersEmb (V d (cV L) (jV L)) (SemLoc.dma cc0_scratch17.sem) (default : HIx 1) 8192
            iprop(((ivS2).view.loc (V d (cV L) (jV L)) ↦[(ivS2).view.set]{fullShare} (ivN : Buf (Elt F) ((ivS2).view.loc (V d (cV L) (jV L))))) ∗ ((idxV).view.loc (V d (cV L) (jV L)) ↦{shareTok qi 3 2} Iv))
        ∗ (∃ fb, Transfers.Flight countersEmb (V d (cV L) (jV L)) (SemLoc.dma cc0_scratch9.sem) (default : HIx 1) 524288
            iprop(((outCh0 L k).view.loc (V d (cV L) (jV L)) ↦[(outCh0 L k).view.set]{fullShare} (Gout : Buf (Elt F) ((outCh0 L k).view.loc (V d (cV L) (jV L))))) ∗ ((bigP0).view.loc (V d (cV L) (jV L)) ↦[(bigP0).view.set]{fullShare} fb)))
        ∗ (∃ fb, Transfers.Flight countersEmb (V d (cV L) (jV L)) (SemLoc.dma cc0_scratch10.sem) (default : HIx 1) 524288
            iprop(((outCh1 L k).view.loc (V d (cV L) (jV L)) ↦[(outCh1 L k).view.set]{fullShare} (Gout : Buf (Elt F) ((outCh1 L k).view.loc (V d (cV L) (jV L))))) ∗ ((bigP1).view.loc (V d (cV L) (jV L)) ↦[(bigP1).view.set]{fullShare} fb)))
        ∗ (∃ fb, Transfers.Flight countersEmb (V d (cV L) (jV L)) (SemLoc.dma cc0_scratch11.sem) (default : HIx 1) 524288
            iprop(((outCh2 L k).view.loc (V d (cV L) (jV L)) ↦[(outCh2 L k).view.set]{fullShare} (Gout : Buf (Elt F) ((outCh2 L k).view.loc (V d (cV L) (jV L))))) ∗ ((bigP2).view.loc (V d (cV L) (jV L)) ↦[(bigP2).view.set]{fullShare} fb)))
        ∗ (∃ fb, Transfers.Flight countersEmb (V d (cV L) (jV L)) (SemLoc.dma cc0_scratch12.sem) (default : HIx 1) 524288
            iprop(((outCh3 L k).view.loc (V d (cV L) (jV L)) ↦[(outCh3 L k).view.set]{fullShare} (Gout : Buf (Elt F) ((outCh3 L k).view.loc (V d (cV L) (jV L))))) ∗ ((bigP3).view.loc (V d (cV L) (jV L)) ↦[(bigP3).view.set]{fullShare} fb)))
        ∗ (∃ fb, Transfers.Flight countersEmb (V d (cV L) (jV L)) (SemLoc.dma cc0_scratch13.sem) (default : HIx 1) 524288
            iprop(((outCh4 L k).view.loc (V d (cV L) (jV L)) ↦[(outCh4 L k).view.set]{fullShare} (Gout : Buf (Elt F) ((outCh4 L k).view.loc (V d (cV L) (jV L))))) ∗ ((bigP4).view.loc (V d (cV L) (jV L)) ↦[(bigP4).view.set]{fullShare} fb)))
        ∗ (∃ fb, Transfers.Flight countersEmb (V d (cV L) (jV L)) (SemLoc.dma cc0_scratch14.sem) (default : HIx 1) 524288
            iprop(((outCh5 L k).view.loc (V d (cV L) (jV L)) ↦[(outCh5 L k).view.set]{fullShare} (Gout : Buf (Elt F) ((outCh5 L k).view.loc (V d (cV L) (jV L))))) ∗ ((bigP5).view.loc (V d (cV L) (jV L)) ↦[(bigP5).view.set]{fullShare} fb)))
        ∗ semVal ((V d (cV L) (jV L)), SemLoc.dma cc0_scratch3.sem) 0
        ∗ semVal ((V d (cV L) (jV L)), SemLoc.dma cc0_scratch4.sem) 0
        ∗ semVal ((V d (cV L) (jV L)), SemLoc.dma cc0_scratch5.sem) 0
        ∗ semVal ((V d (cV L) (jV L)), SemLoc.dma cc0_scratch6.sem) 0
        ∗ semVal ((V d (cV L) (jV L)), SemLoc.dma cc0_scratch7.sem) 0
        ∗ semVal ((V d (cV L) (jV L)), SemLoc.dma cc0_scratch8.sem) 0
        ∗ ((shV).view.loc (V d (cV L) (jV L)) ↦{shareTok qs 6 0} Tsh)
        ∗ ((shV).view.loc (V d (cV L) (jV L)) ↦{shareTok qs 6 1} Tsh)
        ∗ ((shV).view.loc (V d (cV L) (jV L)) ↦{shareTok qs 6 2} Tsh)
        ∗ ((shV).view.loc (V d (cV L) (jV L)) ↦{shareTok qs 6 3} Tsh)
        ∗ ((shV).view.loc (V d (cV L) (jV L)) ↦{shareTok qs 6 4} Tsh)
        ∗ ((shV).view.loc (V d (cV L) (jV L)) ↦{shareTok qs 6 5} Tsh)
        ∗ ((outV).view.loc (V d (cV L) (jV L)) ↦[S0]{fullShare} Gout)
        ∗ ((outV).view.loc (V d (cV L) (jV L)) ↦[S1]{fullShare} Gout)
        ∗ ((outV).view.loc (V d (cV L) (jV L)) ↦[S2]{fullShare} Gout)
        ∗ ((outV).view.loc (V d (cV L) (jV L)) ↦[S3]{fullShare} Gout)
        ∗ ((outV).view.loc (V d (cV L) (jV L)) ↦[S4]{fullShare} Gout)
        ∗ ((outV).view.loc (V d (cV L) (jV L)) ↦[S5]{fullShare} Gout)
        ∗ ∃ W', ⌜∀ p ∈ W', p ∈ W ∨ p.2 = none⌝ ∗ owes (V d (cV L) (jV L)) O W') := by
  iintro ⟨#Hmw, HfI0, HfI1, HfI2, HfO0, HfO1, HfO2, HfO3, HfO4, HfO5, Hg0, Hg1, Hg2, Hg3, Hg4, Hg5, Ht0, Ht1, Ht2, Ht3, Ht4, Ht5, Ho0, Ho1, Ho2, Ho3, Ho4, Ho5, HO⟩
  sl_exec
  ihave Hr := (slot0_rows (F := F) d (cV L) (jV L) _).1 $$ HfI0_dst
  icases Hr with ⟨Hl0, Hl1⟩
  sl_exec
  ihave Hr := (slot1_rows (F := F) d (cV L) (jV L) _).1 $$ HfI1_dst
  icases Hr with ⟨Hl2, Hl3⟩
  sl_exec
  ihave Hr := (slot2_rows (F := F) d (cV L) (jV L) _).1 $$ HfI2_dst
  icases Hr with ⟨Hl4, Hl5⟩
  sl_exec
  ihave Hs0 := (slot0_rows (F := F) d (cV L) (jV L) _).2 $$ [Hl0 Hl1]
  · isplitl [Hl0] <;> iassumption
  sl_exec
  ihave Hs1 := (slot1_rows (F := F) d (cV L) (jV L) _).2 $$ [Hl2 Hl3]
  · isplitl [Hl2] <;> iassumption
  sl_exec
  ihave Hs2 := (slot2_rows (F := F) d (cV L) (jV L) _).2 $$ [Hl4 Hl5]
  · isplitl [Hl4] <;> iassumption
  sl_exec
  sl_step
  isplitl [HfI0 HfI0_src]
  · iapply (flight_fetch_clean (F := F) (V d (cV L) (jV L)) _ _ (ivS0).view _ _ _ hfe0 _ _ _ _)
    isplitl [HfI0_src]; · iexact HfI0_src
    iexact HfI0
  isplitl [HfI1 HfI1_src]
  · iapply (flight_fetch_clean (F := F) (V d (cV L) (jV L)) _ _ (ivS1).view _ _ _ hfe1 _ _ _ _)
    isplitl [HfI1_src]; · iexact HfI1_src
    iexact HfI1
  isplitl [HfI2 HfI2_src]
  · iapply (flight_fetch_clean (F := F) (V d (cV L) (jV L)) _ _ (ivS2).view _ _ _ hfe2 _ _ _ _)
    isplitl [HfI2_src]; · iexact HfI2_src
    iexact HfI2
  isplitl [HfO0]
  · iexists _
    iapply (flight_out_clean (F := F) (V d (cV L) (jV L)) _ _ (outCh0 L k).view _ _ _ (fun y => (hov0 y).trans (congrFun (View.read_writes_whole _ _ _).symm y)) _)
    iexact HfO0
  isplitl [HfO1]
  · iexists _
    iapply (flight_out_clean (F := F) (V d (cV L) (jV L)) _ _ (outCh1 L k).view _ _ _ (fun y => (hov1 y).trans (congrFun (View.read_writes_whole _ _ _).symm y)) _)
    iexact HfO1
  isplitl [HfO2]
  · iexists _
    iapply (flight_out_clean (F := F) (V d (cV L) (jV L)) _ _ (outCh2 L k).view _ _ _ (fun y => (hov2 y).trans (congrFun (View.read_writes_whole _ _ _).symm y)) _)
    iexact HfO2
  isplitl [HfO3]
  · iexists _
    iapply (flight_out_clean (F := F) (V d (cV L) (jV L)) _ _ (outCh3 L k).view _ _ _ (fun y => (hov3 y).trans (congrFun (View.read_writes_whole _ _ _).symm y)) _)
    iexact HfO3
  isplitl [HfO4]
  · iexists _
    iapply (flight_out_clean (F := F) (V d (cV L) (jV L)) _ _ (outCh4 L k).view _ _ _ (fun y => (hov4 y).trans (congrFun (View.read_writes_whole _ _ _).symm y)) _)
    iexact HfO4
  isplitl [HfO5]
  · iexists _
    iapply (flight_out_clean (F := F) (V d (cV L) (jV L)) _ _ (outCh5 L k).view _ _ _ (fun y => (hov5 y).trans (congrFun (View.read_writes_whole _ _ _).symm y)) _)
    iexact HfO5
  isplitl [Hg0]; · iexact Hg0
  isplitl [Hg1]; · iexact Hg1
  isplitl [Hg2]; · iexact Hg2
  isplitl [Hg3]; · iexact Hg3
  isplitl [Hg4]; · iexact Hg4
  isplitl [Hg5]; · iexact Hg5
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [HfO0_dst]; · iexact HfO0_dst
  isplitl [HfO1_dst]; · iexact HfO1_dst
  isplitl [HfO2_dst]; · iexact HfO2_dst
  isplitl [HfO3_dst]; · iexact HfO3_dst
  isplitl [HfO4_dst]; · iexact HfO4_dst
  isplitl [HfO5_dst]; · iexact HfO5_dst
  iexists _; isplitr
  swap; · iexact HO
  ipureintro; intro p hp
  repeat (rcases Finset.mem_insert.mp hp with hp | hp; · exact .inr (hp ▸ rfl))
  exact .inl hp

end Tile
end Cert.Proof.KB
end
-- ==== Proof.KBTripFirst.lean ====
/-
  One trip of the ring, from the ring's state before it to its state after it. Before trip k each slot of the index
  scratch has a fetch in flight that delivers its two rows of that trip's six; each of the six pieces of the row
  buffer has a copy out in flight from the trip before (none before the first trip). The trip waits for each
  slot's rows, gathers the 128 table rows each row of words names into a piece, copies the pieces out to the
  trip's six windows of the result, and fetches each slot's rows for the next trip (but the last trip, which
  refetches only slot 0, for the one unit left). What the copies deliver are the lookup's values on those windows.
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.Kernel
import proofs.«205516_g82884278878931_cont_9to1_m_1121_21_alg».proof.Proof.Gen.Kernel.Skeleton
import proofs.«205516_g82884278878931_cont_9to1_m_1121_21_alg».proof.Proof.Spec
import proofs.«205516_g82884278878931_cont_9to1_m_1121_21_alg».proof.Proof.KBFlight

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (tileNo shareTok shareDrop)

variable {F : FTy → Type}

local notation "𝕄" => MT nD τ sig (HIx 1) (Elt F) ℕ UU ℕ
local notation "tabV" => (Memref.whole Cert.Kernel.main_arg3_scv : Memref Cert.Kernel.sig Kind.scVector Space.hbm Cert.Kernel.S1000x128 EltTy.f32)
local notation "idxV" => (Memref.whole Cert.Kernel.main_v0_scv : Memref Cert.Kernel.sig Kind.scVector Space.hbm Cert.Kernel.S6400x128 EltTy.i32)
local notation "outV" => (Memref.whole Cert.Kernel.main_v1_scv : Memref Cert.Kernel.sig Kind.scVector Space.hbm Cert.Kernel.S819200x128 EltTy.f32)
local notation "shV" => (Memref.whole Cert.Kernel.cc0_scratch0 : Memref Cert.Kernel.sig Kind.scVector Space.shared Cert.Kernel.S1000x128 EltTy.f32)
local notation "ivV" => (Memref.whole Cert.Kernel.cc0_scratch1 : Memref Cert.Kernel.sig Kind.scVector Space.vmem Cert.Kernel.S6x128 EltTy.i32)
local notation "bigV" => (Memref.whole Cert.Kernel.cc0_scratch2 : Memref Cert.Kernel.sig Kind.scVector Space.vmem Cert.Kernel.S768x128 EltTy.f32)

variable [FloatOps F]
section Tile
variable (d : Dev nD) (L : grid0.Coords)

set_option maxHeartbeats 40000000 in
theorem trip_first (O : CellTallies nD τ sig (HIx 1)) (W : Waits sig (HIx 1)) (k : Fin k0_t1_loop.trips) (v2 v3 : BitVec 32)
    (h2 : ¬ k0_cond2 k = 1#1) (h3 : ¬ k0_cond3 k = 1#1) (h4 : ¬ k0_cond4 k = 1#1) (h5 : k0_cond5 k = 1#1) (h6 : k0_cond6 k = 1#1) (h7 : k0_cond7 k = 1#1)
    (qi qs : PosShare TreeShare) (Iv : Buf (Elt F) ((idxV).view.loc (V d (cV L) (jV L)))) (Tsh : Buf (Elt F) ((shV).view.loc (V d (cV L) (jV L))))
    (ivK ivN : Buf (Elt F) ((ivV).view.loc (V d (cV L) (jV L)))) (Gout m0 : Buf (Elt F) ((outV).view.loc (V d (cV L) (jV L))))

    (fb0 fb1 fb2 fb3 fb4 fb5 : Buf (Elt F) ((bigV).view.loc (V d (cV L) (jV L))))
    (hn : S128.numel = S128x128.size gathers_S1000x128_S128x128.axis')
    (hin0 : ∀ x, ((ivL0).view.read (Elt F) ivK x).toNat < S1000x128.size gathers_S1000x128_S128x128.axis)
    (hin1 : ∀ x, ((ivL1).view.read (Elt F) ivK x).toNat < S1000x128.size gathers_S1000x128_S128x128.axis)
    (hin2 : ∀ x, ((ivL2).view.read (Elt F) ivK x).toNat < S1000x128.size gathers_S1000x128_S128x128.axis)
    (hin3 : ∀ x, ((ivL3).view.read (Elt F) ivK x).toNat < S1000x128.size gathers_S1000x128_S128x128.axis)
    (hin4 : ∀ x, ((ivL4).view.read (Elt F) ivK x).toNat < S1000x128.size gathers_S1000x128_S128x128.axis)
    (hin5 : ∀ x, ((ivL5).view.read (Elt F) ivK x).toNat < S1000x128.size gathers_S1000x128_S128x128.axis)
    (hfe0 : ∀ y, (ivS0).view.read (Elt F) ivN y = (idxW0 L k h5).view.read (Elt F) Iv y)
    (hfe1 : ∀ y, (ivS1).view.read (Elt F) ivN y = (idxW1 L k h6).view.read (Elt F) Iv y)
    (hfe2 : ∀ y, (ivS2).view.read (Elt F) ivN y = (idxW2 L k h7).view.read (Elt F) Iv y)
    (hov0 : ∀ y, (outCh0 L k).view.read (Elt F) Gout y = SparseCore.gatherPayload gathers_S1000x128_S128x128 ((shW).view.read (Elt F) Tsh) (SparseCore.rows ((ivL0).view.read (Elt F) ivK) hn hin0) y)
    (hov1 : ∀ y, (outCh1 L k).view.read (Elt F) Gout y = SparseCore.gatherPayload gathers_S1000x128_S128x128 ((shW).view.read (Elt F) Tsh) (SparseCore.rows ((ivL1).view.read (Elt F) ivK) hn hin1) y)
    (hov2 : ∀ y, (outCh2 L k).view.read (Elt F) Gout y = SparseCore.gatherPayload gathers_S1000x128_S128x128 ((shW).view.read (Elt F) Tsh) (SparseCore.rows ((ivL2).view.read (Elt F) ivK) hn hin2) y)
    (hov3 : ∀ y, (outCh3 L k).view.read (Elt F) Gout y = SparseCore.gatherPayload gathers_S1000x128_S128x128 ((shW).view.read (Elt F) Tsh) (SparseCore.rows ((ivL3).view.read (Elt F) ivK) hn hin3) y)
    (hov4 : ∀ y, (outCh4 L k).view.read (Elt F) Gout y = SparseCore.gatherPayload gathers_S1000x128_S128x128 ((shW).view.read (Elt F) Tsh) (SparseCore.rows ((ivL4).view.read (Elt F) ivK) hn hin4) y)
    (hov5 : ∀ y, (outCh5 L k).view.read (Elt F) Gout y = SparseCore.gatherPayload gathers_S1000x128_S128x128 ((shW).view.read (Elt F) Tsh) (SparseCore.rows ((ivL5).view.read (Elt F) ivK) hn hin5) y) :
    iprop((Transfers.MayWaits (V d (cV L) (jV L)) (default : HIx 1) O : sProp 𝕄)
        ∗ Transfers.Flight countersEmb (V d (cV L) (jV L)) (SemLoc.dma cc0_scratch15.sem) (default : HIx 1) 8192
            iprop(((ivS0).view.loc (V d (cV L) (jV L)) ↦[(ivS0).view.set]{fullShare} (ivK : Buf (Elt F) ((ivS0).view.loc (V d (cV L) (jV L))))) ∗ ((idxV).view.loc (V d (cV L) (jV L)) ↦{shareTok qi 3 0} Iv))
        ∗ Transfers.Flight countersEmb (V d (cV L) (jV L)) (SemLoc.dma cc0_scratch16.sem) (default : HIx 1) 8192
            iprop(((ivS1).view.loc (V d (cV L) (jV L)) ↦[(ivS1).view.set]{fullShare} (ivK : Buf (Elt F) ((ivS1).view.loc (V d (cV L) (jV L))))) ∗ ((idxV).view.loc (V d (cV L) (jV L)) ↦{shareTok qi 3 1} Iv))
        ∗ Transfers.Flight countersEmb (V d (cV L) (jV L)) (SemLoc.dma cc0_scratch17.sem) (default : HIx 1) 8192
            iprop(((ivS2).view.loc (V d (cV L) (jV L)) ↦[(ivS2).view.set]{fullShare} (ivK : Buf (Elt F) ((ivS2).view.loc (V d (cV L) (jV L))))) ∗ ((idxV).view.loc (V d (cV L) (jV L)) ↦{shareTok qi 3 2} Iv))
        ∗ ((bigP0).view.loc (V d (cV L) (jV L)) ↦[(bigP0).view.set]{fullShare} fb0) ∗ semVal ((V d (cV L) (jV L)), SemLoc.dma cc0_scratch9.sem) 0
        ∗ ((bigP1).view.loc (V d (cV L) (jV L)) ↦[(bigP1).view.set]{fullShare} fb1) ∗ semVal ((V d (cV L) (jV L)), SemLoc.dma cc0_scratch10.sem) 0
        ∗ ((bigP2).view.loc (V d (cV L) (jV L)) ↦[(bigP2).view.set]{fullShare} fb2) ∗ semVal ((V d (cV L) (jV L)), SemLoc.dma cc0_scratch11.sem) 0
        ∗ ((bigP3).view.loc (V d (cV L) (jV L)) ↦[(bigP3).view.set]{fullShare} fb3) ∗ semVal ((V d (cV L) (jV L)), SemLoc.dma cc0_scratch12.sem) 0
        ∗ ((bigP4).view.loc (V d (cV L) (jV L)) ↦[(bigP4).view.set]{fullShare} fb4) ∗ semVal ((V d (cV L) (jV L)), SemLoc.dma cc0_scratch13.sem) 0
        ∗ ((bigP5).view.loc (V d (cV L) (jV L)) ↦[(bigP5).view.set]{fullShare} fb5) ∗ semVal ((V d (cV L) (jV L)), SemLoc.dma cc0_scratch14.sem) 0
        ∗ semVal ((V d (cV L) (jV L)), SemLoc.dma cc0_scratch3.sem) 0
        ∗ semVal ((V d (cV L) (jV L)), SemLoc.dma cc0_scratch4.sem) 0
        ∗ semVal ((V d (cV L) (jV L)), SemLoc.dma cc0_scratch5.sem) 0
        ∗ semVal ((V d (cV L) (jV L)), SemLoc.dma cc0_scratch6.sem) 0
        ∗ semVal ((V d (cV L) (jV L)), SemLoc.dma cc0_scratch7.sem) 0
        ∗ semVal ((V d (cV L) (jV L)), SemLoc.dma cc0_scratch8.sem) 0
        ∗ ((shV).view.loc (V d (cV L) (jV L)) ↦{shareTok qs 6 0} Tsh)
        ∗ ((shV).view.loc (V d (cV L) (jV L)) ↦{shareTok qs 6 1} Tsh)
        ∗ ((shV).view.loc (V d (cV L) (jV L)) ↦{shareTok qs 6 2} Tsh)
        ∗ ((shV).view.loc (V d (cV L) (jV L)) ↦{shareTok qs 6 3} Tsh)
        ∗ ((shV).view.loc (V d (cV L) (jV L)) ↦{shareTok qs 6 4} Tsh)
        ∗ ((shV).view.loc (V d (cV L) (jV L)) ↦{shareTok qs 6 5} Tsh)
        ∗ ((outCh0 L k).view.loc (V d (cV L) (jV L)) ↦[(outCh0 L k).view.set]{fullShare} m0)
        ∗ ((outCh1 L k).view.loc (V d (cV L) (jV L)) ↦[(outCh1 L k).view.set]{fullShare} m0)
        ∗ ((outCh2 L k).view.loc (V d (cV L) (jV L)) ↦[(outCh2 L k).view.set]{fullShare} m0)
        ∗ ((outCh3 L k).view.loc (V d (cV L) (jV L)) ↦[(outCh3 L k).view.set]{fullShare} m0)
        ∗ ((outCh4 L k).view.loc (V d (cV L) (jV L)) ↦[(outCh4 L k).view.set]{fullShare} m0)
        ∗ ((outCh5 L k).view.loc (V d (cV L) (jV L)) ↦[(outCh5 L k).view.set]{fullShare} m0)
        ∗ owes (V d (cV L) (jV L)) O W)
      ⊢ wp frame (wpE (defs₀ (F := F)) 𝒱₀ (V d (cV L) (jV L)) none) Set.univ
          (k0_t1_body L tabV (Memref.isWhole_whole _) idxV (Memref.isWhole_whole _) outV (Memref.isWhole_whole _) shV (Memref.isWhole_whole _) ivV (Memref.isWhole_whole _) bigV (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scoped0 v2 v3 0#32 k ())
          fun _ => iprop(Transfers.Flight countersEmb (V d (cV L) (jV L)) (SemLoc.dma cc0_scratch15.sem) (default : HIx 1) 8192
            iprop(((ivS0).view.loc (V d (cV L) (jV L)) ↦[(ivS0).view.set]{fullShare} (ivN : Buf (Elt F) ((ivS0).view.loc (V d (cV L) (jV L))))) ∗ ((idxV).view.loc (V d (cV L) (jV L)) ↦{shareTok qi 3 0} Iv))
        ∗ Transfers.Flight countersEmb (V d (cV L) (jV L)) (SemLoc.dma cc0_scratch16.sem) (default : HIx 1) 8192
            iprop(((ivS1).view.loc (V d (cV L) (jV L)) ↦[(ivS1).view.set]{fullShare} (ivN : Buf (Elt F) ((ivS1).view.loc (V d (cV L) (jV L))))) ∗ ((idxV).view.loc (V d (cV L) (jV L)) ↦{shareTok qi 3 1} Iv))
        ∗ Transfers.Flight countersEmb (V d (cV L) (jV L)) (SemLoc.dma cc0_scratch17.sem) (default : HIx 1) 8192
            iprop(((ivS2).view.loc (V d (cV L) (jV L)) ↦[(ivS2).view.set]{fullShare} (ivN : Buf (Elt F) ((ivS2).view.loc (V d (cV L) (jV L))))) ∗ ((idxV).view.loc (V d (cV L) (jV L)) ↦{shareTok qi 3 2} Iv))
        ∗ (∃ fb, Transfers.Flight countersEmb (V d (cV L) (jV L)) (SemLoc.dma cc0_scratch9.sem) (default : HIx 1) 524288
            iprop(((outCh0 L k).view.loc (V d (cV L) (jV L)) ↦[(outCh0 L k).view.set]{fullShare} (Gout : Buf (Elt F) ((outCh0 L k).view.loc (V d (cV L) (jV L))))) ∗ ((bigP0).view.loc (V d (cV L) (jV L)) ↦[(bigP0).view.set]{fullShare} fb)))
        ∗ (∃ fb, Transfers.Flight countersEmb (V d (cV L) (jV L)) (SemLoc.dma cc0_scratch10.sem) (default : HIx 1) 524288
            iprop(((outCh1 L k).view.loc (V d (cV L) (jV L)) ↦[(outCh1 L k).view.set]{fullShare} (Gout : Buf (Elt F) ((outCh1 L k).view.loc (V d (cV L) (jV L))))) ∗ ((bigP1).view.loc (V d (cV L) (jV L)) ↦[(bigP1).view.set]{fullShare} fb)))
        ∗ (∃ fb, Transfers.Flight countersEmb (V d (cV L) (jV L)) (SemLoc.dma cc0_scratch11.sem) (default : HIx 1) 524288
            iprop(((outCh2 L k).view.loc (V d (cV L) (jV L)) ↦[(outCh2 L k).view.set]{fullShare} (Gout : Buf (Elt F) ((outCh2 L k).view.loc (V d (cV L) (jV L))))) ∗ ((bigP2).view.loc (V d (cV L) (jV L)) ↦[(bigP2).view.set]{fullShare} fb)))
        ∗ (∃ fb, Transfers.Flight countersEmb (V d (cV L) (jV L)) (SemLoc.dma cc0_scratch12.sem) (default : HIx 1) 524288
            iprop(((outCh3 L k).view.loc (V d (cV L) (jV L)) ↦[(outCh3 L k).view.set]{fullShare} (Gout : Buf (Elt F) ((outCh3 L k).view.loc (V d (cV L) (jV L))))) ∗ ((bigP3).view.loc (V d (cV L) (jV L)) ↦[(bigP3).view.set]{fullShare} fb)))
        ∗ (∃ fb, Transfers.Flight countersEmb (V d (cV L) (jV L)) (SemLoc.dma cc0_scratch13.sem) (default : HIx 1) 524288
            iprop(((outCh4 L k).view.loc (V d (cV L) (jV L)) ↦[(outCh4 L k).view.set]{fullShare} (Gout : Buf (Elt F) ((outCh4 L k).view.loc (V d (cV L) (jV L))))) ∗ ((bigP4).view.loc (V d (cV L) (jV L)) ↦[(bigP4).view.set]{fullShare} fb)))
        ∗ (∃ fb, Transfers.Flight countersEmb (V d (cV L) (jV L)) (SemLoc.dma cc0_scratch14.sem) (default : HIx 1) 524288
            iprop(((outCh5 L k).view.loc (V d (cV L) (jV L)) ↦[(outCh5 L k).view.set]{fullShare} (Gout : Buf (Elt F) ((outCh5 L k).view.loc (V d (cV L) (jV L))))) ∗ ((bigP5).view.loc (V d (cV L) (jV L)) ↦[(bigP5).view.set]{fullShare} fb)))
        ∗ semVal ((V d (cV L) (jV L)), SemLoc.dma cc0_scratch3.sem) 0
        ∗ semVal ((V d (cV L) (jV L)), SemLoc.dma cc0_scratch4.sem) 0
        ∗ semVal ((V d (cV L) (jV L)), SemLoc.dma cc0_scratch5.sem) 0
        ∗ semVal ((V d (cV L) (jV L)), SemLoc.dma cc0_scratch6.sem) 0
        ∗ semVal ((V d (cV L) (jV L)), SemLoc.dma cc0_scratch7.sem) 0
        ∗ semVal ((V d (cV L) (jV L)), SemLoc.dma cc0_scratch8.sem) 0
        ∗ ((shV).view.loc (V d (cV L) (jV L)) ↦{shareTok qs 6 0} Tsh)
        ∗ ((shV).view.loc (V d (cV L) (jV L)) ↦{shareTok qs 6 1} Tsh)
        ∗ ((shV).view.loc (V d (cV L) (jV L)) ↦{shareTok qs 6 2} Tsh)
        ∗ ((shV).view.loc (V d (cV L) (jV L)) ↦{shareTok qs 6 3} Tsh)
        ∗ ((shV).view.loc (V d (cV L) (jV L)) ↦{shareTok qs 6 4} Tsh)
        ∗ ((shV).view.loc (V d (cV L) (jV L)) ↦{shareTok qs 6 5} Tsh)
        ∗ ∃ W', ⌜∀ p ∈ W', p ∈ W ∨ p.2 = none⌝ ∗ owes (V d (cV L) (jV L)) O W') := by
  iintro ⟨#Hmw, HfI0, HfI1, HfI2, Hb0, HfO0, Hb1, HfO1, Hb2, HfO2, Hb3, HfO3, Hb4, HfO4, Hb5, HfO5, Hg0, Hg1, Hg2, Hg3, Hg4, Hg5, Ht0, Ht1, Ht2, Ht3, Ht4, Ht5, Ho0, Ho1, Ho2, Ho3, Ho4, Ho5, HO⟩
  sl_exec
  ihave Hr := (slot0_rows (F := F) d (cV L) (jV L) _).1 $$ HfI0_dst
  icases Hr with ⟨Hl0, Hl1⟩
  sl_exec
  ihave Hr := (slot1_rows (F := F) d (cV L) (jV L) _).1 $$ HfI1_dst
  icases Hr with ⟨Hl2, Hl3⟩
  sl_exec
  ihave Hr := (slot2_rows (F := F) d (cV L) (jV L) _).1 $$ HfI2_dst
  icases Hr with ⟨Hl4, Hl5⟩
  sl_exec
  ihave Hs0 := (slot0_rows (F := F) d (cV L) (jV L) _).2 $$ [Hl0 Hl1]
  · isplitl [Hl0] <;> iassumption
  sl_exec
  ihave Hs1 := (slot1_rows (F := F) d (cV L) (jV L) _).2 $$ [Hl2 Hl3]
  · isplitl [Hl2] <;> iassumption
  sl_exec
  ihave Hs2 := (slot2_rows (F := F) d (cV L) (jV L) _).2 $$ [Hl4 Hl5]
  · isplitl [Hl4] <;> iassumption
  sl_exec
  sl_step
  isplitl [HfI0 HfI0_src]
  · iapply (flight_fetch_clean (F := F) (V d (cV L) (jV L)) _ _ (ivS0).view _ _ _ hfe0 _ _ _ _)
    isplitl [HfI0_src]; · iexact HfI0_src
    iexact HfI0
  isplitl [HfI1 HfI1_src]
  · iapply (flight_fetch_clean (F := F) (V d (cV L) (jV L)) _ _ (ivS1).view _ _ _ hfe1 _ _ _ _)
    isplitl [HfI1_src]; · iexact HfI1_src
    iexact HfI1
  isplitl [HfI2 HfI2_src]
  · iapply (flight_fetch_clean (F := F) (V d (cV L) (jV L)) _ _ (ivS2).view _ _ _ hfe2 _ _ _ _)
    isplitl [HfI2_src]; · iexact HfI2_src
    iexact HfI2
  isplitl [HfO0]
  · iexists _
    iapply (flight_out_clean (F := F) (V d (cV L) (jV L)) _ _ (outCh0 L k).view _ _ _ (fun y => (hov0 y).trans (congrFun (View.read_writes_whole _ _ _).symm y)) _)
    iexact HfO0
  isplitl [HfO1]
  · iexists _
    iapply (flight_out_clean (F := F) (V d (cV L) (jV L)) _ _ (outCh1 L k).view _ _ _ (fun y => (hov1 y).trans (congrFun (View.read_writes_whole _ _ _).symm y)) _)
    iexact HfO1
  isplitl [HfO2]
  · iexists _
    iapply (flight_out_clean (F := F) (V d (cV L) (jV L)) _ _ (outCh2 L k).view _ _ _ (fun y => (hov2 y).trans (congrFun (View.read_writes_whole _ _ _).symm y)) _)
    iexact HfO2
  isplitl [HfO3]
  · iexists _
    iapply (flight_out_clean (F := F) (V d (cV L) (jV L)) _ _ (outCh3 L k).view _ _ _ (fun y => (hov3 y).trans (congrFun (View.read_writes_whole _ _ _).symm y)) _)
    iexact HfO3
  isplitl [HfO4]
  · iexists _
    iapply (flight_out_clean (F := F) (V d (cV L) (jV L)) _ _ (outCh4 L k).view _ _ _ (fun y => (hov4 y).trans (congrFun (View.read_writes_whole _ _ _).symm y)) _)
    iexact HfO4
  isplitl [HfO5]
  · iexists _
    iapply (flight_out_clean (F := F) (V d (cV L) (jV L)) _ _ (outCh5 L k).view _ _ _ (fun y => (hov5 y).trans (congrFun (View.read_writes_whole _ _ _).symm y)) _)
    iexact HfO5
  isplitl [Hg0]; · iexact Hg0
  isplitl [Hg1]; · iexact Hg1
  isplitl [Hg2]; · iexact Hg2
  isplitl [Hg3]; · iexact Hg3
  isplitl [Hg4]; · iexact Hg4
  isplitl [Hg5]; · iexact Hg5
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  iexists _; isplitr
  swap; · iexact HO
  ipureintro; intro p hp
  repeat (rcases Finset.mem_insert.mp hp with hp | hp; · exact .inr (hp ▸ rfl))
  exact .inl hp

end Tile
end Cert.Proof.KB
end
-- ==== Proof.KBTripLast.lean ====
/-
  One trip of the ring, from the ring's state before it to its state after it. Before trip k each slot of the index
  scratch has a fetch in flight that delivers its two rows of that trip's six; each of the six pieces of the row
  buffer has a copy out in flight from the trip before (none before the first trip). The trip waits for each
  slot's rows, gathers the 128 table rows each row of words names into a piece, copies the pieces out to the
  trip's six windows of the result, and fetches each slot's rows for the next trip (but the last trip, which
  refetches only slot 0, for the one unit left). What the copies deliver are the lookup's values on those windows.
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.Kernel
import proofs.«205516_g82884278878931_cont_9to1_m_1121_21_alg».proof.Proof.Gen.Kernel.Skeleton
import proofs.«205516_g82884278878931_cont_9to1_m_1121_21_alg».proof.Proof.Spec
import proofs.«205516_g82884278878931_cont_9to1_m_1121_21_alg».proof.Proof.KBFlight

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (tileNo shareTok shareDrop)

variable {F : FTy → Type}

local notation "𝕄" => MT nD τ sig (HIx 1) (Elt F) ℕ UU ℕ
local notation "tabV" => (Memref.whole Cert.Kernel.main_arg3_scv : Memref Cert.Kernel.sig Kind.scVector Space.hbm Cert.Kernel.S1000x128 EltTy.f32)
local notation "idxV" => (Memref.whole Cert.Kernel.main_v0_scv : Memref Cert.Kernel.sig Kind.scVector Space.hbm Cert.Kernel.S6400x128 EltTy.i32)
local notation "outV" => (Memref.whole Cert.Kernel.main_v1_scv : Memref Cert.Kernel.sig Kind.scVector Space.hbm Cert.Kernel.S819200x128 EltTy.f32)
local notation "shV" => (Memref.whole Cert.Kernel.cc0_scratch0 : Memref Cert.Kernel.sig Kind.scVector Space.shared Cert.Kernel.S1000x128 EltTy.f32)
local notation "ivV" => (Memref.whole Cert.Kernel.cc0_scratch1 : Memref Cert.Kernel.sig Kind.scVector Space.vmem Cert.Kernel.S6x128 EltTy.i32)
local notation "bigV" => (Memref.whole Cert.Kernel.cc0_scratch2 : Memref Cert.Kernel.sig Kind.scVector Space.vmem Cert.Kernel.S768x128 EltTy.f32)

variable [FloatOps F]
section Tile
variable (d : Dev nD) (L : grid0.Coords)

set_option maxHeartbeats 40000000 in
theorem trip_last (O : CellTallies nD τ sig (HIx 1)) (W : Waits sig (HIx 1)) (k : Fin k0_t1_loop.trips) (v2 v3 : BitVec 32)
    (h2 : k0_cond2 k = 1#1) (h3 : k0_cond3 k = 1#1) (h4 : k0_cond4 k = 1#1) (h5 : k0_cond5 k = 1#1) (h6 : ¬ k0_cond6 k = 1#1) (h7 : ¬ k0_cond7 k = 1#1)
    (qi qs : PosShare TreeShare) (Iv : Buf (Elt F) ((idxV).view.loc (V d (cV L) (jV L)))) (Tsh : Buf (Elt F) ((shV).view.loc (V d (cV L) (jV L))))
    (ivK ivN : Buf (Elt F) ((ivV).view.loc (V d (cV L) (jV L)))) (Gout m0 : Buf (Elt F) ((outV).view.loc (V d (cV L) (jV L))))
    (S0 S1 S2 S3 S4 S5 : Finset S819200x128.Idx)
    (fb0 fb1 fb2 fb3 fb4 fb5 : Buf (Elt F) ((bigV).view.loc (V d (cV L) (jV L))))
    (hn : S128.numel = S128x128.size gathers_S1000x128_S128x128.axis')
    (hin0 : ∀ x, ((ivL0).view.read (Elt F) ivK x).toNat < S1000x128.size gathers_S1000x128_S128x128.axis)
    (hin1 : ∀ x, ((ivL1).view.read (Elt F) ivK x).toNat < S1000x128.size gathers_S1000x128_S128x128.axis)
    (hin2 : ∀ x, ((ivL2).view.read (Elt F) ivK x).toNat < S1000x128.size gathers_S1000x128_S128x128.axis)
    (hin3 : ∀ x, ((ivL3).view.read (Elt F) ivK x).toNat < S1000x128.size gathers_S1000x128_S128x128.axis)
    (hin4 : ∀ x, ((ivL4).view.read (Elt F) ivK x).toNat < S1000x128.size gathers_S1000x128_S128x128.axis)
    (hin5 : ∀ x, ((ivL5).view.read (Elt F) ivK x).toNat < S1000x128.size gathers_S1000x128_S128x128.axis)
    (hfe0 : ∀ y, (ivS0).view.read (Elt F) ivN y = (idxW0 L k h5).view.read (Elt F) Iv y)
    (hov0 : ∀ y, (outCh0 L k).view.read (Elt F) Gout y = SparseCore.gatherPayload gathers_S1000x128_S128x128 ((shW).view.read (Elt F) Tsh) (SparseCore.rows ((ivL0).view.read (Elt F) ivK) hn hin0) y)
    (hov1 : ∀ y, (outCh1 L k).view.read (Elt F) Gout y = SparseCore.gatherPayload gathers_S1000x128_S128x128 ((shW).view.read (Elt F) Tsh) (SparseCore.rows ((ivL1).view.read (Elt F) ivK) hn hin1) y)
    (hov2 : ∀ y, (outCh2 L k).view.read (Elt F) Gout y = SparseCore.gatherPayload gathers_S1000x128_S128x128 ((shW).view.read (Elt F) Tsh) (SparseCore.rows ((ivL2).view.read (Elt F) ivK) hn hin2) y)
    (hov3 : ∀ y, (outCh3 L k).view.read (Elt F) Gout y = SparseCore.gatherPayload gathers_S1000x128_S128x128 ((shW).view.read (Elt F) Tsh) (SparseCore.rows ((ivL3).view.read (Elt F) ivK) hn hin3) y)
    (hov4 : ∀ y, (outCh4 L k).view.read (Elt F) Gout y = SparseCore.gatherPayload gathers_S1000x128_S128x128 ((shW).view.read (Elt F) Tsh) (SparseCore.rows ((ivL4).view.read (Elt F) ivK) hn hin4) y)
    (hov5 : ∀ y, (outCh5 L k).view.read (Elt F) Gout y = SparseCore.gatherPayload gathers_S1000x128_S128x128 ((shW).view.read (Elt F) Tsh) (SparseCore.rows ((ivL5).view.read (Elt F) ivK) hn hin5) y) :
    iprop((Transfers.MayWaits (V d (cV L) (jV L)) (default : HIx 1) O : sProp 𝕄)
        ∗ Transfers.Flight countersEmb (V d (cV L) (jV L)) (SemLoc.dma cc0_scratch15.sem) (default : HIx 1) 8192
            iprop(((ivS0).view.loc (V d (cV L) (jV L)) ↦[(ivS0).view.set]{fullShare} (ivK : Buf (Elt F) ((ivS0).view.loc (V d (cV L) (jV L))))) ∗ ((idxV).view.loc (V d (cV L) (jV L)) ↦{shareTok qi 3 0} Iv))
        ∗ Transfers.Flight countersEmb (V d (cV L) (jV L)) (SemLoc.dma cc0_scratch16.sem) (default : HIx 1) 8192
            iprop(((ivS1).view.loc (V d (cV L) (jV L)) ↦[(ivS1).view.set]{fullShare} (ivK : Buf (Elt F) ((ivS1).view.loc (V d (cV L) (jV L))))) ∗ ((idxV).view.loc (V d (cV L) (jV L)) ↦{shareTok qi 3 1} Iv))
        ∗ Transfers.Flight countersEmb (V d (cV L) (jV L)) (SemLoc.dma cc0_scratch17.sem) (default : HIx 1) 8192
            iprop(((ivS2).view.loc (V d (cV L) (jV L)) ↦[(ivS2).view.set]{fullShare} (ivK : Buf (Elt F) ((ivS2).view.loc (V d (cV L) (jV L))))) ∗ ((idxV).view.loc (V d (cV L) (jV L)) ↦{shareTok qi 3 2} Iv))
        ∗ Transfers.Flight countersEmb (V d (cV L) (jV L)) (SemLoc.dma cc0_scratch9.sem) (default : HIx 1) 524288
            iprop(((outV).view.loc (V d (cV L) (jV L)) ↦[S0]{fullShare} Gout) ∗ ((bigP0).view.loc (V d (cV L) (jV L)) ↦[(bigP0).view.set]{fullShare} fb0))
        ∗ Transfers.Flight countersEmb (V d (cV L) (jV L)) (SemLoc.dma cc0_scratch10.sem) (default : HIx 1) 524288
            iprop(((outV).view.loc (V d (cV L) (jV L)) ↦[S1]{fullShare} Gout) ∗ ((bigP1).view.loc (V d (cV L) (jV L)) ↦[(bigP1).view.set]{fullShare} fb1))
        ∗ Transfers.Flight countersEmb (V d (cV L) (jV L)) (SemLoc.dma cc0_scratch11.sem) (default : HIx 1) 524288
            iprop(((outV).view.loc (V d (cV L) (jV L)) ↦[S2]{fullShare} Gout) ∗ ((bigP2).view.loc (V d (cV L) (jV L)) ↦[(bigP2).view.set]{fullShare} fb2))
        ∗ Transfers.Flight countersEmb (V d (cV L) (jV L)) (SemLoc.dma cc0_scratch12.sem) (default : HIx 1) 524288
            iprop(((outV).view.loc (V d (cV L) (jV L)) ↦[S3]{fullShare} Gout) ∗ ((bigP3).view.loc (V d (cV L) (jV L)) ↦[(bigP3).view.set]{fullShare} fb3))
        ∗ Transfers.Flight countersEmb (V d (cV L) (jV L)) (SemLoc.dma cc0_scratch13.sem) (default : HIx 1) 524288
            iprop(((outV).view.loc (V d (cV L) (jV L)) ↦[S4]{fullShare} Gout) ∗ ((bigP4).view.loc (V d (cV L) (jV L)) ↦[(bigP4).view.set]{fullShare} fb4))
        ∗ Transfers.Flight countersEmb (V d (cV L) (jV L)) (SemLoc.dma cc0_scratch14.sem) (default : HIx 1) 524288
            iprop(((outV).view.loc (V d (cV L) (jV L)) ↦[S5]{fullShare} Gout) ∗ ((bigP5).view.loc (V d (cV L) (jV L)) ↦[(bigP5).view.set]{fullShare} fb5))
        ∗ semVal ((V d (cV L) (jV L)), SemLoc.dma cc0_scratch3.sem) 0
        ∗ semVal ((V d (cV L) (jV L)), SemLoc.dma cc0_scratch4.sem) 0
        ∗ semVal ((V d (cV L) (jV L)), SemLoc.dma cc0_scratch5.sem) 0
        ∗ semVal ((V d (cV L) (jV L)), SemLoc.dma cc0_scratch6.sem) 0
        ∗ semVal ((V d (cV L) (jV L)), SemLoc.dma cc0_scratch7.sem) 0
        ∗ semVal ((V d (cV L) (jV L)), SemLoc.dma cc0_scratch8.sem) 0
        ∗ ((shV).view.loc (V d (cV L) (jV L)) ↦{shareTok qs 6 0} Tsh)
        ∗ ((shV).view.loc (V d (cV L) (jV L)) ↦{shareTok qs 6 1} Tsh)
        ∗ ((shV).view.loc (V d (cV L) (jV L)) ↦{shareTok qs 6 2} Tsh)
        ∗ ((shV).view.loc (V d (cV L) (jV L)) ↦{shareTok qs 6 3} Tsh)
        ∗ ((shV).view.loc (V d (cV L) (jV L)) ↦{shareTok qs 6 4} Tsh)
        ∗ ((shV).view.loc (V d (cV L) (jV L)) ↦{shareTok qs 6 5} Tsh)
        ∗ ((outCh0 L k).view.loc (V d (cV L) (jV L)) ↦[(outCh0 L k).view.set]{fullShare} m0)
        ∗ ((outCh1 L k).view.loc (V d (cV L) (jV L)) ↦[(outCh1 L k).view.set]{fullShare} m0)
        ∗ ((outCh2 L k).view.loc (V d (cV L) (jV L)) ↦[(outCh2 L k).view.set]{fullShare} m0)
        ∗ ((outCh3 L k).view.loc (V d (cV L) (jV L)) ↦[(outCh3 L k).view.set]{fullShare} m0)
        ∗ ((outCh4 L k).view.loc (V d (cV L) (jV L)) ↦[(outCh4 L k).view.set]{fullShare} m0)
        ∗ ((outCh5 L k).view.loc (V d (cV L) (jV L)) ↦[(outCh5 L k).view.set]{fullShare} m0)
        ∗ owes (V d (cV L) (jV L)) O W)
      ⊢ wp frame (wpE (defs₀ (F := F)) 𝒱₀ (V d (cV L) (jV L)) none) Set.univ
          (k0_t1_body L tabV (Memref.isWhole_whole _) idxV (Memref.isWhole_whole _) outV (Memref.isWhole_whole _) shV (Memref.isWhole_whole _) ivV (Memref.isWhole_whole _) bigV (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scoped0 v2 v3 0#32 k ())
          fun _ => iprop(Transfers.Flight countersEmb (V d (cV L) (jV L)) (SemLoc.dma cc0_scratch15.sem) (default : HIx 1) 8192
            iprop(((ivS0).view.loc (V d (cV L) (jV L)) ↦[(ivS0).view.set]{fullShare} (ivN : Buf (Elt F) ((ivS0).view.loc (V d (cV L) (jV L))))) ∗ ((idxV).view.loc (V d (cV L) (jV L)) ↦{shareTok qi 3 0} Iv))
        ∗ iprop(((ivS1).view.loc (V d (cV L) (jV L)) ↦[(ivS1).view.set]{fullShare} (ivK : Buf (Elt F) ((ivS1).view.loc (V d (cV L) (jV L))))) ∗ ((idxV).view.loc (V d (cV L) (jV L)) ↦{shareTok qi 3 1} Iv) ∗ semVal ((V d (cV L) (jV L)), SemLoc.dma cc0_scratch16.sem) 0)
        ∗ iprop(((ivS2).view.loc (V d (cV L) (jV L)) ↦[(ivS2).view.set]{fullShare} (ivK : Buf (Elt F) ((ivS2).view.loc (V d (cV L) (jV L))))) ∗ ((idxV).view.loc (V d (cV L) (jV L)) ↦{shareTok qi 3 2} Iv) ∗ semVal ((V d (cV L) (jV L)), SemLoc.dma cc0_scratch17.sem) 0)
        ∗ (∃ fb, Transfers.Flight countersEmb (V d (cV L) (jV L)) (SemLoc.dma cc0_scratch9.sem) (default : HIx 1) 524288
            iprop(((outCh0 L k).view.loc (V d (cV L) (jV L)) ↦[(outCh0 L k).view.set]{fullShare} (Gout : Buf (Elt F) ((outCh0 L k).view.loc (V d (cV L) (jV L))))) ∗ ((bigP0).view.loc (V d (cV L) (jV L)) ↦[(bigP0).view.set]{fullShare} fb)))
        ∗ (∃ fb, Transfers.Flight countersEmb (V d (cV L) (jV L)) (SemLoc.dma cc0_scratch10.sem) (default : HIx 1) 524288
            iprop(((outCh1 L k).view.loc (V d (cV L) (jV L)) ↦[(outCh1 L k).view.set]{fullShare} (Gout : Buf (Elt F) ((outCh1 L k).view.loc (V d (cV L) (jV L))))) ∗ ((bigP1).view.loc (V d (cV L) (jV L)) ↦[(bigP1).view.set]{fullShare} fb)))
        ∗ (∃ fb, Transfers.Flight countersEmb (V d (cV L) (jV L)) (SemLoc.dma cc0_scratch11.sem) (default : HIx 1) 524288
            iprop(((outCh2 L k).view.loc (V d (cV L) (jV L)) ↦[(outCh2 L k).view.set]{fullShare} (Gout : Buf (Elt F) ((outCh2 L k).view.loc (V d (cV L) (jV L))))) ∗ ((bigP2).view.loc (V d (cV L) (jV L)) ↦[(bigP2).view.set]{fullShare} fb)))
        ∗ (∃ fb, Transfers.Flight countersEmb (V d (cV L) (jV L)) (SemLoc.dma cc0_scratch12.sem) (default : HIx 1) 524288
            iprop(((outCh3 L k).view.loc (V d (cV L) (jV L)) ↦[(outCh3 L k).view.set]{fullShare} (Gout : Buf (Elt F) ((outCh3 L k).view.loc (V d (cV L) (jV L))))) ∗ ((bigP3).view.loc (V d (cV L) (jV L)) ↦[(bigP3).view.set]{fullShare} fb)))
        ∗ (∃ fb, Transfers.Flight countersEmb (V d (cV L) (jV L)) (SemLoc.dma cc0_scratch13.sem) (default : HIx 1) 524288
            iprop(((outCh4 L k).view.loc (V d (cV L) (jV L)) ↦[(outCh4 L k).view.set]{fullShare} (Gout : Buf (Elt F) ((outCh4 L k).view.loc (V d (cV L) (jV L))))) ∗ ((bigP4).view.loc (V d (cV L) (jV L)) ↦[(bigP4).view.set]{fullShare} fb)))
        ∗ (∃ fb, Transfers.Flight countersEmb (V d (cV L) (jV L)) (SemLoc.dma cc0_scratch14.sem) (default : HIx 1) 524288
            iprop(((outCh5 L k).view.loc (V d (cV L) (jV L)) ↦[(outCh5 L k).view.set]{fullShare} (Gout : Buf (Elt F) ((outCh5 L k).view.loc (V d (cV L) (jV L))))) ∗ ((bigP5).view.loc (V d (cV L) (jV L)) ↦[(bigP5).view.set]{fullShare} fb)))
        ∗ semVal ((V d (cV L) (jV L)), SemLoc.dma cc0_scratch3.sem) 0
        ∗ semVal ((V d (cV L) (jV L)), SemLoc.dma cc0_scratch4.sem) 0
        ∗ semVal ((V d (cV L) (jV L)), SemLoc.dma cc0_scratch5.sem) 0
        ∗ semVal ((V d (cV L) (jV L)), SemLoc.dma cc0_scratch6.sem) 0
        ∗ semVal ((V d (cV L) (jV L)), SemLoc.dma cc0_scratch7.sem) 0
        ∗ semVal ((V d (cV L) (jV L)), SemLoc.dma cc0_scratch8.sem) 0
        ∗ ((shV).view.loc (V d (cV L) (jV L)) ↦{shareTok qs 6 0} Tsh)
        ∗ ((shV).view.loc (V d (cV L) (jV L)) ↦{shareTok qs 6 1} Tsh)
        ∗ ((shV).view.loc (V d (cV L) (jV L)) ↦{shareTok qs 6 2} Tsh)
        ∗ ((shV).view.loc (V d (cV L) (jV L)) ↦{shareTok qs 6 3} Tsh)
        ∗ ((shV).view.loc (V d (cV L) (jV L)) ↦{shareTok qs 6 4} Tsh)
        ∗ ((shV).view.loc (V d (cV L) (jV L)) ↦{shareTok qs 6 5} Tsh)
        ∗ ((outV).view.loc (V d (cV L) (jV L)) ↦[S0]{fullShare} Gout)
        ∗ ((outV).view.loc (V d (cV L) (jV L)) ↦[S1]{fullShare} Gout)
        ∗ ((outV).view.loc (V d (cV L) (jV L)) ↦[S2]{fullShare} Gout)
        ∗ ((outV).view.loc (V d (cV L) (jV L)) ↦[S3]{fullShare} Gout)
        ∗ ((outV).view.loc (V d (cV L) (jV L)) ↦[S4]{fullShare} Gout)
        ∗ ((outV).view.loc (V d (cV L) (jV L)) ↦[S5]{fullShare} Gout)
        ∗ ∃ W', ⌜∀ p ∈ W', p ∈ W ∨ p.2 = none⌝ ∗ owes (V d (cV L) (jV L)) O W') := by
  iintro ⟨#Hmw, HfI0, HfI1, HfI2, HfO0, HfO1, HfO2, HfO3, HfO4, HfO5, Hg0, Hg1, Hg2, Hg3, Hg4, Hg5, Ht0, Ht1, Ht2, Ht3, Ht4, Ht5, Ho0, Ho1, Ho2, Ho3, Ho4, Ho5, HO⟩
  sl_exec
  ihave Hr := (slot0_rows (F := F) d (cV L) (jV L) _).1 $$ HfI0_dst
  icases Hr with ⟨Hl0, Hl1⟩
  sl_exec
  ihave Hr := (slot1_rows (F := F) d (cV L) (jV L) _).1 $$ HfI1_dst
  icases Hr with ⟨Hl2, Hl3⟩
  sl_exec
  ihave Hr := (slot2_rows (F := F) d (cV L) (jV L) _).1 $$ HfI2_dst
  icases Hr with ⟨Hl4, Hl5⟩
  sl_exec
  ihave Hs0 := (slot0_rows (F := F) d (cV L) (jV L) _).2 $$ [Hl0 Hl1]
  · isplitl [Hl0] <;> iassumption
  sl_exec
  sl_step
  isplitl [HfI0 HfI0_src]
  · iapply (flight_fetch_clean (F := F) (V d (cV L) (jV L)) _ _ (ivS0).view _ _ _ hfe0 _ _ _ _)
    isplitl [HfI0_src]; · iexact HfI0_src
    iexact HfI0
  isplitl [Hl2 Hl3 HfI1_src HfI1]
  · isplitl [Hl2 Hl3]
    · iapply (slot1_rows (F := F) d (cV L) (jV L) _).2; isplitl [Hl2] <;> iassumption
    isplitl [HfI1_src]; · iexact HfI1_src
    iexact HfI1
  isplitl [Hl4 Hl5 HfI2_src HfI2]
  · isplitl [Hl4 Hl5]
    · iapply (slot2_rows (F := F) d (cV L) (jV L) _).2; isplitl [Hl4] <;> iassumption
    isplitl [HfI2_src]; · iexact HfI2_src
    iexact HfI2
  isplitl [HfO0]
  · iexists _
    iapply (flight_out_clean (F := F) (V d (cV L) (jV L)) _ _ (outCh0 L k).view _ _ _ (fun y => (hov0 y).trans (congrFun (View.read_writes_whole _ _ _).symm y)) _)
    iexact HfO0
  isplitl [HfO1]
  · iexists _
    iapply (flight_out_clean (F := F) (V d (cV L) (jV L)) _ _ (outCh1 L k).view _ _ _ (fun y => (hov1 y).trans (congrFun (View.read_writes_whole _ _ _).symm y)) _)
    iexact HfO1
  isplitl [HfO2]
  · iexists _
    iapply (flight_out_clean (F := F) (V d (cV L) (jV L)) _ _ (outCh2 L k).view _ _ _ (fun y => (hov2 y).trans (congrFun (View.read_writes_whole _ _ _).symm y)) _)
    iexact HfO2
  isplitl [HfO3]
  · iexists _
    iapply (flight_out_clean (F := F) (V d (cV L) (jV L)) _ _ (outCh3 L k).view _ _ _ (fun y => (hov3 y).trans (congrFun (View.read_writes_whole _ _ _).symm y)) _)
    iexact HfO3
  isplitl [HfO4]
  · iexists _
    iapply (flight_out_clean (F := F) (V d (cV L) (jV L)) _ _ (outCh4 L k).view _ _ _ (fun y => (hov4 y).trans (congrFun (View.read_writes_whole _ _ _).symm y)) _)
    iexact HfO4
  isplitl [HfO5]
  · iexists _
    iapply (flight_out_clean (F := F) (V d (cV L) (jV L)) _ _ (outCh5 L k).view _ _ _ (fun y => (hov5 y).trans (congrFun (View.read_writes_whole _ _ _).symm y)) _)
    iexact HfO5
  isplitl [Hg0]; · iexact Hg0
  isplitl [Hg1]; · iexact Hg1
  isplitl [Hg2]; · iexact Hg2
  isplitl [Hg3]; · iexact Hg3
  isplitl [Hg4]; · iexact Hg4
  isplitl [Hg5]; · iexact Hg5
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [HfO0_dst]; · iexact HfO0_dst
  isplitl [HfO1_dst]; · iexact HfO1_dst
  isplitl [HfO2_dst]; · iexact HfO2_dst
  isplitl [HfO3_dst]; · iexact HfO3_dst
  isplitl [HfO4_dst]; · iexact HfO4_dst
  isplitl [HfO5_dst]; · iexact HfO5_dst
  iexists _; isplitr
  swap; · iexact HO
  ipureintro; intro p hp
  repeat (rcases Finset.mem_insert.mp hp with hp | hp; · exact .inr (hp ▸ rfl))
  exact .inl hp

end Tile
end Cert.Proof.KB
end
-- ==== Proof.KBLoop.lean ====
/-
  One step of the loop: from the ring's state before trip k to its state before trip k + 1. The trip's six windows
  are taken out of the rows still to write; the trip runs (the first trip has no copies out to wait for, the last
  refetches only slot 0); the windows the previous trip's copies delivered join the completed rows.
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.Kernel
import proofs.«205516_g82884278878931_cont_9to1_m_1121_21_alg».proof.Proof.Gen.Kernel.Skeleton
import proofs.«205516_g82884278878931_cont_9to1_m_1121_21_alg».proof.Proof.Spec
import proofs.«205516_g82884278878931_cont_9to1_m_1121_21_alg».proof.Proof.KBState
import proofs.«205516_g82884278878931_cont_9to1_m_1121_21_alg».proof.Proof.KBTripMid
import proofs.«205516_g82884278878931_cont_9to1_m_1121_21_alg».proof.Proof.KBTripFirst
import proofs.«205516_g82884278878931_cont_9to1_m_1121_21_alg».proof.Proof.KBTripLast
import proofs.«205516_g82884278878931_cont_9to1_m_1121_21_alg».proof.Proof.KBValueLemmas
import proofs.«205516_g82884278878931_cont_9to1_m_1121_21_alg».proof.Proof.KBRowsTake

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (tileNo shareTok shareDrop)

variable {F : FTy → Type}

local notation "𝕄" => MT nD τ sig (HIx 1) (Elt F) ℕ UU ℕ
local notation "tabV" => (Memref.whole Cert.Kernel.main_arg3_scv : Memref Cert.Kernel.sig Kind.scVector Space.hbm Cert.Kernel.S1000x128 EltTy.f32)
local notation "idxV" => (Memref.whole Cert.Kernel.main_v0_scv : Memref Cert.Kernel.sig Kind.scVector Space.hbm Cert.Kernel.S6400x128 EltTy.i32)
local notation "outV" => (Memref.whole Cert.Kernel.main_v1_scv : Memref Cert.Kernel.sig Kind.scVector Space.hbm Cert.Kernel.S819200x128 EltTy.f32)
local notation "shV" => (Memref.whole Cert.Kernel.cc0_scratch0 : Memref Cert.Kernel.sig Kind.scVector Space.shared Cert.Kernel.S1000x128 EltTy.f32)
local notation "ivV" => (Memref.whole Cert.Kernel.cc0_scratch1 : Memref Cert.Kernel.sig Kind.scVector Space.vmem Cert.Kernel.S6x128 EltTy.i32)
local notation "bigV" => (Memref.whole Cert.Kernel.cc0_scratch2 : Memref Cert.Kernel.sig Kind.scVector Space.vmem Cert.Kernel.S768x128 EltTy.f32)

variable (m : (ℓ : Loc nD τ sig) → Buf (Elt F) ℓ) (I : Dev nD → S6400x128.Idx → BitVec 32)
variable [FloatOps F]

omit [FloatOps F] in
theorem trips_eq : k0_t1_loop.trips = 33 := by decide
omit [FloatOps F] in
theorem hnG : S128.numel = S128x128.size gathers_S1000x128_S128x128.axis' := by decide

/-! ### The trip's guards, decided by the trip number -/
omit [FloatOps F] in theorem cond2_pos : ∀ k : Fin k0_t1_loop.trips, 0 < k.val → k0_cond2 k = 1#1 := by decide +kernel
omit [FloatOps F] in theorem cond3_pos : ∀ k : Fin k0_t1_loop.trips, 0 < k.val → k0_cond3 k = 1#1 := by decide +kernel
omit [FloatOps F] in theorem cond4_pos : ∀ k : Fin k0_t1_loop.trips, 0 < k.val → k0_cond4 k = 1#1 := by decide +kernel
omit [FloatOps F] in theorem cond2_zero : ∀ k : Fin k0_t1_loop.trips, k.val = 0 → ¬ k0_cond2 k = 1#1 := by decide +kernel
omit [FloatOps F] in theorem cond3_zero : ∀ k : Fin k0_t1_loop.trips, k.val = 0 → ¬ k0_cond3 k = 1#1 := by decide +kernel
omit [FloatOps F] in theorem cond4_zero : ∀ k : Fin k0_t1_loop.trips, k.val = 0 → ¬ k0_cond4 k = 1#1 := by decide +kernel
omit [FloatOps F] in theorem cond5_all : ∀ k : Fin k0_t1_loop.trips, k0_cond5 k = 1#1 := by decide +kernel
omit [FloatOps F] in theorem cond6_lt : ∀ k : Fin k0_t1_loop.trips, k.val < 32 → k0_cond6 k = 1#1 := by decide +kernel
omit [FloatOps F] in theorem cond7_lt : ∀ k : Fin k0_t1_loop.trips, k.val < 32 → k0_cond7 k = 1#1 := by decide +kernel
omit [FloatOps F] in theorem cond6_last : ∀ k : Fin k0_t1_loop.trips, k.val = 32 → ¬ k0_cond6 k = 1#1 := by decide +kernel
omit [FloatOps F] in theorem cond7_last : ∀ k : Fin k0_t1_loop.trips, k.val = 32 → ¬ k0_cond7 k = 1#1 := by decide +kernel

section Tile
variable (d : Dev nD) (L : grid0.Coords)

theorem idxPart_lt (qi : PosShare TreeShare) {n : ℕ} (h : n < 33) : idxPart (F := F) I d L qi n = iprop(Transfers.Flight countersEmb (V d (cV L) (jV L)) (SemLoc.dma cc0_scratch16.sem) (default : HIx 1) 8192
        iprop(((ivS1).view.loc (V d (cV L) (jV L)) ↦[(ivS1).view.set]{fullShare} (ivC I d L n : Buf (Elt F) ((ivS1).view.loc (V d (cV L) (jV L))))) ∗ ((idxV).view.loc (V d (cV L) (jV L)) ↦{shareTok qi 3 1} (I d : Buf (Elt F) ((idxV).view.loc (V d (cV L) (jV L))))))
      ∗ Transfers.Flight countersEmb (V d (cV L) (jV L)) (SemLoc.dma cc0_scratch17.sem) (default : HIx 1) 8192
        iprop(((ivS2).view.loc (V d (cV L) (jV L)) ↦[(ivS2).view.set]{fullShare} (ivC I d L n : Buf (Elt F) ((ivS2).view.loc (V d (cV L) (jV L))))) ∗ ((idxV).view.loc (V d (cV L) (jV L)) ↦{shareTok qi 3 2} (I d : Buf (Elt F) ((idxV).view.loc (V d (cV L) (jV L))))))) := by unfold idxPart; rw [if_pos h]
theorem idxPart_33 (qi : PosShare TreeShare) : idxPart (F := F) I d L qi 33 = iprop(iprop(∃ f : Buf (Elt F) ((ivS1).view.loc (V d (cV L) (jV L))), ((ivS1).view.loc (V d (cV L) (jV L)) ↦[(ivS1).view.set]{fullShare} f) ∗ ((idxV).view.loc (V d (cV L) (jV L)) ↦{shareTok qi 3 1} (I d : Buf (Elt F) ((idxV).view.loc (V d (cV L) (jV L))))) ∗ semVal ((V d (cV L) (jV L)), SemLoc.dma cc0_scratch16.sem) 0) ∗ iprop(∃ f : Buf (Elt F) ((ivS2).view.loc (V d (cV L) (jV L))), ((ivS2).view.loc (V d (cV L) (jV L)) ↦[(ivS2).view.set]{fullShare} f) ∗ ((idxV).view.loc (V d (cV L) (jV L)) ↦{shareTok qi 3 2} (I d : Buf (Elt F) ((idxV).view.loc (V d (cV L) (jV L))))) ∗ semVal ((V d (cV L) (jV L)), SemLoc.dma cc0_scratch17.sem) 0)) := by unfold idxPart; rw [if_neg (by decide)]
theorem outPart_zero : outPart (F := F) m I d L 0 = iprop(iprop((∃ fb, (bigP0).view.loc (V d (cV L) (jV L)) ↦[(bigP0).view.set]{fullShare} fb) ∗ semVal ((V d (cV L) (jV L)), SemLoc.dma cc0_scratch9.sem) 0)
      ∗ iprop((∃ fb, (bigP1).view.loc (V d (cV L) (jV L)) ↦[(bigP1).view.set]{fullShare} fb) ∗ semVal ((V d (cV L) (jV L)), SemLoc.dma cc0_scratch10.sem) 0)
      ∗ iprop((∃ fb, (bigP2).view.loc (V d (cV L) (jV L)) ↦[(bigP2).view.set]{fullShare} fb) ∗ semVal ((V d (cV L) (jV L)), SemLoc.dma cc0_scratch11.sem) 0)
      ∗ iprop((∃ fb, (bigP3).view.loc (V d (cV L) (jV L)) ↦[(bigP3).view.set]{fullShare} fb) ∗ semVal ((V d (cV L) (jV L)), SemLoc.dma cc0_scratch12.sem) 0)
      ∗ iprop((∃ fb, (bigP4).view.loc (V d (cV L) (jV L)) ↦[(bigP4).view.set]{fullShare} fb) ∗ semVal ((V d (cV L) (jV L)), SemLoc.dma cc0_scratch13.sem) 0)
      ∗ iprop((∃ fb, (bigP5).view.loc (V d (cV L) (jV L)) ↦[(bigP5).view.set]{fullShare} fb) ∗ semVal ((V d (cV L) (jV L)), SemLoc.dma cc0_scratch14.sem) 0)) := by unfold outPart; rw [if_pos rfl]
theorem outPart_pos {n : ℕ} (h : n ≠ 0) : outPart (F := F) m I d L n = iprop(∃ kp : Fin k0_t1_loop.trips, ⌜kp.val + 1 = n⌝
      ∗ (∃ fb, Transfers.Flight countersEmb (V d (cV L) (jV L)) (SemLoc.dma cc0_scratch9.sem) (default : HIx 1) 524288
        iprop(((outCh0 L kp).view.loc (V d (cV L) (jV L)) ↦[(outCh0 L kp).view.set]{fullShare} (outG m I d : Buf (Elt F) ((outCh0 L kp).view.loc (V d (cV L) (jV L))))) ∗ ((bigP0).view.loc (V d (cV L) (jV L)) ↦[(bigP0).view.set]{fullShare} fb)))
      ∗ (∃ fb, Transfers.Flight countersEmb (V d (cV L) (jV L)) (SemLoc.dma cc0_scratch10.sem) (default : HIx 1) 524288
        iprop(((outCh1 L kp).view.loc (V d (cV L) (jV L)) ↦[(outCh1 L kp).view.set]{fullShare} (outG m I d : Buf (Elt F) ((outCh1 L kp).view.loc (V d (cV L) (jV L))))) ∗ ((bigP1).view.loc (V d (cV L) (jV L)) ↦[(bigP1).view.set]{fullShare} fb)))
      ∗ (∃ fb, Transfers.Flight countersEmb (V d (cV L) (jV L)) (SemLoc.dma cc0_scratch11.sem) (default : HIx 1) 524288
        iprop(((outCh2 L kp).view.loc (V d (cV L) (jV L)) ↦[(outCh2 L kp).view.set]{fullShare} (outG m I d : Buf (Elt F) ((outCh2 L kp).view.loc (V d (cV L) (jV L))))) ∗ ((bigP2).view.loc (V d (cV L) (jV L)) ↦[(bigP2).view.set]{fullShare} fb)))
      ∗ (∃ fb, Transfers.Flight countersEmb (V d (cV L) (jV L)) (SemLoc.dma cc0_scratch12.sem) (default : HIx 1) 524288
        iprop(((outCh3 L kp).view.loc (V d (cV L) (jV L)) ↦[(outCh3 L kp).view.set]{fullShare} (outG m I d : Buf (Elt F) ((outCh3 L kp).view.loc (V d (cV L) (jV L))))) ∗ ((bigP3).view.loc (V d (cV L) (jV L)) ↦[(bigP3).view.set]{fullShare} fb)))
      ∗ (∃ fb, Transfers.Flight countersEmb (V d (cV L) (jV L)) (SemLoc.dma cc0_scratch13.sem) (default : HIx 1) 524288
        iprop(((outCh4 L kp).view.loc (V d (cV L) (jV L)) ↦[(outCh4 L kp).view.set]{fullShare} (outG m I d : Buf (Elt F) ((outCh4 L kp).view.loc (V d (cV L) (jV L))))) ∗ ((bigP4).view.loc (V d (cV L) (jV L)) ↦[(bigP4).view.set]{fullShare} fb)))
      ∗ (∃ fb, Transfers.Flight countersEmb (V d (cV L) (jV L)) (SemLoc.dma cc0_scratch14.sem) (default : HIx 1) 524288
        iprop(((outCh5 L kp).view.loc (V d (cV L) (jV L)) ↦[(outCh5 L kp).view.set]{fullShare} (outG m I d : Buf (Elt F) ((outCh5 L kp).view.loc (V d (cV L) (jV L))))) ∗ ((bigP5).view.loc (V d (cV L) (jV L)) ↦[(bigP5).view.set]{fullShare} fb)))) := by unfold outPart; rw [if_neg h]

set_option maxRecDepth 65536 in
set_option maxHeartbeats 4000000 in
theorem loop_step (hI : ∀ x, 0 ≤ (I d x).toInt ∧ (I d x).toInt ≤ 999) (O : CellTallies nD τ sig (HIx 1)) (W : Waits sig (HIx 1)) (qi qs : PosShare TreeShare)
    (m0 : Buf (Elt F) ((outV).view.loc (V d (cV L) (jV L)))) (v2 v3 : BitVec 32) (k : Fin k0_t1_loop.trips) (acc : Unit) :
    inv m I d L O W qi qs m0 k.val acc
      ⊢ wp frame (wpE (defs₀ (F := F)) 𝒱₀ (V d (cV L) (jV L)) none) Set.univ (k0_t1_body L tabV (Memref.isWhole_whole _) idxV (Memref.isWhole_whole _) outV (Memref.isWhole_whole _) shV (Memref.isWhole_whole _) ivV (Memref.isWhole_whole _) bigV (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scoped0 v2 v3 0#32 k acc)
          (inv m I d L O W qi qs m0 (k.val + 1)) := by
  have hk : k.val < 33 := lt_of_lt_of_eq k.isLt trips_eq
  unfold inv
  rw [idxPart_lt I d L qi hk]
  rcases (show k.val = 0 ∨ (0 < k.val ∧ k.val = 32) ∨ (0 < k.val ∧ k.val ≠ 32) from by omega) with h0 | ⟨hpos, h32⟩ | ⟨hpos, h32⟩
  · -- the first trip
    rw [show outPart (F := F) m I d L k.val = outPart (F := F) m I d L 0 from by rw [h0], outPart_zero]
    iintro ⟨#Hmw, %hle, HfI0, ⟨HfI1, HfI2⟩, ⟨⟨⟨%fb0, Hb0⟩, HfO0⟩, ⟨⟨%fb1, Hb1⟩, HfO1⟩, ⟨⟨%fb2, Hb2⟩, HfO2⟩, ⟨⟨%fb3, Hb3⟩, HfO3⟩, ⟨⟨%fb4, Hb4⟩, HfO4⟩, ⟨⟨%fb5, Hb5⟩, HfO5⟩⟩, Hg0, Hg1, Hg2, Hg3, Hg4, Hg5, Ht0, Ht1, Ht2, Ht3, Ht4, Ht5, Hdone, Htodo, %W', %hW', HO⟩
    ihave Hch := (todo_take (F := F) d L k m0).1 $$ Htodo
    icases Hch with ⟨Hc0, Hc1, Hc2, Hc3, Hc4, Hc5, Htodo⟩
    iapply (wp_wand_r frame _ Set.univ)
    isplitl [HfI0 HfI1 HfI2 Hb0 HfO0 Hb1 HfO1 Hb2 HfO2 Hb3 HfO3 Hb4 HfO4 Hb5 HfO5 Hg0 Hg1 Hg2 Hg3 Hg4 Hg5 Ht0 Ht1 Ht2 Ht3 Ht4 Ht5 Hc0 Hc1 Hc2 Hc3 Hc4 Hc5 HO]
    · iapply (trip_first (F := F) d L O W' k v2 v3 (cond2_zero k h0) (cond3_zero k h0) (cond4_zero k h0) (cond5_all k) (cond6_lt k (by omega)) (cond7_lt k (by omega)) qi qs (I d) (tabC m d) (ivC I d L k.val) (ivC I d L (k.val + 1)) (outG m I d) m0
        fb0 fb1 fb2 fb3 fb4 fb5 hnG (hin0 I d L hI k.val) (hin1 I d L hI k.val) (hin2 I d L hI k.val) (hin3 I d L hI k.val) (hin4 I d L hI k.val) (hin5 I d L hI k.val)
        (fetchW0 I d L k (cond5_all k)) (fetchW1 I d L k (cond6_lt k (by omega))) (fetchW2 I d L k (cond7_lt k (by omega)))
        (outV0 m I d L hI k hnG (hin0 I d L hI k.val)) (outV1 m I d L hI k hnG (hin1 I d L hI k.val)) (outV2 m I d L hI k hnG (hin2 I d L hI k.val)) (outV3 m I d L hI k hnG (hin3 I d L hI k.val)) (outV4 m I d L hI k hnG (hin4 I d L hI k.val)) (outV5 m I d L hI k hnG (hin5 I d L hI k.val)))
      isplitr; · iexact Hmw
      isplitl [HfI0]; · iexact HfI0
      isplitl [HfI1]; · iexact HfI1
      isplitl [HfI2]; · iexact HfI2
      isplitl [Hb0]; · iexact Hb0
      isplitl [HfO0]; · iexact HfO0
      isplitl [Hb1]; · iexact Hb1
      isplitl [HfO1]; · iexact HfO1
      isplitl [Hb2]; · iexact Hb2
      isplitl [HfO2]; · iexact HfO2
      isplitl [Hb3]; · iexact Hb3
      isplitl [HfO3]; · iexact HfO3
      isplitl [Hb4]; · iexact Hb4
      isplitl [HfO4]; · iexact HfO4
      isplitl [Hb5]; · iexact Hb5
      isplitl [HfO5]; · iexact HfO5
      isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      iexact HO
    · iintro %a ⟨HfI0, HfI1, HfI2, ⟨%gb0, HfO0⟩, ⟨%gb1, HfO1⟩, ⟨%gb2, HfO2⟩, ⟨%gb3, HfO3⟩, ⟨%gb4, HfO4⟩, ⟨%gb5, HfO5⟩, Hg0, Hg1, Hg2, Hg3, Hg4, Hg5, Ht0, Ht1, Ht2, Ht3, Ht4, Ht5, ⟨%W'', %hW'', HO⟩⟩
      rw [idxPart_lt I d L qi (show k.val + 1 < 33 from by omega)]
      rw [outPart_pos m I d L (show (k.val + 1) ≠ 0 from by omega)]
      isplitr; · iexact Hmw
      isplitr; · ipureintro; omega
      isplitl [HfI0]; · iexact HfI0
      isplitl [HfI1 HfI2]
      · isplitl [HfI1]; · iexact HfI1
        iexact HfI2
      isplitl [HfO0 HfO1 HfO2 HfO3 HfO4 HfO5]
      · iexists k; isplitr; · ipureintro; omega
        isplitl [HfO0]; · iexists _; iexact HfO0
        isplitl [HfO1]; · iexists _; iexact HfO1
        isplitl [HfO2]; · iexists _; iexact HfO2
        isplitl [HfO3]; · iexists _; iexact HfO3
        isplitl [HfO4]; · iexists _; iexact HfO4
        iexists _; iexact HfO5
      isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Hdone]
      · iapply (Entails.of_eq (congrArg (fun n : ℕ => ((outV).view.loc (V d (cV L) (jV L)) ↦[rowsSet (baseO L) (baseO L + 768 * n)]{fullShare} (outG m I d : Buf (Elt F) ((outV).view.loc (V d (cV L) (jV L)))) : sProp 𝕄)) (show k.val - 1 = k.val + 1 - 1 from by omega)))
        iexact Hdone
      isplitl [Htodo]; · iexact Htodo
      iexists W''; isplitr
      · ipureintro; intro p hp
        rcases hW'' p hp with h | h
        · exact hW' p h
        · exact .inr h
      · iexact HO

  · -- the last trip
    rw [outPart_pos m I d L (show k.val ≠ 0 from by omega)]
    iintro ⟨#Hmw, %hle, HfI0, ⟨HfI1, HfI2⟩, ⟨%kp, %hkp, ⟨%fb0, HfO0⟩, ⟨%fb1, HfO1⟩, ⟨%fb2, HfO2⟩, ⟨%fb3, HfO3⟩, ⟨%fb4, HfO4⟩, ⟨%fb5, HfO5⟩⟩, Hg0, Hg1, Hg2, Hg3, Hg4, Hg5, Ht0, Ht1, Ht2, Ht3, Ht4, Ht5, Hdone, Htodo, %W', %hW', HO⟩
    ihave Hch := (todo_take (F := F) d L k m0).1 $$ Htodo
    icases Hch with ⟨Hc0, Hc1, Hc2, Hc3, Hc4, Hc5, Htodo⟩
    iapply (wp_wand_r frame _ Set.univ)
    isplitl [HfI0 HfI1 HfI2 HfO0 HfO1 HfO2 HfO3 HfO4 HfO5 Hg0 Hg1 Hg2 Hg3 Hg4 Hg5 Ht0 Ht1 Ht2 Ht3 Ht4 Ht5 Hc0 Hc1 Hc2 Hc3 Hc4 Hc5 HO]
    · iapply (trip_last (F := F) d L O W' k v2 v3 (cond2_pos k (by omega)) (cond3_pos k (by omega)) (cond4_pos k (by omega)) (cond5_all k) (cond6_last k h32) (cond7_last k h32) qi qs (I d) (tabC m d) (ivC I d L k.val) (ivC I d L (k.val + 1)) (outG m I d) m0 (outCh0 L kp).view.set (outCh1 L kp).view.set (outCh2 L kp).view.set (outCh3 L kp).view.set (outCh4 L kp).view.set (outCh5 L kp).view.set
        fb0 fb1 fb2 fb3 fb4 fb5 hnG (hin0 I d L hI k.val) (hin1 I d L hI k.val) (hin2 I d L hI k.val) (hin3 I d L hI k.val) (hin4 I d L hI k.val) (hin5 I d L hI k.val)
        (fetchW0 I d L k (cond5_all k))
        (outV0 m I d L hI k hnG (hin0 I d L hI k.val)) (outV1 m I d L hI k hnG (hin1 I d L hI k.val)) (outV2 m I d L hI k hnG (hin2 I d L hI k.val)) (outV3 m I d L hI k hnG (hin3 I d L hI k.val)) (outV4 m I d L hI k hnG (hin4 I d L hI k.val)) (outV5 m I d L hI k hnG (hin5 I d L hI k.val)))
      isplitr; · iexact Hmw
      isplitl [HfI0]; · iexact HfI0
      isplitl [HfI1]; · iexact HfI1
      isplitl [HfI2]; · iexact HfI2
      isplitl [HfO0]; · iexact HfO0
      isplitl [HfO1]; · iexact HfO1
      isplitl [HfO2]; · iexact HfO2
      isplitl [HfO3]; · iexact HfO3
      isplitl [HfO4]; · iexact HfO4
      isplitl [HfO5]; · iexact HfO5
      isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      iexact HO
    · iintro %a ⟨HfI0, ⟨Hs1, Hi1, Hq1⟩, ⟨Hs2, Hi2, Hq2⟩, ⟨%gb0, HfO0⟩, ⟨%gb1, HfO1⟩, ⟨%gb2, HfO2⟩, ⟨%gb3, HfO3⟩, ⟨%gb4, HfO4⟩, ⟨%gb5, HfO5⟩, Hg0, Hg1, Hg2, Hg3, Hg4, Hg5, Ht0, Ht1, Ht2, Ht3, Ht4, Ht5, Hold0, Hold1, Hold2, Hold3, Hold4, Hold5, ⟨%W'', %hW'', HO⟩⟩
      rw [show k.val + 1 = 33 from by omega, idxPart_33]
      rw [outPart_pos m I d L (show 33 ≠ 0 from by omega)]
      isplitr; · iexact Hmw
      isplitr; · ipureintro; omega
      isplitl [HfI0]; · iexact HfI0
      isplitl [Hs1 Hi1 Hq1 Hs2 Hi2 Hq2]
      · isplitl [Hs1 Hi1 Hq1]
        · iexists _; isplitl [Hs1]; · iexact Hs1
          isplitl [Hi1]; · iexact Hi1
          iexact Hq1
        · iexists _; isplitl [Hs2]; · iexact Hs2
          isplitl [Hi2]; · iexact Hi2
          iexact Hq2
      isplitl [HfO0 HfO1 HfO2 HfO3 HfO4 HfO5]
      · iexists k; isplitr; · ipureintro; omega
        isplitl [HfO0]; · iexists _; iexact HfO0
        isplitl [HfO1]; · iexists _; iexact HfO1
        isplitl [HfO2]; · iexists _; iexact HfO2
        isplitl [HfO3]; · iexists _; iexact HfO3
        isplitl [HfO4]; · iexists _; iexact HfO4
        iexists _; iexact HfO5
      isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Hdone Hold0 Hold1 Hold2 Hold3 Hold4 Hold5]
      · iapply (Entails.of_eq (congrArg (fun n : ℕ => ((outV).view.loc (V d (cV L) (jV L)) ↦[rowsSet (baseO L) (baseO L + 768 * n)]{fullShare} (outG m I d : Buf (Elt F) ((outV).view.loc (V d (cV L) (jV L)))) : sProp 𝕄)) (show kp.val + 1 = 33 - 1 from by omega)))
        iapply (done_put (F := F) d L kp (outG m I d : Buf (Elt F) ((outV).view.loc (V d (cV L) (jV L)))))
        isplitl [Hdone]
        · iapply (Entails.of_eq (congrArg (fun n : ℕ => ((outV).view.loc (V d (cV L) (jV L)) ↦[rowsSet (baseO L) (baseO L + 768 * n)]{fullShare} (outG m I d : Buf (Elt F) ((outV).view.loc (V d (cV L) (jV L)))) : sProp 𝕄)) (show k.val - 1 = kp.val from by omega)))
          iexact Hdone
        isplitl [Hold0]; · iexact Hold0
        isplitl [Hold1]; · iexact Hold1
        isplitl [Hold2]; · iexact Hold2
        isplitl [Hold3]; · iexact Hold3
        isplitl [Hold4]; · iexact Hold4
        iexact Hold5
      isplitl [Htodo]; · iexact Htodo
      iexists W''; isplitr
      · ipureintro; intro p hp
        rcases hW'' p hp with h | h
        · exact hW' p h
        · exact .inr h
      · iexact HO

  · -- a trip between
    rw [outPart_pos m I d L (show k.val ≠ 0 from by omega)]
    iintro ⟨#Hmw, %hle, HfI0, ⟨HfI1, HfI2⟩, ⟨%kp, %hkp, ⟨%fb0, HfO0⟩, ⟨%fb1, HfO1⟩, ⟨%fb2, HfO2⟩, ⟨%fb3, HfO3⟩, ⟨%fb4, HfO4⟩, ⟨%fb5, HfO5⟩⟩, Hg0, Hg1, Hg2, Hg3, Hg4, Hg5, Ht0, Ht1, Ht2, Ht3, Ht4, Ht5, Hdone, Htodo, %W', %hW', HO⟩
    ihave Hch := (todo_take (F := F) d L k m0).1 $$ Htodo
    icases Hch with ⟨Hc0, Hc1, Hc2, Hc3, Hc4, Hc5, Htodo⟩
    iapply (wp_wand_r frame _ Set.univ)
    isplitl [HfI0 HfI1 HfI2 HfO0 HfO1 HfO2 HfO3 HfO4 HfO5 Hg0 Hg1 Hg2 Hg3 Hg4 Hg5 Ht0 Ht1 Ht2 Ht3 Ht4 Ht5 Hc0 Hc1 Hc2 Hc3 Hc4 Hc5 HO]
    · iapply (trip_mid (F := F) d L O W' k v2 v3 (cond2_pos k (by omega)) (cond3_pos k (by omega)) (cond4_pos k (by omega)) (cond5_all k) (cond6_lt k (by omega)) (cond7_lt k (by omega)) qi qs (I d) (tabC m d) (ivC I d L k.val) (ivC I d L (k.val + 1)) (outG m I d) m0 (outCh0 L kp).view.set (outCh1 L kp).view.set (outCh2 L kp).view.set (outCh3 L kp).view.set (outCh4 L kp).view.set (outCh5 L kp).view.set
        fb0 fb1 fb2 fb3 fb4 fb5 hnG (hin0 I d L hI k.val) (hin1 I d L hI k.val) (hin2 I d L hI k.val) (hin3 I d L hI k.val) (hin4 I d L hI k.val) (hin5 I d L hI k.val)
        (fetchW0 I d L k (cond5_all k)) (fetchW1 I d L k (cond6_lt k (by omega))) (fetchW2 I d L k (cond7_lt k (by omega)))
        (outV0 m I d L hI k hnG (hin0 I d L hI k.val)) (outV1 m I d L hI k hnG (hin1 I d L hI k.val)) (outV2 m I d L hI k hnG (hin2 I d L hI k.val)) (outV3 m I d L hI k hnG (hin3 I d L hI k.val)) (outV4 m I d L hI k hnG (hin4 I d L hI k.val)) (outV5 m I d L hI k hnG (hin5 I d L hI k.val)))
      isplitr; · iexact Hmw
      isplitl [HfI0]; · iexact HfI0
      isplitl [HfI1]; · iexact HfI1
      isplitl [HfI2]; · iexact HfI2
      isplitl [HfO0]; · iexact HfO0
      isplitl [HfO1]; · iexact HfO1
      isplitl [HfO2]; · iexact HfO2
      isplitl [HfO3]; · iexact HfO3
      isplitl [HfO4]; · iexact HfO4
      isplitl [HfO5]; · iexact HfO5
      isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      iexact HO
    · iintro %a ⟨HfI0, HfI1, HfI2, ⟨%gb0, HfO0⟩, ⟨%gb1, HfO1⟩, ⟨%gb2, HfO2⟩, ⟨%gb3, HfO3⟩, ⟨%gb4, HfO4⟩, ⟨%gb5, HfO5⟩, Hg0, Hg1, Hg2, Hg3, Hg4, Hg5, Ht0, Ht1, Ht2, Ht3, Ht4, Ht5, Hold0, Hold1, Hold2, Hold3, Hold4, Hold5, ⟨%W'', %hW'', HO⟩⟩
      rw [idxPart_lt I d L qi (show k.val + 1 < 33 from by omega)]
      rw [outPart_pos m I d L (show (k.val + 1) ≠ 0 from by omega)]
      isplitr; · iexact Hmw
      isplitr; · ipureintro; omega
      isplitl [HfI0]; · iexact HfI0
      isplitl [HfI1 HfI2]
      · isplitl [HfI1]; · iexact HfI1
        iexact HfI2
      isplitl [HfO0 HfO1 HfO2 HfO3 HfO4 HfO5]
      · iexists k; isplitr; · ipureintro; omega
        isplitl [HfO0]; · iexists _; iexact HfO0
        isplitl [HfO1]; · iexists _; iexact HfO1
        isplitl [HfO2]; · iexists _; iexact HfO2
        isplitl [HfO3]; · iexists _; iexact HfO3
        isplitl [HfO4]; · iexists _; iexact HfO4
        iexists _; iexact HfO5
      isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Hdone Hold0 Hold1 Hold2 Hold3 Hold4 Hold5]
      · iapply (Entails.of_eq (congrArg (fun n : ℕ => ((outV).view.loc (V d (cV L) (jV L)) ↦[rowsSet (baseO L) (baseO L + 768 * n)]{fullShare} (outG m I d : Buf (Elt F) ((outV).view.loc (V d (cV L) (jV L)))) : sProp 𝕄)) (show kp.val + 1 = k.val + 1 - 1 from by omega)))
        iapply (done_put (F := F) d L kp (outG m I d : Buf (Elt F) ((outV).view.loc (V d (cV L) (jV L)))))
        isplitl [Hdone]
        · iapply (Entails.of_eq (congrArg (fun n : ℕ => ((outV).view.loc (V d (cV L) (jV L)) ↦[rowsSet (baseO L) (baseO L + 768 * n)]{fullShare} (outG m I d : Buf (Elt F) ((outV).view.loc (V d (cV L) (jV L)))) : sProp 𝕄)) (show k.val - 1 = kp.val from by omega)))
          iexact Hdone
        isplitl [Hold0]; · iexact Hold0
        isplitl [Hold1]; · iexact Hold1
        isplitl [Hold2]; · iexact Hold2
        isplitl [Hold3]; · iexact Hold3
        isplitl [Hold4]; · iexact Hold4
        iexact Hold5
      isplitl [Htodo]; · iexact Htodo
      iexists W''; isplitr
      · ipureintro; intro p hp
        rcases hW'' p hp with h | h
        · exact hW' p h
        · exact .inr h
      · iexact HO

end Tile
end Cert.Proof.KB
end
-- ==== Proof.KBBody.lean ====
/-
  A subcore's whole task. Handed its read share of the index array, its 25600 rows of the result and its scoped
  storage (subcore 0 also the table's share and the shared memory), it runs the prologue (the table into the shared
  memory on subcore 0, the first three fetches, the barrier, after which every subcore holds a read share of the
  shared table), then the ring's thirty-three trips by the ring's invariant, then the one unit left: its two rows
  of words are waited for, the 256 table rows they name gathered and copied out, and every copy still in flight
  waited for. The rows written join into the worker's part of the result at the lookup's values; the read share of
  the shared table, the scratch buffers and the sixteen semaphores go back as they came.
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.Kernel
import proofs.«205516_g82884278878931_cont_9to1_m_1121_21_alg».proof.Proof.Gen.Kernel.Skeleton
import proofs.«205516_g82884278878931_cont_9to1_m_1121_21_alg».proof.Proof.Spec
import proofs.«205516_g82884278878931_cont_9to1_m_1121_21_alg».proof.Proof.KBState
import proofs.«205516_g82884278878931_cont_9to1_m_1121_21_alg».proof.Proof.KBGo
import proofs.«205516_g82884278878931_cont_9to1_m_1121_21_alg».proof.Proof.KBScratch
import proofs.«205516_g82884278878931_cont_9to1_m_1121_21_alg».proof.Proof.LibOwnSplit
import proofs.«205516_g82884278878931_cont_9to1_m_1121_21_alg».proof.Proof.KBValueLemmas
import proofs.«205516_g82884278878931_cont_9to1_m_1121_21_alg».proof.Proof.KBRowsTake
import proofs.«205516_g82884278878931_cont_9to1_m_1121_21_alg».proof.Proof.KBSepL
import proofs.«205516_g82884278878931_cont_9to1_m_1121_21_alg».proof.Proof.KBToks
import proofs.«205516_g82884278878931_cont_9to1_m_1121_21_alg».proof.Proof.KBPrologue
import proofs.«205516_g82884278878931_cont_9to1_m_1121_21_alg».proof.Proof.KBLoop

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (tileNo shareTok shareDrop)

variable {F : FTy → Type}

local notation "𝕄" => MT nD τ sig (HIx 1) (Elt F) ℕ UU ℕ
local notation "tabV" => (Memref.whole Cert.Kernel.main_arg3_scv : Memref Cert.Kernel.sig Kind.scVector Space.hbm Cert.Kernel.S1000x128 EltTy.f32)
local notation "idxV" => (Memref.whole Cert.Kernel.main_v0_scv : Memref Cert.Kernel.sig Kind.scVector Space.hbm Cert.Kernel.S6400x128 EltTy.i32)
local notation "outV" => (Memref.whole Cert.Kernel.main_v1_scv : Memref Cert.Kernel.sig Kind.scVector Space.hbm Cert.Kernel.S819200x128 EltTy.f32)
local notation "shV" => (Memref.whole Cert.Kernel.cc0_scratch0 : Memref Cert.Kernel.sig Kind.scVector Space.shared Cert.Kernel.S1000x128 EltTy.f32)
local notation "ivV" => (Memref.whole Cert.Kernel.cc0_scratch1 : Memref Cert.Kernel.sig Kind.scVector Space.vmem Cert.Kernel.S6x128 EltTy.i32)
local notation "bigV" => (Memref.whole Cert.Kernel.cc0_scratch2 : Memref Cert.Kernel.sig Kind.scVector Space.vmem Cert.Kernel.S768x128 EltTy.f32)

variable (m : (ℓ : Loc nD τ sig) → Buf (Elt F) ℓ) (I : Dev nD → S6400x128.Idx → BitVec 32)
variable [FloatOps F]

section Tile
variable (d : Dev nD) (L : grid0.Coords)

theorem fetchI0_eq (qi : PosShare TreeShare) (n : ℕ) : fetchI0 (F := F) I d L qi n = Transfers.Flight countersEmb (V d (cV L) (jV L)) (SemLoc.dma cc0_scratch15.sem) (default : HIx 1) 8192
        iprop(((ivS0).view.loc (V d (cV L) (jV L)) ↦[(ivS0).view.set]{fullShare} (ivC I d L n : Buf (Elt F) ((ivS0).view.loc (V d (cV L) (jV L))))) ∗ ((idxV).view.loc (V d (cV L) (jV L)) ↦{shareTok qi 3 0} (I d : Buf (Elt F) ((idxV).view.loc (V d (cV L) (jV L)))))) := rfl
theorem fetchI1_eq (qi : PosShare TreeShare) (n : ℕ) : fetchI1 (F := F) I d L qi n = Transfers.Flight countersEmb (V d (cV L) (jV L)) (SemLoc.dma cc0_scratch16.sem) (default : HIx 1) 8192
        iprop(((ivS1).view.loc (V d (cV L) (jV L)) ↦[(ivS1).view.set]{fullShare} (ivC I d L n : Buf (Elt F) ((ivS1).view.loc (V d (cV L) (jV L))))) ∗ ((idxV).view.loc (V d (cV L) (jV L)) ↦{shareTok qi 3 1} (I d : Buf (Elt F) ((idxV).view.loc (V d (cV L) (jV L)))))) := rfl
theorem fetchI2_eq (qi : PosShare TreeShare) (n : ℕ) : fetchI2 (F := F) I d L qi n = Transfers.Flight countersEmb (V d (cV L) (jV L)) (SemLoc.dma cc0_scratch17.sem) (default : HIx 1) 8192
        iprop(((ivS2).view.loc (V d (cV L) (jV L)) ↦[(ivS2).view.set]{fullShare} (ivC I d L n : Buf (Elt F) ((ivS2).view.loc (V d (cV L) (jV L))))) ∗ ((idxV).view.loc (V d (cV L) (jV L)) ↦{shareTok qi 3 2} (I d : Buf (Elt F) ((idxV).view.loc (V d (cV L) (jV L)))))) := rfl

omit [FloatOps F] in
/-- Of what subcore 0 keeps beside the barrier, the second part. -/
theorem sub0_keep (c : Prop) [Decidable c] (A B : sProp 𝕄) : (if c then iprop(A ∗ B) else iprop(emp) : sProp 𝕄) ⊢ (if c then B else iprop(emp)) := by
  split
  · exact sep_elim_right
  · exact BI.Entails.refl _

end Tile

set_option maxRecDepth 65536 in
set_option maxHeartbeats 40000000 in
theorem tile_body (hI : ∀ d x, 0 ≤ (I d x).toInt ∧ (I d x).toInt ≤ 999) : BodyStmt (F := F) m I := by
  intro hF d L O W hO hOlev
  -- the program, once, as its parts in sequence
  rw [cc0_run_eq_skeleton]; unfold cc0_run_skel
  rw [k0_part9_eq_skeleton]; unfold k0_part9_skel
  rw [wp_bind, wp_bind]
  unfold goL tdL
  have hbl : ([(Proc.scVector (cV L) (jV L)).devRef cc0_scratch1, (Proc.scVector (cV L) (jV L)).devRef cc0_scratch2] : List (DevRef τ sig)).Nodup := by
    refine List.nodup_cons.mpr ⟨?_, List.nodup_singleton _⟩
    intro h; rw [List.mem_singleton] at h
    have := congrArg (fun b : DevRef τ sig => b.idx.val) h
    exact absurd this (show ¬ ((0 : ℕ) = 1) from by decide)
  rw [(K (F := F)).scopedBufs_V hF d (cV L) (jV L), SparseCore.Cfg.scopedSems0_V (Val := Elt F) d (cV L) (jV L),
    Cert.Lib.OwnSplit.ownSems0_split (Val := Elt F) (V d (cV L) (jV L)) [SemLoc.dma cc0_scratch3.sem, SemLoc.dma cc0_scratch4.sem, SemLoc.dma cc0_scratch5.sem, SemLoc.dma cc0_scratch6.sem, SemLoc.dma cc0_scratch7.sem, SemLoc.dma cc0_scratch8.sem, SemLoc.dma cc0_scratch9.sem, SemLoc.dma cc0_scratch10.sem, SemLoc.dma cc0_scratch11.sem, SemLoc.dma cc0_scratch12.sem, SemLoc.dma cc0_scratch13.sem, SemLoc.dma cc0_scratch14.sem, SemLoc.dma cc0_scratch15.sem, SemLoc.dma cc0_scratch16.sem, SemLoc.dma cc0_scratch17.sem, SemLoc.dma cc0_scoped0.sem] (by decide) (show ∀ s ∈ [SemLoc.dma cc0_scratch3.sem, SemLoc.dma cc0_scratch4.sem, SemLoc.dma cc0_scratch5.sem, SemLoc.dma cc0_scratch6.sem, SemLoc.dma cc0_scratch7.sem, SemLoc.dma cc0_scratch8.sem, SemLoc.dma cc0_scratch9.sem, SemLoc.dma cc0_scratch10.sem, SemLoc.dma cc0_scratch11.sem, SemLoc.dma cc0_scratch12.sem, SemLoc.dma cc0_scratch13.sem, SemLoc.dma cc0_scratch14.sem, SemLoc.dma cc0_scratch15.sem, SemLoc.dma cc0_scratch16.sem, SemLoc.dma cc0_scratch17.sem, SemLoc.dma cc0_scoped0.sem], SemLoc.isScoped (sig := sig) Kind.scVector s = true from by decide),
    Cert.Lib.OwnSplit.ownBufs_split (Val := Elt F) (V d (cV L) (jV L)) [(Proc.scVector (cV L) (jV L)).devRef cc0_scratch1, (Proc.scVector (cV L) (jV L)).devRef cc0_scratch2] hbl (fun b hb => by rcases List.mem_cons.mp hb with h | h; exacts [h ▸ rfl, (List.mem_singleton.mp h) ▸ rfl]),
    part_rows (F := F) d L (cL L) (iL L) rfl rfl, part_rows (F := F) d L (cL L) (iL L) rfl rfl]
  rw [bigSepL2, bigSepL16]
  iintro ⟨#Hlv, Hkit, ⟨Hidx, Hout, Hsub0⟩, ⟨⟨⟨%fiv, Hiv⟩, ⟨%fbig, Hbig⟩⟩, Hbrest⟩, ⟨⟨Hc3, Hc4, Hc5, Hc6, Hc7, Hc8, Hc9, Hc10, Hc11, Hc12, Hc13, Hc14, Hc15, Hc16, Hc17, Hcs0⟩, Hsrest⟩, HO⟩
  -- what was handed over, as the subcore's memrefs address it and in the pieces the program moves
  ihave Hidx3 := (toks3 (F := F) (idxLoc d) (shareTok (shareTok fullShare 2 (cL L)) 16 (iL L)) _).1 $$ Hidx
  icases Hidx3 with ⟨Hidrop, Hi0, Hi1, Hi2⟩
  ihave Hiv3 := (ivV_split (F := F) d (cV L) (jV L) fiv).1 $$ Hiv
  icases Hiv3 with ⟨Hs0, Hs1, Hs2⟩
  ihave Hbig6 := (bigV_split (F := F) d (cV L) (jV L) fbig).1 $$ Hbig
  icases Hbig6 with ⟨Hb0, Hb1, Hb2, Hb3, Hb4, Hb5⟩
  -- the prologue
  iapply (wp_wand_r frame _ Set.univ)
  isplitl [Hkit Hi0 Hi1 Hi2 Hs0 Hs1 Hs2 Hc15 Hc16 Hc17 Hcs0 Hsub0 HO]
  · iapply (prologue (F := F) m I d L hF O W hO hOlev (shareTok (shareTok fullShare 2 (cL L)) 16 (iL L)) (shareTok fullShare 2 (cL L)) fiv fiv fiv)
    isplitr; · iexact Hlv
    isplitl [Hkit]; · iexact Hkit
    isplitl [Hi0]; · iexact Hi0
    isplitl [Hi1]; · iexact Hi1
    isplitl [Hi2]; · iexact Hi2
    isplitl [Hs0]; · iexact Hs0
    isplitl [Hs1]; · iexact Hs1
    isplitl [Hs2]; · iexact Hs2
    isplitl [Hc15]; · iexact Hc15
    isplitl [Hc16]; · iexact Hc16
    isplitl [Hc17]; · iexact Hc17
    isplitl [Hcs0]; · iexact Hcs0
    isplitl [Hsub0]; · iexact Hsub0
    iexact HO
  iintro %r Hpost
  unfold afterPrologue
  icases Hpost with ⟨%hr, HfI0, HfI1, HfI2, Hcs0, Hsh, Hsub0, %W6, %hW6, HO⟩
  obtain ⟨v2, v3, c0⟩ := r
  dsimp only at hr
  subst hr
  ihave Hsh6 := (toks6 (F := F) _ (shShare (jV L)) _).1 $$ Hsh
  icases Hsh6 with ⟨Hshdrop, Ht0, Ht1, Ht2, Ht3, Ht4, Ht5⟩
  have hMW : (levAts (K (F := F)).L (K (F := F)).lev : sProp 𝕄) ⊢ Transfers.MayWaits (V d (cV L) (jV L)) (default : HIx 1) O :=
    (K (F := F)).mayWaits_none (thr := (V d (cV L) (jV L))) hO
  ihave Hmw := hMW $$ Hlv
  sl_exec
  sl_for (inv (F := F) m I d L O W6 (shareTok (shareTok fullShare 2 (cL L)) 16 (iL L)) (shShare (jV L)) (m (outLoc d) : Buf (Elt F) ((outV).view.loc (V d (cV L) (jV L))))) $$ [Hmw HfI0 HfI1 HfI2 Hb0 Hb1 Hb2 Hb3 Hb4 Hb5 Hc9 Hc10 Hc11 Hc12 Hc13 Hc14 Hc3 Hc4 Hc5 Hc6 Hc7 Hc8 Ht0 Ht1 Ht2 Ht3 Ht4 Ht5 Hout HO]
  case region =>
    intro k acc
    exact loop_step (F := F) m I d L (hI d) O W6 (shareTok (shareTok fullShare 2 (cL L)) 16 (iL L)) (shShare (jV L)) (m (outLoc d) : Buf (Elt F) ((outV).view.loc (V d (cV L) (jV L)))) v2 v3 k acc
  · -- the ring's state before the first trip
    unfold inv
    rw [idxPart_lt I d L (shareTok (shareTok fullShare 2 (cL L)) 16 (iL L)) (show (0 : ℕ) < 33 from by decide), outPart_zero]
    isplitr; · iexact Hmw
    isplitr; · ipureintro; decide
    isplitl [HfI0]; · iapply (Entails.of_eq (fetchI0_eq (F := F) I d L _ 0)); iexact HfI0
    isplitl [HfI1 HfI2]
    · isplitl [HfI1]; · iapply (Entails.of_eq (fetchI1_eq (F := F) I d L _ 0)); iexact HfI1
      iapply (Entails.of_eq (fetchI2_eq (F := F) I d L _ 0)); iexact HfI2
    isplitl [Hb0 Hb1 Hb2 Hb3 Hb4 Hb5 Hc9 Hc10 Hc11 Hc12 Hc13 Hc14]
    · isplitl [Hb0 Hc9]
      · isplitl [Hb0]; · iexists _; iexact Hb0
        iexact Hc9
      isplitl [Hb1 Hc10]
      · isplitl [Hb1]; · iexists _; iexact Hb1
        iexact Hc10
      isplitl [Hb2 Hc11]
      · isplitl [Hb2]; · iexists _; iexact Hb2
        iexact Hc11
      isplitl [Hb3 Hc12]
      · isplitl [Hb3]; · iexists _; iexact Hb3
        iexact Hc12
      isplitl [Hb4 Hc13]
      · isplitl [Hb4]; · iexists _; iexact Hb4
        iexact Hc13
      isplitl [Hb5]; · iexists _; iexact Hb5
      iexact Hc14
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitr
    · iapply (Entails.of_eq (rows_empty (F := F) d (cV L) (jV L) fullShare _ (baseO L)).symm); iempintro
    isplitl [Hout]; · iexact Hout
    iexists W6; isplitr
    · ipureintro; exact fun p hp => .inl hp
    · iexact HO
  iintro %aL HI
  rw [show inv (F := F) m I d L O W6 (shareTok (shareTok fullShare 2 (cL L)) 16 (iL L)) (shShare (jV L)) (m (outLoc d) : Buf (Elt F) ((outV).view.loc (V d (cV L) (jV L)))) k0_t1_loop.trips = inv (F := F) m I d L O W6 (shareTok (shareTok fullShare 2 (cL L)) 16 (iL L)) (shShare (jV L)) (m (outLoc d) : Buf (Elt F) ((outV).view.loc (V d (cV L) (jV L)))) 33 from by rw [trips_eq]]
  unfold inv
  rw [idxPart_33, outPart_pos m I d L (show (33 : ℕ) ≠ 0 from by decide)]
  icases HI with ⟨-, -, HfI0, ⟨⟨%g1, Hs1, Hi1, Hq1⟩, ⟨%g2, Hs2, Hi2, Hq2⟩⟩, ⟨%kp, %hkp, ⟨%fb0, HfO0⟩, ⟨%fb1, HfO1⟩, ⟨%fb2, HfO2⟩, ⟨%fb3, HfO3⟩, ⟨%fb4, HfO4⟩, ⟨%fb5, HfO5⟩⟩, Hg0, Hg1, Hg2, Hg3, Hg4, Hg5, Ht0, Ht1, Ht2, Ht3, Ht4, Ht5, Hdone, Htodo, %W7, %hW7, HO⟩
  ihave Hlast := (last_take (F := F) d L _).1 $$ Htodo
  icases Hlast with ⟨He0, He1⟩
  have hinE0 := hin0 (F := F) I d L (hI d) 33
  have hinE1 := hin1 (F := F) I d L (hI d) 33
  sl_exec
  ihave Hr := (slot0_rows (F := F) d (cV L) (jV L) _).1 $$ HfI0_dst
  icases Hr with ⟨Hl0, Hl1⟩
  sl_exec
  sl_step
  icases Hidrop with -
  icases HfI0_src with -
  icases Hi1 with -
  icases Hi2 with -
  -- the worker's part of the result, the shared table's share, the scoped storage
  isplitl [Hdone HfO0_dst HfO1_dst HfO2_dst HfO3_dst HfO4_dst HfO5_dst He0 He1 Ht0 Ht1 Ht2 Ht3 Ht4 Ht5 Hshdrop Hsub0]
  · isplitl [Hdone HfO0_dst HfO1_dst HfO2_dst HfO3_dst HfO4_dst HfO5_dst He0 He1]
    · iapply (rows_all (F := F) d L _)
      isplitl [Hdone HfO0_dst HfO1_dst HfO2_dst HfO3_dst HfO4_dst HfO5_dst]
      · iapply (Entails.of_eq (congrArg (fun n : ℕ => ((outV).view.loc (V d (cV L) (jV L)) ↦[rowsSet (baseO L) (baseO L + 768 * n)]{fullShare} (outG m I d : Buf (Elt F) ((outV).view.loc (V d (cV L) (jV L)))) : sProp 𝕄)) (show kp.val + 1 = 33 from hkp)))
        iapply (done_put (F := F) d L kp _)
        isplitl [Hdone]
        · iapply (Entails.of_eq (congrArg (fun n : ℕ => ((outV).view.loc (V d (cV L) (jV L)) ↦[rowsSet (baseO L) (baseO L + 768 * n)]{fullShare} (outG m I d : Buf (Elt F) ((outV).view.loc (V d (cV L) (jV L)))) : sProp 𝕄)) (show 33 - 1 = kp.val from by omega)))
          iexact Hdone
        isplitl [HfO0_dst]; · iexact HfO0_dst
        isplitl [HfO1_dst]; · iexact HfO1_dst
        isplitl [HfO2_dst]; · iexact HfO2_dst
        isplitl [HfO3_dst]; · iexact HfO3_dst
        isplitl [HfO4_dst]; · iexact HfO4_dst
        iexact HfO5_dst
      isplitl [He0]
      · iapply (Entails.of_eq (pointsTo_writes_whole_congr (F := F) (V d (cV L) (jV L)) (outE0 L).view fullShare _ (outG m I d : Buf (Elt F) ((outE0 L).view.loc (V d (cV L) (jV L)))) _
          (fun y => (outVE0 (F := F) m I d L (hI d) hnG hinE0 y).trans (congrFun (View.read_writes_whole _ _ _).symm y))))
        iexact He0
      · iapply (Entails.of_eq (pointsTo_writes_whole_congr (F := F) (V d (cV L) (jV L)) (outE1 L).view fullShare _ (outG m I d : Buf (Elt F) ((outE1 L).view.loc (V d (cV L) (jV L)))) _
          (fun y => (outVE1 (F := F) m I d L (hI d) hnG hinE1 y).trans (congrFun (View.read_writes_whole _ _ _).symm y))))
        iexact He1
    isplitl [Ht0 Ht1 Ht2 Ht3 Ht4 Ht5 Hshdrop]
    · iapply (toks6 (F := F) _ (shShare (jV L)) _).2
      isplitl [Hshdrop]; · iexact Hshdrop
      isplitl [Ht0]; · iexact Ht0
      isplitl [Ht1]; · iexact Ht1
      isplitl [Ht2]; · iexact Ht2
      isplitl [Ht3]; · iexact Ht3
      isplitl [Ht4]; · iexact Ht4
      iexact Ht5
    · iapply (sub0_keep (F := F) ((L 1).val = 0) _ _)
      iexact Hsub0
  isplitl [Hl0 Hl1 Hs1 Hs2 HfO0_src HfO1_src HfO2_src HfO3_src HfO4_src HfO5_src Hbrest]
  · isplitl [Hl0 Hl1 Hs1 Hs2 HfO0_src HfO1_src HfO2_src HfO3_src HfO4_src HfO5_src]
    · isplitl [Hl0 Hl1 Hs1 Hs2]
      · iapply (ivV_join (F := F) d (cV L) (jV L) _ _ _)
        isplitl [Hl0 Hl1]
        · iapply (slot0_rows (F := F) d (cV L) (jV L) _).2
          isplitl [Hl0] <;> iassumption
        isplitl [Hs1]; · iexact Hs1
        iexact Hs2
      · iapply (bigV_join (F := F) d (cV L) (jV L) _ _ _ _ _ _)
        isplitl [HfO0_src]; · iexact HfO0_src
        isplitl [HfO1_src]; · iexact HfO1_src
        isplitl [HfO2_src]; · iexact HfO2_src
        isplitl [HfO3_src]; · iexact HfO3_src
        isplitl [HfO4_src]; · iexact HfO4_src
        iexact HfO5_src
    iexact Hbrest
  isplitl [Hg0 Hg1 Hg2 Hg3 Hg4 Hg5 HfO0 HfO1 HfO2 HfO3 HfO4 HfO5 HfI0 Hq1 Hq2 Hcs0 Hsrest]
  · isplitl [Hg0 Hg1 Hg2 Hg3 Hg4 Hg5 HfO0 HfO1 HfO2 HfO3 HfO4 HfO5 HfI0 Hq1 Hq2 Hcs0]
    · isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [HfO0]; · iexact HfO0
      isplitl [HfO1]; · iexact HfO1
      isplitl [HfO2]; · iexact HfO2
      isplitl [HfO3]; · iexact HfO3
      isplitl [HfO4]; · iexact HfO4
      isplitl [HfO5]; · iexact HfO5
      isplitl [HfI0]; · iexact HfI0
      isplitl [Hq1]; · iexact Hq1
      isplitl [Hq2]; · iexact Hq2
      iexact Hcs0
    iexact Hsrest
  iexists _; isplitr
  swap; · iexact HO
  ipureintro; intro p hp
  repeat (rcases Finset.mem_insert.mp hp with hp | hp; · exact .inr (.inl (hp ▸ rfl)))
  rcases hW7 p hp with h | h
  · exact hW6 p h
  · exact .inr (.inl h)

end Cert.Proof.KB
end
-- ==== Proof.KBTileObl.lean ====
/-
  The obligation of a subcore's task, from the statement of the task's body. The launch theorem asks, of the task
  of subcore i of SparseCore c, that from its barrier kit, what it is handed, its scoped storage and what it owes,
  the program the task is defined to run reaches what it hands back. That program is the printed kernel at the
  grid coordinates (c, i), lifted; what the task is handed and hands back, spelt at the launch's numbering of
  cores and subcores, is what the body's statement names at those coordinates.
-/
import proofs.«205516_g82884278878931_cont_9to1_m_1121_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205516_g82884278878931_cont_9to1_m_1121_21_alg».proof.Proof.Gen.Kernel
import proofs.«205516_g82884278878931_cont_9to1_m_1121_21_alg».proof.Proof.Gen.Kernel.Skeleton
import proofs.«205516_g82884278878931_cont_9to1_m_1121_21_alg».proof.Proof.Spec
import proofs.«205516_g82884278878931_cont_9to1_m_1121_21_alg».proof.Proof.KBGo

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (tileNo shareTok shareDrop)

variable {F : FTy → Type}

local notation "𝕄" => MT nD τ sig (HIx 1) (Elt F) ℕ UU ℕ
local notation "tabV" => (Memref.whole Cert.Kernel.main_arg3_scv : Memref Cert.Kernel.sig Kind.scVector Space.hbm Cert.Kernel.S1000x128 EltTy.f32)
local notation "idxV" => (Memref.whole Cert.Kernel.main_v0_scv : Memref Cert.Kernel.sig Kind.scVector Space.hbm Cert.Kernel.S6400x128 EltTy.i32)
local notation "outV" => (Memref.whole Cert.Kernel.main_v1_scv : Memref Cert.Kernel.sig Kind.scVector Space.hbm Cert.Kernel.S819200x128 EltTy.f32)
local notation "shV" => (Memref.whole Cert.Kernel.cc0_scratch0 : Memref Cert.Kernel.sig Kind.scVector Space.shared Cert.Kernel.S1000x128 EltTy.f32)
local notation "ivV" => (Memref.whole Cert.Kernel.cc0_scratch1 : Memref Cert.Kernel.sig Kind.scVector Space.vmem Cert.Kernel.S6x128 EltTy.i32)
local notation "bigV" => (Memref.whole Cert.Kernel.cc0_scratch2 : Memref Cert.Kernel.sig Kind.scVector Space.vmem Cert.Kernel.S768x128 EltTy.f32)

variable [FloatOps F]

/-- The grid coordinates of subcore s of SparseCore c. -/
def coordsV (c : Fin (grid0.bound 0)) (s : Fin (grid0.bound 1)) : grid0.Coords :=
  fun | 0 => c | 1 => s | ⟨_ + 2, h⟩ => absurd h (Nat.not_lt.2 (Nat.le_add_left _ _))

/-- What a vector subcore is defined to run for the kernel: on a subcore of the grid, the printed kernel at its
    coordinates over the whole arrays and scratch buffers. -/
theorem defs₀_vector (c : Fin τ.nSC) (s : Fin τ.nSub) :
    defs₀ (F := F) (.scVector c s) 0 ()
      = SparseCore.onTile hcore0 hsub0 (fun c s => cc0_run (coordsV c s) tabV (Memref.isWhole_whole _) idxV (Memref.isWhole_whole _) outV (Memref.isWhole_whole _) shV (Memref.isWhole_whole _) ivV (Memref.isWhole_whole _) bigV (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scoped0) ⟨⟩ c s := rfl

set_option maxRecDepth 16384 in
/-- The task's obligation follows from the body's statement at the task's coordinates. -/
theorem tileObl_of_body (m : (ℓ : Loc nD τ sig) → Buf (Elt F) ℓ) (I : Dev nD → S6400x128.Idx → BitVec 32)
    (hF : (K (F := F)).Facts) (hbody : BodyStmt (F := F) m I) :
    (K (F := F)).TileObl (D (F := F)) 𝒱 (P m I) v₀ 0 := by
  intro d c i O W hO hOlev _
  have hc : ((K (F := F)).core 0 c).val < 2 := c.isLt
  have hci : ((K (F := F)).core 0 c).val < grid0.bound 0 ∧ ((K (F := F)).sub 0 i).val < grid0.bound 1 := ⟨c.isLt, i.isLt⟩
  rw [show (P m I).ox 0 (V d ((K (F := F)).core 0 c) ((K (F := F)).sub 0 i)) = oxV d ((K (F := F)).core 0 c) from if_pos hc,
    show (P m I).x 0 (V d ((K (F := F)).core 0 c) ((K (F := F)).sub 0 i)) = bkit m d ((K (F := F)).core 0 c) ((K (F := F)).sub 0 i) from if_pos hc]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact hbody hF d (coordsV ⟨_, hci.1⟩ ⟨_, hci.2⟩) O W hO hOlev

end Cert.Proof.KB

end
-- ==== Proof.KBTile.lean ====
/-
  The subcores' task, as the launch theorem asks for it. The body of the kernel, proved once at a symbolic subcore
  for any contents of the index array whose words name rows of the table, is the task's obligation at every
  subcore of every SparseCore: the launch theorem's wrapper around the body adds nothing to prove.
-/
import proofs.«205516_g82884278878931_cont_9to1_m_1121_21_alg».proof.Proof.KBBody
import proofs.«205516_g82884278878931_cont_9to1_m_1121_21_alg».proof.Proof.KBTileObl

noncomputable section

namespace Cert.Proof.KB

open Cert.Kernel Cert.Kernel.Gen

open Idealize.ShloMosaic

variable {F : FTy → Type}

/-- The task of the kernel's one call, at every subcore, for any index contents in the table's range. -/
theorem tileObl [FloatOps F] (m : (ℓ : Loc nD τ sig) → Buf (Elt F) ℓ) (I : Dev nD → S6400x128.Idx → BitVec 32)
    (hI : ∀ d x, 0 ≤ (I d x).toInt ∧ (I d x).toInt ≤ 999) :
    (K (F := F)).TileObl (D (F := F)) 𝒱 (P m I) v₀ 0 :=
  tileObl_of_body m I facts (tile_body m I hI)

end Cert.Proof.KB

end
-- ==== Proof.lean ====
/-
  The certificate's claim: the kernel as printed runs under the precondition and leaves its arguments unchanged; so
  does its reading at the ideal instance, and so does the reference; the ideal pass rewrote nothing; and from
  memories that agree on the arguments the idealized kernel and the idealized reference both end with the lookup of
  the ids in the table. Each conjunct is the program's run — the launch side and the subcores' task, proved once,
  generic in the float instance, and read at the instance the conjunct names — with what it does not state
  forgotten.
-/
import proofs.«205516_g82884278878931_cont_9to1_m_1121_21_alg».proof.Defs
import proofs.«205516_g82884278878931_cont_9to1_m_1121_21_alg».proof.Proof.Gen.Kernel
import proofs.«205516_g82884278878931_cont_9to1_m_1121_21_alg».proof.Proof.Gen.Kernel.Skeleton
import proofs.«205516_g82884278878931_cont_9to1_m_1121_21_alg».proof.Proof.Gen.KernelIdeal
import proofs.«205516_g82884278878931_cont_9to1_m_1121_21_alg».proof.Proof.Gen.KernelIdeal.Skeleton
import proofs.«205516_g82884278878931_cont_9to1_m_1121_21_alg».proof.Proof.Gen.ReferenceIdeal
import proofs.«205516_g82884278878931_cont_9to1_m_1121_21_alg».proof.Proof.Gen.Pre_input_domain
import proofs.«205516_g82884278878931_cont_9to1_m_1121_21_alg».proof.Proof.KIClaims
import proofs.«205516_g82884278878931_cont_9to1_m_1121_21_alg».proof.Proof.KBClaims
import proofs.«205516_g82884278878931_cont_9to1_m_1121_21_alg».proof.Proof.KITile
import proofs.«205516_g82884278878931_cont_9to1_m_1121_21_alg».proof.Proof.KBTile
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    KB.frame_KB (fun m h => KB.tileObl m (KB.idxC m) h),
    KI.frame_KI (fun m h => KI.tileObl m (KI.idxC m) h),
    KI.frame_RI,
    trivial,
    KI.algebraic_KI (fun m h => KI.tileObl m (KI.idxC m) h)⟩

end Cert.Proof

end
